-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S500x128 : Shape := ⟨2, ![500, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S500x128 : S_.BroadcastsInDim S500x128 (![] : Fin 0 → Fin S500x128.rank)
  reducesTo_S500x128_S_d0_1 : S500x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part7 {F : FTy → Type} [FloatOps F] (main_arg28 : FVec F S128x10 .f32) (main_arg29 : FVec F S10 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x10 .f32 := Host.absf main_arg28
  let main_cst_48 : FVec F S_ .f32 := constant S_ .f32 0x7F800000#32
  let main_v125 : FVec F S128x10 .f32 := broadcastInDim S128x10 ![] bcast_S_S128x10 main_cst_48
  let main_v126 : IVec S128x10 1 := cmpf .olt main_v124 main_v125
  let main_c_49 : IVec S_ 1 := constantI S_ 1 1#1
  let main_v127 : IVec S_ 1 := (fun x v => Host.reduce IntOp.andi x v reducesTo_S128x10_S_d0_1 h_S_) main_v126 main_c_49
  let main_v128 : IVec S_ 1 := andi main_v123 main_v127
  let main_v129 : FVec F S10 .f32 := Host.absf main_arg29
  let main_cst_50 : FVec F S_ .f32 := constant S_ .f32 0x7F800000#32
  let main_v130 : FVec F S10 .f32 := broadcastInDim S10 ![] bcast_S_S10 main_cst_50
  let main_v131 : IVec S10 1 := cmpf .olt main_v129 main_v130
  let main_c_51 : IVec S_ 1 := constantI S_ 1 1#1
  let main_v132 : IVec S_ 1 := (fun x v => Host.reduce IntOp.andi x v reducesTo_S10_S_d0 h_S_) main_v131 main_c_51
  let main_v133 : IVec S_ 1 := andi main_v128 main_v132
  main_v133

def fn_part6 {F : FTy → Type} [FloatOps F] (main_arg24 : FVec F S128 .f32) (main_arg25 : FVec F S128 .f32) (main_arg26 : FVec F S128x128 .f32) (main_arg27 : FVec F S128 .f32) (main_arg28 : FVec F S128x10 .f32) (main_arg29 : FVec F S10 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg24
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg25
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg26
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg27
  fn_part7 (F := F) main_arg28 main_arg29 main_v118 main_v119

def fn_part5 {F : FTy → Type} [FloatOps F] (main_arg21 : FVec F S128 .f32) (main_arg22 : FVec F S128x128 .f32) (main_arg23 : FVec F S128 .f32) (main_arg24 : FVec F S128 .f32) (main_arg25 : FVec F S128 .f32) (main_arg26 : FVec F S128x128 .f32) (main_arg27 : FVec F S128 .f32) (main_arg28 : FVec F S128x10 .f32) (main_arg29 : FVec F S10 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg21
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg22
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg23
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg24 main_arg25 main_arg26 main_arg27 main_arg28 main_arg29 main_v98 main_v101 main_c_39

def fn_part4 {F : FTy → Type} [FloatOps F] (main_arg17 : FVec F S128 .f32) (main_arg18 : FVec F S128 .f32) (main_arg19 : FVec F S128 .f32) (main_arg20 : FVec F S128x128 .f32) (main_arg21 : FVec F S128 .f32) (main_arg22 : FVec F S128x128 .f32) (main_arg23 : FVec F S128 .f32) (main_arg24 : FVec F S128 .f32) (main_arg25 : FVec F S128 .f32) (main_arg26 : FVec F S128x128 .f32) (main_arg27 : FVec F S128 .f32) (main_arg28 : FVec F S128x10 .f32) (main_arg29 : FVec F S10 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg18
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg20
  let main_cst_32 : FVec F S_ .f32 := constant S_ .f32 0x7F800000#32
  fn_part5 (F := F) main_arg21 main_arg22 main_arg23 main_arg24 main_arg25 main_arg26 main_arg27 main_arg28 main_arg29 main_v83 main_v84 main_cst_32

def fn_part3 {F : FTy → Type} [FloatOps F] (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S128x128 .f32) (main_arg21 : FVec F S128 .f32) (main_arg22 : FVec F S128x128 .f32) (main_arg23 : FVec F S128 .f32) (main_arg24 : FVec F S128 .f32) (main_arg25 : FVec F S128 .f32) (main_arg26 : FVec F S128x128 .f32) (main_arg27 : FVec F S128 .f32) (main_arg28 : FVec F S128x10 .f32) (main_arg29 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg16
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg17 main_arg18 main_arg19 main_arg20 main_arg21 main_arg22 main_arg23 main_arg24 main_arg25 main_arg26 main_arg27 main_arg28 main_arg29 main_v63 main_v67

def fn_part2 {F : FTy → Type} [FloatOps F] (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S128x128 .f32) (main_arg21 : FVec F S128 .f32) (main_arg22 : FVec F S128x128 .f32) (main_arg23 : FVec F S128 .f32) (main_arg24 : FVec F S128 .f32) (main_arg25 : FVec F S128 .f32) (main_arg26 : FVec F S128x128 .f32) (main_arg27 : FVec F S128 .f32) (main_arg28 : FVec F S128x10 .f32) (main_arg29 : FVec F S10 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S128x128 .f32) (main_arg21 : FVec F S128 .f32) (main_arg22 : FVec F S128x128 .f32) (main_arg23 : FVec F S128 .f32) (main_arg24 : FVec F S128 .f32) (main_arg25 : FVec F S128 .f32) (main_arg26 : FVec F S128x128 .f32) (main_arg27 : FVec F S128 .f32) (main_arg28 : FVec F S128x10 .f32) (main_arg29 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : IVec S100000 32) (main_arg1 : IVec S2x1600000 32) (main_arg2 : IVec S100000 32) (main_arg3 : FVec F S500x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S128x128 .f32) (main_arg21 : FVec F S128 .f32) (main_arg22 : FVec F S128x128 .f32) (main_arg23 : FVec F S128 .f32) (main_arg24 : FVec F S128 .f32) (main_arg25 : FVec F S128 .f32) (main_arg26 : FVec F S128x128 .f32) (main_arg27 : FVec F S128 .f32) (main_arg28 : FVec F S128x10 .f32) (main_arg29 : FVec F S10 .f32) : IVec S_ 1 :=
  let main_v0 : FVec F S500x128 .f32 := Host.absf main_arg3
  let main_cst : FVec F S_ .f32 := constant S_ .f32 0x7F800000#32
  let main_v1 : FVec F S500x128 .f32 := broadcastInDim S500x128 ![] bcast_S_S500x128 main_cst
  let main_v2 : IVec S500x128 1 := cmpf .olt main_v0 main_v1
  let main_c : IVec S_ 1 := constantI S_ 1 1#1
  let main_v3 : IVec S_ 1 := (fun x v => Host.reduce IntOp.andi x v reducesTo_S500x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S100000 : Shape := ⟨1, ![100000]⟩
abbrev S2x1600000 : Shape := ⟨2, ![2, 1600000]⟩
abbrev S500x128 : Shape := ⟨2, ![500, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x128 : Shape := ⟨2, ![100000, 128]⟩
abbrev S1x128 : Shape := ⟨2, ![1, 128]⟩
abbrev S10000x128 : Shape := ⟨2, ![10000, 128]⟩
abbrev S1600000x1 : Shape := ⟨2, ![1600000, 1]⟩
abbrev S1600000x128 : Shape := ⟨2, ![1600000, 128]⟩
abbrev S512x128 : Shape := ⟨2, ![512, 128]⟩
abbrev S1x10 : Shape := ⟨2, ![1, 10]⟩
abbrev S512x10 : Shape := ⟨2, ![512, 10]⟩

abbrev nBuf : Space → Nat
  | .hbm => 200
  | .vmem => 68
  | .smem => 0
  | _ => 0

abbrev hbmTy0_0 (i : Nat) : BufTy := match i % 128 with
  | 0 => ⟨S100000, .i32⟩
  | 1 => ⟨S2x1600000, .i32⟩
  | 2 => ⟨S100000, .i32⟩
  | 3 => ⟨S500x128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128, .f32⟩
  | 19 => ⟨S128, .f32⟩
  | 20 => ⟨S128x128, .f32⟩
  | 21 => ⟨S128, .f32⟩
  | 22 => ⟨S128x128, .f32⟩
  | 23 => ⟨S128, .f32⟩
  | 24 => ⟨S128, .f32⟩
  | 25 => ⟨S128, .f32⟩
  | 26 => ⟨S128x128, .f32⟩
  | 27 => ⟨S128, .f32⟩
  | 28 => ⟨S128x10, .f32⟩
  | 29 => ⟨S10, .f32⟩
  | 30 => ⟨S1x1600000, .i32⟩
  | 31 => ⟨S1600000, .i32⟩
  | 32 => ⟨S1x1600000, .i32⟩
  | 33 => ⟨S1600000, .i32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000x128, .f32⟩
  | 43 => ⟨S1x128, .f32⟩
  | 44 => ⟨S1x128, .f32⟩
  | 45 => ⟨S100000x128, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S_, .f32⟩
  | 56 => ⟨S100000x128, .f32⟩
  | 57 => ⟨S1600000x1, .i32⟩
  | 58 => ⟨S100000x128, .f32⟩
  | 59 => ⟨S1x128, .f32⟩
  | 60 => ⟨S1x128, .f32⟩
  | 61 => ⟨S100000x128, .f32⟩
  | 62 => ⟨S_, .f32⟩
  | 63 => ⟨S128, .f32⟩
  | 64 => ⟨S_, .f32⟩
  | 65 => ⟨S128, .f32⟩
  | 66 => ⟨S128, .f32⟩
  | 67 => ⟨S_, .i32⟩
  | 68 => ⟨S_, .f32⟩
  | 69 => ⟨S128, .f32⟩
  | 70 => ⟨S1x128, .f32⟩
  | 71 => ⟨S_, .f32⟩
  | 72 => ⟨S1x128, .f32⟩
  | 73 => ⟨S1x128, .f32⟩
  | 74 => ⟨S100000x128, .f32⟩
  | 75 => ⟨S100000x128, .f32⟩
  | 76 => ⟨S100000x128, .f32⟩
  | 77 => ⟨S_, .f32⟩
  | 78 => ⟨S_, .f32⟩
  | 79 => ⟨S_, .f32⟩
  | 80 => ⟨S_, .f32⟩
  | 81 => ⟨S128, .f32⟩
  | 82 => ⟨S128, .f32⟩
  | 83 => ⟨S128, .f32⟩
  | 84 => ⟨S_, .f32⟩
  | 85 => ⟨S_, .i1⟩
  | 86 => ⟨S_, .f32⟩
  | 87 => ⟨S_, .f32⟩
  | 88 => ⟨S128, .f32⟩
  | 89 => ⟨S128, .f32⟩
  | 90 => ⟨S1x128, .f32⟩
  | 91 => ⟨S1x128, .f32⟩
  | 92 => ⟨S1x128, .f32⟩
  | 93 => ⟨S1x128, .f32⟩
  | 94 => ⟨S100000x128, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x128, .f32⟩
  | 104 => ⟨S_, .f32⟩
  | 105 => ⟨S100000x128, .f32⟩
  | 106 => ⟨S1600000x1, .i32⟩
  | 107 => ⟨S100000x128, .f32⟩
  | 108 => ⟨S1x128, .f32⟩
  | 109 => ⟨S1x128, .f32⟩
  | 110 => ⟨S100000x128, .f32⟩
  | 111 => ⟨S_, .f32⟩
  | 112 => ⟨S128, .f32⟩
  | 113 => ⟨S_, .f32⟩
  | 114 => ⟨S128, .f32⟩
  | 115 => ⟨S128, .f32⟩
  | 116 => ⟨S_, .i32⟩
  | 117 => ⟨S_, .f32⟩
  | 118 => ⟨S128, .f32⟩
  | 119 => ⟨S1x128, .f32⟩
  | 120 => ⟨S_, .f32⟩
  | 121 => ⟨S1x128, .f32⟩
  | 122 => ⟨S1x128, .f32⟩
  | 123 => ⟨S100000x128, .f32⟩
  | 124 => ⟨S100000x128, .f32⟩
  | 125 => ⟨S100000x128, .f32⟩
  | 126 => ⟨S_, .f32⟩
  | 127 => ⟨S_, .f32⟩
  | _ => ⟨S100000, .i32⟩

abbrev hbmTy0_1 (i : Nat) : BufTy := match i % 128 with
  | 0 => ⟨S_, .f32⟩
  | 1 => ⟨S_, .f32⟩
  | 2 => ⟨S128, .f32⟩
  | 3 => ⟨S128, .f32⟩
  | 4 => ⟨S128, .f32⟩
  | 5 => ⟨S_, .f32⟩
  | 6 => ⟨S_, .i1⟩
  | 7 => ⟨S_, .f32⟩
  | 8 => ⟨S_, .f32⟩
  | 9 => ⟨S128, .f32⟩
  | 10 => ⟨S128, .f32⟩
  | 11 => ⟨S1x128, .f32⟩
  | 12 => ⟨S1x128, .f32⟩
  | 13 => ⟨S1x128, .f32⟩
  | 14 => ⟨S1x128, .f32⟩
  | 15 => ⟨S100000x128, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S_, .f32⟩
  | 26 => ⟨S100000x128, .f32⟩
  | 27 => ⟨S1600000x1, .i32⟩
  | 28 => ⟨S100000x128, .f32⟩
  | 29 => ⟨S1x128, .f32⟩
  | 30 => ⟨S1x128, .f32⟩
  | 31 => ⟨S100000x128, .f32⟩
  | 32 => ⟨S_, .f32⟩
  | 33 => ⟨S128, .f32⟩
  | 34 => ⟨S_, .f32⟩
  | 35 => ⟨S128, .f32⟩
  | 36 => ⟨S128, .f32⟩
  | 37 => ⟨S_, .i32⟩
  | 38 => ⟨S_, .f32⟩
  | 39 => ⟨S128, .f32⟩
  | 40 => ⟨S1x128, .f32⟩
  | 41 => ⟨S_, .f32⟩
  | 42 => ⟨S1x128, .f32⟩
  | 43 => ⟨S1x128, .f32⟩
  | 44 => ⟨S100000x128, .f32⟩
  | 45 => ⟨S100000x128, .f32⟩
  | 46 => ⟨S100000x128, .f32⟩
  | 47 => ⟨S_, .f32⟩
  | 48 => ⟨S_, .f32⟩
  | 49 => ⟨S_, .f32⟩
  | 50 => ⟨S_, .f32⟩
  | 51 => ⟨S128, .f32⟩
  | 52 => ⟨S128, .f32⟩
  | 53 => ⟨S128, .f32⟩
  | 54 => ⟨S_, .f32⟩
  | 55 => ⟨S_, .i1⟩
  | 56 => ⟨S_, .f32⟩
  | 57 => ⟨S_, .f32⟩
  | 58 => ⟨S128, .f32⟩
  | 59 => ⟨S128, .f32⟩
  | 60 => ⟨S1x128, .f32⟩
  | 61 => ⟨S1x128, .f32⟩
  | 62 => ⟨S1x128, .f32⟩
  | 63 => ⟨S1x128, .f32⟩
  | 64 => ⟨S100000x128, .f32⟩
  | 65 => ⟨S_, .f32⟩
  | 66 => ⟨S512x128, .f32⟩
  | 67 => ⟨S100000x1, .i32⟩
  | 68 => ⟨S512x128, .f32⟩
  | 69 => ⟨S1x128, .f32⟩
  | 70 => ⟨S1x10, .f32⟩
  | 71 => ⟨S512x10, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S10000x128, .f32⟩
  | .local _ .vmem, ⟨43, _⟩ => ⟨S10000x128, .f32⟩
  | .local _ .vmem, ⟨44, _⟩ => ⟨S10000x128, .f32⟩
  | .local _ .vmem, ⟨45, _⟩ => ⟨S10000x128, .f32⟩
  | .local _ .vmem, ⟨46, _⟩ => ⟨S10000x128, .f32⟩
  | .local _ .vmem, ⟨47, _⟩ => ⟨S10000x128, .f32⟩
  | .local _ .vmem, ⟨48, _⟩ => ⟨S128x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S10000x128, .f32⟩
  | .local _ .vmem, ⟨53, _⟩ => ⟨S10000x128, .f32⟩
  | .local _ .vmem, ⟨54, _⟩ => ⟨S10000x128, .f32⟩
  | .local _ .vmem, ⟨55, _⟩ => ⟨S10000x128, .f32⟩
  | .local _ .vmem, ⟨56, _⟩ => ⟨S1x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S10000x128, .f32⟩
  | .local _ .vmem, ⟨61, _⟩ => ⟨S10000x128, .f32⟩
  | .local _ .vmem, ⟨62, _⟩ => ⟨S512x128, .f32⟩
  | .local _ .vmem, ⟨63, _⟩ => ⟨S128x128, .f32⟩
  | .local _ .vmem, ⟨64, _⟩ => ⟨S1x128, .f32⟩
  | .local _ .vmem, ⟨65, _⟩ => ⟨S128x10, .f32⟩
  | .local _ .vmem, ⟨66, _⟩ => ⟨S1x10, .f32⟩
  | .local _ .vmem, ⟨67, _⟩ => ⟨S512x10, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_c : Ref sig .tc := ⟨.hbm, 34, rfl⟩
abbrev main_v4 : Ref sig .tc := ⟨.hbm, 35, rfl⟩
abbrev main_v5 : Ref sig .tc := ⟨.hbm, 36, rfl⟩
abbrev main_c_0 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_c_1 : Ref sig .tc := ⟨.hbm, 46, rfl⟩
abbrev main_v14 : Ref sig .tc := ⟨.hbm, 47, rfl⟩
abbrev main_v15 : Ref sig .tc := ⟨.hbm, 48, rfl⟩
abbrev main_c_2 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_3 : Ref sig .tc := ⟨.hbm, 62, rfl⟩
abbrev main_v27 : Ref sig .tc := ⟨.hbm, 63, rfl⟩
abbrev main_cst_4 : Ref sig .tc := ⟨.hbm, 64, rfl⟩
abbrev main_v28 : Ref sig .tc := ⟨.hbm, 65, rfl⟩
abbrev main_v29 : Ref sig .tc := ⟨.hbm, 66, rfl⟩
abbrev main_c_5 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_cst_0 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_cst_1 : Ref sig .tc := ⟨.hbm, 78, rfl⟩
abbrev main_call0_v8 : Ref sig .tc := ⟨.hbm, 79, rfl⟩
abbrev main_call0_cst_2 : Ref sig .tc := ⟨.hbm, 80, rfl⟩
abbrev main_call0_v9 : Ref sig .tc := ⟨.hbm, 81, rfl⟩
abbrev main_call0_v10 : Ref sig .tc := ⟨.hbm, 82, rfl⟩
abbrev main_call0_v11 : Ref sig .tc := ⟨.hbm, 83, rfl⟩
abbrev main_call0_cst_3 : Ref sig .tc := ⟨.hbm, 84, rfl⟩
abbrev main_call0_v12 : Ref sig .tc := ⟨.hbm, 85, rfl⟩
abbrev main_call0_cst_4 : Ref sig .tc := ⟨.hbm, 86, rfl⟩
abbrev main_call0_call0_v0 : Ref sig .tc := ⟨.hbm, 87, rfl⟩
abbrev main_call0_call0_v1 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_c_6 : Ref sig .tc := ⟨.hbm, 95, rfl⟩
abbrev main_v36 : Ref sig .tc := ⟨.hbm, 96, rfl⟩
abbrev main_v37 : Ref sig .tc := ⟨.hbm, 97, rfl⟩
abbrev main_c_7 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_cst_8 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_cst_9 : Ref sig .tc := ⟨.hbm, 111, rfl⟩
abbrev main_v49 : Ref sig .tc := ⟨.hbm, 112, rfl⟩
abbrev main_cst_10 : Ref sig .tc := ⟨.hbm, 113, rfl⟩
abbrev main_v50 : Ref sig .tc := ⟨.hbm, 114, rfl⟩
abbrev main_v51 : Ref sig .tc := ⟨.hbm, 115, rfl⟩
abbrev main_c_11 : Ref sig .tc := ⟨.hbm, 116, rfl⟩
abbrev main_call1_cst : Ref sig .tc := ⟨.hbm, 117, rfl⟩
abbrev main_call1_v0 : Ref sig .tc := ⟨.hbm, 118, rfl⟩
abbrev main_call1_v1 : Ref sig .tc := ⟨.hbm, 119, rfl⟩
abbrev main_call1_cst_0 : Ref sig .tc := ⟨.hbm, 120, rfl⟩
abbrev main_call1_v2 : Ref sig .tc := ⟨.hbm, 121, rfl⟩
abbrev main_call1_v3 : Ref sig .tc := ⟨.hbm, 122, rfl⟩
abbrev main_call1_v4 : Ref sig .tc := ⟨.hbm, 123, rfl⟩
abbrev main_call1_v5 : Ref sig .tc := ⟨.hbm, 124, rfl⟩
abbrev main_call1_v6 : Ref sig .tc := ⟨.hbm, 125, rfl⟩
abbrev main_call1_v7 : Ref sig .tc := ⟨.hbm, 126, rfl⟩
abbrev main_call1_cst_1 : Ref sig .tc := ⟨.hbm, 127, rfl⟩
abbrev main_call1_v8 : Ref sig .tc := ⟨.hbm, 128, rfl⟩
abbrev main_call1_cst_2 : Ref sig .tc := ⟨.hbm, 129, rfl⟩
abbrev main_call1_v9 : Ref sig .tc := ⟨.hbm, 130, rfl⟩
abbrev main_call1_v10 : Ref sig .tc := ⟨.hbm, 131, rfl⟩
abbrev main_call1_v11 : Ref sig .tc := ⟨.hbm, 132, rfl⟩
abbrev main_call1_cst_3 : Ref sig .tc := ⟨.hbm, 133, rfl⟩
abbrev main_call1_v12 : Ref sig .tc := ⟨.hbm, 134, rfl⟩
abbrev main_call1_cst_4 : Ref sig .tc := ⟨.hbm, 135, rfl⟩
abbrev main_call1_call0_v0 : Ref sig .tc := ⟨.hbm, 136, rfl⟩
abbrev main_call1_call0_v1 : Ref sig .tc := ⟨.hbm, 137, rfl⟩
abbrev main_v52 : Ref sig .tc := ⟨.hbm, 138, rfl⟩
abbrev main_v53 : Ref sig .tc := ⟨.hbm, 139, rfl⟩
abbrev main_v54 : Ref sig .tc := ⟨.hbm, 140, rfl⟩
abbrev main_v55 : Ref sig .tc := ⟨.hbm, 141, rfl⟩
abbrev main_v56 : Ref sig .tc := ⟨.hbm, 142, rfl⟩
abbrev main_v57 : Ref sig .tc := ⟨.hbm, 143, rfl⟩
abbrev main_c_12 : Ref sig .tc := ⟨.hbm, 144, rfl⟩
abbrev main_v58 : Ref sig .tc := ⟨.hbm, 145, rfl⟩
abbrev main_v59 : Ref sig .tc := ⟨.hbm, 146, rfl⟩
abbrev main_c_13 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_cst_14 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_cst_15 : Ref sig .tc := ⟨.hbm, 160, rfl⟩
abbrev main_v71 : Ref sig .tc := ⟨.hbm, 161, rfl⟩
abbrev main_cst_16 : Ref sig .tc := ⟨.hbm, 162, rfl⟩
abbrev main_v72 : Ref sig .tc := ⟨.hbm, 163, rfl⟩
abbrev main_v73 : Ref sig .tc := ⟨.hbm, 164, rfl⟩
abbrev main_c_17 : Ref sig .tc := ⟨.hbm, 165, rfl⟩
abbrev main_call2_cst : Ref sig .tc := ⟨.hbm, 166, rfl⟩
abbrev main_call2_v0 : Ref sig .tc := ⟨.hbm, 167, rfl⟩
abbrev main_call2_v1 : Ref sig .tc := ⟨.hbm, 168, rfl⟩
abbrev main_call2_cst_0 : Ref sig .tc := ⟨.hbm, 169, rfl⟩
abbrev main_call2_v2 : Ref sig .tc := ⟨.hbm, 170, rfl⟩
abbrev main_call2_v3 : Ref sig .tc := ⟨.hbm, 171, rfl⟩
abbrev main_call2_v4 : Ref sig .tc := ⟨.hbm, 172, rfl⟩
abbrev main_call2_v5 : Ref sig .tc := ⟨.hbm, 173, rfl⟩
abbrev main_call2_v6 : Ref sig .tc := ⟨.hbm, 174, rfl⟩
abbrev main_call2_v7 : Ref sig .tc := ⟨.hbm, 175, rfl⟩
abbrev main_call2_cst_1 : Ref sig .tc := ⟨.hbm, 176, rfl⟩
abbrev main_call2_v8 : Ref sig .tc := ⟨.hbm, 177, rfl⟩
abbrev main_call2_cst_2 : Ref sig .tc := ⟨.hbm, 178, rfl⟩
abbrev main_call2_v9 : Ref sig .tc := ⟨.hbm, 179, rfl⟩
abbrev main_call2_v10 : Ref sig .tc := ⟨.hbm, 180, rfl⟩
abbrev main_call2_v11 : Ref sig .tc := ⟨.hbm, 181, rfl⟩
abbrev main_call2_cst_3 : Ref sig .tc := ⟨.hbm, 182, rfl⟩
abbrev main_call2_v12 : Ref sig .tc := ⟨.hbm, 183, rfl⟩
abbrev main_call2_cst_4 : Ref sig .tc := ⟨.hbm, 184, rfl⟩
abbrev main_call2_call0_v0 : Ref sig .tc := ⟨.hbm, 185, rfl⟩
abbrev main_call2_call0_v1 : Ref sig .tc := ⟨.hbm, 186, rfl⟩
abbrev main_v74 : Ref sig .tc := ⟨.hbm, 187, rfl⟩
abbrev main_v75 : Ref sig .tc := ⟨.hbm, 188, rfl⟩
abbrev main_v76 : Ref sig .tc := ⟨.hbm, 189, rfl⟩
abbrev main_v77 : Ref sig .tc := ⟨.hbm, 190, rfl⟩
abbrev main_v78 : Ref sig .tc := ⟨.hbm, 191, rfl⟩
abbrev main_v79 : Ref sig .tc := ⟨.hbm, 192, rfl⟩
abbrev main_cst_18 : Ref sig .tc := ⟨.hbm, 193, rfl⟩
abbrev main_v80 : Ref sig .tc := ⟨.hbm, 194, rfl⟩
abbrev main_v81 : Ref sig .tc := ⟨.hbm, 195, rfl⟩
abbrev main_v82 : Ref sig .tc := ⟨.hbm, 196, rfl⟩
abbrev main_v83 : Ref sig .tc := ⟨.hbm, 197, rfl⟩
abbrev main_v84 : Ref sig .tc := ⟨.hbm, 198, rfl⟩
abbrev main_v85 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg6_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg5_1 : Ref sig .tc := ⟨.vmem, 61, rfl⟩
abbrev cc7_stg0_0 : Ref sig .tc := ⟨.vmem, 62, rfl⟩
abbrev cc7_stg1_0 : Ref sig .tc := ⟨.vmem, 63, rfl⟩
abbrev cc7_stg2_0 : Ref sig .tc := ⟨.vmem, 64, rfl⟩
abbrev cc7_stg3_0 : Ref sig .tc := ⟨.vmem, 65, rfl⟩
abbrev cc7_stg4_0 : Ref sig .tc := ⟨.vmem, 66, rfl⟩
abbrev cc7_stg5_0 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem6_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem5_1 : DmaSem sig := 61
abbrev cc7_sem0_0 : DmaSem sig := 62
abbrev cc7_sem1_0 : DmaSem sig := 63
abbrev cc7_sem2_0 : DmaSem sig := 64
abbrev cc7_sem3_0 : DmaSem sig := 65
abbrev cc7_sem4_0 : DmaSem sig := 66
abbrev cc7_sem5_0 : DmaSem sig := 67

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S512x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x10 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x10 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S512x10 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S10000x128 : S1x128.Broadcasts S10000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  gather_S500x128_S100000x1_S100000x128_1_0_n_n_0_1_1128_wf : GatherDims.WF S500x128 S100000x1 S100000x128 [1] [0] [] [0] [] 1 ![1, 128]
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S100000x128.size a
  hwx3_1 : ∀ i : grid3.Coords, EltTy.bits .f32 = 32 ∨ (Rect.block (s := S100000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x128.size a ≤ S100000x128.size a
  hwx3_6 : ∀ i : grid3.Coords, EltTy.bits .f32 = 32 ∨ (Rect.block (s := S100000x128) S10000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x128.size a ≤ S100000x128.size a
  hwx4_5 : ∀ i : grid4.Coords, EltTy.bits .f32 = 32 ∨ (Rect.block (s := S100000x128) S10000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S100000x128.size a
  hwx5_1 : ∀ i : grid5.Coords, EltTy.bits .f32 = 32 ∨ (Rect.block (s := S100000x128) S10000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x128.size a ≤ S100000x128.size a
  hwx5_6 : ∀ i : grid5.Coords, EltTy.bits .f32 = 32 ∨ (Rect.block (s := S100000x128) S10000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x128.size a ≤ S100000x128.size a
  hwx6_5 : ∀ i : grid6.Coords, EltTy.bits .f32 = 32 ∨ (Rect.block (s := S100000x128) S10000x128.size (cc6_transform_5 i) (hinb6_5 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S512x128.size a ≤ S512x128.size a
  hwx7_0 : ∀ i : grid7.Coords, EltTy.bits .f32 = 32 ∨ (Rect.block (s := S512x128) S512x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x10.size a ≤ S128x10.size a
  hwx7_3 : ∀ i : grid7.Coords, EltTy.bits .f32 = 32 ∨ (Rect.block (s := S128x10) S128x10.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x10.size a ≤ S1x10.size a
  hwx7_4 : ∀ i : grid7.Coords, EltTy.bits .f32 = 32 ∨ (Rect.block (s := S1x10) S1x10.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S512x10.size a ≤ S512x10.size a
  hwx7_5 : ∀ i : grid7.Coords, EltTy.bits .f32 = 32 ∨ (Rect.block (s := S512x10) S512x10.size (cc7_transform_5 i) (hinb7_5 i)).WholeWords (EltTy.packing .f32)

variable [Facts₀]

def gather_S500x128_S100000x1_S100000x128_1_0_n_n_0_1_1128 : GatherDims S500x128 S100000x1 S100000x128 where
  offsetDims := [1]
  collapsedSliceDims := [0]
  operandBatchingDims := []
  startIndicesBatchingDims := []
  startIndexMap := [0]
  indexVectorDim := 1
  sliceSizes := ![1, 128]
  wf := gather_S500x128_S100000x1_S100000x128_1_0_n_n_0_1_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_v10) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v26) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v35) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v48) S10000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v48) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v54) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v55) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v56) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v57) S10000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v57) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67) S10000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg20) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg22) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v69) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v70) S10000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v70) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v75) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v77) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v78) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v79) S10000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v82) S512x128.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg26) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v83) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg28) S128x10.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v84) S1x10.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v85) S512x10.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000 : Shape := ⟨1, ![100000]⟩
abbrev S2x1600000 : Shape := ⟨2, ![2, 1600000]⟩
abbrev S500x128 : Shape := ⟨2, ![500, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x128 : Shape := ⟨2, ![100000, 128]⟩
abbrev S1x128 : Shape := ⟨2, ![1, 128]⟩
abbrev S1600000x1 : Shape := ⟨2, ![1600000, 1]⟩
abbrev S1600000x128 : Shape := ⟨2, ![1600000, 128]⟩
abbrev S512x128 : Shape := ⟨2, ![512, 128]⟩
abbrev S512x10 : Shape := ⟨2, ![512, 10]⟩
abbrev S1x10 : Shape := ⟨2, ![1, 10]⟩

abbrev nBuf : Space → Nat
  | .hbm => 285
  | .vmem => 0
  | .smem => 0
  | _ => 0

abbrev hbmTy0_0 (i : Nat) : BufTy := match i % 128 with
  | 0 => ⟨S100000, .i32⟩
  | 1 => ⟨S2x1600000, .i32⟩
  | 2 => ⟨S100000, .i32⟩
  | 3 => ⟨S500x128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128, .f32⟩
  | 19 => ⟨S128, .f32⟩
  | 20 => ⟨S128x128, .f32⟩
  | 21 => ⟨S128, .f32⟩
  | 22 => ⟨S128x128, .f32⟩
  | 23 => ⟨S128, .f32⟩
  | 24 => ⟨S128, .f32⟩
  | 25 => ⟨S128, .f32⟩
  | 26 => ⟨S128x128, .f32⟩
  | 27 => ⟨S128, .f32⟩
  | 28 => ⟨S128x10, .f32⟩
  | 29 => ⟨S10, .f32⟩
  | 30 => ⟨S1x1600000, .i32⟩
  | 31 => ⟨S1600000, .i32⟩
  | 32 => ⟨S1x1600000, .i32⟩
  | 33 => ⟨S1600000, .i32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S128, .f32⟩
  | 81 => ⟨S_, .f32⟩
  | 82 => ⟨S128, .f32⟩
  | 83 => ⟨S128, .f32⟩
  | 84 => ⟨S_, .i32⟩
  | 85 => ⟨S_, .f32⟩
  | 86 => ⟨S128, .f32⟩
  | 87 => ⟨S1x128, .f32⟩
  | 88 => ⟨S_, .f32⟩
  | 89 => ⟨S1x128, .f32⟩
  | 90 => ⟨S1x128, .f32⟩
  | 91 => ⟨S100000x128, .f32⟩
  | 92 => ⟨S100000x128, .f32⟩
  | 93 => ⟨S100000x128, .f32⟩
  | 94 => ⟨S_, .f32⟩
  | 95 => ⟨S_, .f32⟩
  | 96 => ⟨S_, .f32⟩
  | 97 => ⟨S_, .f32⟩
  | 98 => ⟨S128, .f32⟩
  | 99 => ⟨S128, .f32⟩
  | 100 => ⟨S128, .f32⟩
  | 101 => ⟨S_, .f32⟩
  | 102 => ⟨S_, .i1⟩
  | 103 => ⟨S_, .f32⟩
  | 104 => ⟨S_, .f32⟩
  | 105 => ⟨S128, .f32⟩
  | 106 => ⟨S128, .f32⟩
  | 107 => ⟨S1x128, .f32⟩
  | 108 => ⟨S100000x128, .f32⟩
  | 109 => ⟨S100000x128, .f32⟩
  | 110 => ⟨S_, .f32⟩
  | 111 => ⟨S128, .f32⟩
  | 112 => ⟨S128, .f32⟩
  | 113 => ⟨S128, .f32⟩
  | 114 => ⟨S1x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S_, .i32⟩
  | 127 => ⟨S1600000, .i32⟩
  | _ => ⟨S100000, .i32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x128, .f32⟩
  | 7 => ⟨S_, .f32⟩
  | 8 => ⟨S100000x128, .f32⟩
  | 9 => ⟨S1600000x1, .i32⟩
  | 10 => ⟨S100000x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S_, .f32⟩
  | 24 => ⟨S128, .f32⟩
  | 25 => ⟨S_, .f32⟩
  | 26 => ⟨S128, .f32⟩
  | 27 => ⟨S128, .f32⟩
  | 28 => ⟨S_, .i32⟩
  | 29 => ⟨S_, .f32⟩
  | 30 => ⟨S128, .f32⟩
  | 31 => ⟨S1x128, .f32⟩
  | 32 => ⟨S_, .f32⟩
  | 33 => ⟨S1x128, .f32⟩
  | 34 => ⟨S1x128, .f32⟩
  | 35 => ⟨S100000x128, .f32⟩
  | 36 => ⟨S100000x128, .f32⟩
  | 37 => ⟨S100000x128, .f32⟩
  | 38 => ⟨S_, .f32⟩
  | 39 => ⟨S_, .f32⟩
  | 40 => ⟨S_, .f32⟩
  | 41 => ⟨S_, .f32⟩
  | 42 => ⟨S128, .f32⟩
  | 43 => ⟨S128, .f32⟩
  | 44 => ⟨S128, .f32⟩
  | 45 => ⟨S_, .f32⟩
  | 46 => ⟨S_, .i1⟩
  | 47 => ⟨S_, .f32⟩
  | 48 => ⟨S_, .f32⟩
  | 49 => ⟨S128, .f32⟩
  | 50 => ⟨S128, .f32⟩
  | 51 => ⟨S1x128, .f32⟩
  | 52 => ⟨S100000x128, .f32⟩
  | 53 => ⟨S100000x128, .f32⟩
  | 54 => ⟨S_, .f32⟩
  | 55 => ⟨S128, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S_, .f32⟩
  | 80 => ⟨S100000x128, .f32⟩
  | 81 => ⟨S1600000x1, .i32⟩
  | 82 => ⟨S100000x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S128, .f32⟩
  | 97 => ⟨S_, .f32⟩
  | 98 => ⟨S128, .f32⟩
  | 99 => ⟨S128, .f32⟩
  | 100 => ⟨S_, .i32⟩
  | 101 => ⟨S_, .f32⟩
  | 102 => ⟨S128, .f32⟩
  | 103 => ⟨S1x128, .f32⟩
  | 104 => ⟨S_, .f32⟩
  | 105 => ⟨S1x128, .f32⟩
  | 106 => ⟨S1x128, .f32⟩
  | 107 => ⟨S100000x128, .f32⟩
  | 108 => ⟨S100000x128, .f32⟩
  | 109 => ⟨S100000x128, .f32⟩
  | 110 => ⟨S_, .f32⟩
  | 111 => ⟨S_, .f32⟩
  | 112 => ⟨S_, .f32⟩
  | 113 => ⟨S_, .f32⟩
  | 114 => ⟨S128, .f32⟩
  | 115 => ⟨S128, .f32⟩
  | 116 => ⟨S128, .f32⟩
  | 117 => ⟨S_, .f32⟩
  | 118 => ⟨S_, .i1⟩
  | 119 => ⟨S_, .f32⟩
  | 120 => ⟨S_, .f32⟩
  | 121 => ⟨S128, .f32⟩
  | 122 => ⟨S128, .f32⟩
  | 123 => ⟨S1x128, .f32⟩
  | 124 => ⟨S100000x128, .f32⟩
  | 125 => ⟨S100000x128, .f32⟩
  | 126 => ⟨S_, .f32⟩
  | 127 => ⟨S128, .f32⟩
  | _ => ⟨S100000, .i32⟩

abbrev hbmTy0_2 (i : Nat) : BufTy := match i % 128 with
  | 0 => ⟨S128, .f32⟩
  | 1 => ⟨S128, .f32⟩
  | 2 => ⟨S1x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S_, .f32⟩
  | 15 => ⟨S512x128, .f32⟩
  | 16 => ⟨S100000x1, .i32⟩
  | 17 => ⟨S512x128, .f32⟩
  | 18 => ⟨S512x128, .f32⟩
  | 19 => ⟨S1x128, .f32⟩
  | 20 => ⟨S512x128, .f32⟩
  | 21 => ⟨S512x128, .f32⟩
  | 22 => ⟨S_, .f32⟩
  | 23 => ⟨S512x128, .f32⟩
  | 24 => ⟨S512x128, .f32⟩
  | 25 => ⟨S512x10, .f32⟩
  | 26 => ⟨S1x10, .f32⟩
  | 27 => ⟨S512x10, .f32⟩
  | 28 => ⟨S512x10, .f32⟩
  | _ => ⟨S100000, .i32⟩

abbrev hbmTy (i : Nat) : BufTy := match i / 128 with
  | 0 => hbmTy0_0 i
  | 1 => hbmTy0_1 i
  | 2 => hbmTy0_2 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_c : Ref sig .tc := ⟨.hbm, 34, rfl⟩
abbrev main_v4 : Ref sig .tc := ⟨.hbm, 35, rfl⟩
abbrev main_v5 : Ref sig .tc := ⟨.hbm, 36, rfl⟩
abbrev main_c_0 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_call0_cst : Ref sig .tc := ⟨.hbm, 47, rfl⟩
abbrev main_call0_v0 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_c_1 : Ref sig .tc := ⟨.hbm, 54, rfl⟩
abbrev main_v20 : Ref sig .tc := ⟨.hbm, 55, rfl⟩
abbrev main_v21 : Ref sig .tc := ⟨.hbm, 56, rfl⟩
abbrev main_c_2 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_call1_cst : Ref sig .tc := ⟨.hbm, 72, rfl⟩
abbrev main_call1_v0 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_3 : Ref sig .tc := ⟨.hbm, 79, rfl⟩
abbrev main_v40 : Ref sig .tc := ⟨.hbm, 80, rfl⟩
abbrev main_cst_4 : Ref sig .tc := ⟨.hbm, 81, rfl⟩
abbrev main_v41 : Ref sig .tc := ⟨.hbm, 82, rfl⟩
abbrev main_v42 : Ref sig .tc := ⟨.hbm, 83, rfl⟩
abbrev main_c_5 : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_cst_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_cst_1 : Ref sig .tc := ⟨.hbm, 95, rfl⟩
abbrev main_call2_v8 : Ref sig .tc := ⟨.hbm, 96, rfl⟩
abbrev main_call2_cst_2 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_cst_3 : Ref sig .tc := ⟨.hbm, 101, rfl⟩
abbrev main_call2_v12 : Ref sig .tc := ⟨.hbm, 102, rfl⟩
abbrev main_call2_cst_4 : Ref sig .tc := ⟨.hbm, 103, rfl⟩
abbrev main_call2_call0_v0 : Ref sig .tc := ⟨.hbm, 104, rfl⟩
abbrev main_call2_call0_v1 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_cst_6 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_call3_cst : Ref sig .tc := ⟨.hbm, 123, rfl⟩
abbrev main_call3_v0 : Ref sig .tc := ⟨.hbm, 124, rfl⟩
abbrev main_v59 : Ref sig .tc := ⟨.hbm, 125, rfl⟩
abbrev main_c_7 : Ref sig .tc := ⟨.hbm, 126, rfl⟩
abbrev main_v60 : Ref sig .tc := ⟨.hbm, 127, rfl⟩
abbrev main_v61 : Ref sig .tc := ⟨.hbm, 128, rfl⟩
abbrev main_c_8 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_cst_9 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_call4_cst : Ref sig .tc := ⟨.hbm, 144, rfl⟩
abbrev main_call4_v0 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_cst_10 : Ref sig .tc := ⟨.hbm, 151, rfl⟩
abbrev main_v80 : Ref sig .tc := ⟨.hbm, 152, rfl⟩
abbrev main_cst_11 : Ref sig .tc := ⟨.hbm, 153, rfl⟩
abbrev main_v81 : Ref sig .tc := ⟨.hbm, 154, rfl⟩
abbrev main_v82 : Ref sig .tc := ⟨.hbm, 155, rfl⟩
abbrev main_c_12 : Ref sig .tc := ⟨.hbm, 156, rfl⟩
abbrev main_call5_cst : Ref sig .tc := ⟨.hbm, 157, rfl⟩
abbrev main_call5_v0 : Ref sig .tc := ⟨.hbm, 158, rfl⟩
abbrev main_call5_v1 : Ref sig .tc := ⟨.hbm, 159, rfl⟩
abbrev main_call5_cst_0 : Ref sig .tc := ⟨.hbm, 160, rfl⟩
abbrev main_call5_v2 : Ref sig .tc := ⟨.hbm, 161, rfl⟩
abbrev main_call5_v3 : Ref sig .tc := ⟨.hbm, 162, rfl⟩
abbrev main_call5_v4 : Ref sig .tc := ⟨.hbm, 163, rfl⟩
abbrev main_call5_v5 : Ref sig .tc := ⟨.hbm, 164, rfl⟩
abbrev main_call5_v6 : Ref sig .tc := ⟨.hbm, 165, rfl⟩
abbrev main_call5_v7 : Ref sig .tc := ⟨.hbm, 166, rfl⟩
abbrev main_call5_cst_1 : Ref sig .tc := ⟨.hbm, 167, rfl⟩
abbrev main_call5_v8 : Ref sig .tc := ⟨.hbm, 168, rfl⟩
abbrev main_call5_cst_2 : Ref sig .tc := ⟨.hbm, 169, rfl⟩
abbrev main_call5_v9 : Ref sig .tc := ⟨.hbm, 170, rfl⟩
abbrev main_call5_v10 : Ref sig .tc := ⟨.hbm, 171, rfl⟩
abbrev main_call5_v11 : Ref sig .tc := ⟨.hbm, 172, rfl⟩
abbrev main_call5_cst_3 : Ref sig .tc := ⟨.hbm, 173, rfl⟩
abbrev main_call5_v12 : Ref sig .tc := ⟨.hbm, 174, rfl⟩
abbrev main_call5_cst_4 : Ref sig .tc := ⟨.hbm, 175, rfl⟩
abbrev main_call5_call0_v0 : Ref sig .tc := ⟨.hbm, 176, rfl⟩
abbrev main_call5_call0_v1 : Ref sig .tc := ⟨.hbm, 177, rfl⟩
abbrev main_v83 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_cst_13 : Ref sig .tc := ⟨.hbm, 182, rfl⟩
abbrev main_v87 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_v91 : Ref sig .tc := ⟨.hbm, 187, rfl⟩
abbrev main_v92 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_call6_cst : Ref sig .tc := ⟨.hbm, 195, rfl⟩
abbrev main_call6_v0 : Ref sig .tc := ⟨.hbm, 196, rfl⟩
abbrev main_v99 : Ref sig .tc := ⟨.hbm, 197, rfl⟩
abbrev main_c_14 : Ref sig .tc := ⟨.hbm, 198, rfl⟩
abbrev main_v100 : Ref sig .tc := ⟨.hbm, 199, rfl⟩
abbrev main_v101 : Ref sig .tc := ⟨.hbm, 200, rfl⟩
abbrev main_c_15 : Ref sig .tc := ⟨.hbm, 201, rfl⟩
abbrev main_v102 : Ref sig .tc := ⟨.hbm, 202, rfl⟩
abbrev main_v103 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_cst_16 : Ref sig .tc := ⟨.hbm, 207, rfl⟩
abbrev main_v107 : Ref sig .tc := ⟨.hbm, 208, rfl⟩
abbrev main_v108 : Ref sig .tc := ⟨.hbm, 209, rfl⟩
abbrev main_v109 : Ref sig .tc := ⟨.hbm, 210, rfl⟩
abbrev main_v110 : Ref sig .tc := ⟨.hbm, 211, rfl⟩
abbrev main_v111 : Ref sig .tc := ⟨.hbm, 212, rfl⟩
abbrev main_v112 : Ref sig .tc := ⟨.hbm, 213, rfl⟩
abbrev main_v113 : Ref sig .tc := ⟨.hbm, 214, rfl⟩
abbrev main_v114 : Ref sig .tc := ⟨.hbm, 215, rfl⟩
abbrev main_call7_cst : Ref sig .tc := ⟨.hbm, 216, rfl⟩
abbrev main_call7_v0 : Ref sig .tc := ⟨.hbm, 217, rfl⟩
abbrev main_v115 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_cst_17 : Ref sig .tc := ⟨.hbm, 223, rfl⟩
abbrev main_v120 : Ref sig .tc := ⟨.hbm, 224, rfl⟩
abbrev main_cst_18 : Ref sig .tc := ⟨.hbm, 225, rfl⟩
abbrev main_v121 : Ref sig .tc := ⟨.hbm, 226, rfl⟩
abbrev main_v122 : Ref sig .tc := ⟨.hbm, 227, rfl⟩
abbrev main_c_19 : Ref sig .tc := ⟨.hbm, 228, rfl⟩
abbrev main_call8_cst : Ref sig .tc := ⟨.hbm, 229, rfl⟩
abbrev main_call8_v0 : Ref sig .tc := ⟨.hbm, 230, rfl⟩
abbrev main_call8_v1 : Ref sig .tc := ⟨.hbm, 231, rfl⟩
abbrev main_call8_cst_0 : Ref sig .tc := ⟨.hbm, 232, rfl⟩
abbrev main_call8_v2 : Ref sig .tc := ⟨.hbm, 233, rfl⟩
abbrev main_call8_v3 : Ref sig .tc := ⟨.hbm, 234, rfl⟩
abbrev main_call8_v4 : Ref sig .tc := ⟨.hbm, 235, rfl⟩
abbrev main_call8_v5 : Ref sig .tc := ⟨.hbm, 236, rfl⟩
abbrev main_call8_v6 : Ref sig .tc := ⟨.hbm, 237, rfl⟩
abbrev main_call8_v7 : Ref sig .tc := ⟨.hbm, 238, rfl⟩
abbrev main_call8_cst_1 : Ref sig .tc := ⟨.hbm, 239, rfl⟩
abbrev main_call8_v8 : Ref sig .tc := ⟨.hbm, 240, rfl⟩
abbrev main_call8_cst_2 : Ref sig .tc := ⟨.hbm, 241, rfl⟩
abbrev main_call8_v9 : Ref sig .tc := ⟨.hbm, 242, rfl⟩
abbrev main_call8_v10 : Ref sig .tc := ⟨.hbm, 243, rfl⟩
abbrev main_call8_v11 : Ref sig .tc := ⟨.hbm, 244, rfl⟩
abbrev main_call8_cst_3 : Ref sig .tc := ⟨.hbm, 245, rfl⟩
abbrev main_call8_v12 : Ref sig .tc := ⟨.hbm, 246, rfl⟩
abbrev main_call8_cst_4 : Ref sig .tc := ⟨.hbm, 247, rfl⟩
abbrev main_call8_call0_v0 : Ref sig .tc := ⟨.hbm, 248, rfl⟩
abbrev main_call8_call0_v1 : Ref sig .tc := ⟨.hbm, 249, rfl⟩
abbrev main_v123 : Ref sig .tc := ⟨.hbm, 250, rfl⟩
abbrev main_v124 : Ref sig .tc := ⟨.hbm, 251, rfl⟩
abbrev main_v125 : Ref sig .tc := ⟨.hbm, 252, rfl⟩
abbrev main_v126 : Ref sig .tc := ⟨.hbm, 253, rfl⟩
abbrev main_cst_20 : Ref sig .tc := ⟨.hbm, 254, rfl⟩
abbrev main_v127 : Ref sig .tc := ⟨.hbm, 255, rfl⟩
abbrev main_v128 : Ref sig .tc := ⟨.hbm, 256, rfl⟩
abbrev main_v129 : Ref sig .tc := ⟨.hbm, 257, rfl⟩
abbrev main_v130 : Ref sig .tc := ⟨.hbm, 258, rfl⟩
abbrev main_v131 : Ref sig .tc := ⟨.hbm, 259, rfl⟩
abbrev main_v132 : Ref sig .tc := ⟨.hbm, 260, rfl⟩
abbrev main_v133 : Ref sig .tc := ⟨.hbm, 261, rfl⟩
abbrev main_v134 : Ref sig .tc := ⟨.hbm, 262, rfl⟩
abbrev main_v135 : Ref sig .tc := ⟨.hbm, 263, rfl⟩
abbrev main_v136 : Ref sig .tc := ⟨.hbm, 264, rfl⟩
abbrev main_v137 : Ref sig .tc := ⟨.hbm, 265, rfl⟩
abbrev main_v138 : Ref sig .tc := ⟨.hbm, 266, rfl⟩
abbrev main_call9_cst : Ref sig .tc := ⟨.hbm, 267, rfl⟩
abbrev main_call9_v0 : Ref sig .tc := ⟨.hbm, 268, rfl⟩
abbrev main_v139 : Ref sig .tc := ⟨.hbm, 269, rfl⟩
abbrev main_cst_21 : Ref sig .tc := ⟨.hbm, 270, rfl⟩
abbrev main_v140 : Ref sig .tc := ⟨.hbm, 271, rfl⟩
abbrev main_v141 : Ref sig .tc := ⟨.hbm, 272, rfl⟩
abbrev main_v142 : Ref sig .tc := ⟨.hbm, 273, rfl⟩
abbrev main_v143 : Ref sig .tc := ⟨.hbm, 274, rfl⟩
abbrev main_v144 : Ref sig .tc := ⟨.hbm, 275, rfl⟩
abbrev main_v145 : Ref sig .tc := ⟨.hbm, 276, rfl⟩
abbrev main_v146 : Ref sig .tc := ⟨.hbm, 277, rfl⟩
abbrev main_call10_cst : Ref sig .tc := ⟨.hbm, 278, rfl⟩
abbrev main_call10_v0 : Ref sig .tc := ⟨.hbm, 279, rfl⟩
abbrev main_v147 : Ref sig .tc := ⟨.hbm, 280, rfl⟩
abbrev main_v148 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S512x128 : S_.BroadcastsInDim S512x128 (![] : Fin 0 → Fin S512x128.rank)
  bcast_S1x128_S512x128_0_1 : S1x128.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S500x128_S100000x1_S100000x128_1_0_n_n_0_1_1128_wf : GatherDims.WF S500x128 S100000x1 S100000x128 [1] [0] [] [0] [] 1 ![1, 128]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []

variable [Facts₀]

def gather_S500x128_S100000x1_S100000x128_1_0_n_n_0_1_1128 : GatherDims S500x128 S100000x1 S100000x128 where
  offsetDims := [1]
  collapsedSliceDims := [0]
  operandBatchingDims := []
  startIndicesBatchingDims := []
  startIndexMap := [0]
  indexVectorDim := 1
  sliceSizes := ![1, 128]
  wf := gather_S500x128_S100000x1_S100000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.LibRunBoth.lean ====
/-
  Two facts about every final state hold together.  A run claim says: every weakly fair execution of the program from
  the given state terminates, nothing faulting, in a state satisfying the post.  Termination and freedom from faults
  do not mention the post, and the post is asked of every final state reached; so from the claim at a post Q and the
  claim at a post Q' follows the claim at their conjunction.  For any mesh, signature, element values and program.
-/
import Idealize.ShloMosaic.Machine.Run

namespace Cert.LibRunBoth

open Idealize.ShloMosaic Idealize.SL.Sem

variable {nD : Nat} {τ : Topo} {sig : RefSig} {Val : EltTy → Type} {Λ : Labels}

/-- Every execution ends in a state satisfying both posts. -/
theorem meshRun_both (defs : Defs nD τ sig Val Λ) {Q Q' : MemSt nD τ sig Val → Prop} {s : RunSt nD τ sig Val Λ}
    (h : MeshRun defs Q s) (h' : MeshRun defs Q' s) : MeshRun defs (fun m => Q m ∧ Q' m) s :=
  ⟨fun t hr hf => ⟨h.post t hr hf, h'.post t hr hf⟩, h.progress, h.fair⟩

/-- The same for the run claim of a loaded program: both posts hold of every final state. -/
theorem run_both (defs : Defs nD τ sig Val Λ) (p : (c : Thread nD τ) → Prog (TpuEff nD τ sig Val Λ c.2) PUnit)
    (s : MemSt nD τ sig Val) {Q Q' : PUnit × MemSt nD τ sig Val → Prop}
    (h : θ_run defs p s Q) (h' : θ_run defs p s Q') : θ_run defs p s (fun r => Q r ∧ Q' r) :=
  meshRun_both defs h h'

end Cert.LibRunBoth
-- ==== Proof.KRun.lean ====
/-
  The idealized kernel's run, keeping the result.

  The program is twenty-two segments: fourteen stretches of host operations and eight regions. The generated frame
  certificate runs them against the boundary contents W0 … W22 (each stretch the fold of its operations over the
  previous boundary, each region its arrays at what its write-backs leave) and reads every unscoped buffer of the final
  state at W22. Here the same run is read at the result buffer: every weakly fair execution terminates, nothing
  faulting, with the [512, 10] result at W22's contents of that buffer.
-/
import proofs.«132092_j14199161880830_1_alg».proof.Proof.Gen.KernelIdeal.Frame

set_option maxRecDepth 16384

noncomputable section

namespace Cert.Gin.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every weakly fair execution of the program ends with the result buffer at the last boundary's contents. -/
theorem run_result : θ_run defs (onTc (τ := τ) (main (F := F))) ⟨m, fun _ => 0, ρ⟩ (fun r => ∀ c : Dev nD,
      r.2.mem ((c.tc : Thread nD τ).loc main_v85) = W22 m ρ c (Proc.devRef .tc main_v85)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c => h c _ (mem_uc main_v85 (by decide)))

end Cert.Gin.Ker

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibAffineRows.lean ====
/-
  An affine map of the rows of a matrix, as a vector program spells it, read at an entry on the extended reals,
  for any extents: the operands cast to a narrower float format (the identity on the extended reals), their
  product taken into a zero accumulator, and a bias vector [n] laid out as one row [1, n] and repeated down the
  [m, n] result. Entry (p, q) is the k-term sum of products plus the bias's entry q.
-/
import Idealize.ShloMosaic.Lib.ValueLayout
import Idealize.ShloMosaic.Lib.Pipeline.Value
import proofs.«132092_j14199161880830_1_alg».proof.Proof.LibMatmulPlain

noncomputable section

namespace Cert.LibAffineRows

open Idealize.ShloMosaic Idealize.ShloMosaic.ValueIdx Cert.LibMatmulPlain

variable {m k n : Nat}

/-- A bias vector laid out as a row and repeated down `m` rows reads, at (p, q), its entry q. -/
theorem biasRows_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix1 q) :=
  (broadcastTo_1b_ab_apply (shapeCast ⟨2, ![1, n]⟩ b hc) hb p q).trans (shapeCast_a_1a_apply b hc 0 q)

/-- Entry (p, q) of `u · w + bias`, the operands cast to a narrower format first: the k-term sum of products plus
    the bias's entry q. -/
theorem affine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    addf (matmul (plainDims m k n wf) none (truncf ψ u hψ) (truncf ψ w hψ) (constant ⟨2, ![m, n]⟩ .f32 0x00000000#32))
        (broadcastTo ⟨2, ![m, n]⟩ (shapeCast ⟨2, ![1, n]⟩ b hc) hb) (ix2 p q)
      = (∑ j : Fin k, u (ix2 p j) * w (ix2 j q)) + b (ix1 q) := by
  show FloatOps.matmul (plainDims m k n wf) none (truncf ψ u hψ) (truncf ψ w hψ) (constant ⟨2, ![m, n]⟩ .f32 0x00000000#32) (ix2 p q)
      + broadcastTo ⟨2, ![m, n]⟩ (shapeCast ⟨2, ![1, n]⟩ b hc) hb (ix2 p q) = _
  rw [matmul_zero_apply wf none (truncf ψ u hψ) (truncf ψ w hψ) p q, biasRows_apply b hc hb p q]
  rfl

/-- The same followed by a rectifier — the maximum with the all-zero f32 word repeated over the result: entry (p, q) is
    the maximum of the affine entry and that word's value. -/
theorem rectAffine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    maximumf (addf (matmul (plainDims m k n wf) none (truncf ψ u hψ) (truncf ψ w hψ) (constant ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p q)
      = max ((∑ j : Fin k, u (ix2 p j) * w (ix2 j q)) + b (ix1 q)) (Ideal.ofBits .f32 0x00000000#32) :=
  congrArg (max · (Ideal.ofBits .f32 0x00000000#32)) (affine_apply wf u w b hψ hc hb p q)

end Cert.LibAffineRows

end
-- ==== Proof.LibDenseLayers.lean ====
/-
  The vocabulary of a stack of dense layers on the extended reals, for any extents, and the spellings that denote it.

  For a matrix a [m, k], a weight w [k, n] and a bias b [n]:  mm a w  has entry (p, q) the k-term sum of a(p, j) * w(j, q);
  bias m b  repeats b down m rows;  rect a  is, entry by entry, the maximum with the value of the all-zero f32 word.
  A product taken on the matrix unit into a zero accumulator (its weight first cast to a narrower float format, the
  identity on the extended reals) and a general product on the host are both mm; a bias vector laid out as one row and
  repeated down the rows, either way it is spelt, is bias; the maximum with a zero repeated over the shape is rect.

  The one law of arithmetic used: a sum over k1 + k2 + k3 terms is the sum of its first k1, next k2 and last k3 terms
  (addition on the extended reals is commutative and associative; nothing here needs a finite entry). So the product of
  three matrices joined side by side with a weight is the sum of the three products with the weight's matching row slabs.
-/
import Idealize.ShloMosaic.Lib.ValueLayout
import Idealize.ShloMosaic.Lib.Pipeline.Value
import Idealize.ShloMosaic.PureOps.Ideal.Laws
import proofs.«132092_j14199161880830_1_alg».proof.Proof.LibMatmulPlain
import proofs.«132092_j14199161880830_1_alg».proof.Proof.LibAffineRows

noncomputable section

namespace Cert.Layers

open Idealize.ShloMosaic Idealize.ShloMosaic.ValueIdx Cert.LibMatmulPlain Cert.LibAffineRows

variable {m k n : Nat}

/-- An [m, n] matrix of extended reals. -/
abbrev Mat (m n : Nat) : Type := (⟨2, ![m, n]⟩ : Shape).Idx → EReal
/-- An [n] vector of extended reals. -/
abbrev Row (n : Nat) : Type := (⟨1, ![n]⟩ : Shape).Idx → EReal

/-- Rows of a against columns of w. -/
def mm (a : Mat m k) (w : Mat k n) : Mat m n := fun i => ∑ j : Fin k, a (ix2 (i 0) j) * w (ix2 j (i 1))

/-- The vector b repeated down m rows. -/
def bias (m : Nat) (b : Row n) : Mat m n := fun i => b (ix1 (i 1))

/-- Entry by entry the maximum with the value of the all-zero f32 word. -/
def rect {s : Shape} (a : s.Idx → EReal) : s.Idx → EReal := fun i => max (a i) (Ideal.ofBits .f32 0x00000000#32)

/-- One dense layer: a · w + b. -/
def dense (a : Mat m k) (w : Mat k n) (b : Row n) : Mat m n := fun i => mm a w i + bias m b i

theorem mm_apply (a : Mat m k) (w : Mat k n) (p : Fin m) (q : Fin n) :
    mm a w (ix2 p q) = ∑ j : Fin k, a (ix2 p j) * w (ix2 j q) := rfl

/-! ## The matrix unit's spellings -/

/-- A product on the matrix unit into a zero accumulator, the weight cast to a narrower format first. -/
theorem tileMm_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits) :
    matmul d none a (truncf ψ w hψ) (constant ⟨2, ![m, n]⟩ .f32 0x00000000#32) = mm a w := by
  subst hd
  funext i
  obtain ⟨p, q, rfl⟩ : ∃ (p : Fin m) (q : Fin n), i = ix2 p q := ⟨i 0, i 1, eq_ix2 i⟩
  exact matmul_zero_apply wf none a (truncf ψ w hψ) p q

/-- A bias vector laid out as one row and repeated down the rows. -/
theorem tileBias_eq (b : FVec Ideal ⟨1, ![n]⟩ .f32) (hc : (⟨1, ![n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ b hc) hb = bias m b := by
  funext i
  obtain ⟨p, q, rfl⟩ : ∃ (p : Fin m) (q : Fin n), i = ix2 p q := ⟨i 0, i 1, eq_ix2 i⟩
  exact biasRows_apply b hc hb p q

/-- The maximum with the zero word repeated over the shape. -/
theorem tileRect_eq {s : Shape} (a : FVec Ideal s .f32) :
    maximumf a (broadcast s (Scalar.ofBits (F := Ideal) .f32 0x00000000#32)) = rect a := rfl

/-! ## The host's spellings -/

/-- A general product contracting the left matrix's columns with the right one's rows. -/
theorem hostMm_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) :
    Host.dotGeneral d none a w = mm a w := by
  subst hd
  funext i
  obtain ⟨p, q, rfl⟩ : ∃ (p : Fin m) (q : Fin n), i = ix2 p q := ⟨i 0, i 1, eq_ix2 i⟩
  rw [mm_apply]
  simp only [Host.dotGeneral]
  rw [Ideal.dotGeneral_apply, ← Equiv.sum_comp (contrEquiv1 (plainDims m k n wf) k rfl rfl).symm]
  refine Finset.sum_congr rfl fun j _ => ?_
  rw [lhsIdx_eq wf p q j, rhsIdx_eq wf p q j]

/-- A bias vector broadcast first to one row and then down the rows. -/
theorem hostBias_eq (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    broadcastInDim ⟨2, ![m, n]⟩ ![0, 1] h2 (broadcastInDim ⟨2, ![1, n]⟩ ![1] h1 b) = bias m b := by
  funext i
  obtain ⟨p, q, rfl⟩ : ∃ (p : Fin m) (q : Fin n), i = ix2 p q := ⟨i 0, i 1, eq_ix2 i⟩
  refine (broadcastInDim_apply _ h2 _ (ix2 p q) (ix2 (0 : Fin 1) q) fun ax => ?_).trans
    (broadcastInDim_apply _ h1 b (ix2 (0 : Fin 1) q) (ix1 q) fun ax => ?_)
  · match ax with
    | ⟨0, _⟩ => show (0 : Nat) = if (1 : Nat) = 1 then 0 else p.val; rw [if_pos rfl]
    | ⟨1, _⟩ => show q.val = if n = 1 then 0 else q.val; split_ifs with h <;> omega
  · match ax with
    | ⟨0, _⟩ => show q.val = if n = 1 then 0 else q.val; split_ifs with h <;> omega

/-- The maximum with the zero word as a scalar constant broadcast over the shape. -/
theorem hostRect_eq {s : Shape} (a : FVec Ideal s .f32) (h : (⟨0, ![]⟩ : Shape).BroadcastsInDim s ![]) :
    maximumf a (broadcastInDim s ![] h (constant (F := Ideal) ⟨0, ![]⟩ .f32 0x00000000#32)) = rect a := by
  funext i
  show max (a i) (broadcastInDim s ![] h (constant (F := Ideal) ⟨0, ![]⟩ .f32 0x00000000#32) i) = _
  rw [broadcastInDim_apply _ h _ i ix0 fun ax => ax.elim0]
  rfl

/-! ## Splitting a sum -/

/-- A sum over k1 + k2 + k3 terms is the sum of its first k1, next k2 and last k3 terms. -/
theorem sum_three {M : Type} [AddCommMonoid M] (k1 k2 k3 : Nat) (f : Fin (k1 + k2 + k3) → M) :
    ∑ j, f j = (∑ j : Fin k1, f ⟨j.val, by omega⟩ + ∑ j : Fin k2, f ⟨k1 + j.val, by omega⟩)
      + ∑ j : Fin k3, f ⟨k1 + k2 + j.val, by omega⟩ := by
  rw [Fin.sum_univ_add, Fin.sum_univ_add]
  rfl

/-- A sum over k1 + k2 terms is the sum of its first k1 and last k2 terms. -/
theorem sum_two {M : Type} [AddCommMonoid M] (k1 k2 : Nat) (f : Fin (k1 + k2) → M) :
    ∑ j, f j = ∑ j : Fin k1, f ⟨j.val, by omega⟩ + ∑ j : Fin k2, f ⟨k1 + j.val, by omega⟩ := by
  rw [Fin.sum_univ_add]
  rfl

end Cert.Layers

end
-- ==== Proof.LibMeanConv.lean ====
/-
  The layers of the network as index formulas on the extended reals, for any extents.

  For a node-feature matrix x [n, a]:
    enc      two dense layers, each followed by the rectifier:        max (max (x·w1 + b1, 0)·w2 + b2, 0);
    conv     one graph convolution on an already averaged neighbourhood mean [n, a]:
                                                                     max ((mean·wl + bl) + x·wr, 0);
    readout  a rectified dense layer followed by a plain one:         max (h·w1 + b1, 0)·w2 + b2.
  The neighbourhood mean is the summed neighbour features s [n, a] divided row by row by a divisor d [n]
  (divRow), or multiplied row by row by a column inv [n, 1] of reciprocals (scaleCol). Row p of each result
  depends on row p of the row-indexed operands only, so a block of consecutive rows of the result is the same
  formula of the same rows of the operands (the _rows lemmas).

  The one law of arithmetic: on the extended reals a quotient s / d by a divisor d ≠ 0 is s · d⁻¹, with the
  inverse of either infinity being 0; so s · (1 / d) = s · (1 · d⁻¹) = s / d for EVERY extended real s — no
  entry need be finite. The divisor here is max (count, 1) ≥ 1, never 0.
-/
import proofs.«132092_j14199161880830_1_alg».proof.Proof.LibDenseLayers

noncomputable section

namespace Cert.Net

open Idealize.ShloMosaic Idealize.ShloMosaic.ValueIdx Cert.LibMatmulPlain Cert.Layers

variable {n n' a b c : Nat}

/-- The one row of a [1, b] matrix, as a vector. -/
def rowOf (r : Mat 1 b) : Row b := fun i => r (ix2 (0 : Fin 1) (i 0))

/-- Two dense layers, each rectified. -/
def enc (x : Mat n a) (w1 : Mat a b) (b1 : Row b) (w2 : Mat b c) (b2 : Row c) : Mat n c :=
  rect (dense (rect (dense x w1 b1)) w2 b2)

/-- Every row of s multiplied by that row's entry of the column inv. -/
def scaleCol (s : Mat n a) (inv : Mat n 1) : Mat n a := fun i => s i * inv (ix2 (i 0) (0 : Fin 1))

/-- Every row of s divided by that row's entry of the vector d. -/
def divRow (s : Mat n a) (d : Row n) : Mat n a := fun i => Ideal.div (s i) (d (ix1 (i 0)))

/-- One graph convolution on the neighbourhood mean: (mean · wl + bl) + x · wr, rectified. -/
def conv (mean x : Mat n a) (wl : Mat a b) (bl : Row b) (wr : Mat a b) : Mat n b :=
  rect fun i => dense mean wl bl i + mm x wr i

/-- A rectified dense layer followed by a plain dense layer. -/
def readout (h : Mat n a) (w1 : Mat a b) (b1 : Row b) (w2 : Mat b c) (b2 : Row c) : Mat n c :=
  dense (rect (dense h w1 b1)) w2 b2

/-! ## Each row of a result depends on that row of the operands -/

theorem rect_congr {s s' : Shape} (f : s.Idx → EReal) (g : s'.Idx → EReal) (i : s.Idx) (j : s'.Idx)
    (h : f i = g j) : rect f i = rect g j :=
  congrArg (max · (Ideal.ofBits .f32 0x00000000#32)) h

theorem mm_rows (x : Mat n a) (x' : Mat n' a) (w : Mat a b) (p' : Fin n') (p : Fin n)
    (hx : ∀ j, x' (ix2 p' j) = x (ix2 p j)) (q : Fin b) : mm x' w (ix2 p' q) = mm x w (ix2 p q) := by
  rw [mm_apply, mm_apply]
  simp only [hx]

theorem dense_rows (x : Mat n a) (x' : Mat n' a) (w : Mat a b) (bb : Row b) (p' : Fin n') (p : Fin n)
    (hx : ∀ j, x' (ix2 p' j) = x (ix2 p j)) (q : Fin b) :
    dense x' w bb (ix2 p' q) = dense x w bb (ix2 p q) := by
  show mm x' w (ix2 p' q) + bias n' bb (ix2 p' q) = mm x w (ix2 p q) + bias n bb (ix2 p q)
  rw [mm_rows x x' w p' p hx q]
  rfl

theorem enc_rows (x : Mat n a) (x' : Mat n' a) (w1 : Mat a b) (b1 : Row b) (w2 : Mat b c) (b2 : Row c)
    (p' : Fin n') (p : Fin n) (hx : ∀ j, x' (ix2 p' j) = x (ix2 p j)) (q : Fin c) :
    enc x' w1 b1 w2 b2 (ix2 p' q) = enc x w1 b1 w2 b2 (ix2 p q) := by
  unfold enc
  exact rect_congr _ _ _ _
    (dense_rows _ _ w2 b2 p' p (fun k => rect_congr _ _ _ _ (dense_rows x x' w1 b1 p' p hx k)) q)

theorem scaleCol_rows (s : Mat n a) (s' : Mat n' a) (inv : Mat n 1) (inv' : Mat n' 1) (p' : Fin n') (p : Fin n)
    (hs : ∀ j, s' (ix2 p' j) = s (ix2 p j)) (hi : inv' (ix2 p' (0 : Fin 1)) = inv (ix2 p (0 : Fin 1)))
    (j : Fin a) : scaleCol s' inv' (ix2 p' j) = scaleCol s inv (ix2 p j) := by
  show s' (ix2 p' j) * inv' (ix2 p' (0 : Fin 1)) = s (ix2 p j) * inv (ix2 p (0 : Fin 1))
  rw [hs, hi]

theorem conv_rows (mean x : Mat n a) (mean' x' : Mat n' a) (wl : Mat a b) (bl : Row b) (wr : Mat a b)
    (p' : Fin n') (p : Fin n) (hm : ∀ j, mean' (ix2 p' j) = mean (ix2 p j))
    (hx : ∀ j, x' (ix2 p' j) = x (ix2 p j)) (q : Fin b) :
    conv mean' x' wl bl wr (ix2 p' q) = conv mean x wl bl wr (ix2 p q) := by
  unfold conv
  refine rect_congr _ _ _ _ ?_
  show dense mean' wl bl (ix2 p' q) + mm x' wr (ix2 p' q) = dense mean wl bl (ix2 p q) + mm x wr (ix2 p q)
  rw [dense_rows mean mean' wl bl p' p hm q, mm_rows x x' wr p' p hx q]

theorem readout_rows (h : Mat n a) (h' : Mat n' a) (w1 : Mat a b) (b1 : Row b) (w2 : Mat b c) (b2 : Row c)
    (p' : Fin n') (p : Fin n) (hh : ∀ j, h' (ix2 p' j) = h (ix2 p j)) (q : Fin c) :
    readout h' w1 b1 w2 b2 (ix2 p' q) = readout h w1 b1 w2 b2 (ix2 p q) := by
  unfold readout
  exact dense_rows _ _ w2 b2 p' p (fun k => rect_congr _ _ _ _ (dense_rows h h' w1 b1 p' p hh k)) q

/-! ## The product with a reciprocal is the quotient -/

/-- The pattern of 1.0 denotes 1. -/
theorem ofBits_one : Ideal.ofBits .f32 0x3F800000#32 = 1 := by
  simp [Ideal.ofBits, Ideal.ieee, -EReal.coe_mul]; norm_num

/-- s · (1 / d) = s / d for a divisor d ≠ 0, at every extended real s. -/
theorem mul_recip (s u d : EReal) (hu : u = 1) (hd : d ≠ 0) : s * Ideal.div u d = Ideal.div s d := by
  subst hu
  unfold Ideal.div
  rw [if_neg hd, if_neg hd, one_mul]

/-- The larger of anything and 1 is not 0. -/
theorem max_one_ne_zero (x u : EReal) (hu : u = 1) : max x u ≠ 0 := by
  subst hu
  exact ne_of_gt (lt_of_lt_of_le zero_lt_one (le_max_right x 1))

/-- Scaling the rows by the reciprocals of nonzero divisors is dividing the rows by the divisors. -/
theorem scaleCol_eq_divRow (s : Mat n a) (inv : Mat n 1) (d : Row n) (u : EReal) (hu : u = 1)
    (hd : ∀ p, d (ix1 p) ≠ 0) (hinv : ∀ p, inv (ix2 p (0 : Fin 1)) = Ideal.div u (d (ix1 p))) :
    scaleCol s inv = divRow s d := by
  funext i
  obtain ⟨p, q, rfl⟩ : ∃ (p : Fin n) (q : Fin a), i = ix2 p q := ⟨i 0, i 1, eq_ix2 i⟩
  show s (ix2 p q) * inv (ix2 p (0 : Fin 1)) = Ideal.div (s (ix2 p q)) (d (ix1 p))
  rw [hinv p, mul_recip _ _ _ hu (hd p)]

end Cert.Net

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.LibTileRows.lean ====
/-
  The vector program's spellings of the layers' pieces, on the extended reals, for any extents.

  A bias that reaches the body as a [1, n] block is cast to its own shape (the identity) and repeated down the m rows:
  entry (p, q) is the block's entry (0, q). A column [m, 1] of per-row factors is cast to its own shape and repeated
  across the n columns, and multiplies an [m, n] block entry by entry: entry (p, q) is s(p, q) times the column's
  row p. A product on the matrix unit into a zero accumulator, the weight cast to a narrower float format first (the
  identity on the extended reals), plus such a bias is one dense layer.
-/
import proofs.«132092_j14199161880830_1_alg».proof.Proof.LibMeanConv
import proofs.«132092_j14199161880830_1_alg».proof.Proof.LibKeepdims
import Idealize.ShloMosaic.Lib.ValueLayout
import Idealize.ShloMosaic.Lib.Pipeline.Value

noncomputable section

namespace Cert.Net

open Idealize.ShloMosaic Idealize.ShloMosaic.ValueIdx Cert.LibMatmulPlain Cert.Layers

variable {m k n : Nat}

/-- A [1, n] bias block, cast to its own shape and repeated down m rows. -/
theorem tileBiasRow_eq (r : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ r hc) hb = bias m (rowOf r) := by
  rw [shapeCast_self]
  funext i
  obtain ⟨p, q, rfl⟩ : ∃ (p : Fin m) (q : Fin n), i = ix2 p q := ⟨i 0, i 1, eq_ix2 i⟩
  exact broadcastTo_1b_ab_apply r hb p q

/-- An [m, n] block (cast to its own shape) times an [m, 1] column (cast to its own shape) repeated across the columns. -/
theorem tileScaleCol_eq (s : FVec Ideal ⟨2, ![m, n]⟩ .f32) (inv : FVec Ideal ⟨2, ![m, 1]⟩ .f32)
    (hs : (⟨2, ![m, n]⟩ : Shape).ShapeCasts ⟨2, ![m, n]⟩) (hc : (⟨2, ![m, 1]⟩ : Shape).ShapeCasts ⟨2, ![m, 1]⟩)
    (hb : (⟨2, ![m, 1]⟩ : Shape).Broadcasts ⟨2, ![m, n]⟩) :
    mulf (shapeCast ⟨2, ![m, n]⟩ s hs) (broadcastTo ⟨2, ![m, n]⟩ (shapeCast ⟨2, ![m, 1]⟩ inv hc) hb) = scaleCol s inv := by
  rw [shapeCast_self, shapeCast_self]
  funext i
  obtain ⟨p, q, rfl⟩ : ∃ (p : Fin m) (q : Fin n), i = ix2 p q := ⟨i 0, i 1, eq_ix2 i⟩
  show s (ix2 p q) * broadcastTo ⟨2, ![m, n]⟩ inv hb (ix2 p q) = s (ix2 p q) * inv (ix2 p (0 : Fin 1))
  rw [Cert.Lib.Keepdims.bcastCol_apply inv hb p q]

/-- One dense layer as the vector program spells it: the product into a zero accumulator, the weight cast to a
    narrower format first, plus the [1, n] bias block repeated down the rows. -/
theorem tileDenseRow_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits)
    (r : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) :
    addf (matmul d none a (truncf ψ w hψ) (constant ⟨2, ![m, n]⟩ .f32 0x00000000#32))
        (broadcastTo ⟨2, ![m, n]⟩ (shapeCast ⟨2, ![1, n]⟩ r hc) hb)
      = dense a w (rowOf r) := by
  rw [tileMm_eq d wf hd a w hψ, tileBiasRow_eq r hc hb]
  rfl

end Cert.Net

end
-- ==== Proof.Spec.lean ====
/-
  The vocabulary of a graph-isomorphism network's dense stages on the extended reals, for any extents.

  Besides the two-layer perceptron  max(h · w1 + b1, 0) · w2 + b2  (the library's readout), one stage is new here: the
  batch normalisation of an [n, d] matrix z by per-column statistics followed by the rectifier. With mean, var, g, b
  vectors of length d, entry (p, q) is

      max( ((z(p,q) - mean(q)) * rsqrt(var(q) + eps)) * g(q) + b(q), 0 ),

  the operations taken in exactly this order (subtract, scale by the reciprocal root, scale by the gain, add the offset),
  eps the value of the f32 word 0x3727C5AC. Entry (p, q) depends on row p of z only, so the stage computed on a block of
  consecutive rows is the block of the stage computed on the whole matrix. The sum h + agg that feeds a convolution's
  perceptron is taken entry by entry, so it too is row-local.
-/
import proofs.«132092_j14199161880830_1_alg».proof.Proof.LibTileRows

noncomputable section

namespace Cert.Gin

open Idealize.ShloMosaic Idealize.ShloMosaic.ValueIdx Cert.Layers Cert.Net

variable {n n' d : Nat}

/-- The value added to a variance before the reciprocal root is taken. -/
def eps : EReal := Ideal.ofBits .f32 0x3727C5AC#32

/-- Entry by entry sum of two matrices. -/
def plus (x y : Mat n d) : Mat n d := fun i => x i + y i

/-- The normalised, scaled, shifted entry before the rectifier. -/
def bnEntry (z mean var g b : EReal) : EReal := ((z - mean) * Ideal.rsqrt (var + eps)) * g + b

/-- Batch normalisation by per-column statistics, then the rectifier. -/
def bnRelu (z : Mat n d) (mean var g b : Row d) : Mat n d :=
  rect fun i => bnEntry (z i) (mean (ix1 (i 1))) (var (ix1 (i 1))) (g (ix1 (i 1))) (b (ix1 (i 1)))

theorem bnRelu_apply (z : Mat n d) (mean var g b : Row d) (p : Fin n) (q : Fin d) :
    bnRelu z mean var g b (ix2 p q)
      = max (bnEntry (z (ix2 p q)) (mean (ix1 q)) (var (ix1 q)) (g (ix1 q)) (b (ix1 q))) (Ideal.ofBits .f32 0x00000000#32) := rfl

theorem plus_apply (x y : Mat n d) (i : (⟨2, ![n, d]⟩ : Shape).Idx) : plus x y i = x i + y i := rfl

/-- Row p' of the normalised block is row p of the normalised matrix when the two rows of z agree. -/
theorem bnRelu_rows (z : Mat n d) (z' : Mat n' d) (mean var g b : Row d) (p' : Fin n') (p : Fin n)
    (hz : ∀ j, z' (ix2 p' j) = z (ix2 p j)) (q : Fin d) :
    bnRelu z' mean var g b (ix2 p' q) = bnRelu z mean var g b (ix2 p q) := by
  rw [bnRelu_apply, bnRelu_apply, hz q]

/-- Row p' of the sum of two blocks is row p of the sum of the matrices when the rows agree. -/
theorem plus_rows (x y : Mat n d) (x' y' : Mat n' d) (p' : Fin n') (p : Fin n)
    (hx : ∀ j, x' (ix2 p' j) = x (ix2 p j)) (hy : ∀ j, y' (ix2 p' j) = y (ix2 p j)) (j : Fin d) :
    plus x' y' (ix2 p' j) = plus x y (ix2 p j) := by
  rw [plus_apply, plus_apply, hx j, hy j]

end Cert.Gin

end
-- ==== Proof.Net.lean ====
/-
  A three-layer graph-isomorphism network with a pooled two-layer head, as ONE function of its thirty arguments on the
  extended reals.

  The dense stages are spelt out (Spec: the two-layer perceptron, the entry-by-entry sum, batch normalisation with the
  rectifier). The five irregular stages are carried as a record of functions and never opened: the embedding lookup,
  the neighbour sum along the edges, the column mean and the column variance of a node matrix, and the per-graph sum.
  Two programs that apply the same five functions between the same dense stages compute the same network.

      h0 = mlp(embed x emb; iw1 ib1 iw2 ib2)
      z_l = mlp(h_{l-1} + agg h_{l-1} edges; w1_l b1_l w2_l b2_l),   h_l = bnRelu(z_l; mean z_l, var z_l, g_l, be_l)     l = 1, 2, 3
      out = mlp(pool h3 batch; f1w f1b f2w f2b)
-/
import proofs.«132092_j14199161880830_1_alg».proof.Proof.Spec

noncomputable section

namespace Cert.Gin

open Idealize.ShloMosaic Idealize.ShloMosaic.ValueIdx Cert.Layers Cert.Net

/-- 32-bit integer arrays of a shape, as the programs hold them. -/
abbrev IArr (s : Shape) : Type := (⟨s, .i32⟩ : BufTy).Contents (Elt Ideal)

/-- The five irregular stages, kept as functions. -/
structure HostFns where
  /-- rows of the table at the node labels -/
  embed : IArr ⟨1, ![100000]⟩ → Mat 500 128 → Mat 100000 128
  /-- for every node the sum of the rows of its in-neighbours along the edge list -/
  agg : Mat 100000 128 → IArr ⟨2, ![2, 1600000]⟩ → Mat 100000 128
  /-- the mean of every column -/
  mean : Mat 100000 128 → Row 128
  /-- the variance of every column -/
  var : Mat 100000 128 → Row 128
  /-- for every graph the sum of the rows of its nodes -/
  pool : Mat 100000 128 → IArr ⟨1, ![100000]⟩ → Mat 512 128

/-- One convolution layer: the perceptron of h + agg h, normalised over the nodes and rectified. -/
def layer (H : HostFns) (h : Mat 100000 128) (ei : IArr ⟨2, ![2, 1600000]⟩)
    (w1 : Mat 128 128) (b1 : Row 128) (w2 : Mat 128 128) (b2 : Row 128) (g be : Row 128) : Mat 100000 128 :=
  bnRelu (readout (plus h (H.agg h ei)) w1 b1 w2 b2)
    (H.mean (readout (plus h (H.agg h ei)) w1 b1 w2 b2)) (H.var (readout (plus h (H.agg h ei)) w1 b1 w2 b2)) g be

/-- The whole network, arguments in the programs' order. -/
def net (H : HostFns) (x : IArr ⟨1, ![100000]⟩) (ei : IArr ⟨2, ![2, 1600000]⟩) (batch : IArr ⟨1, ![100000]⟩)
    (emb : Mat 500 128) (iw1 : Mat 128 128) (ib1 : Row 128) (iw2 : Mat 128 128) (ib2 : Row 128)
    (c1w1 : Mat 128 128) (c1b1 : Row 128) (c1w2 : Mat 128 128) (c1b2 : Row 128) (g1 be1 : Row 128)
    (c2w1 : Mat 128 128) (c2b1 : Row 128) (c2w2 : Mat 128 128) (c2b2 : Row 128) (g2 be2 : Row 128)
    (c3w1 : Mat 128 128) (c3b1 : Row 128) (c3w2 : Mat 128 128) (c3b2 : Row 128) (g3 be3 : Row 128)
    (f1w : Mat 128 128) (f1b : Row 128) (f2w : Mat 128 10) (f2b : Row 10) : Mat 512 10 :=
  readout
    (H.pool
      (layer H (layer H (layer H (readout (H.embed x emb) iw1 ib1 iw2 ib2) ei c1w1 c1b1 c1w2 c1b2 g1 be1)
        ei c2w1 c2b1 c2w2 c2b2 g2 be2) ei c3w1 c3b1 c3w2 c3b2 g3 be3)
      batch)
    f1w f1b f2w f2b

end Cert.Gin

end
-- ==== Proof.KHost.lean ====
/-
  The five irregular stages of the network as the kernel's program spells them on the host, each as one
  function of the arrays it reads.

  embed: a label is made non-negative by adding the table's extent 500 where it is below zero, laid out as a
  column, and the table's rows are gathered at it.
  agg: rows 0 and 1 of the [2, E] edge array are the sources and the destinations; a source is made non-negative
  by adding the node count where it is below zero; the rows of h at the sources are gathered and summed into a zero
  matrix at the destinations.
  mean: the column sums from the zero word, divided by the word of 100000.
  var: the column sums of the squared deviations from the column means, divided by 100000 - 0 (the integer 0
  converted), and replaced by the quiet not-a-number word unless that divisor is positive.
  pool: the rows of h summed into a [512, 128] zero matrix at the graph labels.
-/
import proofs.«132092_j14199161880830_1_alg».proof.KernelIdeal
import proofs.«132092_j14199161880830_1_alg».proof.Proof.Net

noncomputable section

namespace Cert.Gin.Ker

open Idealize.ShloMosaic Cert.KernelIdeal Cert.Layers Cert.Gin
open Cert.KernelIdeal.Facts₀

variable [Cert.KernelIdeal.Facts₀]

/-- The table's rows at the node labels. -/
def embed (x : IArr ⟨1, ![100000]⟩) (emb : Mat 500 128) : Mat 100000 128 :=
  Host.gather gather_S500x128_S100000x1_S100000x128_1_0_n_n_0_1_1128 emb
    (broadcastInDim S100000x1 ![0] bcast_S100000_S100000x1_0
      (select (cmpi .slt x (broadcastInDim S100000 ![] bcast_S_S100000 (constantI S_ 32 0#32)))
        (addi x (broadcastInDim S100000 ![] bcast_S_S100000 (constantI S_ 32 500#32)))
        x))

/-- Row r of the edge array as a vector of length E. -/
def edgeRow0 (ei : IArr ⟨2, ![2, 1600000]⟩) : IArr ⟨1, ![1600000]⟩ :=
  shapeCast S1600000 (extractStridedSlice S1x1600000 ![0, 0] ei slices_S2x1600000_S1x1600000_0_0)
    shapeCasts_S1x1600000_S1600000
def edgeRow1 (ei : IArr ⟨2, ![2, 1600000]⟩) : IArr ⟨1, ![1600000]⟩ :=
  shapeCast S1600000 (extractStridedSlice S1x1600000 ![1, 0] ei slices_S2x1600000_S1x1600000_1_0)
    shapeCasts_S1x1600000_S1600000

/-- The neighbour sum from the two rows of the edge array: gather at the sources, sum at the destinations. -/
def aggRows (h : Mat 100000 128) (src dst : IArr ⟨1, ![1600000]⟩) : Mat 100000 128 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

/-- The neighbour sum along the edge list. -/
def agg (h : Mat 100000 128) (ei : IArr ⟨2, ![2, 1600000]⟩) : Mat 100000 128 :=
  aggRows h (edgeRow0 ei) (edgeRow1 ei)

/-- The column means. -/
def mean (z : Mat 100000 128) : Row 128 :=
  Host.divf (F := Ideal)
    (Host.reduceAdd (F := Ideal) z (constant (F := Ideal) S_ .f32 0x00000000#32) reducesTo_S100000x128_S128_d0 h_S_)
    (broadcastInDim S128 ![] bcast_S_S128 (constant (F := Ideal) S_ .f32 0x47C35000#32))

/-- The column variances. -/
def var (z : Mat 100000 128) : Row 128 :=
  select
    (broadcastInDim S128 ![] bcast_S_S128
      (cmpf (F := Ideal) .ogt
        (subf (F := Ideal) (constant (F := Ideal) S_ .f32 0x47C35000#32) (sitofp (F := Ideal) .f32 (constantI S_ 32 0#32)))
        (constant (F := Ideal) S_ .f32 0x00000000#32)))
    (Host.divf (F := Ideal)
      (Host.reduceAdd (F := Ideal)
        (mulf (F := Ideal)
          (subf (F := Ideal) z
            (broadcastInDim S100000x128 ![0, 1] bcast_S1x128_S100000x128_0_1
              (Host.divf (F := Ideal)
                (broadcastInDim S1x128 ![1] bcast_S128_S1x128_1
                  (Host.reduceAdd (F := Ideal) z (constant (F := Ideal) S_ .f32 0x00000000#32) reducesTo_S100000x128_S128_d0 h_S_))
                (broadcastInDim S1x128 ![] bcast_S_S1x128 (constant (F := Ideal) S_ .f32 0x47C35000#32)))))
          (subf (F := Ideal) z
            (broadcastInDim S100000x128 ![0, 1] bcast_S1x128_S100000x128_0_1
              (Host.divf (F := Ideal)
                (broadcastInDim S1x128 ![1] bcast_S128_S1x128_1
                  (Host.reduceAdd (F := Ideal) z (constant (F := Ideal) S_ .f32 0x00000000#32) reducesTo_S100000x128_S128_d0 h_S_))
                (broadcastInDim S1x128 ![] bcast_S_S1x128 (constant (F := Ideal) S_ .f32 0x47C35000#32))))))
        (constant (F := Ideal) S_ .f32 0x00000000#32) reducesTo_S100000x128_S128_d0 h_S_)
      (broadcastInDim S128 ![] bcast_S_S128
        (subf (F := Ideal) (constant (F := Ideal) S_ .f32 0x47C35000#32) (sitofp (F := Ideal) .f32 (constantI S_ 32 0#32)))))
    (broadcastInDim S128 ![] bcast_S_S128 (id (constant (F := Ideal) S_ .f32 0x7FC00000#32)))

/-- The per-graph sums. -/
def pool (h : Mat 100000 128) (batch : IArr ⟨1, ![100000]⟩) : Mat 512 128 :=
  Host.scatterAdd (F := Ideal) scatter_S512x128_S100000x1_S100000x128_1_0_0_1
    (broadcastInDim S512x128 ![] bcast_S_S512x128 (constant (F := Ideal) S_ .f32 0x00000000#32))
    (broadcastInDim S100000x1 ![0] bcast_S100000_S100000x1_0 batch)
    h

/-- The five stages as the kernel's program spells them. -/
def H : Cert.Gin.HostFns where
  embed := embed
  agg := agg
  mean := mean
  var := var
  pool := pool

end Cert.Gin.Ker

end
-- ==== Proof.KWrites.lean ====
/-
  A straight line of host operations leaves every buffer it does not write as it was. The buffers a line writes are
  listed once; a buffer outside the list keeps its contents.
-/
import Idealize.ShloMosaic.Lib.StableHlo.Run

noncomputable section

namespace Cert.Gin.Ker

open Idealize.ShloMosaic Idealize.ShloMosaic.StableHlo

variable {τ : Topo} {sig : RefSig}

/-- One written buffer, a member of the list, lies in the list's set of device buffers. -/
theorem single_sub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

end Cert.Gin.Ker

end
-- ==== Proof.KRowOf.lean ====
/-
  A vector of length n laid out as a matrix of one row, read back as that row, is the vector.
-/
import proofs.«132092_j14199161880830_1_alg».proof.Proof.LibMeanConv

noncomputable section

namespace Cert.Gin.Ker

open Idealize.ShloMosaic Idealize.ShloMosaic.ValueIdx Cert.Layers Cert.Net

theorem rowOf_cast {n : Nat} (b : Row n) (h : (⟨1, ![n]⟩ : Shape).ShapeCasts ⟨2, ![1, n]⟩) :
    rowOf (shapeCast ⟨2, ![1, n]⟩ b h) = b := by
  funext i
  exact (shapeCast_a_1a_apply b h (0 : Fin 1) (i 0)).trans (congrArg b (eq_ix1 i).symm)

end Cert.Gin.Ker

end
-- ==== Proof.KStretch0.lean ====
/-
  The first line of host operations, from any contents U: the embedding lookup of the labels, the two rows of the
  edge array as vectors, and the first perceptron's two bias vectors laid out as one row each.
-/
import proofs.«132092_j14199161880830_1_alg».proof.Proof.Gen.KernelIdeal.Launch
import proofs.«132092_j14199161880830_1_alg».proof.Proof.KHost
import proofs.«132092_j14199161880830_1_alg».proof.Proof.KWrites
import proofs.«132092_j14199161880830_1_alg».proof.Proof.KRowOf

noncomputable section

namespace Cert.Gin.Ker

open Idealize.ShloMosaic Idealize.ShloMosaic.StableHlo Cert.KernelIdeal Cert.KernelIdeal.Gen Cert.Layers Cert.Net Cert.Gin
open Cert.KernelIdeal.Facts₀

attribute [local irreducible] Host.gather Host.scatterAdd Host.reduceAdd

variable (U : Valuation τ sig (Elt Ideal))

theorem s0_v10 : (after hostOps0 U (Proc.devRef .tc main_v10) : Mat 100000 128)
    = embed (U (Proc.devRef .tc main_arg0)) (U (Proc.devRef .tc main_arg3)) := by
  after_results; rfl

theorem s0_v1 : (after hostOps0 U (Proc.devRef .tc main_v1) : IArr ⟨1, ![1600000]⟩) = edgeRow0 (U (Proc.devRef .tc main_arg1)) := by
  after_results; rfl

theorem s0_v3 : (after hostOps0 U (Proc.devRef .tc main_v3) : IArr ⟨1, ![1600000]⟩) = edgeRow1 (U (Proc.devRef .tc main_arg1)) := by
  after_results; rfl

theorem s0_v11 : rowOf (after hostOps0 U (Proc.devRef .tc main_v11) : Mat 1 128) = (U (Proc.devRef .tc main_arg5) : Row 128) := by
  have e : (after hostOps0 U (Proc.devRef .tc main_v11) : Mat 1 128)
      = shapeCast S1x128 (U (Proc.devRef .tc main_arg5) : Row 128) Facts₀.shapeCasts_S128_S1x128 := by
    after_results; rfl
  exact (congrArg rowOf e).trans (rowOf_cast _ _)

theorem s0_v12 : rowOf (after hostOps0 U (Proc.devRef .tc main_v12) : Mat 1 128) = (U (Proc.devRef .tc main_arg7) : Row 128) := by
  have e : (after hostOps0 U (Proc.devRef .tc main_v12) : Mat 1 128)
      = shapeCast S1x128 (U (Proc.devRef .tc main_arg7) : Row 128) Facts₀.shapeCasts_S128_S1x128 := by
    after_results; rfl
  exact (congrArg rowOf e).trans (rowOf_cast _ _)

/-- The buffers this line writes. -/
def wr0 : List (Ref sig .tc) := [main_v0, main_v1, main_v2, main_v3, main_c, main_v4, main_v5, main_c_0, main_v6, main_v7, main_v8, main_v9, main_v10, main_v11, main_v12]

theorem hostOps0_writes :
    (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- A buffer the line does not write keeps its contents. -/
theorem keep0 (U : Valuation τ sig (Elt Ideal)) (r : Ref sig .tc) (hr : r ∉ wr0) :
    after hostOps0 U (Proc.devRef .tc r) = U (Proc.devRef .tc r) :=
  after_of_writes_sub _ _ hostOps0_writes hr

end Cert.Gin.Ker

end
-- ==== Proof.KStretch1.lean ====
/-
  The line of host operations before the first convolution's perceptron, from any contents U: the neighbour sum of the
  node matrix along the edge rows (gather at the sources, sum into zeros at the destinations), and the perceptron's two
  bias vectors laid out as one row each.
-/
import proofs.«132092_j14199161880830_1_alg».proof.Proof.Gen.KernelIdeal.Launch
import proofs.«132092_j14199161880830_1_alg».proof.Proof.KHost
import proofs.«132092_j14199161880830_1_alg».proof.Proof.KWrites
import proofs.«132092_j14199161880830_1_alg».proof.Proof.KRowOf

noncomputable section

namespace Cert.Gin.Ker

open Idealize.ShloMosaic Idealize.ShloMosaic.StableHlo Cert.KernelIdeal Cert.KernelIdeal.Gen Cert.Layers Cert.Net Cert.Gin
open Cert.KernelIdeal.Facts₀

attribute [local irreducible] Host.gather Host.scatterAdd Host.reduceAdd

variable (U : Valuation τ sig (Elt Ideal))

theorem s1_v23 : (after hostOps1 U (Proc.devRef .tc main_v23) : Mat 100000 128)
    = aggRows (U (Proc.devRef .tc main_v13)) (U (Proc.devRef .tc main_v1)) (U (Proc.devRef .tc main_v3)) := by
  after_results_simp; rfl

theorem s1_v24 : rowOf (after hostOps1 U (Proc.devRef .tc main_v24) : Mat 1 128) = (U (Proc.devRef .tc main_arg9) : Row 128) := by
  have e : (after hostOps1 U (Proc.devRef .tc main_v24) : Mat 1 128)
      = shapeCast S1x128 (U (Proc.devRef .tc main_arg9) : Row 128) Facts₀.shapeCasts_S128_S1x128 := by
    after_results; rfl
  exact (congrArg rowOf e).trans (rowOf_cast _ _)

theorem s1_v25 : rowOf (after hostOps1 U (Proc.devRef .tc main_v25) : Mat 1 128) = (U (Proc.devRef .tc main_arg11) : Row 128) := by
  have e : (after hostOps1 U (Proc.devRef .tc main_v25) : Mat 1 128)
      = shapeCast S1x128 (U (Proc.devRef .tc main_arg11) : Row 128) Facts₀.shapeCasts_S128_S1x128 := by
    after_results; rfl
  exact (congrArg rowOf e).trans (rowOf_cast _ _)

/-- The buffers this line writes. -/
def wr1 : List (Ref sig .tc) := [main_c_1, main_v14, main_v15, main_c_2, main_v16, main_v17, main_v18, main_v19, main_v20, main_cst, main_v21, main_v22, main_v23, main_v24, main_v25]

theorem hostOps1_writes :
    (hostOps1 : List (HloOp τ sig (Elt Ideal))).Forall fun op => op.writes ⊆ (wr1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- A buffer the line does not write keeps its contents. -/
theorem keep1 (U : Valuation τ sig (Elt Ideal)) (r : Ref sig .tc) (hr : r ∉ wr1) :
    after hostOps1 U (Proc.devRef .tc r) = U (Proc.devRef .tc r) :=
  after_of_writes_sub _ _ hostOps1_writes hr

end Cert.Gin.Ker

end
-- ==== Proof.KStretch2.lean ====
/-
  The column means of the first convolution's perceptron output, from any contents U: the column sums from the zero
  word divided by the word of 100000.
-/
import proofs.«132092_j14199161880830_1_alg».proof.Proof.Gen.KernelIdeal.Launch
import proofs.«132092_j14199161880830_1_alg».proof.Proof.KHost
import proofs.«132092_j14199161880830_1_alg».proof.Proof.KWrites

noncomputable section

namespace Cert.Gin.Ker

open Idealize.ShloMosaic Idealize.ShloMosaic.StableHlo Cert.KernelIdeal Cert.KernelIdeal.Gen Cert.Layers Cert.Gin
open Cert.KernelIdeal.Facts₀

attribute [local irreducible] Host.gather Host.scatterAdd Host.reduceAdd

variable (U : Valuation τ sig (Elt Ideal))

theorem s2_v29 : (after hostOps2 U (Proc.devRef .tc main_v29) : Row 128) = mean (U (Proc.devRef .tc main_v26)) := by
  after_results; rfl

/-- The buffers this line writes. -/
def wr2 : List (Ref sig .tc) := [main_cst_3, main_v27, main_cst_4, main_v28, main_v29, main_c_5]

theorem hostOps2_writes :
    (hostOps2 : List (HloOp τ sig (Elt Ideal))).Forall fun op => op.writes ⊆ (wr2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- A buffer the line does not write keeps its contents. -/
theorem keep2 (U : Valuation τ sig (Elt Ideal)) (r : Ref sig .tc) (hr : r ∉ wr2) :
    after hostOps2 U (Proc.devRef .tc r) = U (Proc.devRef .tc r) :=
  after_of_writes_sub _ _ hostOps2_writes hr

end Cert.Gin.Ker

end
-- ==== Proof.KStretch3.lean ====
/-
  The line of host operations before the second convolution's perceptron, from any contents U: the neighbour sum of the
  node matrix along the edge rows (gather at the sources, sum into zeros at the destinations), and the perceptron's two
  bias vectors laid out as one row each.
-/
import proofs.«132092_j14199161880830_1_alg».proof.Proof.Gen.KernelIdeal.Launch
import proofs.«132092_j14199161880830_1_alg».proof.Proof.KHost
import proofs.«132092_j14199161880830_1_alg».proof.Proof.KWrites
import proofs.«132092_j14199161880830_1_alg».proof.Proof.KRowOf

noncomputable section

namespace Cert.Gin.Ker

open Idealize.ShloMosaic Idealize.ShloMosaic.StableHlo Cert.KernelIdeal Cert.KernelIdeal.Gen Cert.Layers Cert.Net Cert.Gin
open Cert.KernelIdeal.Facts₀

attribute [local irreducible] Host.gather Host.scatterAdd Host.reduceAdd

variable (U : Valuation τ sig (Elt Ideal))

theorem s3_v45 : (after hostOps3 U (Proc.devRef .tc main_v45) : Mat 100000 128)
    = aggRows (U (Proc.devRef .tc main_v35)) (U (Proc.devRef .tc main_v1)) (U (Proc.devRef .tc main_v3)) := by
  after_results_simp; rfl

theorem s3_v46 : rowOf (after hostOps3 U (Proc.devRef .tc main_v46) : Mat 1 128) = (U (Proc.devRef .tc main_arg15) : Row 128) := by
  have e : (after hostOps3 U (Proc.devRef .tc main_v46) : Mat 1 128)
      = shapeCast S1x128 (U (Proc.devRef .tc main_arg15) : Row 128) Facts₀.shapeCasts_S128_S1x128 := by
    after_results; rfl
  exact (congrArg rowOf e).trans (rowOf_cast _ _)

theorem s3_v47 : rowOf (after hostOps3 U (Proc.devRef .tc main_v47) : Mat 1 128) = (U (Proc.devRef .tc main_arg17) : Row 128) := by
  have e : (after hostOps3 U (Proc.devRef .tc main_v47) : Mat 1 128)
      = shapeCast S1x128 (U (Proc.devRef .tc main_arg17) : Row 128) Facts₀.shapeCasts_S128_S1x128 := by
    after_results; rfl
  exact (congrArg rowOf e).trans (rowOf_cast _ _)

/-- The buffers this line writes. -/
def wr3 : List (Ref sig .tc) := [main_c_6, main_v36, main_v37, main_c_7, main_v38, main_v39, main_v40, main_v41, main_v42, main_cst_8, main_v43, main_v44, main_v45, main_v46, main_v47]

theorem hostOps3_writes :
    (hostOps3 : List (HloOp τ sig (Elt Ideal))).Forall fun op => op.writes ⊆ (wr3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- A buffer the line does not write keeps its contents. -/
theorem keep3 (U : Valuation τ sig (Elt Ideal)) (r : Ref sig .tc) (hr : r ∉ wr3) :
    after hostOps3 U (Proc.devRef .tc r) = U (Proc.devRef .tc r) :=
  after_of_writes_sub _ _ hostOps3_writes hr

end Cert.Gin.Ker

end
-- ==== Proof.KStretch4.lean ====
/-
  The column means of the second convolution's perceptron output, from any contents U: the column sums from the zero
  word divided by the word of 100000.
-/
import proofs.«132092_j14199161880830_1_alg».proof.Proof.Gen.KernelIdeal.Launch
import proofs.«132092_j14199161880830_1_alg».proof.Proof.KHost
import proofs.«132092_j14199161880830_1_alg».proof.Proof.KWrites

noncomputable section

namespace Cert.Gin.Ker

open Idealize.ShloMosaic Idealize.ShloMosaic.StableHlo Cert.KernelIdeal Cert.KernelIdeal.Gen Cert.Layers Cert.Gin
open Cert.KernelIdeal.Facts₀

attribute [local irreducible] Host.gather Host.scatterAdd Host.reduceAdd

variable (U : Valuation τ sig (Elt Ideal))

theorem s4_v51 : (after hostOps4 U (Proc.devRef .tc main_v51) : Row 128) = mean (U (Proc.devRef .tc main_v48)) := by
  after_results; rfl

/-- The buffers this line writes. -/
def wr4 : List (Ref sig .tc) := [main_cst_9, main_v49, main_cst_10, main_v50, main_v51, main_c_11]

theorem hostOps4_writes :
    (hostOps4 : List (HloOp τ sig (Elt Ideal))).Forall fun op => op.writes ⊆ (wr4.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- A buffer the line does not write keeps its contents. -/
theorem keep4 (U : Valuation τ sig (Elt Ideal)) (r : Ref sig .tc) (hr : r ∉ wr4) :
    after hostOps4 U (Proc.devRef .tc r) = U (Proc.devRef .tc r) :=
  after_of_writes_sub _ _ hostOps4_writes hr

end Cert.Gin.Ker

end
-- ==== Proof.KStretch5.lean ====
/-
  The line of host operations before the third convolution's perceptron, from any contents U: the neighbour sum of the
  node matrix along the edge rows (gather at the sources, sum into zeros at the destinations), and the perceptron's two
  bias vectors laid out as one row each.
-/
import proofs.«132092_j14199161880830_1_alg».proof.Proof.Gen.KernelIdeal.Launch
import proofs.«132092_j14199161880830_1_alg».proof.Proof.KHost
import proofs.«132092_j14199161880830_1_alg».proof.Proof.KWrites
import proofs.«132092_j14199161880830_1_alg».proof.Proof.KRowOf

noncomputable section

namespace Cert.Gin.Ker

open Idealize.ShloMosaic Idealize.ShloMosaic.StableHlo Cert.KernelIdeal Cert.KernelIdeal.Gen Cert.Layers Cert.Net Cert.Gin
open Cert.KernelIdeal.Facts₀

attribute [local irreducible] Host.gather Host.scatterAdd Host.reduceAdd

variable (U : Valuation τ sig (Elt Ideal))

theorem s5_v67 : (after hostOps5 U (Proc.devRef .tc main_v67) : Mat 100000 128)
    = aggRows (U (Proc.devRef .tc main_v57)) (U (Proc.devRef .tc main_v1)) (U (Proc.devRef .tc main_v3)) := by
  after_results_simp; rfl

theorem s5_v68 : rowOf (after hostOps5 U (Proc.devRef .tc main_v68) : Mat 1 128) = (U (Proc.devRef .tc main_arg21) : Row 128) := by
  have e : (after hostOps5 U (Proc.devRef .tc main_v68) : Mat 1 128)
      = shapeCast S1x128 (U (Proc.devRef .tc main_arg21) : Row 128) Facts₀.shapeCasts_S128_S1x128 := by
    after_results; rfl
  exact (congrArg rowOf e).trans (rowOf_cast _ _)

theorem s5_v69 : rowOf (after hostOps5 U (Proc.devRef .tc main_v69) : Mat 1 128) = (U (Proc.devRef .tc main_arg23) : Row 128) := by
  have e : (after hostOps5 U (Proc.devRef .tc main_v69) : Mat 1 128)
      = shapeCast S1x128 (U (Proc.devRef .tc main_arg23) : Row 128) Facts₀.shapeCasts_S128_S1x128 := by
    after_results; rfl
  exact (congrArg rowOf e).trans (rowOf_cast _ _)

/-- The buffers this line writes. -/
def wr5 : List (Ref sig .tc) := [main_c_12, main_v58, main_v59, main_c_13, main_v60, main_v61, main_v62, main_v63, main_v64, main_cst_14, main_v65, main_v66, main_v67, main_v68, main_v69]

theorem hostOps5_writes :
    (hostOps5 : List (HloOp τ sig (Elt Ideal))).Forall fun op => op.writes ⊆ (wr5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- A buffer the line does not write keeps its contents. -/
theorem keep5 (U : Valuation τ sig (Elt Ideal)) (r : Ref sig .tc) (hr : r ∉ wr5) :
    after hostOps5 U (Proc.devRef .tc r) = U (Proc.devRef .tc r) :=
  after_of_writes_sub _ _ hostOps5_writes hr

end Cert.Gin.Ker

end
-- ==== Proof.KStretch6.lean ====
/-
  The column means of the third convolution's perceptron output, from any contents U: the column sums from the zero
  word divided by the word of 100000.
-/
import proofs.«132092_j14199161880830_1_alg».proof.Proof.Gen.KernelIdeal.Launch
import proofs.«132092_j14199161880830_1_alg».proof.Proof.KHost
import proofs.«132092_j14199161880830_1_alg».proof.Proof.KWrites

noncomputable section

namespace Cert.Gin.Ker

open Idealize.ShloMosaic Idealize.ShloMosaic.StableHlo Cert.KernelIdeal Cert.KernelIdeal.Gen Cert.Layers Cert.Gin
open Cert.KernelIdeal.Facts₀

attribute [local irreducible] Host.gather Host.scatterAdd Host.reduceAdd

variable (U : Valuation τ sig (Elt Ideal))

theorem s6_v73 : (after hostOps6 U (Proc.devRef .tc main_v73) : Row 128) = mean (U (Proc.devRef .tc main_v70)) := by
  after_results; rfl

/-- The buffers this line writes. -/
def wr6 : List (Ref sig .tc) := [main_cst_15, main_v71, main_cst_16, main_v72, main_v73, main_c_17]

theorem hostOps6_writes :
    (hostOps6 : List (HloOp τ sig (Elt Ideal))).Forall fun op => op.writes ⊆ (wr6.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- A buffer the line does not write keeps its contents. -/
theorem keep6 (U : Valuation τ sig (Elt Ideal)) (r : Ref sig .tc) (hr : r ∉ wr6) :
    after hostOps6 U (Proc.devRef .tc r) = U (Proc.devRef .tc r) :=
  after_of_writes_sub _ _ hostOps6_writes hr

end Cert.Gin.Ker

end
-- ==== Proof.KStretch7.lean ====
/-
  The last line of host operations, from any contents U: the per-graph sum of the node matrix's rows into zeros at the
  graph labels, and the head's two bias vectors laid out as one row each.
-/
import proofs.«132092_j14199161880830_1_alg».proof.Proof.Gen.KernelIdeal.Launch
import proofs.«132092_j14199161880830_1_alg».proof.Proof.KHost
import proofs.«132092_j14199161880830_1_alg».proof.Proof.KWrites
import proofs.«132092_j14199161880830_1_alg».proof.Proof.KRowOf

noncomputable section

namespace Cert.Gin.Ker

open Idealize.ShloMosaic Idealize.ShloMosaic.StableHlo Cert.KernelIdeal Cert.KernelIdeal.Gen Cert.Layers Cert.Net Cert.Gin
open Cert.KernelIdeal.Facts₀

attribute [local irreducible] Host.gather Host.scatterAdd Host.reduceAdd

variable (U : Valuation τ sig (Elt Ideal))

theorem s7_v82 : (after hostOps7 U (Proc.devRef .tc main_v82) : Mat 512 128)
    = pool (U (Proc.devRef .tc main_v79)) (U (Proc.devRef .tc main_arg2)) := by
  after_results; rfl

theorem s7_v83 : rowOf (after hostOps7 U (Proc.devRef .tc main_v83) : Mat 1 128) = (U (Proc.devRef .tc main_arg27) : Row 128) := by
  have e : (after hostOps7 U (Proc.devRef .tc main_v83) : Mat 1 128)
      = shapeCast S1x128 (U (Proc.devRef .tc main_arg27) : Row 128) Facts₀.shapeCasts_S128_S1x128 := by
    after_results; rfl
  exact (congrArg rowOf e).trans (rowOf_cast _ _)

theorem s7_v84 : rowOf (after hostOps7 U (Proc.devRef .tc main_v84) : Mat 1 10) = (U (Proc.devRef .tc main_arg29) : Row 10) := by
  have e : (after hostOps7 U (Proc.devRef .tc main_v84) : Mat 1 10)
      = shapeCast S1x10 (U (Proc.devRef .tc main_arg29) : Row 10) Facts₀.shapeCasts_S10_S1x10 := by
    after_results; rfl
  exact (congrArg rowOf e).trans (rowOf_cast _ _)

/-- The buffers this line writes. -/
def wr7 : List (Ref sig .tc) := [main_cst_18, main_v80, main_v81, main_v82, main_v83, main_v84]

theorem hostOps7_writes :
    (hostOps7 : List (HloOp τ sig (Elt Ideal))).Forall fun op => op.writes ⊆ (wr7.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- A buffer the line does not write keeps its contents. -/
theorem keep7 (U : Valuation τ sig (Elt Ideal)) (r : Ref sig .tc) (hr : r ∉ wr7) :
    after hostOps7 U (Proc.devRef .tc r) = U (Proc.devRef .tc r) :=
  after_of_writes_sub _ _ hostOps7_writes hr

end Cert.Gin.Ker

end
-- ==== Proof.LibHostStages.lean ====
/-
  Two facts about a straight line of host operations, for any topology, buffer signature and element values.

  Running two lists of operations one after the other is running their concatenation (`after_append`): a long program can
  be read back stage by stage, each stage from ANY contents before it.

  An outlined function's intermediate values live in buffers typed through the call's record; a value is stored into
  such a buffer and read back through a change of type along the buffer's type equation, there and back. The round trip
  is the identity (`ofBuf_toBuf`): rewriting with it removes those changes of type in pairs, however deeply the function's
  operations nest them, before two spellings of the function's result are compared.
-/
import Idealize.ShloMosaic.Lib.StableHlo.Run

noncomputable section

namespace Cert.Lib.HostStages

open Idealize.ShloMosaic Idealize.ShloMosaic.StableHlo

variable {τ : Topo} {sig : RefSig} {Val : EltTy → Type}

/-- Running two lists of operations one after the other is running their concatenation. -/
theorem after_append (l₁ l₂ : List (HloOp τ sig Val)) :
    ∀ V : Valuation τ sig Val, after (l₁ ++ l₂) V = after l₂ (after l₁ V) := by
  induction l₁ with
  | nil => intro V; rfl
  | cons op l ih => intro V; exact ih (op.result V)

/-- A value stored in a typed buffer and read back is the value. -/
theorem ofBuf_toBuf {T : BufTy} (x : TRef sig T) (v : T.Contents Val) : x.ofBuf (x.toBuf v) = v := by
  obtain ⟨r, h, _, _⟩ := x
  subst h
  rfl

end Cert.Lib.HostStages

end
-- ==== Proof.KStretch2v.lean ====
/-
  The column variances of the first convolution's perceptron output: the outlined variance function's operations run
  after the line that computes the means (whose integer zero the function converts and subtracts from the count), from any
  contents U before that line.
-/
import proofs.«132092_j14199161880830_1_alg».proof.Proof.Gen.KernelIdeal.Launch
import proofs.«132092_j14199161880830_1_alg».proof.Proof.KHost
import proofs.«132092_j14199161880830_1_alg».proof.Proof.KWrites
import proofs.«132092_j14199161880830_1_alg».proof.Proof.LibHostStages

noncomputable section

namespace Cert.Gin.Ker

open Idealize.ShloMosaic Idealize.ShloMosaic.StableHlo Cert.KernelIdeal Cert.KernelIdeal.Gen Cert.Layers Cert.Gin
open Cert.KernelIdeal.Facts₀

attribute [local irreducible] Host.gather Host.scatterAdd Host.reduceAdd

variable (U : Valuation τ sig (Elt Ideal))

theorem s2_1_v30 : (after hostOps2_1 (after hostOps2 U) (Proc.devRef .tc main_v30) : Row 128) = var (U (Proc.devRef .tc main_v26)) := by
  after_results_simp
  simp only [Cert.Lib.HostStages.ofBuf_toBuf]
  rfl

/-- The buffers this line writes. -/
def wr2_1 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v30]

theorem hostOps2_1_writes :
    (hostOps2_1 : List (HloOp τ sig (Elt Ideal))).Forall fun op => op.writes ⊆ (wr2_1.map (Proc.devRef (τ := τ) .tc)).toFinset := by
  simp only [hostOps2_1, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- A buffer the line does not write keeps its contents. -/
theorem keep2_1 (U : Valuation τ sig (Elt Ideal)) (r : Ref sig .tc) (hr : r ∉ wr2_1) :
    after hostOps2_1 U (Proc.devRef .tc r) = U (Proc.devRef .tc r) :=
  after_of_writes_sub _ _ hostOps2_1_writes hr

end Cert.Gin.Ker

end
-- ==== Proof.KStretch2r.lean ====
/-
  The first normalisation's four vectors (mean, variance, gain, offset) laid out as one row each, from any contents U.
-/
import proofs.«132092_j14199161880830_1_alg».proof.Proof.Gen.KernelIdeal.Launch
import proofs.«132092_j14199161880830_1_alg».proof.Proof.KHost
import proofs.«132092_j14199161880830_1_alg».proof.Proof.KWrites
import proofs.«132092_j14199161880830_1_alg».proof.Proof.KRowOf

noncomputable section

namespace Cert.Gin.Ker

open Idealize.ShloMosaic Idealize.ShloMosaic.StableHlo Cert.KernelIdeal Cert.KernelIdeal.Gen Cert.Layers Cert.Net Cert.Gin
open Cert.KernelIdeal.Facts₀

attribute [local irreducible] Host.gather Host.scatterAdd Host.reduceAdd

variable (U : Valuation τ sig (Elt Ideal))

theorem s2_2_v31 : rowOf (after hostOps2_2 U (Proc.devRef .tc main_v31) : Mat 1 128) = (U (Proc.devRef .tc main_v29) : Row 128) := by
  have e : (after hostOps2_2 U (Proc.devRef .tc main_v31) : Mat 1 128)
      = shapeCast S1x128 (U (Proc.devRef .tc main_v29) : Row 128) Facts₀.shapeCasts_S128_S1x128 := by
    after_results; rfl
  exact (congrArg rowOf e).trans (rowOf_cast _ _)

theorem s2_2_v32 : rowOf (after hostOps2_2 U (Proc.devRef .tc main_v32) : Mat 1 128) = (U (Proc.devRef .tc main_v30) : Row 128) := by
  have e : (after hostOps2_2 U (Proc.devRef .tc main_v32) : Mat 1 128)
      = shapeCast S1x128 (U (Proc.devRef .tc main_v30) : Row 128) Facts₀.shapeCasts_S128_S1x128 := by
    after_results; rfl
  exact (congrArg rowOf e).trans (rowOf_cast _ _)

theorem s2_2_v33 : rowOf (after hostOps2_2 U (Proc.devRef .tc main_v33) : Mat 1 128) = (U (Proc.devRef .tc main_arg12) : Row 128) := by
  have e : (after hostOps2_2 U (Proc.devRef .tc main_v33) : Mat 1 128)
      = shapeCast S1x128 (U (Proc.devRef .tc main_arg12) : Row 128) Facts₀.shapeCasts_S128_S1x128 := by
    after_results; rfl
  exact (congrArg rowOf e).trans (rowOf_cast _ _)

theorem s2_2_v34 : rowOf (after hostOps2_2 U (Proc.devRef .tc main_v34) : Mat 1 128) = (U (Proc.devRef .tc main_arg13) : Row 128) := by
  have e : (after hostOps2_2 U (Proc.devRef .tc main_v34) : Mat 1 128)
      = shapeCast S1x128 (U (Proc.devRef .tc main_arg13) : Row 128) Facts₀.shapeCasts_S128_S1x128 := by
    after_results; rfl
  exact (congrArg rowOf e).trans (rowOf_cast _ _)

/-- The buffers this line writes. -/
def wr2_2 : List (Ref sig .tc) := [main_v31, main_v32, main_v33, main_v34]

theorem hostOps2_2_writes :
    (hostOps2_2 : List (HloOp τ sig (Elt Ideal))).Forall fun op => op.writes ⊆ (wr2_2.map (Proc.devRef (τ := τ) .tc)).toFinset := by
  simp only [hostOps2_2, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- A buffer the line does not write keeps its contents. -/
theorem keep2_2 (U : Valuation τ sig (Elt Ideal)) (r : Ref sig .tc) (hr : r ∉ wr2_2) :
    after hostOps2_2 U (Proc.devRef .tc r) = U (Proc.devRef .tc r) :=
  after_of_writes_sub _ _ hostOps2_2_writes hr

end Cert.Gin.Ker

end
-- ==== Proof.KStretch4v.lean ====
/-
  The column variances of the second convolution's perceptron output: the outlined variance function's operations run
  after the line that computes the means (whose integer zero the function converts and subtracts from the count), from any
  contents U before that line.
-/
import proofs.«132092_j14199161880830_1_alg».proof.Proof.Gen.KernelIdeal.Launch
import proofs.«132092_j14199161880830_1_alg».proof.Proof.KHost
import proofs.«132092_j14199161880830_1_alg».proof.Proof.KWrites
import proofs.«132092_j14199161880830_1_alg».proof.Proof.LibHostStages

noncomputable section

namespace Cert.Gin.Ker

open Idealize.ShloMosaic Idealize.ShloMosaic.StableHlo Cert.KernelIdeal Cert.KernelIdeal.Gen Cert.Layers Cert.Gin
open Cert.KernelIdeal.Facts₀

attribute [local irreducible] Host.gather Host.scatterAdd Host.reduceAdd

variable (U : Valuation τ sig (Elt Ideal))

theorem s4_1_v52 : (after hostOps4_1 (after hostOps4 U) (Proc.devRef .tc main_v52) : Row 128) = var (U (Proc.devRef .tc main_v48)) := by
  after_results_simp
  simp only [Cert.Lib.HostStages.ofBuf_toBuf]
  rfl

/-- The buffers this line writes. -/
def wr4_1 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v52]

theorem hostOps4_1_writes :
    (hostOps4_1 : List (HloOp τ sig (Elt Ideal))).Forall fun op => op.writes ⊆ (wr4_1.map (Proc.devRef (τ := τ) .tc)).toFinset := by
  simp only [hostOps4_1, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- A buffer the line does not write keeps its contents. -/
theorem keep4_1 (U : Valuation τ sig (Elt Ideal)) (r : Ref sig .tc) (hr : r ∉ wr4_1) :
    after hostOps4_1 U (Proc.devRef .tc r) = U (Proc.devRef .tc r) :=
  after_of_writes_sub _ _ hostOps4_1_writes hr

end Cert.Gin.Ker

end
-- ==== Proof.KStretch4r.lean ====
/-
  The second normalisation's four vectors (mean, variance, gain, offset) laid out as one row each, from any contents U.
-/
import proofs.«132092_j14199161880830_1_alg».proof.Proof.Gen.KernelIdeal.Launch
import proofs.«132092_j14199161880830_1_alg».proof.Proof.KHost
import proofs.«132092_j14199161880830_1_alg».proof.Proof.KWrites
import proofs.«132092_j14199161880830_1_alg».proof.Proof.KRowOf

noncomputable section

namespace Cert.Gin.Ker

open Idealize.ShloMosaic Idealize.ShloMosaic.StableHlo Cert.KernelIdeal Cert.KernelIdeal.Gen Cert.Layers Cert.Net Cert.Gin
open Cert.KernelIdeal.Facts₀

attribute [local irreducible] Host.gather Host.scatterAdd Host.reduceAdd

variable (U : Valuation τ sig (Elt Ideal))

theorem s4_2_v53 : rowOf (after hostOps4_2 U (Proc.devRef .tc main_v53) : Mat 1 128) = (U (Proc.devRef .tc main_v51) : Row 128) := by
  have e : (after hostOps4_2 U (Proc.devRef .tc main_v53) : Mat 1 128)
      = shapeCast S1x128 (U (Proc.devRef .tc main_v51) : Row 128) Facts₀.shapeCasts_S128_S1x128 := by
    after_results; rfl
  exact (congrArg rowOf e).trans (rowOf_cast _ _)

theorem s4_2_v54 : rowOf (after hostOps4_2 U (Proc.devRef .tc main_v54) : Mat 1 128) = (U (Proc.devRef .tc main_v52) : Row 128) := by
  have e : (after hostOps4_2 U (Proc.devRef .tc main_v54) : Mat 1 128)
      = shapeCast S1x128 (U (Proc.devRef .tc main_v52) : Row 128) Facts₀.shapeCasts_S128_S1x128 := by
    after_results; rfl
  exact (congrArg rowOf e).trans (rowOf_cast _ _)

theorem s4_2_v55 : rowOf (after hostOps4_2 U (Proc.devRef .tc main_v55) : Mat 1 128) = (U (Proc.devRef .tc main_arg18) : Row 128) := by
  have e : (after hostOps4_2 U (Proc.devRef .tc main_v55) : Mat 1 128)
      = shapeCast S1x128 (U (Proc.devRef .tc main_arg18) : Row 128) Facts₀.shapeCasts_S128_S1x128 := by
    after_results; rfl
  exact (congrArg rowOf e).trans (rowOf_cast _ _)

theorem s4_2_v56 : rowOf (after hostOps4_2 U (Proc.devRef .tc main_v56) : Mat 1 128) = (U (Proc.devRef .tc main_arg19) : Row 128) := by
  have e : (after hostOps4_2 U (Proc.devRef .tc main_v56) : Mat 1 128)
      = shapeCast S1x128 (U (Proc.devRef .tc main_arg19) : Row 128) Facts₀.shapeCasts_S128_S1x128 := by
    after_results; rfl
  exact (congrArg rowOf e).trans (rowOf_cast _ _)

/-- The buffers this line writes. -/
def wr4_2 : List (Ref sig .tc) := [main_v53, main_v54, main_v55, main_v56]

theorem hostOps4_2_writes :
    (hostOps4_2 : List (HloOp τ sig (Elt Ideal))).Forall fun op => op.writes ⊆ (wr4_2.map (Proc.devRef (τ := τ) .tc)).toFinset := by
  simp only [hostOps4_2, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- A buffer the line does not write keeps its contents. -/
theorem keep4_2 (U : Valuation τ sig (Elt Ideal)) (r : Ref sig .tc) (hr : r ∉ wr4_2) :
    after hostOps4_2 U (Proc.devRef .tc r) = U (Proc.devRef .tc r) :=
  after_of_writes_sub _ _ hostOps4_2_writes hr

end Cert.Gin.Ker

end
-- ==== Proof.KStretch6v.lean ====
/-
  The column variances of the third convolution's perceptron output: the outlined variance function's operations run
  after the line that computes the means (whose integer zero the function converts and subtracts from the count), from any
  contents U before that line.
-/
import proofs.«132092_j14199161880830_1_alg».proof.Proof.Gen.KernelIdeal.Launch
import proofs.«132092_j14199161880830_1_alg».proof.Proof.KHost
import proofs.«132092_j14199161880830_1_alg».proof.Proof.KWrites
import proofs.«132092_j14199161880830_1_alg».proof.Proof.LibHostStages

noncomputable section

namespace Cert.Gin.Ker

open Idealize.ShloMosaic Idealize.ShloMosaic.StableHlo Cert.KernelIdeal Cert.KernelIdeal.Gen Cert.Layers Cert.Gin
open Cert.KernelIdeal.Facts₀

attribute [local irreducible] Host.gather Host.scatterAdd Host.reduceAdd

variable (U : Valuation τ sig (Elt Ideal))

theorem s6_1_v74 : (after hostOps6_1 (after hostOps6 U) (Proc.devRef .tc main_v74) : Row 128) = var (U (Proc.devRef .tc main_v70)) := by
  after_results_simp
  simp only [Cert.Lib.HostStages.ofBuf_toBuf]
  rfl

/-- The buffers this line writes. -/
def wr6_1 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v74]

theorem hostOps6_1_writes :
    (hostOps6_1 : List (HloOp τ sig (Elt Ideal))).Forall fun op => op.writes ⊆ (wr6_1.map (Proc.devRef (τ := τ) .tc)).toFinset := by
  simp only [hostOps6_1, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- A buffer the line does not write keeps its contents. -/
theorem keep6_1 (U : Valuation τ sig (Elt Ideal)) (r : Ref sig .tc) (hr : r ∉ wr6_1) :
    after hostOps6_1 U (Proc.devRef .tc r) = U (Proc.devRef .tc r) :=
  after_of_writes_sub _ _ hostOps6_1_writes hr

end Cert.Gin.Ker

end
-- ==== Proof.KStretch6r.lean ====
/-
  The third normalisation's four vectors (mean, variance, gain, offset) laid out as one row each, from any contents U.
-/
import proofs.«132092_j14199161880830_1_alg».proof.Proof.Gen.KernelIdeal.Launch
import proofs.«132092_j14199161880830_1_alg».proof.Proof.KHost
import proofs.«132092_j14199161880830_1_alg».proof.Proof.KWrites
import proofs.«132092_j14199161880830_1_alg».proof.Proof.KRowOf

noncomputable section

namespace Cert.Gin.Ker

open Idealize.ShloMosaic Idealize.ShloMosaic.StableHlo Cert.KernelIdeal Cert.KernelIdeal.Gen Cert.Layers Cert.Net Cert.Gin
open Cert.KernelIdeal.Facts₀

attribute [local irreducible] Host.gather Host.scatterAdd Host.reduceAdd

variable (U : Valuation τ sig (Elt Ideal))

theorem s6_2_v75 : rowOf (after hostOps6_2 U (Proc.devRef .tc main_v75) : Mat 1 128) = (U (Proc.devRef .tc main_v73) : Row 128) := by
  have e : (after hostOps6_2 U (Proc.devRef .tc main_v75) : Mat 1 128)
      = shapeCast S1x128 (U (Proc.devRef .tc main_v73) : Row 128) Facts₀.shapeCasts_S128_S1x128 := by
    after_results; rfl
  exact (congrArg rowOf e).trans (rowOf_cast _ _)

theorem s6_2_v76 : rowOf (after hostOps6_2 U (Proc.devRef .tc main_v76) : Mat 1 128) = (U (Proc.devRef .tc main_v74) : Row 128) := by
  have e : (after hostOps6_2 U (Proc.devRef .tc main_v76) : Mat 1 128)
      = shapeCast S1x128 (U (Proc.devRef .tc main_v74) : Row 128) Facts₀.shapeCasts_S128_S1x128 := by
    after_results; rfl
  exact (congrArg rowOf e).trans (rowOf_cast _ _)

theorem s6_2_v77 : rowOf (after hostOps6_2 U (Proc.devRef .tc main_v77) : Mat 1 128) = (U (Proc.devRef .tc main_arg24) : Row 128) := by
  have e : (after hostOps6_2 U (Proc.devRef .tc main_v77) : Mat 1 128)
      = shapeCast S1x128 (U (Proc.devRef .tc main_arg24) : Row 128) Facts₀.shapeCasts_S128_S1x128 := by
    after_results; rfl
  exact (congrArg rowOf e).trans (rowOf_cast _ _)

theorem s6_2_v78 : rowOf (after hostOps6_2 U (Proc.devRef .tc main_v78) : Mat 1 128) = (U (Proc.devRef .tc main_arg25) : Row 128) := by
  have e : (after hostOps6_2 U (Proc.devRef .tc main_v78) : Mat 1 128)
      = shapeCast S1x128 (U (Proc.devRef .tc main_arg25) : Row 128) Facts₀.shapeCasts_S128_S1x128 := by
    after_results; rfl
  exact (congrArg rowOf e).trans (rowOf_cast _ _)

/-- The buffers this line writes. -/
def wr6_2 : List (Ref sig .tc) := [main_v75, main_v76, main_v77, main_v78]

theorem hostOps6_2_writes :
    (hostOps6_2 : List (HloOp τ sig (Elt Ideal))).Forall fun op => op.writes ⊆ (wr6_2.map (Proc.devRef (τ := τ) .tc)).toFinset := by
  simp only [hostOps6_2, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- A buffer the line does not write keeps its contents. -/
theorem keep6_2 (U : Valuation τ sig (Elt Ideal)) (r : Ref sig .tc) (hr : r ∉ wr6_2) :
    after hostOps6_2 U (Proc.devRef .tc r) = U (Proc.devRef .tc r) :=
  after_of_writes_sub _ _ hostOps6_2_writes hr

end Cert.Gin.Ker

end
-- ==== Proof.KSteps.lean ====
/-
  One step of the run at a time: what each line of host operations and each kernel region leaves untouched.

  A line of host operations leaves every buffer outside its list of written buffers as it was. A kernel region leaves
  every buffer but its output array as it was: a buffer that is none of the region's arrays is not touched, and an input
  array ends at what it was entered with. Consequently the two rows of the edge array, computed by the first line, stay until their last reader.
-/
import proofs.«132092_j14199161880830_1_alg».proof.Proof.Gen.KernelIdeal.Frame
import proofs.«132092_j14199161880830_1_alg».proof.Proof.KStretch0
import proofs.«132092_j14199161880830_1_alg».proof.Proof.KStretch1
import proofs.«132092_j14199161880830_1_alg».proof.Proof.KStretch2
import proofs.«132092_j14199161880830_1_alg».proof.Proof.KStretch3
import proofs.«132092_j14199161880830_1_alg».proof.Proof.KStretch4
import proofs.«132092_j14199161880830_1_alg».proof.Proof.KStretch5
import proofs.«132092_j14199161880830_1_alg».proof.Proof.KStretch6
import proofs.«132092_j14199161880830_1_alg».proof.Proof.KStretch7
import proofs.«132092_j14199161880830_1_alg».proof.Proof.KStretch2v
import proofs.«132092_j14199161880830_1_alg».proof.Proof.KStretch2r
import proofs.«132092_j14199161880830_1_alg».proof.Proof.KStretch4v
import proofs.«132092_j14199161880830_1_alg».proof.Proof.KStretch4r
import proofs.«132092_j14199161880830_1_alg».proof.Proof.KStretch6v
import proofs.«132092_j14199161880830_1_alg».proof.Proof.KStretch6r

set_option maxRecDepth 16384

noncomputable section

namespace Cert.Gin.Ker

open Idealize.ShloMosaic Idealize.ShloMosaic.TcCoe Idealize.ShloMosaic.StableHlo Cert.KernelIdeal Cert.KernelIdeal.Gen Cert.Layers Cert.Gin

variable (m : (ℓ : Loc nD τ sig) → Buf (Elt Ideal) ℓ) (ρ : Dev nD → PrngReg) (c : Dev nD)

/-! ## One step -/

theorem step1 (b : Ref sig .tc) (hb : b ∉ wr0) :
    W1 m ρ c (Proc.devRef .tc b) = W0 m ρ c (Proc.devRef .tc b) :=
  keep0 _ b hb

theorem step2 (b : Ref sig .tc) (hb : b ≠ main_v13) :
    W2 m ρ c (Proc.devRef .tc b) = W1 m ρ c (Proc.devRef .tc b) := by
  by_cases h : ∀ w, Pipeline.arrRef spec0 w ≠ b
  · exact W2_of_ne m ρ c b h
  · obtain ⟨w, rfl⟩ := not_forall_not.mp h
    have hw : (cfg0.win w).isOut = false :=
      (by decide : ∀ w : Fin cfg0.W, Pipeline.arrRef spec0 w ≠ main_v13 → (cfg0.win w).isOut = false) w hb
    exact (W2_arr m ρ c w).trans (((dat0 (V1 m ρ) c).arrAt_in w hw _).trans (A_eq0 (V1 m ρ) c w))

theorem step3 (b : Ref sig .tc) (hb : b ∉ wr1) :
    W3 m ρ c (Proc.devRef .tc b) = W2 m ρ c (Proc.devRef .tc b) :=
  keep1 _ b hb

theorem step4 (b : Ref sig .tc) (hb : b ≠ main_v26) :
    W4 m ρ c (Proc.devRef .tc b) = W3 m ρ c (Proc.devRef .tc b) := by
  by_cases h : ∀ w, Pipeline.arrRef spec1 w ≠ b
  · exact W4_of_ne m ρ c b h
  · obtain ⟨w, rfl⟩ := not_forall_not.mp h
    have hw : (cfg1.win w).isOut = false :=
      (by decide : ∀ w : Fin cfg1.W, Pipeline.arrRef spec1 w ≠ main_v26 → (cfg1.win w).isOut = false) w hb
    exact (W4_arr m ρ c w).trans (((dat1 (V3 m ρ) c).arrAt_in w hw _).trans (A_eq1 (V3 m ρ) c w))

theorem step5 (b : Ref sig .tc) (hb : b ∉ wr2) :
    W5 m ρ c (Proc.devRef .tc b) = W4 m ρ c (Proc.devRef .tc b) :=
  keep2 _ b hb

theorem step6 (b : Ref sig .tc) (hb : b ∉ wr2_1) :
    W6 m ρ c (Proc.devRef .tc b) = W5 m ρ c (Proc.devRef .tc b) :=
  keep2_1 _ b hb

theorem step7 (b : Ref sig .tc) (hb : b ∉ wr2_2) :
    W7 m ρ c (Proc.devRef .tc b) = W6 m ρ c (Proc.devRef .tc b) :=
  keep2_2 _ b hb

theorem step8 (b : Ref sig .tc) (hb : b ≠ main_v35) :
    W8 m ρ c (Proc.devRef .tc b) = W7 m ρ c (Proc.devRef .tc b) := by
  by_cases h : ∀ w, Pipeline.arrRef spec2 w ≠ b
  · exact W8_of_ne m ρ c b h
  · obtain ⟨w, rfl⟩ := not_forall_not.mp h
    have hw : (cfg2.win w).isOut = false :=
      (by decide : ∀ w : Fin cfg2.W, Pipeline.arrRef spec2 w ≠ main_v35 → (cfg2.win w).isOut = false) w hb
    exact (W8_arr m ρ c w).trans (((dat2 (V7 m ρ) c).arrAt_in w hw _).trans (A_eq2 (V7 m ρ) c w))

theorem step9 (b : Ref sig .tc) (hb : b ∉ wr3) :
    W9 m ρ c (Proc.devRef .tc b) = W8 m ρ c (Proc.devRef .tc b) :=
  keep3 _ b hb

theorem step10 (b : Ref sig .tc) (hb : b ≠ main_v48) :
    W10 m ρ c (Proc.devRef .tc b) = W9 m ρ c (Proc.devRef .tc b) := by
  by_cases h : ∀ w, Pipeline.arrRef spec3 w ≠ b
  · exact W10_of_ne m ρ c b h
  · obtain ⟨w, rfl⟩ := not_forall_not.mp h
    have hw : (cfg3.win w).isOut = false :=
      (by decide : ∀ w : Fin cfg3.W, Pipeline.arrRef spec3 w ≠ main_v48 → (cfg3.win w).isOut = false) w hb
    exact (W10_arr m ρ c w).trans (((dat3 (V9 m ρ) c).arrAt_in w hw _).trans (A_eq3 (V9 m ρ) c w))

theorem step11 (b : Ref sig .tc) (hb : b ∉ wr4) :
    W11 m ρ c (Proc.devRef .tc b) = W10 m ρ c (Proc.devRef .tc b) :=
  keep4 _ b hb

theorem step12 (b : Ref sig .tc) (hb : b ∉ wr4_1) :
    W12 m ρ c (Proc.devRef .tc b) = W11 m ρ c (Proc.devRef .tc b) :=
  keep4_1 _ b hb

theorem step13 (b : Ref sig .tc) (hb : b ∉ wr4_2) :
    W13 m ρ c (Proc.devRef .tc b) = W12 m ρ c (Proc.devRef .tc b) :=
  keep4_2 _ b hb

theorem step14 (b : Ref sig .tc) (hb : b ≠ main_v57) :
    W14 m ρ c (Proc.devRef .tc b) = W13 m ρ c (Proc.devRef .tc b) := by
  by_cases h : ∀ w, Pipeline.arrRef spec4 w ≠ b
  · exact W14_of_ne m ρ c b h
  · obtain ⟨w, rfl⟩ := not_forall_not.mp h
    have hw : (cfg4.win w).isOut = false :=
      (by decide : ∀ w : Fin cfg4.W, Pipeline.arrRef spec4 w ≠ main_v57 → (cfg4.win w).isOut = false) w hb
    exact (W14_arr m ρ c w).trans (((dat4 (V13 m ρ) c).arrAt_in w hw _).trans (A_eq4 (V13 m ρ) c w))

theorem step15 (b : Ref sig .tc) (hb : b ∉ wr5) :
    W15 m ρ c (Proc.devRef .tc b) = W14 m ρ c (Proc.devRef .tc b) :=
  keep5 _ b hb

theorem step16 (b : Ref sig .tc) (hb : b ≠ main_v70) :
    W16 m ρ c (Proc.devRef .tc b) = W15 m ρ c (Proc.devRef .tc b) := by
  by_cases h : ∀ w, Pipeline.arrRef spec5 w ≠ b
  · exact W16_of_ne m ρ c b h
  · obtain ⟨w, rfl⟩ := not_forall_not.mp h
    have hw : (cfg5.win w).isOut = false :=
      (by decide : ∀ w : Fin cfg5.W, Pipeline.arrRef spec5 w ≠ main_v70 → (cfg5.win w).isOut = false) w hb
    exact (W16_arr m ρ c w).trans (((dat5 (V15 m ρ) c).arrAt_in w hw _).trans (A_eq5 (V15 m ρ) c w))

theorem step17 (b : Ref sig .tc) (hb : b ∉ wr6) :
    W17 m ρ c (Proc.devRef .tc b) = W16 m ρ c (Proc.devRef .tc b) :=
  keep6 _ b hb

theorem step18 (b : Ref sig .tc) (hb : b ∉ wr6_1) :
    W18 m ρ c (Proc.devRef .tc b) = W17 m ρ c (Proc.devRef .tc b) :=
  keep6_1 _ b hb

theorem step19 (b : Ref sig .tc) (hb : b ∉ wr6_2) :
    W19 m ρ c (Proc.devRef .tc b) = W18 m ρ c (Proc.devRef .tc b) :=
  keep6_2 _ b hb

theorem step20 (b : Ref sig .tc) (hb : b ≠ main_v79) :
    W20 m ρ c (Proc.devRef .tc b) = W19 m ρ c (Proc.devRef .tc b) := by
  by_cases h : ∀ w, Pipeline.arrRef spec6 w ≠ b
  · exact W20_of_ne m ρ c b h
  · obtain ⟨w, rfl⟩ := not_forall_not.mp h
    have hw : (cfg6.win w).isOut = false :=
      (by decide : ∀ w : Fin cfg6.W, Pipeline.arrRef spec6 w ≠ main_v79 → (cfg6.win w).isOut = false) w hb
    exact (W20_arr m ρ c w).trans (((dat6 (V19 m ρ) c).arrAt_in w hw _).trans (A_eq6 (V19 m ρ) c w))

theorem step21 (b : Ref sig .tc) (hb : b ∉ wr7) :
    W21 m ρ c (Proc.devRef .tc b) = W20 m ρ c (Proc.devRef .tc b) :=
  keep7 _ b hb

theorem step22 (b : Ref sig .tc) (hb : b ≠ main_v85) :
    W22 m ρ c (Proc.devRef .tc b) = W21 m ρ c (Proc.devRef .tc b) := by
  by_cases h : ∀ w, Pipeline.arrRef spec7 w ≠ b
  · exact W22_of_ne m ρ c b h
  · obtain ⟨w, rfl⟩ := not_forall_not.mp h
    have hw : (cfg7.win w).isOut = false :=
      (by decide : ∀ w : Fin cfg7.W, Pipeline.arrRef spec7 w ≠ main_v85 → (cfg7.win w).isOut = false) w hb
    exact (W22_arr m ρ c w).trans (((dat7 (V21 m ρ) c).arrAt_in w hw _).trans (A_eq7 (V21 m ρ) c w))

/-! ## The launch contents, and the edge rows at every boundary up to their last reader -/

theorem W0_at (b : Ref sig .tc) : W0 m ρ c (Proc.devRef .tc b) = m ((c : Thread nD τ).loc b) := rfl

theorem W1_v1 : (W1 m ρ c (Proc.devRef .tc main_v1) : IArr ⟨1, ![1600000]⟩) = edgeRow0 (m ((c : Thread nD τ).loc main_arg1)) :=
  s0_v1 (W0 m ρ c)
theorem W1_v3 : (W1 m ρ c (Proc.devRef .tc main_v3) : IArr ⟨1, ![1600000]⟩) = edgeRow1 (m ((c : Thread nD τ).loc main_arg1)) :=
  s0_v3 (W0 m ρ c)
theorem W2_v1 : (W2 m ρ c (Proc.devRef .tc main_v1) : IArr ⟨1, ![1600000]⟩) = edgeRow0 (m ((c : Thread nD τ).loc main_arg1)) :=
  (step2 m ρ c main_v1 (by decide)).trans (W1_v1 m ρ c)
theorem W2_v3 : (W2 m ρ c (Proc.devRef .tc main_v3) : IArr ⟨1, ![1600000]⟩) = edgeRow1 (m ((c : Thread nD τ).loc main_arg1)) :=
  (step2 m ρ c main_v3 (by decide)).trans (W1_v3 m ρ c)
theorem W3_v1 : (W3 m ρ c (Proc.devRef .tc main_v1) : IArr ⟨1, ![1600000]⟩) = edgeRow0 (m ((c : Thread nD τ).loc main_arg1)) :=
  (step3 m ρ c main_v1 (by decide)).trans (W2_v1 m ρ c)
theorem W3_v3 : (W3 m ρ c (Proc.devRef .tc main_v3) : IArr ⟨1, ![1600000]⟩) = edgeRow1 (m ((c : Thread nD τ).loc main_arg1)) :=
  (step3 m ρ c main_v3 (by decide)).trans (W2_v3 m ρ c)
theorem W4_v1 : (W4 m ρ c (Proc.devRef .tc main_v1) : IArr ⟨1, ![1600000]⟩) = edgeRow0 (m ((c : Thread nD τ).loc main_arg1)) :=
  (step4 m ρ c main_v1 (by decide)).trans (W3_v1 m ρ c)
theorem W4_v3 : (W4 m ρ c (Proc.devRef .tc main_v3) : IArr ⟨1, ![1600000]⟩) = edgeRow1 (m ((c : Thread nD τ).loc main_arg1)) :=
  (step4 m ρ c main_v3 (by decide)).trans (W3_v3 m ρ c)
theorem W5_v1 : (W5 m ρ c (Proc.devRef .tc main_v1) : IArr ⟨1, ![1600000]⟩) = edgeRow0 (m ((c : Thread nD τ).loc main_arg1)) :=
  (step5 m ρ c main_v1 (by decide)).trans (W4_v1 m ρ c)
theorem W5_v3 : (W5 m ρ c (Proc.devRef .tc main_v3) : IArr ⟨1, ![1600000]⟩) = edgeRow1 (m ((c : Thread nD τ).loc main_arg1)) :=
  (step5 m ρ c main_v3 (by decide)).trans (W4_v3 m ρ c)
theorem W6_v1 : (W6 m ρ c (Proc.devRef .tc main_v1) : IArr ⟨1, ![1600000]⟩) = edgeRow0 (m ((c : Thread nD τ).loc main_arg1)) :=
  (step6 m ρ c main_v1 (by decide)).trans (W5_v1 m ρ c)
theorem W6_v3 : (W6 m ρ c (Proc.devRef .tc main_v3) : IArr ⟨1, ![1600000]⟩) = edgeRow1 (m ((c : Thread nD τ).loc main_arg1)) :=
  (step6 m ρ c main_v3 (by decide)).trans (W5_v3 m ρ c)
theorem W7_v1 : (W7 m ρ c (Proc.devRef .tc main_v1) : IArr ⟨1, ![1600000]⟩) = edgeRow0 (m ((c : Thread nD τ).loc main_arg1)) :=
  (step7 m ρ c main_v1 (by decide)).trans (W6_v1 m ρ c)
theorem W7_v3 : (W7 m ρ c (Proc.devRef .tc main_v3) : IArr ⟨1, ![1600000]⟩) = edgeRow1 (m ((c : Thread nD τ).loc main_arg1)) :=
  (step7 m ρ c main_v3 (by decide)).trans (W6_v3 m ρ c)
theorem W8_v1 : (W8 m ρ c (Proc.devRef .tc main_v1) : IArr ⟨1, ![1600000]⟩) = edgeRow0 (m ((c : Thread nD τ).loc main_arg1)) :=
  (step8 m ρ c main_v1 (by decide)).trans (W7_v1 m ρ c)
theorem W8_v3 : (W8 m ρ c (Proc.devRef .tc main_v3) : IArr ⟨1, ![1600000]⟩) = edgeRow1 (m ((c : Thread nD τ).loc main_arg1)) :=
  (step8 m ρ c main_v3 (by decide)).trans (W7_v3 m ρ c)
theorem W9_v1 : (W9 m ρ c (Proc.devRef .tc main_v1) : IArr ⟨1, ![1600000]⟩) = edgeRow0 (m ((c : Thread nD τ).loc main_arg1)) :=
  (step9 m ρ c main_v1 (by decide)).trans (W8_v1 m ρ c)
theorem W9_v3 : (W9 m ρ c (Proc.devRef .tc main_v3) : IArr ⟨1, ![1600000]⟩) = edgeRow1 (m ((c : Thread nD τ).loc main_arg1)) :=
  (step9 m ρ c main_v3 (by decide)).trans (W8_v3 m ρ c)
theorem W10_v1 : (W10 m ρ c (Proc.devRef .tc main_v1) : IArr ⟨1, ![1600000]⟩) = edgeRow0 (m ((c : Thread nD τ).loc main_arg1)) :=
  (step10 m ρ c main_v1 (by decide)).trans (W9_v1 m ρ c)
theorem W10_v3 : (W10 m ρ c (Proc.devRef .tc main_v3) : IArr ⟨1, ![1600000]⟩) = edgeRow1 (m ((c : Thread nD τ).loc main_arg1)) :=
  (step10 m ρ c main_v3 (by decide)).trans (W9_v3 m ρ c)
theorem W11_v1 : (W11 m ρ c (Proc.devRef .tc main_v1) : IArr ⟨1, ![1600000]⟩) = edgeRow0 (m ((c : Thread nD τ).loc main_arg1)) :=
  (step11 m ρ c main_v1 (by decide)).trans (W10_v1 m ρ c)
theorem W11_v3 : (W11 m ρ c (Proc.devRef .tc main_v3) : IArr ⟨1, ![1600000]⟩) = edgeRow1 (m ((c : Thread nD τ).loc main_arg1)) :=
  (step11 m ρ c main_v3 (by decide)).trans (W10_v3 m ρ c)
theorem W12_v1 : (W12 m ρ c (Proc.devRef .tc main_v1) : IArr ⟨1, ![1600000]⟩) = edgeRow0 (m ((c : Thread nD τ).loc main_arg1)) :=
  (step12 m ρ c main_v1 (by decide)).trans (W11_v1 m ρ c)
theorem W12_v3 : (W12 m ρ c (Proc.devRef .tc main_v3) : IArr ⟨1, ![1600000]⟩) = edgeRow1 (m ((c : Thread nD τ).loc main_arg1)) :=
  (step12 m ρ c main_v3 (by decide)).trans (W11_v3 m ρ c)
theorem W13_v1 : (W13 m ρ c (Proc.devRef .tc main_v1) : IArr ⟨1, ![1600000]⟩) = edgeRow0 (m ((c : Thread nD τ).loc main_arg1)) :=
  (step13 m ρ c main_v1 (by decide)).trans (W12_v1 m ρ c)
theorem W13_v3 : (W13 m ρ c (Proc.devRef .tc main_v3) : IArr ⟨1, ![1600000]⟩) = edgeRow1 (m ((c : Thread nD τ).loc main_arg1)) :=
  (step13 m ρ c main_v3 (by decide)).trans (W12_v3 m ρ c)
theorem W14_v1 : (W14 m ρ c (Proc.devRef .tc main_v1) : IArr ⟨1, ![1600000]⟩) = edgeRow0 (m ((c : Thread nD τ).loc main_arg1)) :=
  (step14 m ρ c main_v1 (by decide)).trans (W13_v1 m ρ c)
theorem W14_v3 : (W14 m ρ c (Proc.devRef .tc main_v3) : IArr ⟨1, ![1600000]⟩) = edgeRow1 (m ((c : Thread nD τ).loc main_arg1)) :=
  (step14 m ρ c main_v3 (by decide)).trans (W13_v3 m ρ c)

end Cert.Gin.Ker

end
-- ==== Proof.KArgs.lean ====
/-
  Every argument array the run reads after the launch holds its launch contents where it is read: no line of host
  operations writes an argument and no region has one as its output array, so the contents walk back, one step at a
  time, to the launch memory. One chain per argument, up to the last boundary where the argument is read.
-/
import proofs.«132092_j14199161880830_1_alg».proof.Proof.KSteps

set_option maxRecDepth 16384

noncomputable section

namespace Cert.Gin.Ker

open Idealize.ShloMosaic Idealize.ShloMosaic.TcCoe Idealize.ShloMosaic.StableHlo Cert.KernelIdeal Cert.KernelIdeal.Gen Cert.Layers Cert.Gin

variable (m : (ℓ : Loc nD τ sig) → Buf (Elt Ideal) ℓ) (ρ : Dev nD → PrngReg) (c : Dev nD)

theorem W1_arg2 : W1 m ρ c (Proc.devRef .tc main_arg2) = m ((c : Thread nD τ).loc main_arg2) :=
  (step1 m ρ c main_arg2 (by decide)).trans (W0_at m ρ c main_arg2)
theorem W2_arg2 : W2 m ρ c (Proc.devRef .tc main_arg2) = m ((c : Thread nD τ).loc main_arg2) :=
  (step2 m ρ c main_arg2 (by decide)).trans (W1_arg2 m ρ c)
theorem W3_arg2 : W3 m ρ c (Proc.devRef .tc main_arg2) = m ((c : Thread nD τ).loc main_arg2) :=
  (step3 m ρ c main_arg2 (by decide)).trans (W2_arg2 m ρ c)
theorem W4_arg2 : W4 m ρ c (Proc.devRef .tc main_arg2) = m ((c : Thread nD τ).loc main_arg2) :=
  (step4 m ρ c main_arg2 (by decide)).trans (W3_arg2 m ρ c)
theorem W5_arg2 : W5 m ρ c (Proc.devRef .tc main_arg2) = m ((c : Thread nD τ).loc main_arg2) :=
  (step5 m ρ c main_arg2 (by decide)).trans (W4_arg2 m ρ c)
theorem W6_arg2 : W6 m ρ c (Proc.devRef .tc main_arg2) = m ((c : Thread nD τ).loc main_arg2) :=
  (step6 m ρ c main_arg2 (by decide)).trans (W5_arg2 m ρ c)
theorem W7_arg2 : W7 m ρ c (Proc.devRef .tc main_arg2) = m ((c : Thread nD τ).loc main_arg2) :=
  (step7 m ρ c main_arg2 (by decide)).trans (W6_arg2 m ρ c)
theorem W8_arg2 : W8 m ρ c (Proc.devRef .tc main_arg2) = m ((c : Thread nD τ).loc main_arg2) :=
  (step8 m ρ c main_arg2 (by decide)).trans (W7_arg2 m ρ c)
theorem W9_arg2 : W9 m ρ c (Proc.devRef .tc main_arg2) = m ((c : Thread nD τ).loc main_arg2) :=
  (step9 m ρ c main_arg2 (by decide)).trans (W8_arg2 m ρ c)
theorem W10_arg2 : W10 m ρ c (Proc.devRef .tc main_arg2) = m ((c : Thread nD τ).loc main_arg2) :=
  (step10 m ρ c main_arg2 (by decide)).trans (W9_arg2 m ρ c)
theorem W11_arg2 : W11 m ρ c (Proc.devRef .tc main_arg2) = m ((c : Thread nD τ).loc main_arg2) :=
  (step11 m ρ c main_arg2 (by decide)).trans (W10_arg2 m ρ c)
theorem W12_arg2 : W12 m ρ c (Proc.devRef .tc main_arg2) = m ((c : Thread nD τ).loc main_arg2) :=
  (step12 m ρ c main_arg2 (by decide)).trans (W11_arg2 m ρ c)
theorem W13_arg2 : W13 m ρ c (Proc.devRef .tc main_arg2) = m ((c : Thread nD τ).loc main_arg2) :=
  (step13 m ρ c main_arg2 (by decide)).trans (W12_arg2 m ρ c)
theorem W14_arg2 : W14 m ρ c (Proc.devRef .tc main_arg2) = m ((c : Thread nD τ).loc main_arg2) :=
  (step14 m ρ c main_arg2 (by decide)).trans (W13_arg2 m ρ c)
theorem W15_arg2 : W15 m ρ c (Proc.devRef .tc main_arg2) = m ((c : Thread nD τ).loc main_arg2) :=
  (step15 m ρ c main_arg2 (by decide)).trans (W14_arg2 m ρ c)
theorem W16_arg2 : W16 m ρ c (Proc.devRef .tc main_arg2) = m ((c : Thread nD τ).loc main_arg2) :=
  (step16 m ρ c main_arg2 (by decide)).trans (W15_arg2 m ρ c)
theorem W17_arg2 : W17 m ρ c (Proc.devRef .tc main_arg2) = m ((c : Thread nD τ).loc main_arg2) :=
  (step17 m ρ c main_arg2 (by decide)).trans (W16_arg2 m ρ c)
theorem W18_arg2 : W18 m ρ c (Proc.devRef .tc main_arg2) = m ((c : Thread nD τ).loc main_arg2) :=
  (step18 m ρ c main_arg2 (by decide)).trans (W17_arg2 m ρ c)
theorem W19_arg2 : W19 m ρ c (Proc.devRef .tc main_arg2) = m ((c : Thread nD τ).loc main_arg2) :=
  (step19 m ρ c main_arg2 (by decide)).trans (W18_arg2 m ρ c)
theorem W20_arg2 : W20 m ρ c (Proc.devRef .tc main_arg2) = m ((c : Thread nD τ).loc main_arg2) :=
  (step20 m ρ c main_arg2 (by decide)).trans (W19_arg2 m ρ c)
theorem W1_arg4 : W1 m ρ c (Proc.devRef .tc main_arg4) = m ((c : Thread nD τ).loc main_arg4) :=
  (step1 m ρ c main_arg4 (by decide)).trans (W0_at m ρ c main_arg4)
theorem W1_arg6 : W1 m ρ c (Proc.devRef .tc main_arg6) = m ((c : Thread nD τ).loc main_arg6) :=
  (step1 m ρ c main_arg6 (by decide)).trans (W0_at m ρ c main_arg6)
theorem W1_arg8 : W1 m ρ c (Proc.devRef .tc main_arg8) = m ((c : Thread nD τ).loc main_arg8) :=
  (step1 m ρ c main_arg8 (by decide)).trans (W0_at m ρ c main_arg8)
theorem W2_arg8 : W2 m ρ c (Proc.devRef .tc main_arg8) = m ((c : Thread nD τ).loc main_arg8) :=
  (step2 m ρ c main_arg8 (by decide)).trans (W1_arg8 m ρ c)
theorem W3_arg8 : W3 m ρ c (Proc.devRef .tc main_arg8) = m ((c : Thread nD τ).loc main_arg8) :=
  (step3 m ρ c main_arg8 (by decide)).trans (W2_arg8 m ρ c)
theorem W1_arg9 : W1 m ρ c (Proc.devRef .tc main_arg9) = m ((c : Thread nD τ).loc main_arg9) :=
  (step1 m ρ c main_arg9 (by decide)).trans (W0_at m ρ c main_arg9)
theorem W2_arg9 : W2 m ρ c (Proc.devRef .tc main_arg9) = m ((c : Thread nD τ).loc main_arg9) :=
  (step2 m ρ c main_arg9 (by decide)).trans (W1_arg9 m ρ c)
theorem W1_arg10 : W1 m ρ c (Proc.devRef .tc main_arg10) = m ((c : Thread nD τ).loc main_arg10) :=
  (step1 m ρ c main_arg10 (by decide)).trans (W0_at m ρ c main_arg10)
theorem W2_arg10 : W2 m ρ c (Proc.devRef .tc main_arg10) = m ((c : Thread nD τ).loc main_arg10) :=
  (step2 m ρ c main_arg10 (by decide)).trans (W1_arg10 m ρ c)
theorem W3_arg10 : W3 m ρ c (Proc.devRef .tc main_arg10) = m ((c : Thread nD τ).loc main_arg10) :=
  (step3 m ρ c main_arg10 (by decide)).trans (W2_arg10 m ρ c)
theorem W1_arg11 : W1 m ρ c (Proc.devRef .tc main_arg11) = m ((c : Thread nD τ).loc main_arg11) :=
  (step1 m ρ c main_arg11 (by decide)).trans (W0_at m ρ c main_arg11)
theorem W2_arg11 : W2 m ρ c (Proc.devRef .tc main_arg11) = m ((c : Thread nD τ).loc main_arg11) :=
  (step2 m ρ c main_arg11 (by decide)).trans (W1_arg11 m ρ c)
theorem W1_arg12 : W1 m ρ c (Proc.devRef .tc main_arg12) = m ((c : Thread nD τ).loc main_arg12) :=
  (step1 m ρ c main_arg12 (by decide)).trans (W0_at m ρ c main_arg12)
theorem W2_arg12 : W2 m ρ c (Proc.devRef .tc main_arg12) = m ((c : Thread nD τ).loc main_arg12) :=
  (step2 m ρ c main_arg12 (by decide)).trans (W1_arg12 m ρ c)
theorem W3_arg12 : W3 m ρ c (Proc.devRef .tc main_arg12) = m ((c : Thread nD τ).loc main_arg12) :=
  (step3 m ρ c main_arg12 (by decide)).trans (W2_arg12 m ρ c)
theorem W4_arg12 : W4 m ρ c (Proc.devRef .tc main_arg12) = m ((c : Thread nD τ).loc main_arg12) :=
  (step4 m ρ c main_arg12 (by decide)).trans (W3_arg12 m ρ c)
theorem W5_arg12 : W5 m ρ c (Proc.devRef .tc main_arg12) = m ((c : Thread nD τ).loc main_arg12) :=
  (step5 m ρ c main_arg12 (by decide)).trans (W4_arg12 m ρ c)
theorem W6_arg12 : W6 m ρ c (Proc.devRef .tc main_arg12) = m ((c : Thread nD τ).loc main_arg12) :=
  (step6 m ρ c main_arg12 (by decide)).trans (W5_arg12 m ρ c)
theorem W1_arg13 : W1 m ρ c (Proc.devRef .tc main_arg13) = m ((c : Thread nD τ).loc main_arg13) :=
  (step1 m ρ c main_arg13 (by decide)).trans (W0_at m ρ c main_arg13)
theorem W2_arg13 : W2 m ρ c (Proc.devRef .tc main_arg13) = m ((c : Thread nD τ).loc main_arg13) :=
  (step2 m ρ c main_arg13 (by decide)).trans (W1_arg13 m ρ c)
theorem W3_arg13 : W3 m ρ c (Proc.devRef .tc main_arg13) = m ((c : Thread nD τ).loc main_arg13) :=
  (step3 m ρ c main_arg13 (by decide)).trans (W2_arg13 m ρ c)
theorem W4_arg13 : W4 m ρ c (Proc.devRef .tc main_arg13) = m ((c : Thread nD τ).loc main_arg13) :=
  (step4 m ρ c main_arg13 (by decide)).trans (W3_arg13 m ρ c)
theorem W5_arg13 : W5 m ρ c (Proc.devRef .tc main_arg13) = m ((c : Thread nD τ).loc main_arg13) :=
  (step5 m ρ c main_arg13 (by decide)).trans (W4_arg13 m ρ c)
theorem W6_arg13 : W6 m ρ c (Proc.devRef .tc main_arg13) = m ((c : Thread nD τ).loc main_arg13) :=
  (step6 m ρ c main_arg13 (by decide)).trans (W5_arg13 m ρ c)
theorem W1_arg14 : W1 m ρ c (Proc.devRef .tc main_arg14) = m ((c : Thread nD τ).loc main_arg14) :=
  (step1 m ρ c main_arg14 (by decide)).trans (W0_at m ρ c main_arg14)
theorem W2_arg14 : W2 m ρ c (Proc.devRef .tc main_arg14) = m ((c : Thread nD τ).loc main_arg14) :=
  (step2 m ρ c main_arg14 (by decide)).trans (W1_arg14 m ρ c)
theorem W3_arg14 : W3 m ρ c (Proc.devRef .tc main_arg14) = m ((c : Thread nD τ).loc main_arg14) :=
  (step3 m ρ c main_arg14 (by decide)).trans (W2_arg14 m ρ c)
theorem W4_arg14 : W4 m ρ c (Proc.devRef .tc main_arg14) = m ((c : Thread nD τ).loc main_arg14) :=
  (step4 m ρ c main_arg14 (by decide)).trans (W3_arg14 m ρ c)
theorem W5_arg14 : W5 m ρ c (Proc.devRef .tc main_arg14) = m ((c : Thread nD τ).loc main_arg14) :=
  (step5 m ρ c main_arg14 (by decide)).trans (W4_arg14 m ρ c)
theorem W6_arg14 : W6 m ρ c (Proc.devRef .tc main_arg14) = m ((c : Thread nD τ).loc main_arg14) :=
  (step6 m ρ c main_arg14 (by decide)).trans (W5_arg14 m ρ c)
theorem W7_arg14 : W7 m ρ c (Proc.devRef .tc main_arg14) = m ((c : Thread nD τ).loc main_arg14) :=
  (step7 m ρ c main_arg14 (by decide)).trans (W6_arg14 m ρ c)
theorem W8_arg14 : W8 m ρ c (Proc.devRef .tc main_arg14) = m ((c : Thread nD τ).loc main_arg14) :=
  (step8 m ρ c main_arg14 (by decide)).trans (W7_arg14 m ρ c)
theorem W9_arg14 : W9 m ρ c (Proc.devRef .tc main_arg14) = m ((c : Thread nD τ).loc main_arg14) :=
  (step9 m ρ c main_arg14 (by decide)).trans (W8_arg14 m ρ c)
theorem W1_arg15 : W1 m ρ c (Proc.devRef .tc main_arg15) = m ((c : Thread nD τ).loc main_arg15) :=
  (step1 m ρ c main_arg15 (by decide)).trans (W0_at m ρ c main_arg15)
theorem W2_arg15 : W2 m ρ c (Proc.devRef .tc main_arg15) = m ((c : Thread nD τ).loc main_arg15) :=
  (step2 m ρ c main_arg15 (by decide)).trans (W1_arg15 m ρ c)
theorem W3_arg15 : W3 m ρ c (Proc.devRef .tc main_arg15) = m ((c : Thread nD τ).loc main_arg15) :=
  (step3 m ρ c main_arg15 (by decide)).trans (W2_arg15 m ρ c)
theorem W4_arg15 : W4 m ρ c (Proc.devRef .tc main_arg15) = m ((c : Thread nD τ).loc main_arg15) :=
  (step4 m ρ c main_arg15 (by decide)).trans (W3_arg15 m ρ c)
theorem W5_arg15 : W5 m ρ c (Proc.devRef .tc main_arg15) = m ((c : Thread nD τ).loc main_arg15) :=
  (step5 m ρ c main_arg15 (by decide)).trans (W4_arg15 m ρ c)
theorem W6_arg15 : W6 m ρ c (Proc.devRef .tc main_arg15) = m ((c : Thread nD τ).loc main_arg15) :=
  (step6 m ρ c main_arg15 (by decide)).trans (W5_arg15 m ρ c)
theorem W7_arg15 : W7 m ρ c (Proc.devRef .tc main_arg15) = m ((c : Thread nD τ).loc main_arg15) :=
  (step7 m ρ c main_arg15 (by decide)).trans (W6_arg15 m ρ c)
theorem W8_arg15 : W8 m ρ c (Proc.devRef .tc main_arg15) = m ((c : Thread nD τ).loc main_arg15) :=
  (step8 m ρ c main_arg15 (by decide)).trans (W7_arg15 m ρ c)
theorem W1_arg16 : W1 m ρ c (Proc.devRef .tc main_arg16) = m ((c : Thread nD τ).loc main_arg16) :=
  (step1 m ρ c main_arg16 (by decide)).trans (W0_at m ρ c main_arg16)
theorem W2_arg16 : W2 m ρ c (Proc.devRef .tc main_arg16) = m ((c : Thread nD τ).loc main_arg16) :=
  (step2 m ρ c main_arg16 (by decide)).trans (W1_arg16 m ρ c)
theorem W3_arg16 : W3 m ρ c (Proc.devRef .tc main_arg16) = m ((c : Thread nD τ).loc main_arg16) :=
  (step3 m ρ c main_arg16 (by decide)).trans (W2_arg16 m ρ c)
theorem W4_arg16 : W4 m ρ c (Proc.devRef .tc main_arg16) = m ((c : Thread nD τ).loc main_arg16) :=
  (step4 m ρ c main_arg16 (by decide)).trans (W3_arg16 m ρ c)
theorem W5_arg16 : W5 m ρ c (Proc.devRef .tc main_arg16) = m ((c : Thread nD τ).loc main_arg16) :=
  (step5 m ρ c main_arg16 (by decide)).trans (W4_arg16 m ρ c)
theorem W6_arg16 : W6 m ρ c (Proc.devRef .tc main_arg16) = m ((c : Thread nD τ).loc main_arg16) :=
  (step6 m ρ c main_arg16 (by decide)).trans (W5_arg16 m ρ c)
theorem W7_arg16 : W7 m ρ c (Proc.devRef .tc main_arg16) = m ((c : Thread nD τ).loc main_arg16) :=
  (step7 m ρ c main_arg16 (by decide)).trans (W6_arg16 m ρ c)
theorem W8_arg16 : W8 m ρ c (Proc.devRef .tc main_arg16) = m ((c : Thread nD τ).loc main_arg16) :=
  (step8 m ρ c main_arg16 (by decide)).trans (W7_arg16 m ρ c)
theorem W9_arg16 : W9 m ρ c (Proc.devRef .tc main_arg16) = m ((c : Thread nD τ).loc main_arg16) :=
  (step9 m ρ c main_arg16 (by decide)).trans (W8_arg16 m ρ c)
theorem W1_arg17 : W1 m ρ c (Proc.devRef .tc main_arg17) = m ((c : Thread nD τ).loc main_arg17) :=
  (step1 m ρ c main_arg17 (by decide)).trans (W0_at m ρ c main_arg17)
theorem W2_arg17 : W2 m ρ c (Proc.devRef .tc main_arg17) = m ((c : Thread nD τ).loc main_arg17) :=
  (step2 m ρ c main_arg17 (by decide)).trans (W1_arg17 m ρ c)
theorem W3_arg17 : W3 m ρ c (Proc.devRef .tc main_arg17) = m ((c : Thread nD τ).loc main_arg17) :=
  (step3 m ρ c main_arg17 (by decide)).trans (W2_arg17 m ρ c)
theorem W4_arg17 : W4 m ρ c (Proc.devRef .tc main_arg17) = m ((c : Thread nD τ).loc main_arg17) :=
  (step4 m ρ c main_arg17 (by decide)).trans (W3_arg17 m ρ c)
theorem W5_arg17 : W5 m ρ c (Proc.devRef .tc main_arg17) = m ((c : Thread nD τ).loc main_arg17) :=
  (step5 m ρ c main_arg17 (by decide)).trans (W4_arg17 m ρ c)
theorem W6_arg17 : W6 m ρ c (Proc.devRef .tc main_arg17) = m ((c : Thread nD τ).loc main_arg17) :=
  (step6 m ρ c main_arg17 (by decide)).trans (W5_arg17 m ρ c)
theorem W7_arg17 : W7 m ρ c (Proc.devRef .tc main_arg17) = m ((c : Thread nD τ).loc main_arg17) :=
  (step7 m ρ c main_arg17 (by decide)).trans (W6_arg17 m ρ c)
theorem W8_arg17 : W8 m ρ c (Proc.devRef .tc main_arg17) = m ((c : Thread nD τ).loc main_arg17) :=
  (step8 m ρ c main_arg17 (by decide)).trans (W7_arg17 m ρ c)
theorem W1_arg18 : W1 m ρ c (Proc.devRef .tc main_arg18) = m ((c : Thread nD τ).loc main_arg18) :=
  (step1 m ρ c main_arg18 (by decide)).trans (W0_at m ρ c main_arg18)
theorem W2_arg18 : W2 m ρ c (Proc.devRef .tc main_arg18) = m ((c : Thread nD τ).loc main_arg18) :=
  (step2 m ρ c main_arg18 (by decide)).trans (W1_arg18 m ρ c)
theorem W3_arg18 : W3 m ρ c (Proc.devRef .tc main_arg18) = m ((c : Thread nD τ).loc main_arg18) :=
  (step3 m ρ c main_arg18 (by decide)).trans (W2_arg18 m ρ c)
theorem W4_arg18 : W4 m ρ c (Proc.devRef .tc main_arg18) = m ((c : Thread nD τ).loc main_arg18) :=
  (step4 m ρ c main_arg18 (by decide)).trans (W3_arg18 m ρ c)
theorem W5_arg18 : W5 m ρ c (Proc.devRef .tc main_arg18) = m ((c : Thread nD τ).loc main_arg18) :=
  (step5 m ρ c main_arg18 (by decide)).trans (W4_arg18 m ρ c)
theorem W6_arg18 : W6 m ρ c (Proc.devRef .tc main_arg18) = m ((c : Thread nD τ).loc main_arg18) :=
  (step6 m ρ c main_arg18 (by decide)).trans (W5_arg18 m ρ c)
theorem W7_arg18 : W7 m ρ c (Proc.devRef .tc main_arg18) = m ((c : Thread nD τ).loc main_arg18) :=
  (step7 m ρ c main_arg18 (by decide)).trans (W6_arg18 m ρ c)
theorem W8_arg18 : W8 m ρ c (Proc.devRef .tc main_arg18) = m ((c : Thread nD τ).loc main_arg18) :=
  (step8 m ρ c main_arg18 (by decide)).trans (W7_arg18 m ρ c)
theorem W9_arg18 : W9 m ρ c (Proc.devRef .tc main_arg18) = m ((c : Thread nD τ).loc main_arg18) :=
  (step9 m ρ c main_arg18 (by decide)).trans (W8_arg18 m ρ c)
theorem W10_arg18 : W10 m ρ c (Proc.devRef .tc main_arg18) = m ((c : Thread nD τ).loc main_arg18) :=
  (step10 m ρ c main_arg18 (by decide)).trans (W9_arg18 m ρ c)
theorem W11_arg18 : W11 m ρ c (Proc.devRef .tc main_arg18) = m ((c : Thread nD τ).loc main_arg18) :=
  (step11 m ρ c main_arg18 (by decide)).trans (W10_arg18 m ρ c)
theorem W12_arg18 : W12 m ρ c (Proc.devRef .tc main_arg18) = m ((c : Thread nD τ).loc main_arg18) :=
  (step12 m ρ c main_arg18 (by decide)).trans (W11_arg18 m ρ c)
theorem W1_arg19 : W1 m ρ c (Proc.devRef .tc main_arg19) = m ((c : Thread nD τ).loc main_arg19) :=
  (step1 m ρ c main_arg19 (by decide)).trans (W0_at m ρ c main_arg19)
theorem W2_arg19 : W2 m ρ c (Proc.devRef .tc main_arg19) = m ((c : Thread nD τ).loc main_arg19) :=
  (step2 m ρ c main_arg19 (by decide)).trans (W1_arg19 m ρ c)
theorem W3_arg19 : W3 m ρ c (Proc.devRef .tc main_arg19) = m ((c : Thread nD τ).loc main_arg19) :=
  (step3 m ρ c main_arg19 (by decide)).trans (W2_arg19 m ρ c)
theorem W4_arg19 : W4 m ρ c (Proc.devRef .tc main_arg19) = m ((c : Thread nD τ).loc main_arg19) :=
  (step4 m ρ c main_arg19 (by decide)).trans (W3_arg19 m ρ c)
theorem W5_arg19 : W5 m ρ c (Proc.devRef .tc main_arg19) = m ((c : Thread nD τ).loc main_arg19) :=
  (step5 m ρ c main_arg19 (by decide)).trans (W4_arg19 m ρ c)
theorem W6_arg19 : W6 m ρ c (Proc.devRef .tc main_arg19) = m ((c : Thread nD τ).loc main_arg19) :=
  (step6 m ρ c main_arg19 (by decide)).trans (W5_arg19 m ρ c)
theorem W7_arg19 : W7 m ρ c (Proc.devRef .tc main_arg19) = m ((c : Thread nD τ).loc main_arg19) :=
  (step7 m ρ c main_arg19 (by decide)).trans (W6_arg19 m ρ c)
theorem W8_arg19 : W8 m ρ c (Proc.devRef .tc main_arg19) = m ((c : Thread nD τ).loc main_arg19) :=
  (step8 m ρ c main_arg19 (by decide)).trans (W7_arg19 m ρ c)
theorem W9_arg19 : W9 m ρ c (Proc.devRef .tc main_arg19) = m ((c : Thread nD τ).loc main_arg19) :=
  (step9 m ρ c main_arg19 (by decide)).trans (W8_arg19 m ρ c)
theorem W10_arg19 : W10 m ρ c (Proc.devRef .tc main_arg19) = m ((c : Thread nD τ).loc main_arg19) :=
  (step10 m ρ c main_arg19 (by decide)).trans (W9_arg19 m ρ c)
theorem W11_arg19 : W11 m ρ c (Proc.devRef .tc main_arg19) = m ((c : Thread nD τ).loc main_arg19) :=
  (step11 m ρ c main_arg19 (by decide)).trans (W10_arg19 m ρ c)
theorem W12_arg19 : W12 m ρ c (Proc.devRef .tc main_arg19) = m ((c : Thread nD τ).loc main_arg19) :=
  (step12 m ρ c main_arg19 (by decide)).trans (W11_arg19 m ρ c)
theorem W1_arg20 : W1 m ρ c (Proc.devRef .tc main_arg20) = m ((c : Thread nD τ).loc main_arg20) :=
  (step1 m ρ c main_arg20 (by decide)).trans (W0_at m ρ c main_arg20)
theorem W2_arg20 : W2 m ρ c (Proc.devRef .tc main_arg20) = m ((c : Thread nD τ).loc main_arg20) :=
  (step2 m ρ c main_arg20 (by decide)).trans (W1_arg20 m ρ c)
theorem W3_arg20 : W3 m ρ c (Proc.devRef .tc main_arg20) = m ((c : Thread nD τ).loc main_arg20) :=
  (step3 m ρ c main_arg20 (by decide)).trans (W2_arg20 m ρ c)
theorem W4_arg20 : W4 m ρ c (Proc.devRef .tc main_arg20) = m ((c : Thread nD τ).loc main_arg20) :=
  (step4 m ρ c main_arg20 (by decide)).trans (W3_arg20 m ρ c)
theorem W5_arg20 : W5 m ρ c (Proc.devRef .tc main_arg20) = m ((c : Thread nD τ).loc main_arg20) :=
  (step5 m ρ c main_arg20 (by decide)).trans (W4_arg20 m ρ c)
theorem W6_arg20 : W6 m ρ c (Proc.devRef .tc main_arg20) = m ((c : Thread nD τ).loc main_arg20) :=
  (step6 m ρ c main_arg20 (by decide)).trans (W5_arg20 m ρ c)
theorem W7_arg20 : W7 m ρ c (Proc.devRef .tc main_arg20) = m ((c : Thread nD τ).loc main_arg20) :=
  (step7 m ρ c main_arg20 (by decide)).trans (W6_arg20 m ρ c)
theorem W8_arg20 : W8 m ρ c (Proc.devRef .tc main_arg20) = m ((c : Thread nD τ).loc main_arg20) :=
  (step8 m ρ c main_arg20 (by decide)).trans (W7_arg20 m ρ c)
theorem W9_arg20 : W9 m ρ c (Proc.devRef .tc main_arg20) = m ((c : Thread nD τ).loc main_arg20) :=
  (step9 m ρ c main_arg20 (by decide)).trans (W8_arg20 m ρ c)
theorem W10_arg20 : W10 m ρ c (Proc.devRef .tc main_arg20) = m ((c : Thread nD τ).loc main_arg20) :=
  (step10 m ρ c main_arg20 (by decide)).trans (W9_arg20 m ρ c)
theorem W11_arg20 : W11 m ρ c (Proc.devRef .tc main_arg20) = m ((c : Thread nD τ).loc main_arg20) :=
  (step11 m ρ c main_arg20 (by decide)).trans (W10_arg20 m ρ c)
theorem W12_arg20 : W12 m ρ c (Proc.devRef .tc main_arg20) = m ((c : Thread nD τ).loc main_arg20) :=
  (step12 m ρ c main_arg20 (by decide)).trans (W11_arg20 m ρ c)
theorem W13_arg20 : W13 m ρ c (Proc.devRef .tc main_arg20) = m ((c : Thread nD τ).loc main_arg20) :=
  (step13 m ρ c main_arg20 (by decide)).trans (W12_arg20 m ρ c)
theorem W14_arg20 : W14 m ρ c (Proc.devRef .tc main_arg20) = m ((c : Thread nD τ).loc main_arg20) :=
  (step14 m ρ c main_arg20 (by decide)).trans (W13_arg20 m ρ c)
theorem W15_arg20 : W15 m ρ c (Proc.devRef .tc main_arg20) = m ((c : Thread nD τ).loc main_arg20) :=
  (step15 m ρ c main_arg20 (by decide)).trans (W14_arg20 m ρ c)
theorem W1_arg21 : W1 m ρ c (Proc.devRef .tc main_arg21) = m ((c : Thread nD τ).loc main_arg21) :=
  (step1 m ρ c main_arg21 (by decide)).trans (W0_at m ρ c main_arg21)
theorem W2_arg21 : W2 m ρ c (Proc.devRef .tc main_arg21) = m ((c : Thread nD τ).loc main_arg21) :=
  (step2 m ρ c main_arg21 (by decide)).trans (W1_arg21 m ρ c)
theorem W3_arg21 : W3 m ρ c (Proc.devRef .tc main_arg21) = m ((c : Thread nD τ).loc main_arg21) :=
  (step3 m ρ c main_arg21 (by decide)).trans (W2_arg21 m ρ c)
theorem W4_arg21 : W4 m ρ c (Proc.devRef .tc main_arg21) = m ((c : Thread nD τ).loc main_arg21) :=
  (step4 m ρ c main_arg21 (by decide)).trans (W3_arg21 m ρ c)
theorem W5_arg21 : W5 m ρ c (Proc.devRef .tc main_arg21) = m ((c : Thread nD τ).loc main_arg21) :=
  (step5 m ρ c main_arg21 (by decide)).trans (W4_arg21 m ρ c)
theorem W6_arg21 : W6 m ρ c (Proc.devRef .tc main_arg21) = m ((c : Thread nD τ).loc main_arg21) :=
  (step6 m ρ c main_arg21 (by decide)).trans (W5_arg21 m ρ c)
theorem W7_arg21 : W7 m ρ c (Proc.devRef .tc main_arg21) = m ((c : Thread nD τ).loc main_arg21) :=
  (step7 m ρ c main_arg21 (by decide)).trans (W6_arg21 m ρ c)
theorem W8_arg21 : W8 m ρ c (Proc.devRef .tc main_arg21) = m ((c : Thread nD τ).loc main_arg21) :=
  (step8 m ρ c main_arg21 (by decide)).trans (W7_arg21 m ρ c)
theorem W9_arg21 : W9 m ρ c (Proc.devRef .tc main_arg21) = m ((c : Thread nD τ).loc main_arg21) :=
  (step9 m ρ c main_arg21 (by decide)).trans (W8_arg21 m ρ c)
theorem W10_arg21 : W10 m ρ c (Proc.devRef .tc main_arg21) = m ((c : Thread nD τ).loc main_arg21) :=
  (step10 m ρ c main_arg21 (by decide)).trans (W9_arg21 m ρ c)
theorem W11_arg21 : W11 m ρ c (Proc.devRef .tc main_arg21) = m ((c : Thread nD τ).loc main_arg21) :=
  (step11 m ρ c main_arg21 (by decide)).trans (W10_arg21 m ρ c)
theorem W12_arg21 : W12 m ρ c (Proc.devRef .tc main_arg21) = m ((c : Thread nD τ).loc main_arg21) :=
  (step12 m ρ c main_arg21 (by decide)).trans (W11_arg21 m ρ c)
theorem W13_arg21 : W13 m ρ c (Proc.devRef .tc main_arg21) = m ((c : Thread nD τ).loc main_arg21) :=
  (step13 m ρ c main_arg21 (by decide)).trans (W12_arg21 m ρ c)
theorem W14_arg21 : W14 m ρ c (Proc.devRef .tc main_arg21) = m ((c : Thread nD τ).loc main_arg21) :=
  (step14 m ρ c main_arg21 (by decide)).trans (W13_arg21 m ρ c)
theorem W1_arg22 : W1 m ρ c (Proc.devRef .tc main_arg22) = m ((c : Thread nD τ).loc main_arg22) :=
  (step1 m ρ c main_arg22 (by decide)).trans (W0_at m ρ c main_arg22)
theorem W2_arg22 : W2 m ρ c (Proc.devRef .tc main_arg22) = m ((c : Thread nD τ).loc main_arg22) :=
  (step2 m ρ c main_arg22 (by decide)).trans (W1_arg22 m ρ c)
theorem W3_arg22 : W3 m ρ c (Proc.devRef .tc main_arg22) = m ((c : Thread nD τ).loc main_arg22) :=
  (step3 m ρ c main_arg22 (by decide)).trans (W2_arg22 m ρ c)
theorem W4_arg22 : W4 m ρ c (Proc.devRef .tc main_arg22) = m ((c : Thread nD τ).loc main_arg22) :=
  (step4 m ρ c main_arg22 (by decide)).trans (W3_arg22 m ρ c)
theorem W5_arg22 : W5 m ρ c (Proc.devRef .tc main_arg22) = m ((c : Thread nD τ).loc main_arg22) :=
  (step5 m ρ c main_arg22 (by decide)).trans (W4_arg22 m ρ c)
theorem W6_arg22 : W6 m ρ c (Proc.devRef .tc main_arg22) = m ((c : Thread nD τ).loc main_arg22) :=
  (step6 m ρ c main_arg22 (by decide)).trans (W5_arg22 m ρ c)
theorem W7_arg22 : W7 m ρ c (Proc.devRef .tc main_arg22) = m ((c : Thread nD τ).loc main_arg22) :=
  (step7 m ρ c main_arg22 (by decide)).trans (W6_arg22 m ρ c)
theorem W8_arg22 : W8 m ρ c (Proc.devRef .tc main_arg22) = m ((c : Thread nD τ).loc main_arg22) :=
  (step8 m ρ c main_arg22 (by decide)).trans (W7_arg22 m ρ c)
theorem W9_arg22 : W9 m ρ c (Proc.devRef .tc main_arg22) = m ((c : Thread nD τ).loc main_arg22) :=
  (step9 m ρ c main_arg22 (by decide)).trans (W8_arg22 m ρ c)
theorem W10_arg22 : W10 m ρ c (Proc.devRef .tc main_arg22) = m ((c : Thread nD τ).loc main_arg22) :=
  (step10 m ρ c main_arg22 (by decide)).trans (W9_arg22 m ρ c)
theorem W11_arg22 : W11 m ρ c (Proc.devRef .tc main_arg22) = m ((c : Thread nD τ).loc main_arg22) :=
  (step11 m ρ c main_arg22 (by decide)).trans (W10_arg22 m ρ c)
theorem W12_arg22 : W12 m ρ c (Proc.devRef .tc main_arg22) = m ((c : Thread nD τ).loc main_arg22) :=
  (step12 m ρ c main_arg22 (by decide)).trans (W11_arg22 m ρ c)
theorem W13_arg22 : W13 m ρ c (Proc.devRef .tc main_arg22) = m ((c : Thread nD τ).loc main_arg22) :=
  (step13 m ρ c main_arg22 (by decide)).trans (W12_arg22 m ρ c)
theorem W14_arg22 : W14 m ρ c (Proc.devRef .tc main_arg22) = m ((c : Thread nD τ).loc main_arg22) :=
  (step14 m ρ c main_arg22 (by decide)).trans (W13_arg22 m ρ c)
theorem W15_arg22 : W15 m ρ c (Proc.devRef .tc main_arg22) = m ((c : Thread nD τ).loc main_arg22) :=
  (step15 m ρ c main_arg22 (by decide)).trans (W14_arg22 m ρ c)
theorem W1_arg23 : W1 m ρ c (Proc.devRef .tc main_arg23) = m ((c : Thread nD τ).loc main_arg23) :=
  (step1 m ρ c main_arg23 (by decide)).trans (W0_at m ρ c main_arg23)
theorem W2_arg23 : W2 m ρ c (Proc.devRef .tc main_arg23) = m ((c : Thread nD τ).loc main_arg23) :=
  (step2 m ρ c main_arg23 (by decide)).trans (W1_arg23 m ρ c)
theorem W3_arg23 : W3 m ρ c (Proc.devRef .tc main_arg23) = m ((c : Thread nD τ).loc main_arg23) :=
  (step3 m ρ c main_arg23 (by decide)).trans (W2_arg23 m ρ c)
theorem W4_arg23 : W4 m ρ c (Proc.devRef .tc main_arg23) = m ((c : Thread nD τ).loc main_arg23) :=
  (step4 m ρ c main_arg23 (by decide)).trans (W3_arg23 m ρ c)
theorem W5_arg23 : W5 m ρ c (Proc.devRef .tc main_arg23) = m ((c : Thread nD τ).loc main_arg23) :=
  (step5 m ρ c main_arg23 (by decide)).trans (W4_arg23 m ρ c)
theorem W6_arg23 : W6 m ρ c (Proc.devRef .tc main_arg23) = m ((c : Thread nD τ).loc main_arg23) :=
  (step6 m ρ c main_arg23 (by decide)).trans (W5_arg23 m ρ c)
theorem W7_arg23 : W7 m ρ c (Proc.devRef .tc main_arg23) = m ((c : Thread nD τ).loc main_arg23) :=
  (step7 m ρ c main_arg23 (by decide)).trans (W6_arg23 m ρ c)
theorem W8_arg23 : W8 m ρ c (Proc.devRef .tc main_arg23) = m ((c : Thread nD τ).loc main_arg23) :=
  (step8 m ρ c main_arg23 (by decide)).trans (W7_arg23 m ρ c)
theorem W9_arg23 : W9 m ρ c (Proc.devRef .tc main_arg23) = m ((c : Thread nD τ).loc main_arg23) :=
  (step9 m ρ c main_arg23 (by decide)).trans (W8_arg23 m ρ c)
theorem W10_arg23 : W10 m ρ c (Proc.devRef .tc main_arg23) = m ((c : Thread nD τ).loc main_arg23) :=
  (step10 m ρ c main_arg23 (by decide)).trans (W9_arg23 m ρ c)
theorem W11_arg23 : W11 m ρ c (Proc.devRef .tc main_arg23) = m ((c : Thread nD τ).loc main_arg23) :=
  (step11 m ρ c main_arg23 (by decide)).trans (W10_arg23 m ρ c)
theorem W12_arg23 : W12 m ρ c (Proc.devRef .tc main_arg23) = m ((c : Thread nD τ).loc main_arg23) :=
  (step12 m ρ c main_arg23 (by decide)).trans (W11_arg23 m ρ c)
theorem W13_arg23 : W13 m ρ c (Proc.devRef .tc main_arg23) = m ((c : Thread nD τ).loc main_arg23) :=
  (step13 m ρ c main_arg23 (by decide)).trans (W12_arg23 m ρ c)
theorem W14_arg23 : W14 m ρ c (Proc.devRef .tc main_arg23) = m ((c : Thread nD τ).loc main_arg23) :=
  (step14 m ρ c main_arg23 (by decide)).trans (W13_arg23 m ρ c)
theorem W1_arg24 : W1 m ρ c (Proc.devRef .tc main_arg24) = m ((c : Thread nD τ).loc main_arg24) :=
  (step1 m ρ c main_arg24 (by decide)).trans (W0_at m ρ c main_arg24)
theorem W2_arg24 : W2 m ρ c (Proc.devRef .tc main_arg24) = m ((c : Thread nD τ).loc main_arg24) :=
  (step2 m ρ c main_arg24 (by decide)).trans (W1_arg24 m ρ c)
theorem W3_arg24 : W3 m ρ c (Proc.devRef .tc main_arg24) = m ((c : Thread nD τ).loc main_arg24) :=
  (step3 m ρ c main_arg24 (by decide)).trans (W2_arg24 m ρ c)
theorem W4_arg24 : W4 m ρ c (Proc.devRef .tc main_arg24) = m ((c : Thread nD τ).loc main_arg24) :=
  (step4 m ρ c main_arg24 (by decide)).trans (W3_arg24 m ρ c)
theorem W5_arg24 : W5 m ρ c (Proc.devRef .tc main_arg24) = m ((c : Thread nD τ).loc main_arg24) :=
  (step5 m ρ c main_arg24 (by decide)).trans (W4_arg24 m ρ c)
theorem W6_arg24 : W6 m ρ c (Proc.devRef .tc main_arg24) = m ((c : Thread nD τ).loc main_arg24) :=
  (step6 m ρ c main_arg24 (by decide)).trans (W5_arg24 m ρ c)
theorem W7_arg24 : W7 m ρ c (Proc.devRef .tc main_arg24) = m ((c : Thread nD τ).loc main_arg24) :=
  (step7 m ρ c main_arg24 (by decide)).trans (W6_arg24 m ρ c)
theorem W8_arg24 : W8 m ρ c (Proc.devRef .tc main_arg24) = m ((c : Thread nD τ).loc main_arg24) :=
  (step8 m ρ c main_arg24 (by decide)).trans (W7_arg24 m ρ c)
theorem W9_arg24 : W9 m ρ c (Proc.devRef .tc main_arg24) = m ((c : Thread nD τ).loc main_arg24) :=
  (step9 m ρ c main_arg24 (by decide)).trans (W8_arg24 m ρ c)
theorem W10_arg24 : W10 m ρ c (Proc.devRef .tc main_arg24) = m ((c : Thread nD τ).loc main_arg24) :=
  (step10 m ρ c main_arg24 (by decide)).trans (W9_arg24 m ρ c)
theorem W11_arg24 : W11 m ρ c (Proc.devRef .tc main_arg24) = m ((c : Thread nD τ).loc main_arg24) :=
  (step11 m ρ c main_arg24 (by decide)).trans (W10_arg24 m ρ c)
theorem W12_arg24 : W12 m ρ c (Proc.devRef .tc main_arg24) = m ((c : Thread nD τ).loc main_arg24) :=
  (step12 m ρ c main_arg24 (by decide)).trans (W11_arg24 m ρ c)
theorem W13_arg24 : W13 m ρ c (Proc.devRef .tc main_arg24) = m ((c : Thread nD τ).loc main_arg24) :=
  (step13 m ρ c main_arg24 (by decide)).trans (W12_arg24 m ρ c)
theorem W14_arg24 : W14 m ρ c (Proc.devRef .tc main_arg24) = m ((c : Thread nD τ).loc main_arg24) :=
  (step14 m ρ c main_arg24 (by decide)).trans (W13_arg24 m ρ c)
theorem W15_arg24 : W15 m ρ c (Proc.devRef .tc main_arg24) = m ((c : Thread nD τ).loc main_arg24) :=
  (step15 m ρ c main_arg24 (by decide)).trans (W14_arg24 m ρ c)
theorem W16_arg24 : W16 m ρ c (Proc.devRef .tc main_arg24) = m ((c : Thread nD τ).loc main_arg24) :=
  (step16 m ρ c main_arg24 (by decide)).trans (W15_arg24 m ρ c)
theorem W17_arg24 : W17 m ρ c (Proc.devRef .tc main_arg24) = m ((c : Thread nD τ).loc main_arg24) :=
  (step17 m ρ c main_arg24 (by decide)).trans (W16_arg24 m ρ c)
theorem W18_arg24 : W18 m ρ c (Proc.devRef .tc main_arg24) = m ((c : Thread nD τ).loc main_arg24) :=
  (step18 m ρ c main_arg24 (by decide)).trans (W17_arg24 m ρ c)
theorem W1_arg25 : W1 m ρ c (Proc.devRef .tc main_arg25) = m ((c : Thread nD τ).loc main_arg25) :=
  (step1 m ρ c main_arg25 (by decide)).trans (W0_at m ρ c main_arg25)
theorem W2_arg25 : W2 m ρ c (Proc.devRef .tc main_arg25) = m ((c : Thread nD τ).loc main_arg25) :=
  (step2 m ρ c main_arg25 (by decide)).trans (W1_arg25 m ρ c)
theorem W3_arg25 : W3 m ρ c (Proc.devRef .tc main_arg25) = m ((c : Thread nD τ).loc main_arg25) :=
  (step3 m ρ c main_arg25 (by decide)).trans (W2_arg25 m ρ c)
theorem W4_arg25 : W4 m ρ c (Proc.devRef .tc main_arg25) = m ((c : Thread nD τ).loc main_arg25) :=
  (step4 m ρ c main_arg25 (by decide)).trans (W3_arg25 m ρ c)
theorem W5_arg25 : W5 m ρ c (Proc.devRef .tc main_arg25) = m ((c : Thread nD τ).loc main_arg25) :=
  (step5 m ρ c main_arg25 (by decide)).trans (W4_arg25 m ρ c)
theorem W6_arg25 : W6 m ρ c (Proc.devRef .tc main_arg25) = m ((c : Thread nD τ).loc main_arg25) :=
  (step6 m ρ c main_arg25 (by decide)).trans (W5_arg25 m ρ c)
theorem W7_arg25 : W7 m ρ c (Proc.devRef .tc main_arg25) = m ((c : Thread nD τ).loc main_arg25) :=
  (step7 m ρ c main_arg25 (by decide)).trans (W6_arg25 m ρ c)
theorem W8_arg25 : W8 m ρ c (Proc.devRef .tc main_arg25) = m ((c : Thread nD τ).loc main_arg25) :=
  (step8 m ρ c main_arg25 (by decide)).trans (W7_arg25 m ρ c)
theorem W9_arg25 : W9 m ρ c (Proc.devRef .tc main_arg25) = m ((c : Thread nD τ).loc main_arg25) :=
  (step9 m ρ c main_arg25 (by decide)).trans (W8_arg25 m ρ c)
theorem W10_arg25 : W10 m ρ c (Proc.devRef .tc main_arg25) = m ((c : Thread nD τ).loc main_arg25) :=
  (step10 m ρ c main_arg25 (by decide)).trans (W9_arg25 m ρ c)
theorem W11_arg25 : W11 m ρ c (Proc.devRef .tc main_arg25) = m ((c : Thread nD τ).loc main_arg25) :=
  (step11 m ρ c main_arg25 (by decide)).trans (W10_arg25 m ρ c)
theorem W12_arg25 : W12 m ρ c (Proc.devRef .tc main_arg25) = m ((c : Thread nD τ).loc main_arg25) :=
  (step12 m ρ c main_arg25 (by decide)).trans (W11_arg25 m ρ c)
theorem W13_arg25 : W13 m ρ c (Proc.devRef .tc main_arg25) = m ((c : Thread nD τ).loc main_arg25) :=
  (step13 m ρ c main_arg25 (by decide)).trans (W12_arg25 m ρ c)
theorem W14_arg25 : W14 m ρ c (Proc.devRef .tc main_arg25) = m ((c : Thread nD τ).loc main_arg25) :=
  (step14 m ρ c main_arg25 (by decide)).trans (W13_arg25 m ρ c)
theorem W15_arg25 : W15 m ρ c (Proc.devRef .tc main_arg25) = m ((c : Thread nD τ).loc main_arg25) :=
  (step15 m ρ c main_arg25 (by decide)).trans (W14_arg25 m ρ c)
theorem W16_arg25 : W16 m ρ c (Proc.devRef .tc main_arg25) = m ((c : Thread nD τ).loc main_arg25) :=
  (step16 m ρ c main_arg25 (by decide)).trans (W15_arg25 m ρ c)
theorem W17_arg25 : W17 m ρ c (Proc.devRef .tc main_arg25) = m ((c : Thread nD τ).loc main_arg25) :=
  (step17 m ρ c main_arg25 (by decide)).trans (W16_arg25 m ρ c)
theorem W18_arg25 : W18 m ρ c (Proc.devRef .tc main_arg25) = m ((c : Thread nD τ).loc main_arg25) :=
  (step18 m ρ c main_arg25 (by decide)).trans (W17_arg25 m ρ c)
theorem W1_arg26 : W1 m ρ c (Proc.devRef .tc main_arg26) = m ((c : Thread nD τ).loc main_arg26) :=
  (step1 m ρ c main_arg26 (by decide)).trans (W0_at m ρ c main_arg26)
theorem W2_arg26 : W2 m ρ c (Proc.devRef .tc main_arg26) = m ((c : Thread nD τ).loc main_arg26) :=
  (step2 m ρ c main_arg26 (by decide)).trans (W1_arg26 m ρ c)
theorem W3_arg26 : W3 m ρ c (Proc.devRef .tc main_arg26) = m ((c : Thread nD τ).loc main_arg26) :=
  (step3 m ρ c main_arg26 (by decide)).trans (W2_arg26 m ρ c)
theorem W4_arg26 : W4 m ρ c (Proc.devRef .tc main_arg26) = m ((c : Thread nD τ).loc main_arg26) :=
  (step4 m ρ c main_arg26 (by decide)).trans (W3_arg26 m ρ c)
theorem W5_arg26 : W5 m ρ c (Proc.devRef .tc main_arg26) = m ((c : Thread nD τ).loc main_arg26) :=
  (step5 m ρ c main_arg26 (by decide)).trans (W4_arg26 m ρ c)
theorem W6_arg26 : W6 m ρ c (Proc.devRef .tc main_arg26) = m ((c : Thread nD τ).loc main_arg26) :=
  (step6 m ρ c main_arg26 (by decide)).trans (W5_arg26 m ρ c)
theorem W7_arg26 : W7 m ρ c (Proc.devRef .tc main_arg26) = m ((c : Thread nD τ).loc main_arg26) :=
  (step7 m ρ c main_arg26 (by decide)).trans (W6_arg26 m ρ c)
theorem W8_arg26 : W8 m ρ c (Proc.devRef .tc main_arg26) = m ((c : Thread nD τ).loc main_arg26) :=
  (step8 m ρ c main_arg26 (by decide)).trans (W7_arg26 m ρ c)
theorem W9_arg26 : W9 m ρ c (Proc.devRef .tc main_arg26) = m ((c : Thread nD τ).loc main_arg26) :=
  (step9 m ρ c main_arg26 (by decide)).trans (W8_arg26 m ρ c)
theorem W10_arg26 : W10 m ρ c (Proc.devRef .tc main_arg26) = m ((c : Thread nD τ).loc main_arg26) :=
  (step10 m ρ c main_arg26 (by decide)).trans (W9_arg26 m ρ c)
theorem W11_arg26 : W11 m ρ c (Proc.devRef .tc main_arg26) = m ((c : Thread nD τ).loc main_arg26) :=
  (step11 m ρ c main_arg26 (by decide)).trans (W10_arg26 m ρ c)
theorem W12_arg26 : W12 m ρ c (Proc.devRef .tc main_arg26) = m ((c : Thread nD τ).loc main_arg26) :=
  (step12 m ρ c main_arg26 (by decide)).trans (W11_arg26 m ρ c)
theorem W13_arg26 : W13 m ρ c (Proc.devRef .tc main_arg26) = m ((c : Thread nD τ).loc main_arg26) :=
  (step13 m ρ c main_arg26 (by decide)).trans (W12_arg26 m ρ c)
theorem W14_arg26 : W14 m ρ c (Proc.devRef .tc main_arg26) = m ((c : Thread nD τ).loc main_arg26) :=
  (step14 m ρ c main_arg26 (by decide)).trans (W13_arg26 m ρ c)
theorem W15_arg26 : W15 m ρ c (Proc.devRef .tc main_arg26) = m ((c : Thread nD τ).loc main_arg26) :=
  (step15 m ρ c main_arg26 (by decide)).trans (W14_arg26 m ρ c)
theorem W16_arg26 : W16 m ρ c (Proc.devRef .tc main_arg26) = m ((c : Thread nD τ).loc main_arg26) :=
  (step16 m ρ c main_arg26 (by decide)).trans (W15_arg26 m ρ c)
theorem W17_arg26 : W17 m ρ c (Proc.devRef .tc main_arg26) = m ((c : Thread nD τ).loc main_arg26) :=
  (step17 m ρ c main_arg26 (by decide)).trans (W16_arg26 m ρ c)
theorem W18_arg26 : W18 m ρ c (Proc.devRef .tc main_arg26) = m ((c : Thread nD τ).loc main_arg26) :=
  (step18 m ρ c main_arg26 (by decide)).trans (W17_arg26 m ρ c)
theorem W19_arg26 : W19 m ρ c (Proc.devRef .tc main_arg26) = m ((c : Thread nD τ).loc main_arg26) :=
  (step19 m ρ c main_arg26 (by decide)).trans (W18_arg26 m ρ c)
theorem W20_arg26 : W20 m ρ c (Proc.devRef .tc main_arg26) = m ((c : Thread nD τ).loc main_arg26) :=
  (step20 m ρ c main_arg26 (by decide)).trans (W19_arg26 m ρ c)
theorem W21_arg26 : W21 m ρ c (Proc.devRef .tc main_arg26) = m ((c : Thread nD τ).loc main_arg26) :=
  (step21 m ρ c main_arg26 (by decide)).trans (W20_arg26 m ρ c)
theorem W1_arg27 : W1 m ρ c (Proc.devRef .tc main_arg27) = m ((c : Thread nD τ).loc main_arg27) :=
  (step1 m ρ c main_arg27 (by decide)).trans (W0_at m ρ c main_arg27)
theorem W2_arg27 : W2 m ρ c (Proc.devRef .tc main_arg27) = m ((c : Thread nD τ).loc main_arg27) :=
  (step2 m ρ c main_arg27 (by decide)).trans (W1_arg27 m ρ c)
theorem W3_arg27 : W3 m ρ c (Proc.devRef .tc main_arg27) = m ((c : Thread nD τ).loc main_arg27) :=
  (step3 m ρ c main_arg27 (by decide)).trans (W2_arg27 m ρ c)
theorem W4_arg27 : W4 m ρ c (Proc.devRef .tc main_arg27) = m ((c : Thread nD τ).loc main_arg27) :=
  (step4 m ρ c main_arg27 (by decide)).trans (W3_arg27 m ρ c)
theorem W5_arg27 : W5 m ρ c (Proc.devRef .tc main_arg27) = m ((c : Thread nD τ).loc main_arg27) :=
  (step5 m ρ c main_arg27 (by decide)).trans (W4_arg27 m ρ c)
theorem W6_arg27 : W6 m ρ c (Proc.devRef .tc main_arg27) = m ((c : Thread nD τ).loc main_arg27) :=
  (step6 m ρ c main_arg27 (by decide)).trans (W5_arg27 m ρ c)
theorem W7_arg27 : W7 m ρ c (Proc.devRef .tc main_arg27) = m ((c : Thread nD τ).loc main_arg27) :=
  (step7 m ρ c main_arg27 (by decide)).trans (W6_arg27 m ρ c)
theorem W8_arg27 : W8 m ρ c (Proc.devRef .tc main_arg27) = m ((c : Thread nD τ).loc main_arg27) :=
  (step8 m ρ c main_arg27 (by decide)).trans (W7_arg27 m ρ c)
theorem W9_arg27 : W9 m ρ c (Proc.devRef .tc main_arg27) = m ((c : Thread nD τ).loc main_arg27) :=
  (step9 m ρ c main_arg27 (by decide)).trans (W8_arg27 m ρ c)
theorem W10_arg27 : W10 m ρ c (Proc.devRef .tc main_arg27) = m ((c : Thread nD τ).loc main_arg27) :=
  (step10 m ρ c main_arg27 (by decide)).trans (W9_arg27 m ρ c)
theorem W11_arg27 : W11 m ρ c (Proc.devRef .tc main_arg27) = m ((c : Thread nD τ).loc main_arg27) :=
  (step11 m ρ c main_arg27 (by decide)).trans (W10_arg27 m ρ c)
theorem W12_arg27 : W12 m ρ c (Proc.devRef .tc main_arg27) = m ((c : Thread nD τ).loc main_arg27) :=
  (step12 m ρ c main_arg27 (by decide)).trans (W11_arg27 m ρ c)
theorem W13_arg27 : W13 m ρ c (Proc.devRef .tc main_arg27) = m ((c : Thread nD τ).loc main_arg27) :=
  (step13 m ρ c main_arg27 (by decide)).trans (W12_arg27 m ρ c)
theorem W14_arg27 : W14 m ρ c (Proc.devRef .tc main_arg27) = m ((c : Thread nD τ).loc main_arg27) :=
  (step14 m ρ c main_arg27 (by decide)).trans (W13_arg27 m ρ c)
theorem W15_arg27 : W15 m ρ c (Proc.devRef .tc main_arg27) = m ((c : Thread nD τ).loc main_arg27) :=
  (step15 m ρ c main_arg27 (by decide)).trans (W14_arg27 m ρ c)
theorem W16_arg27 : W16 m ρ c (Proc.devRef .tc main_arg27) = m ((c : Thread nD τ).loc main_arg27) :=
  (step16 m ρ c main_arg27 (by decide)).trans (W15_arg27 m ρ c)
theorem W17_arg27 : W17 m ρ c (Proc.devRef .tc main_arg27) = m ((c : Thread nD τ).loc main_arg27) :=
  (step17 m ρ c main_arg27 (by decide)).trans (W16_arg27 m ρ c)
theorem W18_arg27 : W18 m ρ c (Proc.devRef .tc main_arg27) = m ((c : Thread nD τ).loc main_arg27) :=
  (step18 m ρ c main_arg27 (by decide)).trans (W17_arg27 m ρ c)
theorem W19_arg27 : W19 m ρ c (Proc.devRef .tc main_arg27) = m ((c : Thread nD τ).loc main_arg27) :=
  (step19 m ρ c main_arg27 (by decide)).trans (W18_arg27 m ρ c)
theorem W20_arg27 : W20 m ρ c (Proc.devRef .tc main_arg27) = m ((c : Thread nD τ).loc main_arg27) :=
  (step20 m ρ c main_arg27 (by decide)).trans (W19_arg27 m ρ c)
theorem W1_arg28 : W1 m ρ c (Proc.devRef .tc main_arg28) = m ((c : Thread nD τ).loc main_arg28) :=
  (step1 m ρ c main_arg28 (by decide)).trans (W0_at m ρ c main_arg28)
theorem W2_arg28 : W2 m ρ c (Proc.devRef .tc main_arg28) = m ((c : Thread nD τ).loc main_arg28) :=
  (step2 m ρ c main_arg28 (by decide)).trans (W1_arg28 m ρ c)
theorem W3_arg28 : W3 m ρ c (Proc.devRef .tc main_arg28) = m ((c : Thread nD τ).loc main_arg28) :=
  (step3 m ρ c main_arg28 (by decide)).trans (W2_arg28 m ρ c)
theorem W4_arg28 : W4 m ρ c (Proc.devRef .tc main_arg28) = m ((c : Thread nD τ).loc main_arg28) :=
  (step4 m ρ c main_arg28 (by decide)).trans (W3_arg28 m ρ c)
theorem W5_arg28 : W5 m ρ c (Proc.devRef .tc main_arg28) = m ((c : Thread nD τ).loc main_arg28) :=
  (step5 m ρ c main_arg28 (by decide)).trans (W4_arg28 m ρ c)
theorem W6_arg28 : W6 m ρ c (Proc.devRef .tc main_arg28) = m ((c : Thread nD τ).loc main_arg28) :=
  (step6 m ρ c main_arg28 (by decide)).trans (W5_arg28 m ρ c)
theorem W7_arg28 : W7 m ρ c (Proc.devRef .tc main_arg28) = m ((c : Thread nD τ).loc main_arg28) :=
  (step7 m ρ c main_arg28 (by decide)).trans (W6_arg28 m ρ c)
theorem W8_arg28 : W8 m ρ c (Proc.devRef .tc main_arg28) = m ((c : Thread nD τ).loc main_arg28) :=
  (step8 m ρ c main_arg28 (by decide)).trans (W7_arg28 m ρ c)
theorem W9_arg28 : W9 m ρ c (Proc.devRef .tc main_arg28) = m ((c : Thread nD τ).loc main_arg28) :=
  (step9 m ρ c main_arg28 (by decide)).trans (W8_arg28 m ρ c)
theorem W10_arg28 : W10 m ρ c (Proc.devRef .tc main_arg28) = m ((c : Thread nD τ).loc main_arg28) :=
  (step10 m ρ c main_arg28 (by decide)).trans (W9_arg28 m ρ c)
theorem W11_arg28 : W11 m ρ c (Proc.devRef .tc main_arg28) = m ((c : Thread nD τ).loc main_arg28) :=
  (step11 m ρ c main_arg28 (by decide)).trans (W10_arg28 m ρ c)
theorem W12_arg28 : W12 m ρ c (Proc.devRef .tc main_arg28) = m ((c : Thread nD τ).loc main_arg28) :=
  (step12 m ρ c main_arg28 (by decide)).trans (W11_arg28 m ρ c)
theorem W13_arg28 : W13 m ρ c (Proc.devRef .tc main_arg28) = m ((c : Thread nD τ).loc main_arg28) :=
  (step13 m ρ c main_arg28 (by decide)).trans (W12_arg28 m ρ c)
theorem W14_arg28 : W14 m ρ c (Proc.devRef .tc main_arg28) = m ((c : Thread nD τ).loc main_arg28) :=
  (step14 m ρ c main_arg28 (by decide)).trans (W13_arg28 m ρ c)
theorem W15_arg28 : W15 m ρ c (Proc.devRef .tc main_arg28) = m ((c : Thread nD τ).loc main_arg28) :=
  (step15 m ρ c main_arg28 (by decide)).trans (W14_arg28 m ρ c)
theorem W16_arg28 : W16 m ρ c (Proc.devRef .tc main_arg28) = m ((c : Thread nD τ).loc main_arg28) :=
  (step16 m ρ c main_arg28 (by decide)).trans (W15_arg28 m ρ c)
theorem W17_arg28 : W17 m ρ c (Proc.devRef .tc main_arg28) = m ((c : Thread nD τ).loc main_arg28) :=
  (step17 m ρ c main_arg28 (by decide)).trans (W16_arg28 m ρ c)
theorem W18_arg28 : W18 m ρ c (Proc.devRef .tc main_arg28) = m ((c : Thread nD τ).loc main_arg28) :=
  (step18 m ρ c main_arg28 (by decide)).trans (W17_arg28 m ρ c)
theorem W19_arg28 : W19 m ρ c (Proc.devRef .tc main_arg28) = m ((c : Thread nD τ).loc main_arg28) :=
  (step19 m ρ c main_arg28 (by decide)).trans (W18_arg28 m ρ c)
theorem W20_arg28 : W20 m ρ c (Proc.devRef .tc main_arg28) = m ((c : Thread nD τ).loc main_arg28) :=
  (step20 m ρ c main_arg28 (by decide)).trans (W19_arg28 m ρ c)
theorem W21_arg28 : W21 m ρ c (Proc.devRef .tc main_arg28) = m ((c : Thread nD τ).loc main_arg28) :=
  (step21 m ρ c main_arg28 (by decide)).trans (W20_arg28 m ρ c)
theorem W1_arg29 : W1 m ρ c (Proc.devRef .tc main_arg29) = m ((c : Thread nD τ).loc main_arg29) :=
  (step1 m ρ c main_arg29 (by decide)).trans (W0_at m ρ c main_arg29)
theorem W2_arg29 : W2 m ρ c (Proc.devRef .tc main_arg29) = m ((c : Thread nD τ).loc main_arg29) :=
  (step2 m ρ c main_arg29 (by decide)).trans (W1_arg29 m ρ c)
theorem W3_arg29 : W3 m ρ c (Proc.devRef .tc main_arg29) = m ((c : Thread nD τ).loc main_arg29) :=
  (step3 m ρ c main_arg29 (by decide)).trans (W2_arg29 m ρ c)
theorem W4_arg29 : W4 m ρ c (Proc.devRef .tc main_arg29) = m ((c : Thread nD τ).loc main_arg29) :=
  (step4 m ρ c main_arg29 (by decide)).trans (W3_arg29 m ρ c)
theorem W5_arg29 : W5 m ρ c (Proc.devRef .tc main_arg29) = m ((c : Thread nD τ).loc main_arg29) :=
  (step5 m ρ c main_arg29 (by decide)).trans (W4_arg29 m ρ c)
theorem W6_arg29 : W6 m ρ c (Proc.devRef .tc main_arg29) = m ((c : Thread nD τ).loc main_arg29) :=
  (step6 m ρ c main_arg29 (by decide)).trans (W5_arg29 m ρ c)
theorem W7_arg29 : W7 m ρ c (Proc.devRef .tc main_arg29) = m ((c : Thread nD τ).loc main_arg29) :=
  (step7 m ρ c main_arg29 (by decide)).trans (W6_arg29 m ρ c)
theorem W8_arg29 : W8 m ρ c (Proc.devRef .tc main_arg29) = m ((c : Thread nD τ).loc main_arg29) :=
  (step8 m ρ c main_arg29 (by decide)).trans (W7_arg29 m ρ c)
theorem W9_arg29 : W9 m ρ c (Proc.devRef .tc main_arg29) = m ((c : Thread nD τ).loc main_arg29) :=
  (step9 m ρ c main_arg29 (by decide)).trans (W8_arg29 m ρ c)
theorem W10_arg29 : W10 m ρ c (Proc.devRef .tc main_arg29) = m ((c : Thread nD τ).loc main_arg29) :=
  (step10 m ρ c main_arg29 (by decide)).trans (W9_arg29 m ρ c)
theorem W11_arg29 : W11 m ρ c (Proc.devRef .tc main_arg29) = m ((c : Thread nD τ).loc main_arg29) :=
  (step11 m ρ c main_arg29 (by decide)).trans (W10_arg29 m ρ c)
theorem W12_arg29 : W12 m ρ c (Proc.devRef .tc main_arg29) = m ((c : Thread nD τ).loc main_arg29) :=
  (step12 m ρ c main_arg29 (by decide)).trans (W11_arg29 m ρ c)
theorem W13_arg29 : W13 m ρ c (Proc.devRef .tc main_arg29) = m ((c : Thread nD τ).loc main_arg29) :=
  (step13 m ρ c main_arg29 (by decide)).trans (W12_arg29 m ρ c)
theorem W14_arg29 : W14 m ρ c (Proc.devRef .tc main_arg29) = m ((c : Thread nD τ).loc main_arg29) :=
  (step14 m ρ c main_arg29 (by decide)).trans (W13_arg29 m ρ c)
theorem W15_arg29 : W15 m ρ c (Proc.devRef .tc main_arg29) = m ((c : Thread nD τ).loc main_arg29) :=
  (step15 m ρ c main_arg29 (by decide)).trans (W14_arg29 m ρ c)
theorem W16_arg29 : W16 m ρ c (Proc.devRef .tc main_arg29) = m ((c : Thread nD τ).loc main_arg29) :=
  (step16 m ρ c main_arg29 (by decide)).trans (W15_arg29 m ρ c)
theorem W17_arg29 : W17 m ρ c (Proc.devRef .tc main_arg29) = m ((c : Thread nD τ).loc main_arg29) :=
  (step17 m ρ c main_arg29 (by decide)).trans (W16_arg29 m ρ c)
theorem W18_arg29 : W18 m ρ c (Proc.devRef .tc main_arg29) = m ((c : Thread nD τ).loc main_arg29) :=
  (step18 m ρ c main_arg29 (by decide)).trans (W17_arg29 m ρ c)
theorem W19_arg29 : W19 m ρ c (Proc.devRef .tc main_arg29) = m ((c : Thread nD τ).loc main_arg29) :=
  (step19 m ρ c main_arg29 (by decide)).trans (W18_arg29 m ρ c)
theorem W20_arg29 : W20 m ρ c (Proc.devRef .tc main_arg29) = m ((c : Thread nD τ).loc main_arg29) :=
  (step20 m ρ c main_arg29 (by decide)).trans (W19_arg29 m ρ c)

end Cert.Gin.Ker

end
-- ==== Proof.KCongr.lean ====
/-
  Equal arguments give equal stages: the perceptron, the entry-by-entry sum and the normalisation applied to equal
  matrices and vectors are equal. Stated once so that a stage's arguments can be replaced all at once.
-/
import proofs.«132092_j14199161880830_1_alg».proof.Proof.Spec

noncomputable section

namespace Cert.Gin.Ker

open Idealize.ShloMosaic Cert.Layers Cert.Net Cert.Gin

variable {n a b c : Nat}

theorem readout_congr {x x' : Mat n a} {w1 w1' : Mat a b} {b1 b1' : Row b} {w2 w2' : Mat b c} {b2 b2' : Row c}
    (hx : x = x') (h1 : w1 = w1') (h2 : b1 = b1') (h3 : w2 = w2') (h4 : b2 = b2') :
    readout x w1 b1 w2 b2 = readout x' w1' b1' w2' b2' := by
  subst hx h1 h2 h3 h4; rfl

theorem plus_congr {x x' y y' : Mat n a} (hx : x = x') (hy : y = y') : plus x y = plus x' y' := by
  subst hx hy; rfl

theorem bnRelu_congr {z z' : Mat n a} {mu mu' va va' g g' be be' : Row a}
    (hz : z = z') (h1 : mu = mu') (h2 : va = va') (h3 : g = g') (h4 : be = be') :
    bnRelu z mu va g be = bnRelu z' mu' va' g' be' := by
  subst hz h1 h2 h3 h4; rfl

end Cert.Gin.Ker

end
-- ==== Proof.Region0.lean ====
/-
  The value of the first perceptron region, as one function of the arrays the region finds.

  The region walks the 100000 node rows in 10 blocks of 10000. At a point it reads that block of rows of the node features
  h, and the two weight matrices and two bias rows whole; it stores  max(h · w1 + b1, 0) · w2 + b2  of the block. Row p of
  that result depends on row p of h only, so the block a point writes back is the same rows of the result computed on the
  whole matrix; the ten blocks tile the array (row r lies in block r / 10000), so the array ends holding the perceptron of h.
-/
import proofs.«132092_j14199161880830_1_alg».proof.Proof.Gen.KernelIdeal.Frame
import proofs.«132092_j14199161880830_1_alg».proof.Proof.Spec
import Idealize.ShloMosaic.Lib.Pipeline.Value

set_option maxRecDepth 16384

noncomputable section

namespace Cert.Gin.Ker

open Idealize.ShloMosaic Idealize.ShloMosaic.TcCoe Idealize.SL.Sem Idealize.ShloMosaic.ValueIdx
open Idealize.ShloMosaic.Pipeline (Dat)
open Cert.KernelIdeal Cert.KernelIdeal.Gen
open Cert.Layers Cert.Net Cert.Gin

/-- Two zero offsets, however spelt. -/
theorem hz0 : (![0, 0] : Fin 2 → Nat) = fun _ => 0 := funext fun a => by fin_cases a <;> rfl

/-! ## The body's arithmetic on a block -/

/-- The body's one stored value is the two-layer perceptron of its loaded blocks: each matrix-unit product into a zero
    accumulator plus its bias row repeated down the rows is a dense layer, the maximum with a repeated zero is the
    rectifier, and narrowing a float format changes nothing on the extended reals. -/
theorem pay0_eq (x0 : Vec Ideal S10000x128 .f32) (x1 : Vec Ideal S128x128 .f32) (x2 : Vec Ideal S1x128 .f32)
    (x3 : Vec Ideal S128x128 .f32) (x4 : Vec Ideal S1x128 .f32) :
    k0_pay1 (F := Ideal) x0 x1 x2 x3 x4 = readout x0 x1 (rowOf x2) x3 (rowOf x4) := by
  unfold k0_pay1
  dsimp only
  rw [shapeCast_self x0]
  rw [tileDenseRow_eq dot_S10000x128_S128x128_S10000x128_1_0_0_1_n_n dot_S10000x128_S128x128_S10000x128_1_0_0_1_n_n.wf rfl
    (truncf .bf16 x0 bitsLt_bf16_f32) x1 bitsLt_bf16_f32 x2]
  rw [tileRect_eq]
  rw [tileDenseRow_eq dot_S10000x128_S128x128_S10000x128_1_0_0_1_n_n dot_S10000x128_S128x128_S10000x128_1_0_0_1_n_n.wf rfl
    _ x3 bitsLt_bf16_f32 x4]
  rfl

/-- What the body leaves in the output's staging buffer: it loads every buffer whole and stores once, whole. -/
theorem out0_eq (x0 : Vec Ideal S10000x128 .f32) (x1 : Vec Ideal S128x128 .f32) (x2 : Vec Ideal S1x128 .f32)
    (x3 : Vec Ideal S128x128 .f32) (x4 : Vec Ideal S1x128 .f32) :
    out0_5 (F := Ideal) x0 x1 x2 x3 x4 = readout x0 x1 (rowOf x2) x3 (rowOf x4) := by
  unfold out0_5
  rw [View.canon_unit_zero hz0]
  simp only [View.ld_unit_zero (S := S10000x128) hz0, View.ld_unit_zero (S := S128x128) hz0, View.ld_unit_zero (S := S1x128) hz0]
  exact pay0_eq x0 x1 x2 x3 x4

/-! ## The windows' blocks as parts of their arrays

The printed index maps over the grid: the row-indexed windows and the output move one block of rows per point, the weight
and bias windows stay at block (0, 0). -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row p' of the node-feature block at point t is row 10000 t + p' of the array. -/
theorem blk0_0 (c : Dev nD) (t : Fin cfg0.N) (p' : Fin 10000) (j : Fin 128) (p : Fin 100000)
    (hp : p.val = t.val * 10000 + p'.val) :
    (iblk0 V c 0 t : Vec Ideal S10000x128 .f32) (ix2 p' j) = (V c main_v10 : S100000x128.Idx → EReal) (ix2 p j) := by
  obtain ⟨e0, e1⟩ := idx0_0 t
  unfold iblk0
  rw [View.read_apply]
  show V c main_v10 _ = V c main_v10 _
  congr 1
  funext a
  apply Fin.ext
  match a with
  | ⟨0, _⟩ => show win0_0.index t (0 : Fin 2) * 10000 + 1 * p'.val = p.val; rw [e0, hp]; omega
  | ⟨1, _⟩ => show win0_0.index t (1 : Fin 2) * 128 + 1 * j.val = j.val; rw [e1]; omega

/-- The first weight window's block is its whole array at every point. -/
theorem blk0_1 (c : Dev nD) (t : Fin cfg0.N) :
    (iblk0 V c 1 t : Vec Ideal S128x128 .f32) = (V c main_arg4 : S128x128.Idx → EReal) := by
  obtain ⟨e0, e1⟩ := idx0_1 t
  funext y
  unfold iblk0
  rw [View.read_apply]
  show V c main_arg4 _ = V c main_arg4 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The first bias window's block is its whole array at every point. -/
theorem blk0_2 (c : Dev nD) (t : Fin cfg0.N) :
    (iblk0 V c 2 t : Vec Ideal S1x128 .f32) = (V c main_v11 : S1x128.Idx → EReal) := by
  obtain ⟨e0, e1⟩ := idx0_2 t
  funext y
  unfold iblk0
  rw [View.read_apply]
  show V c main_v11 _ = V c main_v11 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The second weight window's block is its whole array at every point. -/
theorem blk0_3 (c : Dev nD) (t : Fin cfg0.N) :
    (iblk0 V c 3 t : Vec Ideal S128x128 .f32) = (V c main_arg6 : S128x128.Idx → EReal) := by
  obtain ⟨e0, e1⟩ := idx0_3 t
  funext y
  unfold iblk0
  rw [View.read_apply]
  show V c main_arg6 _ = V c main_arg6 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The second bias window's block is its whole array at every point. -/
theorem blk0_4 (c : Dev nD) (t : Fin cfg0.N) :
    (iblk0 V c 4 t : Vec Ideal S1x128 .f32) = (V c main_v12 : S1x128.Idx → EReal) := by
  obtain ⟨e0, e1⟩ := idx0_4 t
  funext y
  unfold iblk0
  rw [View.read_apply]
  show V c main_v12 _ = V c main_v12 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-! ## What a point writes back, and the array after the last point -/

/-- Entry y of the perceptron of point t's block of rows is the entry of the perceptron of the whole matrix at the place
    the output's block puts y: a row of the result depends on that row of the row-indexed operands only. -/
theorem flush0_pt (c : Dev nD) (t : Fin cfg0.N) (y : S10000x128.Idx) :
    readout (iblk0 V c 0 t : Vec Ideal S10000x128 .f32) (V c main_arg4) (rowOf (V c main_v11)) (V c main_arg6) (rowOf (V c main_v12)) y
      = readout (V c main_v10) (V c main_arg4) (rowOf (V c main_v11)) (V c main_arg6) (rowOf (V c main_v12))
          (((cfg0.win 5).blk t).view.emb y) := by
  obtain ⟨p', q, rfl⟩ : ∃ (p' : Fin 10000) (q : Fin 128), y = ix2 p' q := ⟨y 0, y 1, eq_ix2 y⟩
  obtain ⟨e0, e1⟩ := idx0_5 t
  have ht : t.val < 10 := lt_of_lt_of_eq t.isLt (show cfg0.N = 10 from N_0)
  have hemb : ((cfg0.win 5).blk t).view.emb (ix2 p' q) = ix2 (⟨t.val * 10000 + p'.val, by omega⟩ : Fin 100000) q := by
    funext a
    apply Fin.ext
    match a with
    | ⟨0, _⟩ => show win0_5.index t (0 : Fin 2) * 10000 + 1 * p'.val = t.val * 10000 + p'.val; rw [e0]; omega
    | ⟨1, _⟩ => show win0_5.index t (1 : Fin 2) * 128 + 1 * q.val = q.val; rw [e1]; omega
  rw [hemb]
  exact readout_rows _ _ _ _ _ _ p' _ (fun j => blk0_0 V c t p' j _ rfl) q

/-- What point t writes back is its block of the perceptron of the whole matrix. -/
theorem flushed0_eq (c : Dev nD) (t : Fin cfg0.N) :
    (dat0 (F := Ideal) V c).flushed 5 t
      = ((cfg0.win 5).blk t).view.read (Elt Ideal)
          (readout (V c main_v10) (V c main_arg4) (rowOf (V c main_v11)) (V c main_arg6) (rowOf (V c main_v12))) := by
  show (cfg0.win 5).cut (grid0.coords t) ((dat0 V c).after 5 t) = _
  rw [after0_5, out0_eq (iblk0 V c 0 t) (iblk0 V c 1 t) (iblk0 V c 2 t) (iblk0 V c 3 t) (iblk0 V c 4 t)]
  rw [blk0_1 V c t, blk0_2 V c t, blk0_3 V c t, blk0_4 V c t]
  funext y
  exact flush0_pt V c t y

/-- Row r of the array is in the block of point r / 10000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨e0, e1⟩ := idx0_5 t
  refine ⟨t, flush0_5 t, ?_⟩
  show i ∈ ((View.whole main_v13).slice (win0_5.rect t)).set
  rw [View.set_slice_whole, Rect.mem_set_unit]
  intro a
  match a with
  | ⟨0, _⟩ => show win0_5.index t (0 : Fin 2) * 10000 ≤ (i 0).val ∧ (i 0).val < win0_5.index t (0 : Fin 2) * 10000 + 10000; rw [e0]; omega
  | ⟨1, _⟩ => show win0_5.index t (1 : Fin 2) * 128 ≤ (i 1).val ∧ (i 1).val < win0_5.index t (1 : Fin 2) * 128 + 128; rw [e1]; omega

/-- The output array after the region: the two-layer perceptron of the node-feature matrix as the region found it. -/
theorem region0_value (c : Dev nD) :
    (Gen.dat0 (F := Ideal) V c).arrAt 5 cfg0.N
      = Cert.Net.readout (V c main_v10) (V c main_arg4) (Cert.Net.rowOf (V c main_v11)) (V c main_arg6) (Cert.Net.rowOf (V c main_v12)) :=
  (dat0 (F := Ideal) V c).arrAt_eq_of_cover 5 _ (fun t _ => flushed0_eq V c t) cover0

end Cert.Gin.Ker

end
-- ==== Proof.KLayer0.lean ====
/-
  The node features after the first perceptron: the first line of host operations looks the labels up in the table and
  lays the two bias vectors out as rows; the first kernel region applies the two-layer perceptron to them. Its output array
  then holds the perceptron of the embedded labels, as a function of the launch contents of the arguments.
-/
import proofs.«132092_j14199161880830_1_alg».proof.Proof.KArgs
import proofs.«132092_j14199161880830_1_alg».proof.Proof.KCongr
import proofs.«132092_j14199161880830_1_alg».proof.Proof.Region0

set_option maxRecDepth 16384

noncomputable section

namespace Cert.Gin.Ker

open Idealize.ShloMosaic Idealize.ShloMosaic.TcCoe Idealize.ShloMosaic.StableHlo Cert.KernelIdeal Cert.KernelIdeal.Gen Cert.Layers Cert.Net Cert.Gin

variable (m : (ℓ : Loc nD τ sig) → Buf (Elt Ideal) ℓ) (ρ : Dev nD → PrngReg) (c : Dev nD)

theorem W2_v13 : (W2 m ρ c (Proc.devRef .tc main_v13) : Mat 100000 128)
    = readout (embed (m ((c : Thread nD τ).loc main_arg0)) (m ((c : Thread nD τ).loc main_arg3))) (m ((c : Thread nD τ).loc main_arg4)) (m ((c : Thread nD τ).loc main_arg5)) (m ((c : Thread nD τ).loc main_arg6)) (m ((c : Thread nD τ).loc main_arg7)) :=
  (W2_arr m ρ c 5).trans ((region0_value (V1 m ρ) c).trans
    (readout_congr (s0_v10 (W0 m ρ c)) (W1_arg4 m ρ c) (s0_v11 (W0 m ρ c))
      (W1_arg6 m ρ c) (s0_v12 (W0 m ρ c))))

end Cert.Gin.Ker

end
-- ==== Proof.Region1.lean ====
/-
  The value of the first convolution's perceptron region, as one function of the arrays the region finds.

  The region walks the 100000 node rows in 10 blocks of 10000. At a point it reads that block of rows of the node features
  h and of the neighbourhood sums agg, and the two weight matrices and two bias rows whole; it stores
      max((h + agg) · w1 + b1, 0) · w2 + b2
  of the block. Row p of that result depends on row p of h and of agg only, so the block a point writes back is the
  same rows of the result computed on the whole matrices; the ten blocks tile the array (row r lies in block r / 10000),
  so the array ends holding the perceptron of h + agg.
-/
import proofs.«132092_j14199161880830_1_alg».proof.Proof.Gen.KernelIdeal.Frame
import proofs.«132092_j14199161880830_1_alg».proof.Proof.Spec
import Idealize.ShloMosaic.Lib.Pipeline.Value

set_option maxRecDepth 16384

noncomputable section

namespace Cert.Gin.Ker

open Idealize.ShloMosaic Idealize.ShloMosaic.TcCoe Idealize.SL.Sem Idealize.ShloMosaic.ValueIdx
open Idealize.ShloMosaic.Pipeline (Dat)
open Cert.KernelIdeal Cert.KernelIdeal.Gen
open Cert.Layers Cert.Net Cert.Gin

/-- Two zero offsets, however spelt. -/
theorem hz1 : (![0, 0] : Fin 2 → Nat) = fun _ => 0 := funext fun a => by fin_cases a <;> rfl

/-! ## The body's arithmetic on a block -/

/-- The body's one stored value is the two-layer perceptron of its loaded blocks: each matrix-unit product into a zero
    accumulator plus its bias row repeated down the rows is a dense layer, the maximum with a repeated zero is the
    rectifier, and narrowing a float format changes nothing on the extended reals. -/
theorem pay1_eq (x0 x1 : Vec Ideal S10000x128 .f32) (x2 : Vec Ideal S128x128 .f32) (x3 : Vec Ideal S1x128 .f32)
    (x4 : Vec Ideal S128x128 .f32) (x5 : Vec Ideal S1x128 .f32) :
    k1_pay1 (F := Ideal) x0 x1 x2 x3 x4 x5 = readout (plus x0 x1) x2 (rowOf x3) x4 (rowOf x5) := by
  unfold k1_pay1
  dsimp only
  rw [shapeCast_self x0, shapeCast_self x1]
  rw [tileDenseRow_eq dot_S10000x128_S128x128_S10000x128_1_0_0_1_n_n dot_S10000x128_S128x128_S10000x128_1_0_0_1_n_n.wf rfl
    (truncf .bf16 (addf x0 x1) bitsLt_bf16_f32) x2 bitsLt_bf16_f32 x3]
  rw [tileRect_eq]
  rw [tileDenseRow_eq dot_S10000x128_S128x128_S10000x128_1_0_0_1_n_n dot_S10000x128_S128x128_S10000x128_1_0_0_1_n_n.wf rfl
    _ x4 bitsLt_bf16_f32 x5]
  rfl

/-- What the body leaves in the output's staging buffer: it loads every buffer whole and stores once, whole. -/
theorem out1_eq (x0 x1 : Vec Ideal S10000x128 .f32) (x2 : Vec Ideal S128x128 .f32) (x3 : Vec Ideal S1x128 .f32)
    (x4 : Vec Ideal S128x128 .f32) (x5 : Vec Ideal S1x128 .f32) :
    out1_6 (F := Ideal) x0 x1 x2 x3 x4 x5 = readout (plus x0 x1) x2 (rowOf x3) x4 (rowOf x5) := by
  unfold out1_6
  rw [View.canon_unit_zero hz1]
  simp only [View.ld_unit_zero (S := S10000x128) hz1, View.ld_unit_zero (S := S128x128) hz1, View.ld_unit_zero (S := S1x128) hz1]
  exact pay1_eq x0 x1 x2 x3 x4 x5

/-! ## The windows' blocks as parts of their arrays

The printed index maps over the grid: the row-indexed windows and the output move one block of rows per point, the weight
and bias windows stay at block (0, 0). -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- Row p' of the node-feature block at point t is row 10000 t + p' of the array. -/
theorem blk1_0 (c : Dev nD) (t : Fin cfg1.N) (p' : Fin 10000) (j : Fin 128) (p : Fin 100000)
    (hp : p.val = t.val * 10000 + p'.val) :
    (iblk1 V c 0 t : Vec Ideal S10000x128 .f32) (ix2 p' j) = (V c main_v13 : S100000x128.Idx → EReal) (ix2 p j) := by
  obtain ⟨e0, e1⟩ := idx1_0 t
  unfold iblk1
  rw [View.read_apply]
  show V c main_v13 _ = V c main_v13 _
  congr 1
  funext a
  apply Fin.ext
  match a with
  | ⟨0, _⟩ => show win1_0.index t (0 : Fin 2) * 10000 + 1 * p'.val = p.val; rw [e0, hp]; omega
  | ⟨1, _⟩ => show win1_0.index t (1 : Fin 2) * 128 + 1 * j.val = j.val; rw [e1]; omega

/-- Row p' of the neighbourhood-sum block at point t is row 10000 t + p' of the array. -/
theorem blk1_1 (c : Dev nD) (t : Fin cfg1.N) (p' : Fin 10000) (j : Fin 128) (p : Fin 100000)
    (hp : p.val = t.val * 10000 + p'.val) :
    (iblk1 V c 1 t : Vec Ideal S10000x128 .f32) (ix2 p' j) = (V c main_v23 : S100000x128.Idx → EReal) (ix2 p j) := by
  obtain ⟨e0, e1⟩ := idx1_1 t
  unfold iblk1
  rw [View.read_apply]
  show V c main_v23 _ = V c main_v23 _
  congr 1
  funext a
  apply Fin.ext
  match a with
  | ⟨0, _⟩ => show win1_1.index t (0 : Fin 2) * 10000 + 1 * p'.val = p.val; rw [e0, hp]; omega
  | ⟨1, _⟩ => show win1_1.index t (1 : Fin 2) * 128 + 1 * j.val = j.val; rw [e1]; omega

/-- The first weight window's block is its whole array at every point. -/
theorem blk1_2 (c : Dev nD) (t : Fin cfg1.N) :
    (iblk1 V c 2 t : Vec Ideal S128x128 .f32) = (V c main_arg8 : S128x128.Idx → EReal) := by
  obtain ⟨e0, e1⟩ := idx1_2 t
  funext y
  unfold iblk1
  rw [View.read_apply]
  show V c main_arg8 _ = V c main_arg8 _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The first bias window's block is its whole array at every point. -/
theorem blk1_3 (c : Dev nD) (t : Fin cfg1.N) :
    (iblk1 V c 3 t : Vec Ideal S1x128 .f32) = (V c main_v24 : S1x128.Idx → EReal) := by
  obtain ⟨e0, e1⟩ := idx1_3 t
  funext y
  unfold iblk1
  rw [View.read_apply]
  show V c main_v24 _ = V c main_v24 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The second weight window's block is its whole array at every point. -/
theorem blk1_4 (c : Dev nD) (t : Fin cfg1.N) :
    (iblk1 V c 4 t : Vec Ideal S128x128 .f32) = (V c main_arg10 : S128x128.Idx → EReal) := by
  obtain ⟨e0, e1⟩ := idx1_4 t
  funext y
  unfold iblk1
  rw [View.read_apply]
  show V c main_arg10 _ = V c main_arg10 _
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- The second bias window's block is its whole array at every point. -/
theorem blk1_5 (c : Dev nD) (t : Fin cfg1.N) :
    (iblk1 V c 5 t : Vec Ideal S1x128 .f32) = (V c main_v25 : S1x128.Idx → EReal) := by
  obtain ⟨e0, e1⟩ := idx1_5 t
  funext y
  unfold iblk1
  rw [View.read_apply]
  show V c main_v25 _ = V c main_v25 _
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-! ## What a point writes back, and the array after the last point -/

/-- Entry y of the perceptron of point t's block of rows is the entry of the perceptron of the whole matrix at the place
    the output's block puts y: a row of the result depends on that row of the row-indexed operands only. -/
theorem flush1_pt (c : Dev nD) (t : Fin cfg1.N) (y : S10000x128.Idx) :
    readout (plus (iblk1 V c 0 t : Vec Ideal S10000x128 .f32) (iblk1 V c 1 t : Vec Ideal S10000x128 .f32)) (V c main_arg8) (rowOf (V c main_v24)) (V c main_arg10) (rowOf (V c main_v25)) y
      = readout (plus (V c main_v13) (V c main_v23)) (V c main_arg8) (rowOf (V c main_v24)) (V c main_arg10) (rowOf (V c main_v25))
          (((cfg1.win 6).blk t).view.emb y) := by
  obtain ⟨p', q, rfl⟩ : ∃ (p' : Fin 10000) (q : Fin 128), y = ix2 p' q := ⟨y 0, y 1, eq_ix2 y⟩
  obtain ⟨e0, e1⟩ := idx1_6 t
  have ht : t.val < 10 := lt_of_lt_of_eq t.isLt (show cfg1.N = 10 from N_1)
  have hemb : ((cfg1.win 6).blk t).view.emb (ix2 p' q) = ix2 (⟨t.val * 10000 + p'.val, by omega⟩ : Fin 100000) q := by
    funext a
    apply Fin.ext
    match a with
    | ⟨0, _⟩ => show win1_6.index t (0 : Fin 2) * 10000 + 1 * p'.val = t.val * 10000 + p'.val; rw [e0]; omega
    | ⟨1, _⟩ => show win1_6.index t (1 : Fin 2) * 128 + 1 * q.val = q.val; rw [e1]; omega
  rw [hemb]
  exact readout_rows _ _ _ _ _ _ p' _ (fun j => plus_rows _ _ _ _ p' _ (fun j' => blk1_0 V c t p' j' _ rfl) (fun j' => blk1_1 V c t p' j' _ rfl) j) q

/-- What point t writes back is its block of the perceptron of the whole matrix. -/
theorem flushed1_eq (c : Dev nD) (t : Fin cfg1.N) :
    (dat1 (F := Ideal) V c).flushed 6 t
      = ((cfg1.win 6).blk t).view.read (Elt Ideal)
          (readout (plus (V c main_v13) (V c main_v23)) (V c main_arg8) (rowOf (V c main_v24)) (V c main_arg10) (rowOf (V c main_v25))) := by
  show (cfg1.win 6).cut (grid1.coords t) ((dat1 V c).after 6 t) = _
  rw [after1_6, out1_eq (iblk1 V c 0 t) (iblk1 V c 1 t) (iblk1 V c 2 t) (iblk1 V c 3 t) (iblk1 V c 4 t) (iblk1 V c 5 t)]
  rw [blk1_2 V c t, blk1_3 V c t, blk1_4 V c t, blk1_5 V c t]
  funext y
  exact flush1_pt V c t y

/-- Row r of the array is in the block of point r / 10000. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨e0, e1⟩ := idx1_6 t
  refine ⟨t, flush1_6 t, ?_⟩
  show i ∈ ((View.whole main_v26).slice (win1_6.rect t)).set
  rw [View.set_slice_whole, Rect.mem_set_unit]
  intro a
  match a with
  | ⟨0, _⟩ => show win1_6.index t (0 : Fin 2) * 10000 ≤ (i 0).val ∧ (i 0).val < win1_6.index t (0 : Fin 2) * 10000 + 10000; rw [e0]; omega
  | ⟨1, _⟩ => show win1_6.index t (1 : Fin 2) * 128 ≤ (i 1).val ∧ (i 1).val < win1_6.index t (1 : Fin 2) * 128 + 128; rw [e1]; omega

/-- The output array after the region: the two-layer perceptron of the sum of the node features and the neighbourhood sums as the region found them. -/
theorem region1_value (c : Dev nD) :
    (Gen.dat1 (F := Ideal) V c).arrAt 6 cfg1.N
      = Cert.Net.readout (Cert.Gin.plus (V c main_v13) (V c main_v23)) (V c main_arg8) (Cert.Net.rowOf (V c main_v24)) (V c main_arg10) (Cert.Net.rowOf (V c main_v25)) :=
  (dat1 (F := Ideal) V c).arrAt_eq_of_cover 6 _ (fun t _ => flushed1_eq V c t) cover1

end Cert.Gin.Ker

end
-- ==== Proof.Region2.lean ====
/-
  The value of the first normalise-and-rectify region, as one function of the arrays the region finds.

  The region walks the 100000 node rows in 10 blocks of 10000. At a point it reads that block of rows of z and the four
  [1, 128] rows mean, var, gain, offset whole, and stores, entry (p, q),
      max(((z(p,q) - mean(q)) * rsqrt(var(q) + eps)) * gain(q) + offset(q), 0),
  the operations in this order; the body adds eps to the variance row and takes the reciprocal root before repeating the
  row down the block, which entry by entry is the same value. An entry depends on its own row of z only, so the block a
  point writes back is the same rows of the result computed on the whole matrix; the ten blocks tile the array (row r lies
  in block r / 10000), so the array ends holding the normalised, rectified z.
-/
import proofs.«132092_j14199161880830_1_alg».proof.Proof.Gen.KernelIdeal.Frame
import proofs.«132092_j14199161880830_1_alg».proof.Proof.Spec
import Idealize.ShloMosaic.Lib.Pipeline.Value

set_option maxRecDepth 16384

noncomputable section

namespace Cert.Gin.Ker

open Idealize.ShloMosaic Idealize.ShloMosaic.TcCoe Idealize.SL.Sem Idealize.ShloMosaic.ValueIdx
open Idealize.ShloMosaic.Pipeline (Dat)
open Cert.KernelIdeal Cert.KernelIdeal.Gen
open Cert.Layers Cert.Net Cert.Gin

/-- Two zero offsets, however spelt. -/
theorem hz2 : (![0, 0] : Fin 2 → Nat) = fun _ => 0 := funext fun a => by fin_cases a <;> rfl

/-! ## The body's arithmetic on a block -/

/-- The body's one stored value, entry by entry: a [1, 128] row repeated down the block reads the row's entry of that
    column; the body's second operand is the variance row and its third the mean row. -/
theorem pay2_eq (x0 : Vec Ideal S10000x128 .f32) (xv xm xg xb : Vec Ideal S1x128 .f32) :
    k2_pay1 (F := Ideal) x0 xv xm xg xb = bnRelu x0 (rowOf xm) (rowOf xv) (rowOf xg) (rowOf xb) := by
  funext i
  obtain ⟨p, q, rfl⟩ : ∃ (p : Fin 10000) (q : Fin 128), i = ix2 p q := ⟨i 0, i 1, eq_ix2 i⟩
  rw [bnRelu_apply]
  unfold k2_pay1
  rw [shapeCast_self x0, shapeCast_self xv, shapeCast_self xm, shapeCast_self xg, shapeCast_self xb]
  show max (((x0 (ix2 p q) - broadcastTo S10000x128 xm broadcasts_S1x128_S10000x128 (ix2 p q))
        * broadcastTo S10000x128 (rsqrt (addf xv (broadcast S1x128 (Scalar.ofBits (F := Ideal) .f32 0x3727C5AC#32))))
            broadcasts_S1x128_S10000x128 (ix2 p q))
        * broadcastTo S10000x128 xg broadcasts_S1x128_S10000x128 (ix2 p q)
        + broadcastTo S10000x128 xb broadcasts_S1x128_S10000x128 (ix2 p q)) (Ideal.ofBits .f32 0x00000000#32) = _
  rw [broadcastTo_1b_ab_apply xm broadcasts_S1x128_S10000x128 p q,
    broadcastTo_1b_ab_apply (rsqrt (addf xv (broadcast S1x128 (Scalar.ofBits (F := Ideal) .f32 0x3727C5AC#32)))) broadcasts_S1x128_S10000x128 p q,
    broadcastTo_1b_ab_apply xg broadcasts_S1x128_S10000x128 p q,
    broadcastTo_1b_ab_apply xb broadcasts_S1x128_S10000x128 p q]
  rfl

/-- What the body leaves in the output's staging buffer: it loads every buffer whole and stores once, whole. The body
    loads the variance row (window 2) before the mean row (window 1). -/
theorem out2_eq (x0 : Vec Ideal S10000x128 .f32) (x1 x2 x3 x4 : Vec Ideal S1x128 .f32) :
    out2_5 (F := Ideal) x0 x1 x2 x3 x4 = bnRelu x0 (rowOf x1) (rowOf x2) (rowOf x3) (rowOf x4) := by
  unfold out2_5
  rw [View.canon_unit_zero hz2]
  simp only [View.ld_unit_zero (S := S10000x128) hz2, View.ld_unit_zero (S := S1x128) hz2]
  exact pay2_eq x0 x2 x1 x3 x4

/-! ## The windows' blocks as parts of their arrays

The printed index maps over the grid: the window of z and the output move one block of rows per point, the four row
windows stay at block (0, 0). -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- Row p' of the block of z at point t is row 10000 t + p' of the array. -/
theorem blk2_0 (c : Dev nD) (t : Fin cfg2.N) (p' : Fin 10000) (j : Fin 128) (p : Fin 100000)
    (hp : p.val = t.val * 10000 + p'.val) :
    (iblk2 V c 0 t : Vec Ideal S10000x128 .f32) (ix2 p' j) = (V c main_v26 : S100000x128.Idx → EReal) (ix2 p j) := by
  obtain ⟨e0, e1⟩ := idx2_0 t
  unfold iblk2
  rw [View.read_apply]
  show V c main_v26 _ = V c main_v26 _
  congr 1
  funext a
  apply Fin.ext
  match a with
  | ⟨0, _⟩ => show win2_0.index t (0 : Fin 2) * 10000 + 1 * p'.val = p.val; rw [e0, hp]; omega
  | ⟨1, _⟩ => show win2_0.index t (1 : Fin 2) * 128 + 1 * j.val = j.val; rw [e1]; omega

/-- The mean window's block is its whole array at every point. -/
theorem blk2_1 (c : Dev nD) (t : Fin cfg2.N) :
    (iblk2 V c 1 t : Vec Ideal S1x128 .f32) = (V c main_v31 : S1x128.Idx → EReal) := by
  obtain ⟨e0, e1⟩ := idx2_1 t
  funext y
  unfold iblk2
  rw [View.read_apply]
  show V c main_v31 _ = V c main_v31 _
  congr 1
  funext a
  apply Fin.ext
  match a with
  | ⟨0, _⟩ => show win2_1.index t (0 : Fin 2) * 1 + 1 * (y 0).val = (y 0).val; rw [e0]; omega
  | ⟨1, _⟩ => show win2_1.index t (1 : Fin 2) * 128 + 1 * (y 1).val = (y 1).val; rw [e1]; omega

/-- The variance window's block is its whole array at every point. -/
theorem blk2_2 (c : Dev nD) (t : Fin cfg2.N) :
    (iblk2 V c 2 t : Vec Ideal S1x128 .f32) = (V c main_v32 : S1x128.Idx → EReal) := by
  obtain ⟨e0, e1⟩ := idx2_2 t
  funext y
  unfold iblk2
  rw [View.read_apply]
  show V c main_v32 _ = V c main_v32 _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- The gain window's block is its whole array at every point. -/
theorem blk2_3 (c : Dev nD) (t : Fin cfg2.N) :
    (iblk2 V c 3 t : Vec Ideal S1x128 .f32) = (V c main_v33 : S1x128.Idx → EReal) := by
  obtain ⟨e0, e1⟩ := idx2_3 t
  funext y
  unfold iblk2
  rw [View.read_apply]
  show V c main_v33 _ = V c main_v33 _
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- The offset window's block is its whole array at every point. -/
theorem blk2_4 (c : Dev nD) (t : Fin cfg2.N) :
    (iblk2 V c 4 t : Vec Ideal S1x128 .f32) = (V c main_v34 : S1x128.Idx → EReal) := by
  obtain ⟨e0, e1⟩ := idx2_4 t
  funext y
  unfold iblk2
  rw [View.read_apply]
  show V c main_v34 _ = V c main_v34 _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-! ## What a point writes back, and the array after the last point -/

/-- Entry y of the stage on point t's block of rows is the entry of the stage on the whole matrix at the place the
    output's block puts y: an entry depends on its own row of z only. -/
theorem flush2_pt (c : Dev nD) (t : Fin cfg2.N) (y : S10000x128.Idx) :
    bnRelu (iblk2 V c 0 t : Vec Ideal S10000x128 .f32) (rowOf (V c main_v31)) (rowOf (V c main_v32)) (rowOf (V c main_v33)) (rowOf (V c main_v34)) y
      = bnRelu (V c main_v26) (rowOf (V c main_v31)) (rowOf (V c main_v32)) (rowOf (V c main_v33)) (rowOf (V c main_v34))
          (((cfg2.win 5).blk t).view.emb y) := by
  obtain ⟨p', q, rfl⟩ : ∃ (p' : Fin 10000) (q : Fin 128), y = ix2 p' q := ⟨y 0, y 1, eq_ix2 y⟩
  obtain ⟨e0, e1⟩ := idx2_5 t
  have ht : t.val < 10 := lt_of_lt_of_eq t.isLt (show cfg2.N = 10 from N_2)
  have hemb : ((cfg2.win 5).blk t).view.emb (ix2 p' q) = ix2 (⟨t.val * 10000 + p'.val, by omega⟩ : Fin 100000) q := by
    funext a
    apply Fin.ext
    match a with
    | ⟨0, _⟩ => show win2_5.index t (0 : Fin 2) * 10000 + 1 * p'.val = t.val * 10000 + p'.val; rw [e0]; omega
    | ⟨1, _⟩ => show win2_5.index t (1 : Fin 2) * 128 + 1 * q.val = q.val; rw [e1]; omega
  rw [hemb]
  exact bnRelu_rows _ _ _ _ _ _ p' _ (fun j => blk2_0 V c t p' j _ rfl) q

/-- What point t writes back is its block of the stage on the whole matrix. -/
theorem flushed2_eq (c : Dev nD) (t : Fin cfg2.N) :
    (dat2 (F := Ideal) V c).flushed 5 t
      = ((cfg2.win 5).blk t).view.read (Elt Ideal)
          (bnRelu (V c main_v26) (rowOf (V c main_v31)) (rowOf (V c main_v32)) (rowOf (V c main_v33)) (rowOf (V c main_v34))) := by
  show (cfg2.win 5).cut (grid2.coords t) ((dat2 V c).after 5 t) = _
  rw [after2_5, out2_eq (iblk2 V c 0 t) (iblk2 V c 1 t) (iblk2 V c 2 t) (iblk2 V c 3 t) (iblk2 V c 4 t)]
  rw [blk2_1 V c t, blk2_2 V c t, blk2_3 V c t, blk2_4 V c t]
  funext y
  exact flush2_pt V c t y

/-- Row r of the array is in the block of point r / 10000. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨e0, e1⟩ := idx2_5 t
  refine ⟨t, flush2_5 t, ?_⟩
  show i ∈ ((View.whole main_v35).slice (win2_5.rect t)).set
  rw [View.set_slice_whole, Rect.mem_set_unit]
  intro a
  match a with
  | ⟨0, _⟩ => show win2_5.index t (0 : Fin 2) * 10000 ≤ (i 0).val ∧ (i 0).val < win2_5.index t (0 : Fin 2) * 10000 + 10000; rw [e0]; omega
  | ⟨1, _⟩ => show win2_5.index t (1 : Fin 2) * 128 ≤ (i 1).val ∧ (i 1).val < win2_5.index t (1 : Fin 2) * 128 + 128; rw [e1]; omega

/-- The output array after the region: z normalised by the per-column mean and variance, scaled, shifted and rectified. -/
theorem region2_value (c : Dev nD) :
    (Gen.dat2 (F := Ideal) V c).arrAt 5 cfg2.N
      = Cert.Gin.bnRelu (V c main_v26) (Cert.Net.rowOf (V c main_v31)) (Cert.Net.rowOf (V c main_v32)) (Cert.Net.rowOf (V c main_v33)) (Cert.Net.rowOf (V c main_v34)) :=
  (dat2 (F := Ideal) V c).arrAt_eq_of_cover 5 _ (fun t _ => flushed2_eq V c t) cover2

end Cert.Gin.Ker

end
-- ==== Proof.KLayer1.lean ====
/-
  Convolution layer 1 of the network, read off the run: from the boundary where the node matrix h sits in its array, the
  host line sums h along the edges, the next region applies the perceptron to h plus that sum, two host lines take the
  column mean and variance of the result, a third lays the four normalisation vectors out as rows, and the following
  region normalises and rectifies. The second region's output array then holds the layer applied to h.
-/
import proofs.«132092_j14199161880830_1_alg».proof.Proof.KArgs
import proofs.«132092_j14199161880830_1_alg».proof.Proof.KCongr
import proofs.«132092_j14199161880830_1_alg».proof.Proof.Region1
import proofs.«132092_j14199161880830_1_alg».proof.Proof.Region2

set_option maxRecDepth 16384

noncomputable section

namespace Cert.Gin.Ker

open Idealize.ShloMosaic Idealize.ShloMosaic.TcCoe Idealize.ShloMosaic.StableHlo Cert.KernelIdeal Cert.KernelIdeal.Gen Cert.Layers Cert.Net Cert.Gin

variable (m : (ℓ : Loc nD τ sig) → Buf (Elt Ideal) ℓ) (ρ : Dev nD → PrngReg) (c : Dev nD)

theorem layer1_value (h : Mat 100000 128) (hin : (W2 m ρ c (Proc.devRef .tc main_v13) : Mat 100000 128) = h) :
    (W8 m ρ c (Proc.devRef .tc main_v35) : Mat 100000 128)
      = layer H h (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  -- the perceptron's inputs at the first region's entry
  have e_h : (W3 m ρ c (Proc.devRef .tc main_v13) : Mat 100000 128) = h := (step3 m ρ c main_v13 (by decide)).trans hin
  have e_agg : (W3 m ρ c (Proc.devRef .tc main_v23) : Mat 100000 128) = agg h (m ((c : Thread nD τ).loc main_arg1)) :=
    (s1_v23 (W2 m ρ c)).trans
      (show aggRows _ _ _ = aggRows h (edgeRow0 (m ((c : Thread nD τ).loc main_arg1))) (edgeRow1 (m ((c : Thread nD τ).loc main_arg1))) by
        rw [hin, W2_v1 m ρ c, W2_v3 m ρ c])
  have e_b1 : rowOf (W3 m ρ c (Proc.devRef .tc main_v24) : Mat 1 128) = (m ((c : Thread nD τ).loc main_arg9)) :=
    (s1_v24 (W2 m ρ c)).trans (W2_arg9 m ρ c)
  have e_b2 : rowOf (W3 m ρ c (Proc.devRef .tc main_v25) : Mat 1 128) = (m ((c : Thread nD τ).loc main_arg11)) :=
    (s1_v25 (W2 m ρ c)).trans (W2_arg11 m ρ c)
  -- the perceptron's output
  have e_z : (W4 m ρ c (Proc.devRef .tc main_v26) : Mat 100000 128)
      = readout (plus h (agg h (m ((c : Thread nD τ).loc main_arg1)))) (m ((c : Thread nD τ).loc main_arg8)) (m ((c : Thread nD τ).loc main_arg9)) (m ((c : Thread nD τ).loc main_arg10)) (m ((c : Thread nD τ).loc main_arg11)) :=
    (W4_arr m ρ c 6).trans ((region1_value (V3 m ρ) c).trans
      (readout_congr (plus_congr e_h e_agg) (W3_arg8 m ρ c) e_b1
        (W3_arg10 m ρ c) e_b2))
  -- its column statistics and the normalisation's vectors at the second region's entry
  have e_z' : (W7 m ρ c (Proc.devRef .tc main_v26) : Mat 100000 128)
      = readout (plus h (agg h (m ((c : Thread nD τ).loc main_arg1)))) (m ((c : Thread nD τ).loc main_arg8)) (m ((c : Thread nD τ).loc main_arg9)) (m ((c : Thread nD τ).loc main_arg10)) (m ((c : Thread nD τ).loc main_arg11)) :=
    (step7 m ρ c main_v26 (by decide)).trans ((step6 m ρ c main_v26 (by decide)).trans
      ((step5 m ρ c main_v26 (by decide)).trans e_z))
  have e_mean : rowOf (W7 m ρ c (Proc.devRef .tc main_v31) : Mat 1 128)
      = mean (readout (plus h (agg h (m ((c : Thread nD τ).loc main_arg1)))) (m ((c : Thread nD τ).loc main_arg8)) (m ((c : Thread nD τ).loc main_arg9)) (m ((c : Thread nD τ).loc main_arg10)) (m ((c : Thread nD τ).loc main_arg11))) :=
    (s2_2_v31 (W6 m ρ c)).trans ((step6 m ρ c main_v29 (by decide)).trans
      ((s2_v29 (W4 m ρ c)).trans (congrArg mean e_z)))
  have e_var : rowOf (W7 m ρ c (Proc.devRef .tc main_v32) : Mat 1 128)
      = var (readout (plus h (agg h (m ((c : Thread nD τ).loc main_arg1)))) (m ((c : Thread nD τ).loc main_arg8)) (m ((c : Thread nD τ).loc main_arg9)) (m ((c : Thread nD τ).loc main_arg10)) (m ((c : Thread nD τ).loc main_arg11))) :=
    (s2_2_v32 (W6 m ρ c)).trans ((s2_1_v30 (W4 m ρ c)).trans (congrArg var e_z))
  have e_g : rowOf (W7 m ρ c (Proc.devRef .tc main_v33) : Mat 1 128) = (m ((c : Thread nD τ).loc main_arg12)) :=
    (s2_2_v33 (W6 m ρ c)).trans (W6_arg12 m ρ c)
  have e_be : rowOf (W7 m ρ c (Proc.devRef .tc main_v34) : Mat 1 128) = (m ((c : Thread nD τ).loc main_arg13)) :=
    (s2_2_v34 (W6 m ρ c)).trans (W6_arg13 m ρ c)
  -- the normalised, rectified output
  exact (W8_arr m ρ c 5).trans ((region2_value (V7 m ρ) c).trans
    (bnRelu_congr e_z' e_mean e_var e_g e_be))

end Cert.Gin.Ker

end
-- ==== Proof.Region3.lean ====
/-
  The value of the second convolution's perceptron region, as one function of the arrays the region finds.

  The region walks the 100000 node rows in 10 blocks of 10000. At a point it reads that block of rows of the node features
  h and of the neighbourhood sums agg, and the two weight matrices and two bias rows whole; it stores
      max((h + agg) · w1 + b1, 0) · w2 + b2
  of the block. Row p of that result depends on row p of h and of agg only, so the block a point writes back is the
  same rows of the result computed on the whole matrices; the ten blocks tile the array (row r lies in block r / 10000),
  so the array ends holding the perceptron of h + agg.
-/
import proofs.«132092_j14199161880830_1_alg».proof.Proof.Gen.KernelIdeal.Frame
import proofs.«132092_j14199161880830_1_alg».proof.Proof.Spec
import Idealize.ShloMosaic.Lib.Pipeline.Value

set_option maxRecDepth 16384

noncomputable section

namespace Cert.Gin.Ker

open Idealize.ShloMosaic Idealize.ShloMosaic.TcCoe Idealize.SL.Sem Idealize.ShloMosaic.ValueIdx
open Idealize.ShloMosaic.Pipeline (Dat)
open Cert.KernelIdeal Cert.KernelIdeal.Gen
open Cert.Layers Cert.Net Cert.Gin

/-- Two zero offsets, however spelt. -/
theorem hz3 : (![0, 0] : Fin 2 → Nat) = fun _ => 0 := funext fun a => by fin_cases a <;> rfl

/-! ## The body's arithmetic on a block -/

/-- The body's one stored value is the two-layer perceptron of its loaded blocks: each matrix-unit product into a zero
    accumulator plus its bias row repeated down the rows is a dense layer, the maximum with a repeated zero is the
    rectifier, and narrowing a float format changes nothing on the extended reals. -/
theorem pay3_eq (x0 x1 : Vec Ideal S10000x128 .f32) (x2 : Vec Ideal S128x128 .f32) (x3 : Vec Ideal S1x128 .f32)
    (x4 : Vec Ideal S128x128 .f32) (x5 : Vec Ideal S1x128 .f32) :
    k3_pay1 (F := Ideal) x0 x1 x2 x3 x4 x5 = readout (plus x0 x1) x2 (rowOf x3) x4 (rowOf x5) := by
  unfold k3_pay1
  dsimp only
  rw [shapeCast_self x0, shapeCast_self x1]
  rw [tileDenseRow_eq dot_S10000x128_S128x128_S10000x128_1_0_0_1_n_n dot_S10000x128_S128x128_S10000x128_1_0_0_1_n_n.wf rfl
    (truncf .bf16 (addf x0 x1) bitsLt_bf16_f32) x2 bitsLt_bf16_f32 x3]
  rw [tileRect_eq]
  rw [tileDenseRow_eq dot_S10000x128_S128x128_S10000x128_1_0_0_1_n_n dot_S10000x128_S128x128_S10000x128_1_0_0_1_n_n.wf rfl
    _ x4 bitsLt_bf16_f32 x5]
  rfl

/-- What the body leaves in the output's staging buffer: it loads every buffer whole and stores once, whole. -/
theorem out3_eq (x0 x1 : Vec Ideal S10000x128 .f32) (x2 : Vec Ideal S128x128 .f32) (x3 : Vec Ideal S1x128 .f32)
    (x4 : Vec Ideal S128x128 .f32) (x5 : Vec Ideal S1x128 .f32) :
    out3_6 (F := Ideal) x0 x1 x2 x3 x4 x5 = readout (plus x0 x1) x2 (rowOf x3) x4 (rowOf x5) := by
  unfold out3_6
  rw [View.canon_unit_zero hz3]
  simp only [View.ld_unit_zero (S := S10000x128) hz3, View.ld_unit_zero (S := S128x128) hz3, View.ld_unit_zero (S := S1x128) hz3]
  exact pay3_eq x0 x1 x2 x3 x4 x5

/-! ## The windows' blocks as parts of their arrays

The printed index maps over the grid: the row-indexed windows and the output move one block of rows per point, the weight
and bias windows stay at block (0, 0). -/

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = t.val ∧ win3_6.index t (1 : Fin 2) = 0 :=
  (by decide +kernel : ∀ t : Fin grid3.N, _)

variable (V : (c : Dev nD) → (b : Ref sig .tc) → Buf (Elt Ideal) ((c : Thread nD τ).loc b))

/-- Row p' of the node-feature block at point t is row 10000 t + p' of the array. -/
theorem blk3_0 (c : Dev nD) (t : Fin cfg3.N) (p' : Fin 10000) (j : Fin 128) (p : Fin 100000)
    (hp : p.val = t.val * 10000 + p'.val) :
    (iblk3 V c 0 t : Vec Ideal S10000x128 .f32) (ix2 p' j) = (V c main_v35 : S100000x128.Idx → EReal) (ix2 p j) := by
  obtain ⟨e0, e1⟩ := idx3_0 t
  unfold iblk3
  rw [View.read_apply]
  show V c main_v35 _ = V c main_v35 _
  congr 1
  funext a
  apply Fin.ext
  match a with
  | ⟨0, _⟩ => show win3_0.index t (0 : Fin 2) * 10000 + 1 * p'.val = p.val; rw [e0, hp]; omega
  | ⟨1, _⟩ => show win3_0.index t (1 : Fin 2) * 128 + 1 * j.val = j.val; rw [e1]; omega

/-- Row p' of the neighbourhood-sum block at point t is row 10000 t + p' of the array. -/
theorem blk3_1 (c : Dev nD) (t : Fin cfg3.N) (p' : Fin 10000) (j : Fin 128) (p : Fin 100000)
    (hp : p.val = t.val * 10000 + p'.val) :
    (iblk3 V c 1 t : Vec Ideal S10000x128 .f32) (ix2 p' j) = (V c main_v45 : S100000x128.Idx → EReal) (ix2 p j) := by
  obtain ⟨e0, e1⟩ := idx3_1 t
  unfold iblk3
  rw [View.read_apply]
  show V c main_v45 _ = V c main_v45 _
  congr 1
  funext a
  apply Fin.ext
  match a with
  | ⟨0, _⟩ => show win3_1.index t (0 : Fin 2) * 10000 + 1 * p'.val = p.val; rw [e0, hp]; omega
  | ⟨1, _⟩ => show win3_1.index t (1 : Fin 2) * 128 + 1 * j.val = j.val; rw [e1]; omega

/-- The first weight window's block is its whole array at every point. -/
theorem blk3_2 (c : Dev nD) (t : Fin cfg3.N) :
    (iblk3 V c 2 t : Vec Ideal S128x128 .f32) = (V c main_arg14 : S128x128.Idx → EReal) := by
  obtain ⟨e0, e1⟩ := idx3_2 t
  funext y
  unfold iblk3
  rw [View.read_apply]
  show V c main_arg14 _ = V c main_arg14 _
  congr 1
  funext a
  apply Fin.ext
  match a with
  | ⟨0, _⟩ => show win3_2.index t (0 : Fin 2) * 128 + 1 * (y 0).val = (y 0).val; rw [e0]; omega
  | ⟨1, _⟩ => show win3_2.index t (1 : Fin 2) * 128 + 1 * (y 1).val = (y 1).val; rw [e1]; omega

/-- The first bias window's block is its whole array at every point. -/
theorem blk3_3 (c : Dev nD) (t : Fin cfg3.N) :
    (iblk3 V c 3 t : Vec Ideal S1x128 .f32) = (V c main_v46 : S1x128.Idx → EReal) := by
  obtain ⟨e0, e1⟩ := idx3_3 t
  funext y
  unfold iblk3
  rw [View.read_apply]
  show V c main_v46 _ = V c main_v46 _
  congr 1
  funext a
  apply Fin.ext
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

/-- The second weight window's block is its whole array at every point. -/
theorem blk3_4 (c : Dev nD) (t : Fin cfg3.N) :
    (iblk3 V c 4 t : Vec Ideal S128x128 .f32) = (V c main_arg16 : S128x128.Idx → EReal) := by
  obtain ⟨e0, e1⟩ := idx3_4 t
  funext y
  unfold iblk3
  rw [View.read_apply]
  show V c main_arg16 _ = V c main_arg16 _
  congr 1
  funext a
  apply Fin.ext
  match a with
  | ⟨0, _⟩ => show win3_4.index t (0 : Fin 2) * 128 + 1 * (y 0).val = (y 0).val; rw [e0]; omega
  | ⟨1, _⟩ => show win3_4.index t (1 : Fin 2) * 128 + 1 * (y 1).val = (y 1).val; rw [e1]; omega

/-- The second bias window's block is its whole array at every point. -/
theorem blk3_5 (c : Dev nD) (t : Fin cfg3.N) :
    (iblk3 V c 5 t : Vec Ideal S1x128 .f32) = (V c main_v47 : S1x128.Idx → EReal) := by
  obtain ⟨e0, e1⟩ := idx3_5 t
  funext y
  unfold iblk3
  rw [View.read_apply]
  show V c main_v47 _ = V c main_v47 _
  congr 1
  funext a
  apply Fin.ext
  match a with
  | ⟨0, _⟩ => show win3_5.index t (0 : Fin 2) * 1 + 1 * (y 0).val = (y 0).val; rw [e0]; omega
  | ⟨1, _⟩ => show win3_5.index t (1 : Fin 2) * 128 + 1 * (y 1).val = (y 1).val; rw [e1]; omega

/-! ## What a point writes back, and the array after the last point -/

/-- Entry y of the perceptron of point t's block of rows is the entry of the perceptron of the whole matrix at the place
    the output's block puts y: a row of the result depends on that row of the row-indexed operands only. -/
theorem flush3_pt (c : Dev nD) (t : Fin cfg3.N) (y : S10000x128.Idx) :
    readout (plus (iblk3 V c 0 t : Vec Ideal S10000x128 .f32) (iblk3 V c 1 t : Vec Ideal S10000x128 .f32)) (V c main_arg14) (rowOf (V c main_v46)) (V c main_arg16) (rowOf (V c main_v47)) y
      = readout (plus (V c main_v35) (V c main_v45)) (V c main_arg14) (rowOf (V c main_v46)) (V c main_arg16) (rowOf (V c main_v47))
          (((cfg3.win 6).blk t).view.emb y) := by
  obtain ⟨p', q, rfl⟩ : ∃ (p' : Fin 10000) (q : Fin 128), y = ix2 p' q := ⟨y 0, y 1, eq_ix2 y⟩
  obtain ⟨e0, e1⟩ := idx3_6 t
  have ht : t.val < 10 := lt_of_lt_of_eq t.isLt (show cfg3.N = 10 from N_3)
  have hemb : ((cfg3.win 6).blk t).view.emb (ix2 p' q) = ix2 (⟨t.val * 10000 + p'.val, by omega⟩ : Fin 100000) q := by
    funext a
    apply Fin.ext
    match a with
    | ⟨0, _⟩ => show win3_6.index t (0 : Fin 2) * 10000 + 1 * p'.val = t.val * 10000 + p'.val; rw [e0]; omega
    | ⟨1, _⟩ => show win3_6.index t (1 : Fin 2) * 128 + 1 * q.val = q.val; rw [e1]; omega
  rw [hemb]
  exact readout_rows _ _ _ _ _ _ p' _ (fun j => plus_rows _ _ _ _ p' _ (fun j' => blk3_0 V c t p' j' _ rfl) (fun j' => blk3_1 V c t p' j' _ rfl) j) q

/-- What point t writes back is its block of the perceptron of the whole matrix. -/
theorem flushed3_eq (c : Dev nD) (t : Fin cfg3.N) :
    (dat3 (F := Ideal) V c).flushed 6 t
      = ((cfg3.win 6).blk t).view.read (Elt Ideal)
          (readout (plus (V c main_v35) (V c main_v45)) (V c main_arg14) (rowOf (V c main_v46)) (V c main_arg16) (rowOf (V c main_v47))) := by
  show (cfg3.win 6).cut (grid3.coords t) ((dat3 V c).after 6 t) = _
  rw [after3_6, out3_eq (iblk3 V c 0 t) (iblk3 V c 1 t) (iblk3 V c 2 t) (iblk3 V c 3 t) (iblk3 V c 4 t) (iblk3 V c 5 t)]
  rw [blk3_2 V c t, blk3_3 V c t, blk3_4 V c t, blk3_5 V c t]
  funext y
  exact flush3_pt V c t y

/-- Row r of the array is in the block of point r / 10000. -/
theorem cover3 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨e0, e1⟩ := idx3_6 t
  refine ⟨t, flush3_6 t, ?_⟩
  show i ∈ ((View.whole main_v48).slice (win3_6.rect t)).set
  rw [View.set_slice_whole, Rect.mem_set_unit]
  intro a
  match a with
  | ⟨0, _⟩ => show win3_6.index t (0 : Fin 2) * 10000 ≤ (i 0).val ∧ (i 0).val < win3_6.index t (0 : Fin 2) * 10000 + 10000; rw [e0]; omega
  | ⟨1, _⟩ => show win3_6.index t (1 : Fin 2) * 128 ≤ (i 1).val ∧ (i 1).val < win3_6.index t (1 : Fin 2) * 128 + 128; rw [e1]; omega

/-- The output array after the region: the two-layer perceptron of the sum of the node features and the neighbourhood sums as the region found them. -/
theorem region3_value (c : Dev nD) :
    (Gen.dat3 (F := Ideal) V c).arrAt 6 cfg3.N
      = Cert.Net.readout (Cert.Gin.plus (V c main_v35) (V c main_v45)) (V c main_arg14) (Cert.Net.rowOf (V c main_v46)) (V c main_arg16) (Cert.Net.rowOf (V c main_v47)) :=
  (dat3 (F := Ideal) V c).arrAt_eq_of_cover 6 _ (fun t _ => flushed3_eq V c t) cover3

end Cert.Gin.Ker

end
-- ==== Proof.Region4.lean ====
/-
  The value of the second normalise-and-rectify region, as one function of the arrays the region finds.

  The region walks the 100000 node rows in 10 blocks of 10000. At a point it reads that block of rows of z and the four
  [1, 128] rows mean, var, gain, offset whole, and stores, entry (p, q),
      max(((z(p,q) - mean(q)) * rsqrt(var(q) + eps)) * gain(q) + offset(q), 0),
  the operations in this order; the body adds eps to the variance row and takes the reciprocal root before repeating the
  row down the block, which entry by entry is the same value. An entry depends on its own row of z only, so the block a
  point writes back is the same rows of the result computed on the whole matrix; the ten blocks tile the array (row r lies
  in block r / 10000), so the array ends holding the normalised, rectified z.
-/
import proofs.«132092_j14199161880830_1_alg».proof.Proof.Gen.KernelIdeal.Frame
import proofs.«132092_j14199161880830_1_alg».proof.Proof.Spec
import Idealize.ShloMosaic.Lib.Pipeline.Value

set_option maxRecDepth 16384

noncomputable section

namespace Cert.Gin.Ker

open Idealize.ShloMosaic Idealize.ShloMosaic.TcCoe Idealize.SL.Sem Idealize.ShloMosaic.ValueIdx
open Idealize.ShloMosaic.Pipeline (Dat)
open Cert.KernelIdeal Cert.KernelIdeal.Gen
open Cert.Layers Cert.Net Cert.Gin

/-- Two zero offsets, however spelt. -/
theorem hz4 : (![0, 0] : Fin 2 → Nat) = fun _ => 0 := funext fun a => by fin_cases a <;> rfl

/-! ## The body's arithmetic on a block -/

/-- The body's one stored value, entry by entry: a [1, 128] row repeated down the block reads the row's entry of that
    column; the body's second operand is the variance row and its third the mean row. -/
theorem pay4_eq (x0 : Vec Ideal S10000x128 .f32) (xv xm xg xb : Vec Ideal S1x128 .f32) :
    k4_pay1 (F := Ideal) x0 xv xm xg xb = bnRelu x0 (rowOf xm) (rowOf xv) (rowOf xg) (rowOf xb) := by
  funext i
  obtain ⟨p, q, rfl⟩ : ∃ (p : Fin 10000) (q : Fin 128), i = ix2 p q := ⟨i 0, i 1, eq_ix2 i⟩
  rw [bnRelu_apply]
  unfold k4_pay1
  rw [shapeCast_self x0, shapeCast_self xv, shapeCast_self xm, shapeCast_self xg, shapeCast_self xb]
  show max (((x0 (ix2 p q) - broadcastTo S10000x128 xm broadcasts_S1x128_S10000x128 (ix2 p q))
        * broadcastTo S10000x128 (rsqrt (addf xv (broadcast S1x128 (Scalar.ofBits (F := Ideal) .f32 0x3727C5AC#32))))
            broadcasts_S1x128_S10000x128 (ix2 p q))
        * broadcastTo S10000x128 xg broadcasts_S1x128_S10000x128 (ix2 p q)
        + broadcastTo S10000x128 xb broadcasts_S1x128_S10000x128 (ix2 p q)) (Ideal.ofBits .f32 0x00000000#32) = _
  rw [broadcastTo_1b_ab_apply xm broadcasts_S1x128_S10000x128 p q,
    broadcastTo_1b_ab_apply (rsqrt (addf xv (broadcast S1x128 (Scalar.ofBits (F := Ideal) .f32 0x3727C5AC#32)))) broadcasts_S1x128_S10000x128 p q,
    broadcastTo_1b_ab_apply xg broadcasts_S1x128_S10000x128 p q,
    broadcastTo_1b_ab_apply xb broadcasts_S1x128_S10000x128 p q]
  rfl

/-- What the body leaves in the output's staging buffer: it loads every buffer whole and stores once, whole. The body
    loads the variance row (window 2) before the mean row (window 1). -/
theorem out4_eq (x0 : Vec Ideal S10000x128 .f32) (x1 x2 x3 x4 : Vec Ideal S1x128 .f32) :
    out4_5 (F := Ideal) x0 x1 x2 x3 x4 = bnRelu x0 (rowOf x1) (rowOf x2) (rowOf x3) (rowOf x4) := by
  unfold out4_5
  rw [View.canon_unit_zero hz4]
  simp only [View.ld_unit_zero (S := S10000x128) hz4, View.ld_unit_zero (S := S1x128) hz4]
  exact pay4_eq x0 x2 x1 x3 x4

/-! ## The windows' blocks as parts of their arrays

The printed index maps over the grid: the window of z and the output move one block of rows per point, the four row
windows stay at block (0, 0). -/

theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = 0 ∧ win4_1.index t (1 : Fin 2) = 0 :=
  (by decide +kernel : ∀ t : Fin grid4.N, _)
theorem idx4_2 : ∀ t : Fin cfg4.N, win4_2.index t (0 : Fin 2) = 0 ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_5 : ∀ t : Fin cfg4.N, win4_5.index t (0 : Fin 2) = t.val ∧ win4_5.index t (1 : Fin 2) = 0 :=
  (by decide +kernel : ∀ t : Fin grid4.N, _)

variable (V : (c : Dev nD) → (b : Ref sig .tc) → Buf (Elt Ideal) ((c : Thread nD τ).loc b))

/-- Row p' of the block of z at point t is row 10000 t + p' of the array. -/
theorem blk4_0 (c : Dev nD) (t : Fin cfg4.N) (p' : Fin 10000) (j : Fin 128) (p : Fin 100000)
    (hp : p.val = t.val * 10000 + p'.val) :
    (iblk4 V c 0 t : Vec Ideal S10000x128 .f32) (ix2 p' j) = (V c main_v48 : S100000x128.Idx → EReal) (ix2 p j) := by
  obtain ⟨e0, e1⟩ := idx4_0 t
  unfold iblk4
  rw [View.read_apply]
  show V c main_v48 _ = V c main_v48 _
  congr 1
  funext a
  apply Fin.ext
  match a with
  | ⟨0, _⟩ => show win4_0.index t (0 : Fin 2) * 10000 + 1 * p'.val = p.val; rw [e0, hp]; omega
  | ⟨1, _⟩ => show win4_0.index t (1 : Fin 2) * 128 + 1 * j.val = j.val; rw [e1]; omega

/-- The mean window's block is its whole array at every point. -/
theorem blk4_1 (c : Dev nD) (t : Fin cfg4.N) :
    (iblk4 V c 1 t : Vec Ideal S1x128 .f32) = (V c main_v53 : S1x128.Idx → EReal) := by
  obtain ⟨e0, e1⟩ := idx4_1 t
  funext y
  unfold iblk4
  rw [View.read_apply]
  show V c main_v53 _ = V c main_v53 _
  congr 1
  funext a
  apply Fin.ext
  match a with
  | ⟨0, _⟩ => show win4_1.index t (0 : Fin 2) * 1 + 1 * (y 0).val = (y 0).val; rw [e0]; omega
  | ⟨1, _⟩ => show win4_1.index t (1 : Fin 2) * 128 + 1 * (y 1).val = (y 1).val; rw [e1]; omega

/-- The variance window's block is its whole array at every point. -/
theorem blk4_2 (c : Dev nD) (t : Fin cfg4.N) :
    (iblk4 V c 2 t : Vec Ideal S1x128 .f32) = (V c main_v54 : S1x128.Idx → EReal) := by
  obtain ⟨e0, e1⟩ := idx4_2 t
  funext y
  unfold iblk4
  rw [View.read_apply]
  show V c main_v54 _ = V c main_v54 _
  congr 1
  funext a
  apply Fin.ext
  match a with
  | ⟨0, _⟩ => show win4_2.index t (0 : Fin 2) * 1 + 1 * (y 0).val = (y 0).val; rw [e0]; omega
  | ⟨1, _⟩ => show win4_2.index t (1 : Fin 2) * 128 + 1 * (y 1).val = (y 1).val; rw [e1]; omega

/-- The gain window's block is its whole array at every point. -/
theorem blk4_3 (c : Dev nD) (t : Fin cfg4.N) :
    (iblk4 V c 3 t : Vec Ideal S1x128 .f32) = (V c main_v55 : S1x128.Idx → EReal) := by
  obtain ⟨e0, e1⟩ := idx4_3 t
  funext y
  unfold iblk4
  rw [View.read_apply]
  show V c main_v55 _ = V c main_v55 _
  congr 1
  funext a
  apply Fin.ext
  match a with
  | ⟨0, _⟩ => show win4_3.index t (0 : Fin 2) * 1 + 1 * (y 0).val = (y 0).val; rw [e0]; omega
  | ⟨1, _⟩ => show win4_3.index t (1 : Fin 2) * 128 + 1 * (y 1).val = (y 1).val; rw [e1]; omega

/-- The offset window's block is its whole array at every point. -/
theorem blk4_4 (c : Dev nD) (t : Fin cfg4.N) :
    (iblk4 V c 4 t : Vec Ideal S1x128 .f32) = (V c main_v56 : S1x128.Idx → EReal) := by
  obtain ⟨e0, e1⟩ := idx4_4 t
  funext y
  unfold iblk4
  rw [View.read_apply]
  show V c main_v56 _ = V c main_v56 _
  congr 1
  funext a
  apply Fin.ext
  match a with
  | ⟨0, _⟩ => show win4_4.index t (0 : Fin 2) * 1 + 1 * (y 0).val = (y 0).val; rw [e0]; omega
  | ⟨1, _⟩ => show win4_4.index t (1 : Fin 2) * 128 + 1 * (y 1).val = (y 1).val; rw [e1]; omega

/-! ## What a point writes back, and the array after the last point -/

/-- Entry y of the stage on point t's block of rows is the entry of the stage on the whole matrix at the place the
    output's block puts y: an entry depends on its own row of z only. -/
theorem flush4_pt (c : Dev nD) (t : Fin cfg4.N) (y : S10000x128.Idx) :
    bnRelu (iblk4 V c 0 t : Vec Ideal S10000x128 .f32) (rowOf (V c main_v53)) (rowOf (V c main_v54)) (rowOf (V c main_v55)) (rowOf (V c main_v56)) y
      = bnRelu (V c main_v48) (rowOf (V c main_v53)) (rowOf (V c main_v54)) (rowOf (V c main_v55)) (rowOf (V c main_v56))
          (((cfg4.win 5).blk t).view.emb y) := by
  obtain ⟨p', q, rfl⟩ : ∃ (p' : Fin 10000) (q : Fin 128), y = ix2 p' q := ⟨y 0, y 1, eq_ix2 y⟩
  obtain ⟨e0, e1⟩ := idx4_5 t
  have ht : t.val < 10 := lt_of_lt_of_eq t.isLt (show cfg4.N = 10 from N_4)
  have hemb : ((cfg4.win 5).blk t).view.emb (ix2 p' q) = ix2 (⟨t.val * 10000 + p'.val, by omega⟩ : Fin 100000) q := by
    funext a
    apply Fin.ext
    match a with
    | ⟨0, _⟩ => show win4_5.index t (0 : Fin 2) * 10000 + 1 * p'.val = t.val * 10000 + p'.val; rw [e0]; omega
    | ⟨1, _⟩ => show win4_5.index t (1 : Fin 2) * 128 + 1 * q.val = q.val; rw [e1]; omega
  rw [hemb]
  exact bnRelu_rows _ _ _ _ _ _ p' _ (fun j => blk4_0 V c t p' j _ rfl) q

/-- What point t writes back is its block of the stage on the whole matrix. -/
theorem flushed4_eq (c : Dev nD) (t : Fin cfg4.N) :
    (dat4 (F := Ideal) V c).flushed 5 t
      = ((cfg4.win 5).blk t).view.read (Elt Ideal)
          (bnRelu (V c main_v48) (rowOf (V c main_v53)) (rowOf (V c main_v54)) (rowOf (V c main_v55)) (rowOf (V c main_v56))) := by
  show (cfg4.win 5).cut (grid4.coords t) ((dat4 V c).after 5 t) = _
  rw [after4_5, out4_eq (iblk4 V c 0 t) (iblk4 V c 1 t) (iblk4 V c 2 t) (iblk4 V c 3 t) (iblk4 V c 4 t)]
  rw [blk4_1 V c t, blk4_2 V c t, blk4_3 V c t, blk4_4 V c t]
  funext y
  exact flush4_pt V c t y

/-- Row r of the array is in the block of point r / 10000. -/
theorem cover4 (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 10 := N_4
  obtain ⟨t, ht⟩ : ∃ t : Fin cfg4.N, t.val = (i 0).val / 10000 := ⟨⟨(i 0).val / 10000, by rw [hN]; omega⟩, rfl⟩
  obtain ⟨e0, e1⟩ := idx4_5 t
  refine ⟨t, flush4_5 t, ?_⟩
  show i ∈ ((View.whole main_v57).slice (win4_5.rect t)).set
  rw [View.set_slice_whole, Rect.mem_set_unit]
  intro a
  match a with
  | ⟨0, _⟩ => show win4_5.index t (0 : Fin 2) * 10000 ≤ (i 0).val ∧ (i 0).val < win4_5.index t (0 : Fin 2) * 10000 + 10000; rw [e0]; omega
  | ⟨1, _⟩ => show win4_5.index t (1 : Fin 2) * 128 ≤ (i 1).val ∧ (i 1).val < win4_5.index t (1 : Fin 2) * 128 + 128; rw [e1]; omega

/-- The output array after the region: z normalised by the per-column mean and variance, scaled, shifted and rectified. -/
theorem region4_value (c : Dev nD) :
    (Gen.dat4 (F := Ideal) V c).arrAt 5 cfg4.N
      = Cert.Gin.bnRelu (V c main_v48) (Cert.Net.rowOf (V c main_v53)) (Cert.Net.rowOf (V c main_v54)) (Cert.Net.rowOf (V c main_v55)) (Cert.Net.rowOf (V c main_v56)) :=
  (dat4 (F := Ideal) V c).arrAt_eq_of_cover 5 _ (fun t _ => flushed4_eq V c t) cover4

end Cert.Gin.Ker

end
-- ==== Proof.KLayer2.lean ====
/-
  Convolution layer 2 of the network, read off the run: from the boundary where the node matrix h sits in its array, the
  host line sums h along the edges, the next region applies the perceptron to h plus that sum, two host lines take the
  column mean and variance of the result, a third lays the four normalisation vectors out as rows, and the following
  region normalises and rectifies. The second region's output array then holds the layer applied to h.
-/
import proofs.«132092_j14199161880830_1_alg».proof.Proof.KArgs
import proofs.«132092_j14199161880830_1_alg».proof.Proof.KCongr
import proofs.«132092_j14199161880830_1_alg».proof.Proof.Region3
import proofs.«132092_j14199161880830_1_alg».proof.Proof.Region4

set_option maxRecDepth 16384

noncomputable section

namespace Cert.Gin.Ker

open Idealize.ShloMosaic Idealize.ShloMosaic.TcCoe Idealize.ShloMosaic.StableHlo Cert.KernelIdeal Cert.KernelIdeal.Gen Cert.Layers Cert.Net Cert.Gin

variable (m : (ℓ : Loc nD τ sig) → Buf (Elt Ideal) ℓ) (ρ : Dev nD → PrngReg) (c : Dev nD)

theorem layer2_value (h : Mat 100000 128) (hin : (W8 m ρ c (Proc.devRef .tc main_v35) : Mat 100000 128) = h) :
    (W14 m ρ c (Proc.devRef .tc main_v57) : Mat 100000 128)
      = layer H h (m ((c : Thread nD τ).loc main_arg1)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  -- the perceptron's inputs at the first region's entry
  have e_h : (W9 m ρ c (Proc.devRef .tc main_v35) : Mat 100000 128) = h := (step9 m ρ c main_v35 (by decide)).trans hin
  have e_agg : (W9 m ρ c (Proc.devRef .tc main_v45) : Mat 100000 128) = agg h (m ((c : Thread nD τ).loc main_arg1)) :=
    (s3_v45 (W8 m ρ c)).trans
      (show aggRows _ _ _ = aggRows h (edgeRow0 (m ((c : Thread nD τ).loc main_arg1))) (edgeRow1 (m ((c : Thread nD τ).loc main_arg1))) by
        rw [hin, W8_v1 m ρ c, W8_v3 m ρ c])
  have e_b1 : rowOf (W9 m ρ c (Proc.devRef .tc main_v46) : Mat 1 128) = (m ((c : Thread nD τ).loc main_arg15)) :=
    (s3_v46 (W8 m ρ c)).trans (W8_arg15 m ρ c)
  have e_b2 : rowOf (W9 m ρ c (Proc.devRef .tc main_v47) : Mat 1 128) = (m ((c : Thread nD τ).loc main_arg17)) :=
    (s3_v47 (W8 m ρ c)).trans (W8_arg17 m ρ c)
  -- the perceptron's output
  have e_z : (W10 m ρ c (Proc.devRef .tc main_v48) : Mat 100000 128)
      = readout (plus h (agg h (m ((c : Thread nD τ).loc main_arg1)))) (m ((c : Thread nD τ).loc main_arg14)) (m ((c : Thread nD τ).loc main_arg15)) (m ((c : Thread nD τ).loc main_arg16)) (m ((c : Thread nD τ).loc main_arg17)) :=
    (W10_arr m ρ c 6).trans ((region3_value (V9 m ρ) c).trans
      (readout_congr (plus_congr e_h e_agg) (W9_arg14 m ρ c) e_b1
        (W9_arg16 m ρ c) e_b2))
  -- its column statistics and the normalisation's vectors at the second region's entry
  have e_z' : (W13 m ρ c (Proc.devRef .tc main_v48) : Mat 100000 128)
      = readout (plus h (agg h (m ((c : Thread nD τ).loc main_arg1)))) (m ((c : Thread nD τ).loc main_arg14)) (m ((c : Thread nD τ).loc main_arg15)) (m ((c : Thread nD τ).loc main_arg16)) (m ((c : Thread nD τ).loc main_arg17)) :=
    (step13 m ρ c main_v48 (by decide)).trans ((step12 m ρ c main_v48 (by decide)).trans
      ((step11 m ρ c main_v48 (by decide)).trans e_z))
  have e_mean : rowOf (W13 m ρ c (Proc.devRef .tc main_v53) : Mat 1 128)
      = mean (readout (plus h (agg h (m ((c : Thread nD τ).loc main_arg1)))) (m ((c : Thread nD τ).loc main_arg14)) (m ((c : Thread nD τ).loc main_arg15)) (m ((c : Thread nD τ).loc main_arg16)) (m ((c : Thread nD τ).loc main_arg17))) :=
    (s4_2_v53 (W12 m ρ c)).trans ((step12 m ρ c main_v51 (by decide)).trans
      ((s4_v51 (W10 m ρ c)).trans (congrArg mean e_z)))
  have e_var : rowOf (W13 m ρ c (Proc.devRef .tc main_v54) : Mat 1 128)
      = var (readout (plus h (agg h (m ((c : Thread nD τ).loc main_arg1)))) (m ((c : Thread nD τ).loc main_arg14)) (m ((c : Thread nD τ).loc main_arg15)) (m ((c : Thread nD τ).loc main_arg16)) (m ((c : Thread nD τ).loc main_arg17))) :=
    (s4_2_v54 (W12 m ρ c)).trans ((s4_1_v52 (W10 m ρ c)).trans (congrArg var e_z))
  have e_g : rowOf (W13 m ρ c (Proc.devRef .tc main_v55) : Mat 1 128) = (m ((c : Thread nD τ).loc main_arg18)) :=
    (s4_2_v55 (W12 m ρ c)).trans (W12_arg18 m ρ c)
  have e_be : rowOf (W13 m ρ c (Proc.devRef .tc main_v56) : Mat 1 128) = (m ((c : Thread nD τ).loc main_arg19)) :=
    (s4_2_v56 (W12 m ρ c)).trans (W12_arg19 m ρ c)
  -- the normalised, rectified output
  exact (W14_arr m ρ c 5).trans ((region4_value (V13 m ρ) c).trans
    (bnRelu_congr e_z' e_mean e_var e_g e_be))

end Cert.Gin.Ker

end
-- ==== Proof.Region5.lean ====
/-
  The value of the third convolution's perceptron region, as one function of the arrays the region finds.

  The region walks the 100000 node rows in 10 blocks of 10000. At a point it reads that block of rows of the node features
  h and of the neighbourhood sums agg, and the two weight matrices and two bias rows whole; it stores
      max((h + agg) · w1 + b1, 0) · w2 + b2
  of the block. Row p of that result depends on row p of h and of agg only, so the block a point writes back is the
  same rows of the result computed on the whole matrices; the ten blocks tile the array (row r lies in block r / 10000),
  so the array ends holding the perceptron of h + agg.
-/
import proofs.«132092_j14199161880830_1_alg».proof.Proof.Gen.KernelIdeal.Frame
import proofs.«132092_j14199161880830_1_alg».proof.Proof.Spec
import Idealize.ShloMosaic.Lib.Pipeline.Value

set_option maxRecDepth 16384

noncomputable section

namespace Cert.Gin.Ker

open Idealize.ShloMosaic Idealize.ShloMosaic.TcCoe Idealize.SL.Sem Idealize.ShloMosaic.ValueIdx
open Idealize.ShloMosaic.Pipeline (Dat)
open Cert.KernelIdeal Cert.KernelIdeal.Gen
open Cert.Layers Cert.Net Cert.Gin

/-- Two zero offsets, however spelt. -/
theorem hz5 : (![0, 0] : Fin 2 → Nat) = fun _ => 0 := funext fun a => by fin_cases a <;> rfl

/-! ## The body's arithmetic on a block -/

/-- The body's one stored value is the two-layer perceptron of its loaded blocks: each matrix-unit product into a zero
    accumulator plus its bias row repeated down the rows is a dense layer, the maximum with a repeated zero is the
    rectifier, and narrowing a float format changes nothing on the extended reals. -/
theorem pay5_eq (x0 x1 : Vec Ideal S10000x128 .f32) (x2 : Vec Ideal S128x128 .f32) (x3 : Vec Ideal S1x128 .f32)
    (x4 : Vec Ideal S128x128 .f32) (x5 : Vec Ideal S1x128 .f32) :
    k5_pay1 (F := Ideal) x0 x1 x2 x3 x4 x5 = readout (plus x0 x1) x2 (rowOf x3) x4 (rowOf x5) := by
  unfold k5_pay1
  dsimp only
  rw [shapeCast_self x0, shapeCast_self x1]
  rw [tileDenseRow_eq dot_S10000x128_S128x128_S10000x128_1_0_0_1_n_n dot_S10000x128_S128x128_S10000x128_1_0_0_1_n_n.wf rfl
    (truncf .bf16 (addf x0 x1) bitsLt_bf16_f32) x2 bitsLt_bf16_f32 x3]
  rw [tileRect_eq]
  rw [tileDenseRow_eq dot_S10000x128_S128x128_S10000x128_1_0_0_1_n_n dot_S10000x128_S128x128_S10000x128_1_0_0_1_n_n.wf rfl
    _ x4 bitsLt_bf16_f32 x5]
  rfl

/-- What the body leaves in the output's staging buffer: it loads every buffer whole and stores once, whole. -/
theorem out5_eq (x0 x1 : Vec Ideal S10000x128 .f32) (x2 : Vec Ideal S128x128 .f32) (x3 : Vec Ideal S1x128 .f32)
    (x4 : Vec Ideal S128x128 .f32) (x5 : Vec Ideal S1x128 .f32) :
    out5_6 (F := Ideal) x0 x1 x2 x3 x4 x5 = readout (plus x0 x1) x2 (rowOf x3) x4 (rowOf x5) := by
  unfold out5_6
  rw [View.canon_unit_zero hz5]
  simp only [View.ld_unit_zero (S := S10000x128) hz5, View.ld_unit_zero (S := S128x128) hz5, View.ld_unit_zero (S := S1x128) hz5]
  exact pay5_eq x0 x1 x2 x3 x4 x5

/-! ## The windows' blocks as parts of their arrays

The printed index maps over the grid: the row-indexed windows and the output move one block of rows per point, the weight
and bias windows stay at block (0, 0). -/

theorem idx5_0 : ∀ t : Fin cfg5.N, win5_0.index t (0 : Fin 2) = t.val ∧ win5_0.index t (1 : Fin 2) = 0 :=
  (by decide +kernel : ∀ t : Fin grid5.N, _)
theorem idx5_1 : ∀ t : Fin cfg5.N, win5_1.index t (0 : Fin 2) = t.val ∧ win5_1.index t (1 : Fin 2) = 0 :=
  (by decide +kernel : ∀ t : Fin grid5.N, _)
theorem idx5_2 : ∀ t : Fin cfg5.N, win5_2.index t (0 : Fin 2) = 0 ∧ win5_2.index t (1 : Fin 2) = 0 :=
  (by decide +kernel : ∀ t : Fin grid5.N, _)
theorem idx5_3 : ∀ t : Fin cfg5.N, win5_3.index t (0 : Fin 2) = 0 ∧ win5_3.index t (1 : Fin 2) = 0 :=
  (by decide +kernel : ∀ t : Fin grid5.N, _)
theorem idx5_4 : ∀ t : Fin cfg5.N, win5_4.index t (0 : Fin 2) = 0 ∧ win5_4.index t (1 : Fin 2) = 0 :=
  (by decide +kernel : ∀ t : Fin grid5.N, _)
theorem idx5_5 : ∀ t : Fin cfg5.N, win5_5.index t (0 : Fin 2) = 0 ∧ win5_5.index t (1 : Fin 2) = 0 :=
  (by decide +kernel : ∀ t : Fin grid5.N, _)
theorem idx5_6 : ∀ t : Fin cfg5.N, win5_6.index t (0 : Fin 2) = t.val ∧ win5_6.index t (1 : Fin 2) = 0 :=
  (by decide +kernel : ∀ t : Fin grid5.N, _)

variable (V : (c : Dev nD) → (b : Ref sig .tc) → Buf (Elt Ideal) ((c : Thread nD τ).loc b))

/-- Row p' of the node-feature block at point t is row 10000 t + p' of the array. -/
theorem blk5_0 (c : Dev nD) (t : Fin cfg5.N) (p' : Fin 10000) (j : Fin 128) (p : Fin 100000)
    (hp : p.val = t.val * 10000 + p'.val) :
    (iblk5 V c 0 t : Vec Ideal S10000x128 .f32) (ix2 p' j) = (V c main_v57 : S100000x128.Idx → EReal) (ix2 p j) := by
  obtain ⟨e0, e1⟩ := idx5_0 t
  unfold iblk5
  rw [View.read_apply]
  show V c main_v57 _ = V c main_v57 _
  congr 1
  funext a
  apply Fin.ext
  match a with
  | ⟨0, _⟩ => show win5_0.index t (0 : Fin 2) * 10000 + 1 * p'.val = p.val; rw [e0, hp]; omega
  | ⟨1, _⟩ => show win5_0.index t (1 : Fin 2) * 128 + 1 * j.val = j.val; rw [e1]; omega

/-- Row p' of the neighbourhood-sum block at point t is row 10000 t + p' of the array. -/
theorem blk5_1 (c : Dev nD) (t : Fin cfg5.N) (p' : Fin 10000) (j : Fin 128) (p : Fin 100000)
    (hp : p.val = t.val * 10000 + p'.val) :
    (iblk5 V c 1 t : Vec Ideal S10000x128 .f32) (ix2 p' j) = (V c main_v67 : S100000x128.Idx → EReal) (ix2 p j) := by
  obtain ⟨e0, e1⟩ := idx5_1 t
  unfold iblk5
  rw [View.read_apply]
  show V c main_v67 _ = V c main_v67 _
  congr 1
  funext a
  apply Fin.ext
  match a with
  | ⟨0, _⟩ => show win5_1.index t (0 : Fin 2) * 10000 + 1 * p'.val = p.val; rw [e0, hp]; omega
  | ⟨1, _⟩ => show win5_1.index t (1 : Fin 2) * 128 + 1 * j.val = j.val; rw [e1]; omega

/-- The first weight window's block is its whole array at every point. -/
theorem blk5_2 (c : Dev nD) (t : Fin cfg5.N) :
    (iblk5 V c 2 t : Vec Ideal S128x128 .f32) = (V c main_arg20 : S128x128.Idx → EReal) := by
  obtain ⟨e0, e1⟩ := idx5_2 t
  funext y
  unfold iblk5
  rw [View.read_apply]
  show V c main_arg20 _ = V c main_arg20 _
  congr 1
  funext a
  apply Fin.ext
  match a with
  | ⟨0, _⟩ => show win5_2.index t (0 : Fin 2) * 128 + 1 * (y 0).val = (y 0).val; rw [e0]; omega
  | ⟨1, _⟩ => show win5_2.index t (1 : Fin 2) * 128 + 1 * (y 1).val = (y 1).val; rw [e1]; omega

/-- The first bias window's block is its whole array at every point. -/
theorem blk5_3 (c : Dev nD) (t : Fin cfg5.N) :
    (iblk5 V c 3 t : Vec Ideal S1x128 .f32) = (V c main_v68 : S1x128.Idx → EReal) := by
  obtain ⟨e0, e1⟩ := idx5_3 t
  funext y
  unfold iblk5
  rw [View.read_apply]
  show V c main_v68 _ = V c main_v68 _
  congr 1
  funext a
  apply Fin.ext
  match a with
  | ⟨0, _⟩ => show win5_3.index t (0 : Fin 2) * 1 + 1 * (y 0).val = (y 0).val; rw [e0]; omega
  | ⟨1, _⟩ => show win5_3.index t (1 : Fin 2) * 128 + 1 * (y 1).val = (y 1).val; rw [e1]; omega

/-- The second weight window's block is its whole array at every point. -/
theorem blk5_4 (c : Dev nD) (t : Fin cfg5.N) :
    (iblk5 V c 4 t : Vec Ideal S128x128 .f32) = (V c main_arg22 : S128x128.Idx → EReal) := by
  obtain ⟨e0, e1⟩ := idx5_4 t
  funext y
  unfold iblk5
  rw [View.read_apply]
  show V c main_arg22 _ = V c main_arg22 _
  congr 1
  funext a
  apply Fin.ext
  match a with
  | ⟨0, _⟩ => show win5_4.index t (0 : Fin 2) * 128 + 1 * (y 0).val = (y 0).val; rw [e0]; omega
  | ⟨1, _⟩ => show win5_4.index t (1 : Fin 2) * 128 + 1 * (y 1).val = (y 1).val; rw [e1]; omega

/-- The second bias window's block is its whole array at every point. -/
theorem blk5_5 (c : Dev nD) (t : Fin cfg5.N) :
    (iblk5 V c 5 t : Vec Ideal S1x128 .f32) = (V c main_v69 : S1x128.Idx → EReal) := by
  obtain ⟨e0, e1⟩ := idx5_5 t
  funext y
  unfold iblk5
  rw [View.read_apply]
  show V c main_v69 _ = V c main_v69 _
  congr 1
  funext a
  apply Fin.ext
  match a with
  | ⟨0, _⟩ => show win5_5.index t (0 : Fin 2) * 1 + 1 * (y 0).val = (y 0).val; rw [e0]; omega
  | ⟨1, _⟩ => show win5_5.index t (1 : Fin 2) * 128 + 1 * (y 1).val = (y 1).val; rw [e1]; omega

/-! ## What a point writes back, and the array after the last point -/

/-- Entry y of the perceptron of point t's block of rows is the entry of the perceptron of the whole matrix at the place
    the output's block puts y: a row of the result depends on that row of the row-indexed operands only. -/
theorem flush5_pt (c : Dev nD) (t : Fin cfg5.N) (y : S10000x128.Idx) :
    readout (plus (iblk5 V c 0 t : Vec Ideal S10000x128 .f32) (iblk5 V c 1 t : Vec Ideal S10000x128 .f32)) (V c main_arg20) (rowOf (V c main_v68)) (V c main_arg22) (rowOf (V c main_v69)) y
      = readout (plus (V c main_v57) (V c main_v67)) (V c main_arg20) (rowOf (V c main_v68)) (V c main_arg22) (rowOf (V c main_v69))
          (((cfg5.win 6).blk t).view.emb y) := by
  obtain ⟨p', q, rfl⟩ : ∃ (p' : Fin 10000) (q : Fin 128), y = ix2 p' q := ⟨y 0, y 1, eq_ix2 y⟩
  obtain ⟨e0, e1⟩ := idx5_6 t
  have ht : t.val < 10 := lt_of_lt_of_eq t.isLt (show cfg5.N = 10 from N_5)
  have hemb : ((cfg5.win 6).blk t).view.emb (ix2 p' q) = ix2 (⟨t.val * 10000 + p'.val, by omega⟩ : Fin 100000) q := by
    funext a
    apply Fin.ext
    match a with
    | ⟨0, _⟩ => show win5_6.index t (0 : Fin 2) * 10000 + 1 * p'.val = t.val * 10000 + p'.val; rw [e0]; omega
    | ⟨1, _⟩ => show win5_6.index t (1 : Fin 2) * 128 + 1 * q.val = q.val; rw [e1]; omega
  rw [hemb]
  exact readout_rows _ _ _ _ _ _ p' _ (fun j => plus_rows _ _ _ _ p' _ (fun j' => blk5_0 V c t p' j' _ rfl) (fun j' => blk5_1 V c t p' j' _ rfl) j) q

/-- What point t writes back is its block of the perceptron of the whole matrix. -/
theorem flushed5_eq (c : Dev nD) (t : Fin cfg5.N) :
    (dat5 (F := Ideal) V c).flushed 6 t
      = ((cfg5.win 6).blk t).view.read (Elt Ideal)
          (readout (plus (V c main_v57) (V c main_v67)) (V c main_arg20) (rowOf (V c main_v68)) (V c main_arg22) (rowOf (V c main_v69))) := by
  show (cfg5.win 6).cut (grid5.coords t) ((dat5 V c).after 6 t) = _
  rw [after5_6, out5_eq (iblk5 V c 0 t) (iblk5 V c 1 t) (iblk5 V c 2 t) (iblk5 V c 3 t) (iblk5 V c 4 t) (iblk5 V c 5 t)]
  rw [blk5_2 V c t, blk5_3 V c t, blk5_4 V c t, blk5_5 V c t]
  funext y
  exact flush5_pt V c t y

/-- Row r of the array is in the block of point r / 10000. -/
theorem cover5 (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  have hN : cfg5.N = 10 := N_5
  obtain ⟨t, ht⟩ : ∃ t : Fin cfg5.N, t.val = (i 0).val / 10000 := ⟨⟨(i 0).val / 10000, by rw [hN]; omega⟩, rfl⟩
  obtain ⟨e0, e1⟩ := idx5_6 t
  refine ⟨t, flush5_6 t, ?_⟩
  show i ∈ ((View.whole main_v70).slice (win5_6.rect t)).set
  rw [View.set_slice_whole, Rect.mem_set_unit]
  intro a
  match a with
  | ⟨0, _⟩ => show win5_6.index t (0 : Fin 2) * 10000 ≤ (i 0).val ∧ (i 0).val < win5_6.index t (0 : Fin 2) * 10000 + 10000; rw [e0]; omega
  | ⟨1, _⟩ => show win5_6.index t (1 : Fin 2) * 128 ≤ (i 1).val ∧ (i 1).val < win5_6.index t (1 : Fin 2) * 128 + 128; rw [e1]; omega

/-- The output array after the region: the two-layer perceptron of the sum of the node features and the neighbourhood sums as the region found them. -/
theorem region5_value (c : Dev nD) :
    (Gen.dat5 (F := Ideal) V c).arrAt 6 cfg5.N
      = Cert.Net.readout (Cert.Gin.plus (V c main_v57) (V c main_v67)) (V c main_arg20) (Cert.Net.rowOf (V c main_v68)) (V c main_arg22) (Cert.Net.rowOf (V c main_v69)) :=
  (dat5 (F := Ideal) V c).arrAt_eq_of_cover 6 _ (fun t _ => flushed5_eq V c t) cover5

end Cert.Gin.Ker

end
-- ==== Proof.Region6.lean ====
/-
  The value of the third normalise-and-rectify region, as one function of the arrays the region finds.

  The region walks the 100000 node rows in 10 blocks of 10000. At a point it reads that block of rows of z and the four
  [1, 128] rows mean, var, gain, offset whole, and stores, entry (p, q),
      max(((z(p,q) - mean(q)) * rsqrt(var(q) + eps)) * gain(q) + offset(q), 0),
  the operations in this order; the body adds eps to the variance row and takes the reciprocal root before repeating the
  row down the block, which entry by entry is the same value. An entry depends on its own row of z only, so the block a
  point writes back is the same rows of the result computed on the whole matrix; the ten blocks tile the array (row r lies
  in block r / 10000), so the array ends holding the normalised, rectified z.
-/
import proofs.«132092_j14199161880830_1_alg».proof.Proof.Gen.KernelIdeal.Frame
import proofs.«132092_j14199161880830_1_alg».proof.Proof.Spec
import Idealize.ShloMosaic.Lib.Pipeline.Value

set_option maxRecDepth 16384

noncomputable section

namespace Cert.Gin.Ker

open Idealize.ShloMosaic Idealize.ShloMosaic.TcCoe Idealize.SL.Sem Idealize.ShloMosaic.ValueIdx
open Idealize.ShloMosaic.Pipeline (Dat)
open Cert.KernelIdeal Cert.KernelIdeal.Gen
open Cert.Layers Cert.Net Cert.Gin

/-- Two zero offsets, however spelt. -/
theorem hz6 : (![0, 0] : Fin 2 → Nat) = fun _ => 0 := funext fun a => by fin_cases a <;> rfl

/-! ## The body's arithmetic on a block -/

/-- The body's one stored value, entry by entry: a [1, 128] row repeated down the block reads the row's entry of that
    column; the body's second operand is the variance row and its third the mean row. -/
theorem pay6_eq (x0 : Vec Ideal S10000x128 .f32) (xv xm xg xb : Vec Ideal S1x128 .f32) :
    k6_pay1 (F := Ideal) x0 xv xm xg xb = bnRelu x0 (rowOf xm) (rowOf xv) (rowOf xg) (rowOf xb) := by
  funext i
  obtain ⟨p, q, rfl⟩ : ∃ (p : Fin 10000) (q : Fin 128), i = ix2 p q := ⟨i 0, i 1, eq_ix2 i⟩
  rw [bnRelu_apply]
  unfold k6_pay1
  rw [shapeCast_self x0, shapeCast_self xv, shapeCast_self xm, shapeCast_self xg, shapeCast_self xb]
  show max (((x0 (ix2 p q) - broadcastTo S10000x128 xm broadcasts_S1x128_S10000x128 (ix2 p q))
        * broadcastTo S10000x128 (rsqrt (addf xv (broadcast S1x128 (Scalar.ofBits (F := Ideal) .f32 0x3727C5AC#32))))
            broadcasts_S1x128_S10000x128 (ix2 p q))
        * broadcastTo S10000x128 xg broadcasts_S1x128_S10000x128 (ix2 p q)
        + broadcastTo S10000x128 xb broadcasts_S1x128_S10000x128 (ix2 p q)) (Ideal.ofBits .f32 0x00000000#32) = _
  rw [broadcastTo_1b_ab_apply xm broadcasts_S1x128_S10000x128 p q,
    broadcastTo_1b_ab_apply (rsqrt (addf xv (broadcast S1x128 (Scalar.ofBits (F := Ideal) .f32 0x3727C5AC#32)))) broadcasts_S1x128_S10000x128 p q,
    broadcastTo_1b_ab_apply xg broadcasts_S1x128_S10000x128 p q,
    broadcastTo_1b_ab_apply xb broadcasts_S1x128_S10000x128 p q]
  rfl

/-- What the body leaves in the output's staging buffer: it loads every buffer whole and stores once, whole. The body
    loads the variance row (window 2) before the mean row (window 1). -/
theorem out6_eq (x0 : Vec Ideal S10000x128 .f32) (x1 x2 x3 x4 : Vec Ideal S1x128 .f32) :
    out6_5 (F := Ideal) x0 x1 x2 x3 x4 = bnRelu x0 (rowOf x1) (rowOf x2) (rowOf x3) (rowOf x4) := by
  unfold out6_5
  rw [View.canon_unit_zero hz6]
  simp only [View.ld_unit_zero (S := S10000x128) hz6, View.ld_unit_zero (S := S1x128) hz6]
  exact pay6_eq x0 x2 x1 x3 x4

/-! ## The windows' blocks as parts of their arrays

The printed index maps over the grid: the window of z and the output move one block of rows per point, the four row
windows stay at block (0, 0). -/

theorem idx6_0 : ∀ t : Fin cfg6.N, win6_0.index t (0 : Fin 2) = t.val ∧ win6_0.index t (1 : Fin 2) = 0 :=
  (by decide +kernel : ∀ t : Fin grid6.N, _)
theorem idx6_1 : ∀ t : Fin cfg6.N, win6_1.index t (0 : Fin 2) = 0 ∧ win6_1.index t (1 : Fin 2) = 0 :=
  (by decide +kernel : ∀ t : Fin grid6.N, _)
theorem idx6_2 : ∀ t : Fin cfg6.N, win6_2.index t (0 : Fin 2) = 0 ∧ win6_2.index t (1 : Fin 2) = 0 :=
  (by decide +kernel : ∀ t : Fin grid6.N, _)
theorem idx6_3 : ∀ t : Fin cfg6.N, win6_3.index t (0 : Fin 2) = 0 ∧ win6_3.index t (1 : Fin 2) = 0 :=
  (by decide +kernel : ∀ t : Fin grid6.N, _)
theorem idx6_4 : ∀ t : Fin cfg6.N, win6_4.index t (0 : Fin 2) = 0 ∧ win6_4.index t (1 : Fin 2) = 0 :=
  (by decide +kernel : ∀ t : Fin grid6.N, _)
theorem idx6_5 : ∀ t : Fin cfg6.N, win6_5.index t (0 : Fin 2) = t.val ∧ win6_5.index t (1 : Fin 2) = 0 :=
  (by decide +kernel : ∀ t : Fin grid6.N, _)

variable (V : (c : Dev nD) → (b : Ref sig .tc) → Buf (Elt Ideal) ((c : Thread nD τ).loc b))

/-- Row p' of the block of z at point t is row 10000 t + p' of the array. -/
theorem blk6_0 (c : Dev nD) (t : Fin cfg6.N) (p' : Fin 10000) (j : Fin 128) (p : Fin 100000)
    (hp : p.val = t.val * 10000 + p'.val) :
    (iblk6 V c 0 t : Vec Ideal S10000x128 .f32) (ix2 p' j) = (V c main_v70 : S100000x128.Idx → EReal) (ix2 p j) := by
  obtain ⟨e0, e1⟩ := idx6_0 t
  unfold iblk6
  rw [View.read_apply]
  show V c main_v70 _ = V c main_v70 _
  congr 1
  funext a
  apply Fin.ext
  match a with
  | ⟨0, _⟩ => show win6_0.index t (0 : Fin 2) * 10000 + 1 * p'.val = p.val; rw [e0, hp]; omega
  | ⟨1, _⟩ => show win6_0.index t (1 : Fin 2) * 128 + 1 * j.val = j.val; rw [e1]; omega

/-- The mean window's block is its whole array at every point. -/
theorem blk6_1 (c : Dev nD) (t : Fin cfg6.N) :
    (iblk6 V c 1 t : Vec Ideal S1x128 .f32) = (V c main_v75 : S1x128.Idx → EReal) := by
  obtain ⟨e0, e1⟩ := idx6_1 t
  funext y
  unfold iblk6
  rw [View.read_apply]
  show V c main_v75 _ = V c main_v75 _
  congr 1
  funext a
  apply Fin.ext
  match a with
  | ⟨0, _⟩ => show win6_1.index t (0 : Fin 2) * 1 + 1 * (y 0).val = (y 0).val; rw [e0]; omega
  | ⟨1, _⟩ => show win6_1.index t (1 : Fin 2) * 128 + 1 * (y 1).val = (y 1).val; rw [e1]; omega

/-- The variance window's block is its whole array at every point. -/
theorem blk6_2 (c : Dev nD) (t : Fin cfg6.N) :
    (iblk6 V c 2 t : Vec Ideal S1x128 .f32) = (V c main_v76 : S1x128.Idx → EReal) := by
  obtain ⟨e0, e1⟩ := idx6_2 t
  funext y
  unfold iblk6
  rw [View.read_apply]
  show V c main_v76 _ = V c main_v76 _
  congr 1
  funext a
  apply Fin.ext
  match a with
  | ⟨0, _⟩ => show win6_2.index t (0 : Fin 2) * 1 + 1 * (y 0).val = (y 0).val; rw [e0]; omega
  | ⟨1, _⟩ => show win6_2.index t (1 : Fin 2) * 128 + 1 * (y 1).val = (y 1).val; rw [e1]; omega

/-- The gain window's block is its whole array at every point. -/
theorem blk6_3 (c : Dev nD) (t : Fin cfg6.N) :
    (iblk6 V c 3 t : Vec Ideal S1x128 .f32) = (V c main_v77 : S1x128.Idx → EReal) := by
  obtain ⟨e0, e1⟩ := idx6_3 t
  funext y
  unfold iblk6
  rw [View.read_apply]
  show V c main_v77 _ = V c main_v77 _
  congr 1
  funext a
  apply Fin.ext
  match a with
  | ⟨0, _⟩ => show win6_3.index t (0 : Fin 2) * 1 + 1 * (y 0).val = (y 0).val; rw [e0]; omega
  | ⟨1, _⟩ => show win6_3.index t (1 : Fin 2) * 128 + 1 * (y 1).val = (y 1).val; rw [e1]; omega

/-- The offset window's block is its whole array at every point. -/
theorem blk6_4 (c : Dev nD) (t : Fin cfg6.N) :
    (iblk6 V c 4 t : Vec Ideal S1x128 .f32) = (V c main_v78 : S1x128.Idx → EReal) := by
  obtain ⟨e0, e1⟩ := idx6_4 t
  funext y
  unfold iblk6
  rw [View.read_apply]
  show V c main_v78 _ = V c main_v78 _
  congr 1
  funext a
  apply Fin.ext
  match a with
  | ⟨0, _⟩ => show win6_4.index t (0 : Fin 2) * 1 + 1 * (y 0).val = (y 0).val; rw [e0]; omega
  | ⟨1, _⟩ => show win6_4.index t (1 : Fin 2) * 128 + 1 * (y 1).val = (y 1).val; rw [e1]; omega

/-! ## What a point writes back, and the array after the last point -/

/-- Entry y of the stage on point t's block of rows is the entry of the stage on the whole matrix at the place the
    output's block puts y: an entry depends on its own row of z only. -/
theorem flush6_pt (c : Dev nD) (t : Fin cfg6.N) (y : S10000x128.Idx) :
    bnRelu (iblk6 V c 0 t : Vec Ideal S10000x128 .f32) (rowOf (V c main_v75)) (rowOf (V c main_v76)) (rowOf (V c main_v77)) (rowOf (V c main_v78)) y
      = bnRelu (V c main_v70) (rowOf (V c main_v75)) (rowOf (V c main_v76)) (rowOf (V c main_v77)) (rowOf (V c main_v78))
          (((cfg6.win 5).blk t).view.emb y) := by
  obtain ⟨p', q, rfl⟩ : ∃ (p' : Fin 10000) (q : Fin 128), y = ix2 p' q := ⟨y 0, y 1, eq_ix2 y⟩
  obtain ⟨e0, e1⟩ := idx6_5 t
  have ht : t.val < 10 := lt_of_lt_of_eq t.isLt (show cfg6.N = 10 from N_6)
  have hemb : ((cfg6.win 5).blk t).view.emb (ix2 p' q) = ix2 (⟨t.val * 10000 + p'.val, by omega⟩ : Fin 100000) q := by
    funext a
    apply Fin.ext
    match a with
    | ⟨0, _⟩ => show win6_5.index t (0 : Fin 2) * 10000 + 1 * p'.val = t.val * 10000 + p'.val; rw [e0]; omega
    | ⟨1, _⟩ => show win6_5.index t (1 : Fin 2) * 128 + 1 * q.val = q.val; rw [e1]; omega
  rw [hemb]
  exact bnRelu_rows _ _ _ _ _ _ p' _ (fun j => blk6_0 V c t p' j _ rfl) q

/-- What point t writes back is its block of the stage on the whole matrix. -/
theorem flushed6_eq (c : Dev nD) (t : Fin cfg6.N) :
    (dat6 (F := Ideal) V c).flushed 5 t
      = ((cfg6.win 5).blk t).view.read (Elt Ideal)
          (bnRelu (V c main_v70) (rowOf (V c main_v75)) (rowOf (V c main_v76)) (rowOf (V c main_v77)) (rowOf (V c main_v78))) := by
  show (cfg6.win 5).cut (grid6.coords t) ((dat6 V c).after 5 t) = _
  rw [after6_5, out6_eq (iblk6 V c 0 t) (iblk6 V c 1 t) (iblk6 V c 2 t) (iblk6 V c 3 t) (iblk6 V c 4 t)]
  rw [blk6_1 V c t, blk6_2 V c t, blk6_3 V c t, blk6_4 V c t]
  funext y
  exact flush6_pt V c t y

/-- Row r of the array is in the block of point r / 10000. -/
theorem cover6 (i : S100000x128.Idx) :
    ∃ t : Fin cfg6.N, (cfg6.win 5).flush t = true ∧ i ∈ ((cfg6.win 5).blk t).view.set := by
  have hi0 : (i 0).val < 100000 := (i 0).isLt
  have hi1 : (i 1).val < 128 := (i 1).isLt
  have hN : cfg6.N = 10 := N_6
  obtain ⟨t, ht⟩ : ∃ t : Fin cfg6.N, t.val = (i 0).val / 10000 := ⟨⟨(i 0).val / 10000, by rw [hN]; omega⟩, rfl⟩
  obtain ⟨e0, e1⟩ := idx6_5 t
  refine ⟨t, flush6_5 t, ?_⟩
  show i ∈ ((View.whole main_v79).slice (win6_5.rect t)).set
  rw [View.set_slice_whole, Rect.mem_set_unit]
  intro a
  match a with
  | ⟨0, _⟩ => show win6_5.index t (0 : Fin 2) * 10000 ≤ (i 0).val ∧ (i 0).val < win6_5.index t (0 : Fin 2) * 10000 + 10000; rw [e0]; omega
  | ⟨1, _⟩ => show win6_5.index t (1 : Fin 2) * 128 ≤ (i 1).val ∧ (i 1).val < win6_5.index t (1 : Fin 2) * 128 + 128; rw [e1]; omega

/-- The output array after the region: z normalised by the per-column mean and variance, scaled, shifted and rectified. -/
theorem region6_value (c : Dev nD) :
    (Gen.dat6 (F := Ideal) V c).arrAt 5 cfg6.N
      = Cert.Gin.bnRelu (V c main_v70) (Cert.Net.rowOf (V c main_v75)) (Cert.Net.rowOf (V c main_v76)) (Cert.Net.rowOf (V c main_v77)) (Cert.Net.rowOf (V c main_v78)) :=
  (dat6 (F := Ideal) V c).arrAt_eq_of_cover 5 _ (fun t _ => flushed6_eq V c t) cover6

end Cert.Gin.Ker

end
-- ==== Proof.KLayer3.lean ====
/-
  Convolution layer 3 of the network, read off the run: from the boundary where the node matrix h sits in its array, the
  host line sums h along the edges, the next region applies the perceptron to h plus that sum, two host lines take the
  column mean and variance of the result, a third lays the four normalisation vectors out as rows, and the following
  region normalises and rectifies. The second region's output array then holds the layer applied to h.
-/
import proofs.«132092_j14199161880830_1_alg».proof.Proof.KArgs
import proofs.«132092_j14199161880830_1_alg».proof.Proof.KCongr
import proofs.«132092_j14199161880830_1_alg».proof.Proof.Region5
import proofs.«132092_j14199161880830_1_alg».proof.Proof.Region6

set_option maxRecDepth 16384

noncomputable section

namespace Cert.Gin.Ker

open Idealize.ShloMosaic Idealize.ShloMosaic.TcCoe Idealize.ShloMosaic.StableHlo Cert.KernelIdeal Cert.KernelIdeal.Gen Cert.Layers Cert.Net Cert.Gin

variable (m : (ℓ : Loc nD τ sig) → Buf (Elt Ideal) ℓ) (ρ : Dev nD → PrngReg) (c : Dev nD)

theorem layer3_value (h : Mat 100000 128) (hin : (W14 m ρ c (Proc.devRef .tc main_v57) : Mat 100000 128) = h) :
    (W20 m ρ c (Proc.devRef .tc main_v79) : Mat 100000 128)
      = layer H h (m ((c : Thread nD τ).loc main_arg1)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  -- the perceptron's inputs at the first region's entry
  have e_h : (W15 m ρ c (Proc.devRef .tc main_v57) : Mat 100000 128) = h := (step15 m ρ c main_v57 (by decide)).trans hin
  have e_agg : (W15 m ρ c (Proc.devRef .tc main_v67) : Mat 100000 128) = agg h (m ((c : Thread nD τ).loc main_arg1)) :=
    (s5_v67 (W14 m ρ c)).trans
      (show aggRows _ _ _ = aggRows h (edgeRow0 (m ((c : Thread nD τ).loc main_arg1))) (edgeRow1 (m ((c : Thread nD τ).loc main_arg1))) by
        rw [hin, W14_v1 m ρ c, W14_v3 m ρ c])
  have e_b1 : rowOf (W15 m ρ c (Proc.devRef .tc main_v68) : Mat 1 128) = (m ((c : Thread nD τ).loc main_arg21)) :=
    (s5_v68 (W14 m ρ c)).trans (W14_arg21 m ρ c)
  have e_b2 : rowOf (W15 m ρ c (Proc.devRef .tc main_v69) : Mat 1 128) = (m ((c : Thread nD τ).loc main_arg23)) :=
    (s5_v69 (W14 m ρ c)).trans (W14_arg23 m ρ c)
  -- the perceptron's output
  have e_z : (W16 m ρ c (Proc.devRef .tc main_v70) : Mat 100000 128)
      = readout (plus h (agg h (m ((c : Thread nD τ).loc main_arg1)))) (m ((c : Thread nD τ).loc main_arg20)) (m ((c : Thread nD τ).loc main_arg21)) (m ((c : Thread nD τ).loc main_arg22)) (m ((c : Thread nD τ).loc main_arg23)) :=
    (W16_arr m ρ c 6).trans ((region5_value (V15 m ρ) c).trans
      (readout_congr (plus_congr e_h e_agg) (W15_arg20 m ρ c) e_b1
        (W15_arg22 m ρ c) e_b2))
  -- its column statistics and the normalisation's vectors at the second region's entry
  have e_z' : (W19 m ρ c (Proc.devRef .tc main_v70) : Mat 100000 128)
      = readout (plus h (agg h (m ((c : Thread nD τ).loc main_arg1)))) (m ((c : Thread nD τ).loc main_arg20)) (m ((c : Thread nD τ).loc main_arg21)) (m ((c : Thread nD τ).loc main_arg22)) (m ((c : Thread nD τ).loc main_arg23)) :=
    (step19 m ρ c main_v70 (by decide)).trans ((step18 m ρ c main_v70 (by decide)).trans
      ((step17 m ρ c main_v70 (by decide)).trans e_z))
  have e_mean : rowOf (W19 m ρ c (Proc.devRef .tc main_v75) : Mat 1 128)
      = mean (readout (plus h (agg h (m ((c : Thread nD τ).loc main_arg1)))) (m ((c : Thread nD τ).loc main_arg20)) (m ((c : Thread nD τ).loc main_arg21)) (m ((c : Thread nD τ).loc main_arg22)) (m ((c : Thread nD τ).loc main_arg23))) :=
    (s6_2_v75 (W18 m ρ c)).trans ((step18 m ρ c main_v73 (by decide)).trans
      ((s6_v73 (W16 m ρ c)).trans (congrArg mean e_z)))
  have e_var : rowOf (W19 m ρ c (Proc.devRef .tc main_v76) : Mat 1 128)
      = var (readout (plus h (agg h (m ((c : Thread nD τ).loc main_arg1)))) (m ((c : Thread nD τ).loc main_arg20)) (m ((c : Thread nD τ).loc main_arg21)) (m ((c : Thread nD τ).loc main_arg22)) (m ((c : Thread nD τ).loc main_arg23))) :=
    (s6_2_v76 (W18 m ρ c)).trans ((s6_1_v74 (W16 m ρ c)).trans (congrArg var e_z))
  have e_g : rowOf (W19 m ρ c (Proc.devRef .tc main_v77) : Mat 1 128) = (m ((c : Thread nD τ).loc main_arg24)) :=
    (s6_2_v77 (W18 m ρ c)).trans (W18_arg24 m ρ c)
  have e_be : rowOf (W19 m ρ c (Proc.devRef .tc main_v78) : Mat 1 128) = (m ((c : Thread nD τ).loc main_arg25)) :=
    (s6_2_v78 (W18 m ρ c)).trans (W18_arg25 m ρ c)
  -- the normalised, rectified output
  exact (W20_arr m ρ c 5).trans ((region6_value (V19 m ρ) c).trans
    (bnRelu_congr e_z' e_mean e_var e_g e_be))

end Cert.Gin.Ker

end
-- ==== Proof.Region7.lean ====
/-
  The value of the head region, as one function of the arrays the region finds.

  The region has one grid point. It reads the pooled features g [512, 128], the weights [128, 128] and [128, 10] and the
  two bias rows [1, 128] and [1, 10] whole, and stores  max(g · w1 + b1, 0) · w2 + b2  [512, 10] whole: every window's one
  block is its whole array, and the one block written back covers the output array.
-/
import proofs.«132092_j14199161880830_1_alg».proof.Proof.Gen.KernelIdeal.Frame
import proofs.«132092_j14199161880830_1_alg».proof.Proof.Spec
import Idealize.ShloMosaic.Lib.Pipeline.Value

set_option maxRecDepth 16384

noncomputable section

namespace Cert.Gin.Ker

open Idealize.ShloMosaic Idealize.ShloMosaic.TcCoe Idealize.SL.Sem Idealize.ShloMosaic.ValueIdx
open Idealize.ShloMosaic.Pipeline (Dat)
open Cert.KernelIdeal Cert.KernelIdeal.Gen
open Cert.Layers Cert.Net Cert.Gin

/-- Two zero offsets, however spelt. -/
theorem hz7 : (![0, 0] : Fin 2 → Nat) = fun _ => 0 := funext fun a => by fin_cases a <;> rfl

/-! ## The body's arithmetic -/

/-- The body's one stored value is the two-layer perceptron of what it loaded: each matrix-unit product into a zero
    accumulator plus its bias row repeated down the rows is a dense layer, the maximum with a repeated zero is the
    rectifier, and narrowing a float format changes nothing on the extended reals. -/
theorem pay7_eq (x0 : Vec Ideal S512x128 .f32) (x1 : Vec Ideal S128x128 .f32) (x2 : Vec Ideal S1x128 .f32)
    (x3 : Vec Ideal S128x10 .f32) (x4 : Vec Ideal S1x10 .f32) :
    k7_pay1 (F := Ideal) x0 x1 x2 x3 x4 = readout x0 x1 (rowOf x2) x3 (rowOf x4) := by
  unfold k7_pay1
  dsimp only
  rw [shapeCast_self x0]
  rw [tileDenseRow_eq dot_S512x128_S128x128_S512x128_1_0_0_1_n_n dot_S512x128_S128x128_S512x128_1_0_0_1_n_n.wf rfl
    (truncf .bf16 x0 bitsLt_bf16_f32) x1 bitsLt_bf16_f32 x2]
  rw [tileRect_eq]
  rw [tileDenseRow_eq dot_S512x128_S128x10_S512x10_1_0_0_1_n_n dot_S512x128_S128x10_S512x10_1_0_0_1_n_n.wf rfl
    _ x3 bitsLt_bf16_f32 x4]
  rfl

/-- What the body leaves in the output's staging buffer: it loads every buffer whole and stores once, whole. -/
theorem out7_eq (x0 : Vec Ideal S512x128 .f32) (x1 : Vec Ideal S128x128 .f32) (x2 : Vec Ideal S1x128 .f32)
    (x3 : Vec Ideal S128x10 .f32) (x4 : Vec Ideal S1x10 .f32) :
    out7_5 (F := Ideal) x0 x1 x2 x3 x4 = readout x0 x1 (rowOf x2) x3 (rowOf x4) := by
  unfold out7_5
  rw [View.canon_unit_zero hz7]
  simp only [View.ld_unit_zero (S := S512x128) hz7, View.ld_unit_zero (S := S128x128) hz7, View.ld_unit_zero (S := S1x128) hz7,
    View.ld_unit_zero (S := S128x10) hz7, View.ld_unit_zero (S := S1x10) hz7]
  exact pay7_eq x0 x1 x2 x3 x4

/-! ## The windows' blocks are their arrays

The printed index maps at the one grid point: every window is at block (0, 0). -/

theorem idx7_0 : ∀ t : Fin cfg7.N, win7_0.index t (0 : Fin 2) = 0 ∧ win7_0.index t (1 : Fin 2) = 0 :=
  (by decide +kernel : ∀ t : Fin grid7.N, _)
theorem idx7_1 : ∀ t : Fin cfg7.N, win7_1.index t (0 : Fin 2) = 0 ∧ win7_1.index t (1 : Fin 2) = 0 :=
  (by decide +kernel : ∀ t : Fin grid7.N, _)
theorem idx7_2 : ∀ t : Fin cfg7.N, win7_2.index t (0 : Fin 2) = 0 ∧ win7_2.index t (1 : Fin 2) = 0 :=
  (by decide +kernel : ∀ t : Fin grid7.N, _)
theorem idx7_3 : ∀ t : Fin cfg7.N, win7_3.index t (0 : Fin 2) = 0 ∧ win7_3.index t (1 : Fin 2) = 0 :=
  (by decide +kernel : ∀ t : Fin grid7.N, _)
theorem idx7_4 : ∀ t : Fin cfg7.N, win7_4.index t (0 : Fin 2) = 0 ∧ win7_4.index t (1 : Fin 2) = 0 :=
  (by decide +kernel : ∀ t : Fin grid7.N, _)
theorem idx7_5 : ∀ t : Fin cfg7.N, win7_5.index t (0 : Fin 2) = 0 ∧ win7_5.index t (1 : Fin 2) = 0 :=
  (by decide +kernel : ∀ t : Fin grid7.N, _)

variable (V : (c : Dev nD) → (b : Ref sig .tc) → Buf (Elt Ideal) ((c : Thread nD τ).loc b))

/-- The pooled-feature window's block is its whole array. -/
theorem blk7_0 (c : Dev nD) (t : Fin cfg7.N) :
    (iblk7 V c 0 t : Vec Ideal S512x128 .f32) = (V c main_v82 : S512x128.Idx → EReal) := by
  obtain ⟨e0, e1⟩ := idx7_0 t
  funext y
  unfold iblk7
  rw [View.read_apply]
  show V c main_v82 _ = V c main_v82 _
  congr 1
  funext a
  apply Fin.ext
  match a with
  | ⟨0, _⟩ => show win7_0.index t (0 : Fin 2) * 512 + 1 * (y 0).val = (y 0).val; rw [e0]; omega
  | ⟨1, _⟩ => show win7_0.index t (1 : Fin 2) * 128 + 1 * (y 1).val = (y 1).val; rw [e1]; omega

/-- The first weight window's block is its whole array. -/
theorem blk7_1 (c : Dev nD) (t : Fin cfg7.N) :
    (iblk7 V c 1 t : Vec Ideal S128x128 .f32) = (V c main_arg26 : S128x128.Idx → EReal) := by
  obtain ⟨e0, e1⟩ := idx7_1 t
  funext y
  unfold iblk7
  rw [View.read_apply]
  show V c main_arg26 _ = V c main_arg26 _
  congr 1
  funext a
  apply Fin.ext
  match a with
  | ⟨0, _⟩ => show win7_1.index t (0 : Fin 2) * 128 + 1 * (y 0).val = (y 0).val; rw [e0]; omega
  | ⟨1, _⟩ => show win7_1.index t (1 : Fin 2) * 128 + 1 * (y 1).val = (y 1).val; rw [e1]; omega

/-- The first bias window's block is its whole array. -/
theorem blk7_2 (c : Dev nD) (t : Fin cfg7.N) :
    (iblk7 V c 2 t : Vec Ideal S1x128 .f32) = (V c main_v83 : S1x128.Idx → EReal) := by
  obtain ⟨e0, e1⟩ := idx7_2 t
  funext y
  unfold iblk7
  rw [View.read_apply]
  show V c main_v83 _ = V c main_v83 _
  congr 1
  funext a
  apply Fin.ext
  match a with
  | ⟨0, _⟩ => show win7_2.index t (0 : Fin 2) * 1 + 1 * (y 0).val = (y 0).val; rw [e0]; omega
  | ⟨1, _⟩ => show win7_2.index t (1 : Fin 2) * 128 + 1 * (y 1).val = (y 1).val; rw [e1]; omega

/-- The second weight window's block is its whole array. -/
theorem blk7_3 (c : Dev nD) (t : Fin cfg7.N) :
    (iblk7 V c 3 t : Vec Ideal S128x10 .f32) = (V c main_arg28 : S128x10.Idx → EReal) := by
  obtain ⟨e0, e1⟩ := idx7_3 t
  funext y
  unfold iblk7
  rw [View.read_apply]
  show V c main_arg28 _ = V c main_arg28 _
  congr 1
  funext a
  apply Fin.ext
  match a with
  | ⟨0, _⟩ => show win7_3.index t (0 : Fin 2) * 128 + 1 * (y 0).val = (y 0).val; rw [e0]; omega
  | ⟨1, _⟩ => show win7_3.index t (1 : Fin 2) * 10 + 1 * (y 1).val = (y 1).val; rw [e1]; omega

/-- The second bias window's block is its whole array. -/
theorem blk7_4 (c : Dev nD) (t : Fin cfg7.N) :
    (iblk7 V c 4 t : Vec Ideal S1x10 .f32) = (V c main_v84 : S1x10.Idx → EReal) := by
  obtain ⟨e0, e1⟩ := idx7_4 t
  funext y
  unfold iblk7
  rw [View.read_apply]
  show V c main_v84 _ = V c main_v84 _
  congr 1
  funext a
  apply Fin.ext
  match a with
  | ⟨0, _⟩ => show win7_4.index t (0 : Fin 2) * 1 + 1 * (y 0).val = (y 0).val; rw [e0]; omega
  | ⟨1, _⟩ => show win7_4.index t (1 : Fin 2) * 10 + 1 * (y 1).val = (y 1).val; rw [e1]; omega

/-! ## What the point writes back, and the array after it -/

/-- The output's one block puts entry y at y. -/
theorem flush7_pt (c : Dev nD) (t : Fin cfg7.N) (y : S512x10.Idx) :
    (readout (V c main_v82) (V c main_arg26) (rowOf (V c main_v83)) (V c main_arg28) (rowOf (V c main_v84))) y
      = (readout (V c main_v82) (V c main_arg26) (rowOf (V c main_v83)) (V c main_arg28) (rowOf (V c main_v84))) (((cfg7.win 5).blk t).view.emb y) := by
  obtain ⟨e0, e1⟩ := idx7_5 t
  have hemb : ((cfg7.win 5).blk t).view.emb y = y := by
    funext a
    apply Fin.ext
    match a with
    | ⟨0, _⟩ => show win7_5.index t (0 : Fin 2) * 512 + 1 * (y 0).val = (y 0).val; rw [e0]; omega
    | ⟨1, _⟩ => show win7_5.index t (1 : Fin 2) * 10 + 1 * (y 1).val = (y 1).val; rw [e1]; omega
  rw [hemb]

/-- What the point writes back is the whole perceptron of the pooled features. -/
theorem flushed7_eq (c : Dev nD) (t : Fin cfg7.N) :
    (dat7 (F := Ideal) V c).flushed 5 t
      = ((cfg7.win 5).blk t).view.read (Elt Ideal)
          (readout (V c main_v82) (V c main_arg26) (rowOf (V c main_v83)) (V c main_arg28) (rowOf (V c main_v84))) := by
  show (cfg7.win 5).cut (grid7.coords t) ((dat7 V c).after 5 t) = _
  rw [after7_5, out7_eq (iblk7 V c 0 t) (iblk7 V c 1 t) (iblk7 V c 2 t) (iblk7 V c 3 t) (iblk7 V c 4 t)]
  rw [blk7_0 V c t, blk7_1 V c t, blk7_2 V c t, blk7_3 V c t, blk7_4 V c t]
  funext y
  exact flush7_pt V c t y

/-- Every entry of the array is in the one point's block. -/
theorem cover7 (i : S512x10.Idx) :
    ∃ t : Fin cfg7.N, (cfg7.win 5).flush t = true ∧ i ∈ ((cfg7.win 5).blk t).view.set := by
  have hi0 : (i 0).val < 512 := (i 0).isLt
  have hi1 : (i 1).val < 10 := (i 1).isLt
  have hN : cfg7.N = 1 := N_7
  obtain ⟨t, ht⟩ : ∃ t : Fin cfg7.N, t.val = 0 := ⟨⟨0, by rw [hN]; omega⟩, rfl⟩
  obtain ⟨e0, e1⟩ := idx7_5 t
  refine ⟨t, flush7_5 t, ?_⟩
  show i ∈ ((View.whole main_v85).slice (win7_5.rect t)).set
  rw [View.set_slice_whole, Rect.mem_set_unit]
  intro a
  match a with
  | ⟨0, _⟩ => show win7_5.index t (0 : Fin 2) * 512 ≤ (i 0).val ∧ (i 0).val < win7_5.index t (0 : Fin 2) * 512 + 512; rw [e0]; omega
  | ⟨1, _⟩ => show win7_5.index t (1 : Fin 2) * 10 ≤ (i 1).val ∧ (i 1).val < win7_5.index t (1 : Fin 2) * 10 + 10; rw [e1]; omega

/-- The output array after the region: the two-layer perceptron of the pooled features as the region found them. -/
theorem region7_value (c : Dev nD) :
    (Gen.dat7 (F := Ideal) V c).arrAt 5 cfg7.N
      = Cert.Net.readout (V c main_v82) (V c main_arg26) (Cert.Net.rowOf (V c main_v83)) (V c main_arg28) (Cert.Net.rowOf (V c main_v84)) :=
  (dat7 (F := Ideal) V c).arrAt_eq_of_cover 5 _ (fun t _ => flushed7_eq V c t) cover7

end Cert.Gin.Ker

end
-- ==== Proof.KHead.lean ====
/-
  The head of the network, read off the run: the last line of host operations sums the rows of the final node matrix per
  graph and lays the head's two bias vectors out as rows; the last region applies the two-layer perceptron. Its output
  array then holds the head applied to the pooled node matrix.
-/
import proofs.«132092_j14199161880830_1_alg».proof.Proof.KArgs
import proofs.«132092_j14199161880830_1_alg».proof.Proof.KCongr
import proofs.«132092_j14199161880830_1_alg».proof.Proof.Region7

set_option maxRecDepth 16384

noncomputable section

namespace Cert.Gin.Ker

open Idealize.ShloMosaic Idealize.ShloMosaic.TcCoe Idealize.ShloMosaic.StableHlo Cert.KernelIdeal Cert.KernelIdeal.Gen Cert.Layers Cert.Net Cert.Gin

variable (m : (ℓ : Loc nD τ sig) → Buf (Elt Ideal) ℓ) (ρ : Dev nD → PrngReg) (c : Dev nD)

theorem head_value (h : Mat 100000 128) (hin : (W20 m ρ c (Proc.devRef .tc main_v79) : Mat 100000 128) = h) :
    (W22 m ρ c (Proc.devRef .tc main_v85) : Mat 512 10)
      = readout (pool h (m ((c : Thread nD τ).loc main_arg2))) (m ((c : Thread nD τ).loc main_arg26)) (m ((c : Thread nD τ).loc main_arg27)) (m ((c : Thread nD τ).loc main_arg28)) (m ((c : Thread nD τ).loc main_arg29)) := by
  have e_pool : (W21 m ρ c (Proc.devRef .tc main_v82) : Mat 512 128) = pool h (m ((c : Thread nD τ).loc main_arg2)) :=
    (s7_v82 (W20 m ρ c)).trans
      (show pool _ _ = pool h (m ((c : Thread nD τ).loc main_arg2)) by rw [hin, W20_arg2 m ρ c])
  have e_b1 : rowOf (W21 m ρ c (Proc.devRef .tc main_v83) : Mat 1 128) = (m ((c : Thread nD τ).loc main_arg27)) :=
    (s7_v83 (W20 m ρ c)).trans (W20_arg27 m ρ c)
  have e_b2 : rowOf (W21 m ρ c (Proc.devRef .tc main_v84) : Mat 1 10) = (m ((c : Thread nD τ).loc main_arg29)) :=
    (s7_v84 (W20 m ρ c)).trans (W20_arg29 m ρ c)
  exact (W22_arr m ρ c 5).trans ((region7_value (V21 m ρ) c).trans
    (readout_congr e_pool (W21_arg26 m ρ c) e_b1 (W21_arg28 m ρ c) e_b2))

end Cert.Gin.Ker

end
-- ==== Proof.KResult.lean ====
/-
  The idealized kernel's result as one function of its thirty arguments: the contents of the last region's output array
  at the end of the run is the network applied to the launch contents of the argument arrays, with the five irregular
  stages as the program's host operations spell them. The run is read boundary by boundary: the first perceptron, three
  convolution layers, the head.
-/
import proofs.«132092_j14199161880830_1_alg».proof.Proof.KLayer0
import proofs.«132092_j14199161880830_1_alg».proof.Proof.KLayer1
import proofs.«132092_j14199161880830_1_alg».proof.Proof.KLayer2
import proofs.«132092_j14199161880830_1_alg».proof.Proof.KLayer3
import proofs.«132092_j14199161880830_1_alg».proof.Proof.KHead

set_option maxRecDepth 16384

noncomputable section

namespace Cert.Gin.Ker

open Idealize.ShloMosaic Idealize.ShloMosaic.TcCoe Idealize.ShloMosaic.StableHlo Cert.KernelIdeal Cert.KernelIdeal.Gen Cert.Layers Cert.Net Cert.Gin

variable (m : (ℓ : Loc nD τ sig) → Buf (Elt Ideal) ℓ) (ρ : Dev nD → PrngReg) (c : Dev nD)

theorem result :
    (Gen.W22 (F := Ideal) m ρ c (Proc.devRef .tc main_v85) : Mat 512 10)
      = Cert.Gin.net H (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10))
          (m ((c : Thread nD τ).loc main_arg11))
          (m ((c : Thread nD τ).loc main_arg12))
          (m ((c : Thread nD τ).loc main_arg13))
          (m ((c : Thread nD τ).loc main_arg14))
          (m ((c : Thread nD τ).loc main_arg15))
          (m ((c : Thread nD τ).loc main_arg16))
          (m ((c : Thread nD τ).loc main_arg17))
          (m ((c : Thread nD τ).loc main_arg18))
          (m ((c : Thread nD τ).loc main_arg19))
          (m ((c : Thread nD τ).loc main_arg20))
          (m ((c : Thread nD τ).loc main_arg21))
          (m ((c : Thread nD τ).loc main_arg22))
          (m ((c : Thread nD τ).loc main_arg23))
          (m ((c : Thread nD τ).loc main_arg24))
          (m ((c : Thread nD τ).loc main_arg25))
          (m ((c : Thread nD τ).loc main_arg26))
          (m ((c : Thread nD τ).loc main_arg27))
          (m ((c : Thread nD τ).loc main_arg28))
          (m ((c : Thread nD τ).loc main_arg29)) :=
  head_value m ρ c _ (layer3_value m ρ c _ (layer2_value m ρ c _ (layer1_value m ρ c _ (W2_v13 m ρ c))))

end Cert.Gin.Ker

end
-- ==== Proof.RefOps.lean ====
/-
  The reference program as a straight line: its host operations in program order, each outlined function's operations
  written out at its call over that call's buffers (the rectifier: a zero, its broadcast, the maximum; the variance:
  twenty-two operations and the three of the selection it calls). The line is cut twice: into the network's five stages
  (the embedding and first perceptron; each of the three convolution layers; the pooling and the head), and into the
  three windows the program is printed in. Both cuts list the same operations in the same order.
-/
import proofs.«132092_j14199161880830_1_alg».proof.Proof.Gen.ReferenceIdeal
import Idealize.ShloMosaic.Lib.StableHlo.Run

noncomputable section

namespace Cert.Gin.Ref

open Idealize.ShloMosaic Idealize.ShloMosaic.StableHlo Cert.ReferenceIdeal Cert.ReferenceIdeal.Gen

variable {F : FTy → Type} [FloatOps F]

/-- The embedding lookup and the first perceptron: up to the node features h0. -/
abbrev opsS0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S100000 ![] bcast_S_S100000 : (⟨S_, .i32⟩ : BufTy).Contents (Elt F) → (⟨S100000, .i32⟩ : BufTy).Contents (Elt F)),
    StableHlo.binary main_arg0 main_v4 main_v5 (cmpi .slt : (⟨S100000, .i32⟩ : BufTy).Contents (Elt F) → (⟨S100000, .i32⟩ : BufTy).Contents (Elt F) → (⟨S100000, .i1⟩ : BufTy).Contents (Elt F)),
    StableHlo.nullary main_c_0 (constantI S_ 32 500#32),
    StableHlo.unary main_c_0 main_v6 (broadcastInDim S100000 ![] bcast_S_S100000 : (⟨S_, .i32⟩ : BufTy).Contents (Elt F) → (⟨S100000, .i32⟩ : BufTy).Contents (Elt F)),
    StableHlo.binary main_arg0 main_v6 main_v7 (addi : (⟨S100000, .i32⟩ : BufTy).Contents (Elt F) → (⟨S100000, .i32⟩ : BufTy).Contents (Elt F) → (⟨S100000, .i32⟩ : BufTy).Contents (Elt F)),
    StableHlo.ternary main_v5 main_v7 main_arg0 main_v8 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v8 main_v9 (broadcastInDim S100000x1 ![0] bcast_S100000_S100000x1_0 : (⟨S100000, .i32⟩ : BufTy).Contents (Elt F) → (⟨S100000x1, .i32⟩ : BufTy).Contents (Elt F)),
    StableHlo.binary main_arg3 main_v9 main_v10 ((fun x i => Host.gather gather_S500x128_S100000x1_S100000x128_1_0_n_n_0_1_1128 x i) : (⟨S500x128, .f32⟩ : BufTy).Contents (Elt F) → (⟨S100000x1, .i32⟩ : BufTy).Contents (Elt F) → (⟨S100000x128, .f32⟩ : BufTy).Contents (Elt F)),
    StableHlo.binary main_v10 main_arg4 main_v11 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v12 (broadcastInDim S1x128 ![1] bcast_S128_S1x128_1 : (⟨S128, .f32⟩ : BufTy).Contents (Elt F) → (⟨S1x128, .f32⟩ : BufTy).Contents (Elt F)),
    StableHlo.unary main_v12 main_v13 (broadcastInDim S100000x128 ![0, 1] bcast_S1x128_S100000x128_0_1 : (⟨S1x128, .f32⟩ : BufTy).Contents (Elt F) → (⟨S100000x128, .f32⟩ : BufTy).Contents (Elt F)),
    StableHlo.binary main_v11 main_v13 main_v14 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v14) main_call0.v0 main_call0.v1 maximumf,
    StableHlo.binary main_v15 main_arg6 main_v16 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S100000x128 ![0, 1] bcast_S1x128_S100000x128_0_1 : (⟨S1x128, .f32⟩ : BufTy).Contents (Elt F) → (⟨S100000x128, .f32⟩ : BufTy).Contents (Elt F)),
    StableHlo.binary main_v16 main_v18 main_v19 (addf : (⟨S100000x128, .f32⟩ : BufTy).Contents (Elt F) → (⟨S100000x128, .f32⟩ : BufTy).Contents (Elt F) → (⟨S100000x128, .f32⟩ : BufTy).Contents (Elt F)) ]

/-- The first convolution layer: up to h1. -/
abbrev opsS1 : List (HloOp τ sig (Elt F)) :=
  [ StableHlo.nullary main_c_1 (constantI S_ 32 0#32),
    StableHlo.unary main_c_1 main_v20 (broadcastInDim S1600000 ![] bcast_S_S1600000 : (⟨S_, .i32⟩ : BufTy).Contents (Elt F) → (⟨S1600000, .i32⟩ : BufTy).Contents (Elt F)),
    StableHlo.binary main_v1 main_v20 main_v21 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v22 (broadcastInDim S1600000 ![] bcast_S_S1600000 : (⟨S_, .i32⟩ : BufTy).Contents (Elt F) → (⟨S1600000, .i32⟩ : BufTy).Contents (Elt F)),
    StableHlo.binary main_v1 main_v22 main_v23 (addi : (⟨S1600000, .i32⟩ : BufTy).Contents (Elt F) → (⟨S1600000, .i32⟩ : BufTy).Contents (Elt F) → (⟨S1600000, .i32⟩ : BufTy).Contents (Elt F)),
    StableHlo.ternary main_v21 main_v23 main_v1 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v24 main_v25 (broadcastInDim S1600000x1 ![0] bcast_S1600000_S1600000x1_0 : (⟨S1600000, .i32⟩ : BufTy).Contents (Elt F) → (⟨S1600000x1, .i32⟩ : BufTy).Contents (Elt F)),
    StableHlo.binary main_v19 main_v25 main_v26 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v27 (broadcastInDim S100000x128 ![] bcast_S_S100000x128 : (⟨S_, .f32⟩ : BufTy).Contents (Elt F) → (⟨S100000x128, .f32⟩ : BufTy).Contents (Elt F)),
    StableHlo.unary main_v3 main_v28 (broadcastInDim S1600000x1 ![0] bcast_S1600000_S1600000x1_0 : (⟨S1600000, .i32⟩ : BufTy).Contents (Elt F) → (⟨S1600000x1, .i32⟩ : BufTy).Contents (Elt F)),
    StableHlo.ternary main_v27 main_v28 main_v26 main_v29 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v19 main_v29 main_v30 (addf : (⟨S100000x128, .f32⟩ : BufTy).Contents (Elt F) → (⟨S100000x128, .f32⟩ : BufTy).Contents (Elt F) → (⟨S100000x128, .f32⟩ : BufTy).Contents (Elt F)),
    StableHlo.binary main_v30 main_arg8 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v33 main_v34 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v34) main_call1.v0 main_call1.v1 maximumf,
    StableHlo.binary main_v35 main_arg10 main_v36 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v38 main_v39 (addf : (⟨S100000x128, .f32⟩ : BufTy).Contents (Elt F) → (⟨S100000x128, .f32⟩ : BufTy).Contents (Elt F) → (⟨S100000x128, .f32⟩ : BufTy).Contents (Elt F)),
    StableHlo.nullary main_cst_3 (constant S_ .f32 0x00000000#32),
    StableHlo.binary main_v39 main_cst_3 main_v40 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_4 (constant S_ .f32 0x47C35000#32),
    StableHlo.unary main_cst_4 main_v41 (broadcastInDim S128 ![] bcast_S_S128 : (⟨S_, .f32⟩ : BufTy).Contents (Elt F) → (⟨S128, .f32⟩ : BufTy).Contents (Elt F)),
    StableHlo.binary main_v40 main_v41 main_v42 (Host.divf : (⟨S128, .f32⟩ : BufTy).Contents (Elt F) → (⟨S128, .f32⟩ : BufTy).Contents (Elt F) → (⟨S128, .f32⟩ : BufTy).Contents (Elt F)),
    StableHlo.nullary main_c_5 (constantI S_ 32 0#32),
    StableHlo.TRef.nullary main_call2.cst (constant S_ .f32 0x00000000#32),
    StableHlo.TRef.binary (.of main_v39) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v39) main_call2.v4 main_call2.v5 subf,
    StableHlo.TRef.binary main_call2.v5 main_call2.v5 main_call2.v6 mulf,
    StableHlo.TRef.unary (.of main_c_5) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v42 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v45 main_v46 (subf : (⟨S100000x128, .f32⟩ : BufTy).Contents (Elt F) → (⟨S100000x128, .f32⟩ : BufTy).Contents (Elt F) → (⟨S100000x128, .f32⟩ : BufTy).Contents (Elt F)),
    StableHlo.nullary main_cst_6 (constant S_ .f32 0x3727C5AC#32),
    StableHlo.unary main_cst_6 main_v47 (broadcastInDim S128 ![] bcast_S_S128 : (⟨S_, .f32⟩ : BufTy).Contents (Elt F) → (⟨S128, .f32⟩ : BufTy).Contents (Elt F)),
    StableHlo.binary main_v43 main_v47 main_v48 (addf : (⟨S128, .f32⟩ : BufTy).Contents (Elt F) → (⟨S128, .f32⟩ : BufTy).Contents (Elt F) → (⟨S128, .f32⟩ : BufTy).Contents (Elt F)),
    StableHlo.unary main_v48 main_v49 (Host.rsqrt : (⟨S128, .f32⟩ : BufTy).Contents (Elt F) → (⟨S128, .f32⟩ : BufTy).Contents (Elt F)),
    StableHlo.unary main_v49 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v51 main_v52 (mulf : (⟨S100000x128, .f32⟩ : BufTy).Contents (Elt F) → (⟨S100000x128, .f32⟩ : BufTy).Contents (Elt F) → (⟨S100000x128, .f32⟩ : BufTy).Contents (Elt F)),
    StableHlo.unary main_arg12 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v52 main_v54 main_v55 (mulf : (⟨S100000x128, .f32⟩ : BufTy).Contents (Elt F) → (⟨S100000x128, .f32⟩ : BufTy).Contents (Elt F) → (⟨S100000x128, .f32⟩ : BufTy).Contents (Elt F)),
    StableHlo.unary main_arg13 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v57 main_v58 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v58) main_call3.v0 main_call3.v1 maximumf ]

/-- The second convolution layer: up to h2. -/
abbrev opsS2 : List (HloOp τ sig (Elt F)) :=
  [ StableHlo.nullary main_c_7 (constantI S_ 32 0#32),
    StableHlo.unary main_c_7 main_v60 (broadcastInDim S1600000 ![] bcast_S_S1600000 : (⟨S_, .i32⟩ : BufTy).Contents (Elt F) → (⟨S1600000, .i32⟩ : BufTy).Contents (Elt F)),
    StableHlo.binary main_v1 main_v60 main_v61 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v62 (broadcastInDim S1600000 ![] bcast_S_S1600000 : (⟨S_, .i32⟩ : BufTy).Contents (Elt F) → (⟨S1600000, .i32⟩ : BufTy).Contents (Elt F)),
    StableHlo.binary main_v1 main_v62 main_v63 (addi : (⟨S1600000, .i32⟩ : BufTy).Contents (Elt F) → (⟨S1600000, .i32⟩ : BufTy).Contents (Elt F) → (⟨S1600000, .i32⟩ : BufTy).Contents (Elt F)),
    StableHlo.ternary main_v61 main_v63 main_v1 main_v64 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v64 main_v65 (broadcastInDim S1600000x1 ![0] bcast_S1600000_S1600000x1_0 : (⟨S1600000, .i32⟩ : BufTy).Contents (Elt F) → (⟨S1600000x1, .i32⟩ : BufTy).Contents (Elt F)),
    StableHlo.binary main_v59 main_v65 main_v66 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_9 (constant S_ .f32 0x00000000#32),
    StableHlo.unary main_cst_9 main_v67 (broadcastInDim S100000x128 ![] bcast_S_S100000x128 : (⟨S_, .f32⟩ : BufTy).Contents (Elt F) → (⟨S100000x128, .f32⟩ : BufTy).Contents (Elt F)),
    StableHlo.unary main_v3 main_v68 (broadcastInDim S1600000x1 ![0] bcast_S1600000_S1600000x1_0 : (⟨S1600000, .i32⟩ : BufTy).Contents (Elt F) → (⟨S1600000x1, .i32⟩ : BufTy).Contents (Elt F)),
    StableHlo.ternary main_v67 main_v68 main_v66 main_v69 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v59 main_v69 main_v70 (addf : (⟨S100000x128, .f32⟩ : BufTy).Contents (Elt F) → (⟨S100000x128, .f32⟩ : BufTy).Contents (Elt F) → (⟨S100000x128, .f32⟩ : BufTy).Contents (Elt F)),
    StableHlo.binary main_v70 main_arg14 main_v71 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg15 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v73 main_v74 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v74) main_call4.v0 main_call4.v1 maximumf,
    StableHlo.binary main_v75 main_arg16 main_v76 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg17 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S100000x128 ![0, 1] bcast_S1x128_S100000x128_0_1 : (⟨S1x128, .f32⟩ : BufTy).Contents (Elt F) → (⟨S100000x128, .f32⟩ : BufTy).Contents (Elt F)),
    StableHlo.binary main_v76 main_v78 main_v79 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x00000000#32),
    StableHlo.binary main_v79 main_cst_10 main_v80 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_11 (constant S_ .f32 0x47C35000#32),
    StableHlo.unary main_cst_11 main_v81 (broadcastInDim S128 ![] bcast_S_S128 : (⟨S_, .f32⟩ : BufTy).Contents (Elt F) → (⟨S128, .f32⟩ : BufTy).Contents (Elt F)),
    StableHlo.binary main_v80 main_v81 main_v82 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call5.cst (constant S_ .f32 0x00000000#32),
    StableHlo.TRef.binary (.of main_v79) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (.of main_v79) main_call5.v4 main_call5.v5 subf,
    StableHlo.TRef.binary main_call5.v5 main_call5.v5 main_call5.v6 mulf,
    StableHlo.TRef.unary (.of main_c_12) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v82 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S100000x128 ![0, 1] bcast_S1x128_S100000x128_0_1 : (⟨S1x128, .f32⟩ : BufTy).Contents (Elt F) → (⟨S100000x128, .f32⟩ : BufTy).Contents (Elt F)),
    StableHlo.binary main_v79 main_v85 main_v86 (subf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v87 (broadcastInDim S128 ![] bcast_S_S128 : (⟨S_, .f32⟩ : BufTy).Contents (Elt F) → (⟨S128, .f32⟩ : BufTy).Contents (Elt F)),
    StableHlo.binary main_v83 main_v87 main_v88 (addf : (⟨S128, .f32⟩ : BufTy).Contents (Elt F) → (⟨S128, .f32⟩ : BufTy).Contents (Elt F) → (⟨S128, .f32⟩ : BufTy).Contents (Elt F)),
    StableHlo.unary main_v88 main_v89 (Host.rsqrt : (⟨S128, .f32⟩ : BufTy).Contents (Elt F) → (⟨S128, .f32⟩ : BufTy).Contents (Elt F)),
    StableHlo.unary main_v89 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S100000x128 ![0, 1] bcast_S1x128_S100000x128_0_1 : (⟨S1x128, .f32⟩ : BufTy).Contents (Elt F) → (⟨S100000x128, .f32⟩ : BufTy).Contents (Elt F)),
    StableHlo.binary main_v86 main_v91 main_v92 (mulf : (⟨S100000x128, .f32⟩ : BufTy).Contents (Elt F) → (⟨S100000x128, .f32⟩ : BufTy).Contents (Elt F) → (⟨S100000x128, .f32⟩ : BufTy).Contents (Elt F)),
    StableHlo.unary main_arg18 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S100000x128 ![0, 1] bcast_S1x128_S100000x128_0_1 : (⟨S1x128, .f32⟩ : BufTy).Contents (Elt F) → (⟨S100000x128, .f32⟩ : BufTy).Contents (Elt F)),
    StableHlo.binary main_v92 main_v94 main_v95 (mulf : (⟨S100000x128, .f32⟩ : BufTy).Contents (Elt F) → (⟨S100000x128, .f32⟩ : BufTy).Contents (Elt F) → (⟨S100000x128, .f32⟩ : BufTy).Contents (Elt F)),
    StableHlo.unary main_arg19 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S100000x128 ![0, 1] bcast_S1x128_S100000x128_0_1 : (⟨S1x128, .f32⟩ : BufTy).Contents (Elt F) → (⟨S100000x128, .f32⟩ : BufTy).Contents (Elt F)),
    StableHlo.binary main_v95 main_v97 main_v98 (addf : (⟨S100000x128, .f32⟩ : BufTy).Contents (Elt F) → (⟨S100000x128, .f32⟩ : BufTy).Contents (Elt F) → (⟨S100000x128, .f32⟩ : BufTy).Contents (Elt F)),
    StableHlo.TRef.nullary main_call6.cst (constant S_ .f32 0x00000000#32),
    StableHlo.TRef.unary main_call6.cst main_call6.v0 (broadcastInDim S100000x128 ![] bcast_S_S100000x128),
    StableHlo.TRef.binary (.of main_v98) main_call6.v0 main_call6.v1 maximumf ]

/-- The third convolution layer: up to h3. -/
abbrev opsS3 : List (HloOp τ sig (Elt F)) :=
  [ StableHlo.nullary main_c_14 (constantI S_ 32 0#32),
    StableHlo.unary main_c_14 main_v100 (broadcastInDim S1600000 ![] bcast_S_S1600000 : (⟨S_, .i32⟩ : BufTy).Contents (Elt F) → (⟨S1600000, .i32⟩ : BufTy).Contents (Elt F)),
    StableHlo.binary main_v1 main_v100 main_v101 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v102 (broadcastInDim S1600000 ![] bcast_S_S1600000 : (⟨S_, .i32⟩ : BufTy).Contents (Elt F) → (⟨S1600000, .i32⟩ : BufTy).Contents (Elt F)),
    StableHlo.binary main_v1 main_v102 main_v103 (addi : (⟨S1600000, .i32⟩ : BufTy).Contents (Elt F) → (⟨S1600000, .i32⟩ : BufTy).Contents (Elt F) → (⟨S1600000, .i32⟩ : BufTy).Contents (Elt F)),
    StableHlo.ternary main_v101 main_v103 main_v1 main_v104 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v104 main_v105 (broadcastInDim S1600000x1 ![0] bcast_S1600000_S1600000x1_0 : (⟨S1600000, .i32⟩ : BufTy).Contents (Elt F) → (⟨S1600000x1, .i32⟩ : BufTy).Contents (Elt F)),
    StableHlo.binary main_v99 main_v105 main_v106 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_16 (constant S_ .f32 0x00000000#32),
    StableHlo.unary main_cst_16 main_v107 (broadcastInDim S100000x128 ![] bcast_S_S100000x128 : (⟨S_, .f32⟩ : BufTy).Contents (Elt F) → (⟨S100000x128, .f32⟩ : BufTy).Contents (Elt F)),
    StableHlo.unary main_v3 main_v108 (broadcastInDim S1600000x1 ![0] bcast_S1600000_S1600000x1_0 : (⟨S1600000, .i32⟩ : BufTy).Contents (Elt F) → (⟨S1600000x1, .i32⟩ : BufTy).Contents (Elt F)),
    StableHlo.ternary main_v107 main_v108 main_v106 main_v109 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v99 main_v109 main_v110 (addf : (⟨S100000x128, .f32⟩ : BufTy).Contents (Elt F) → (⟨S100000x128, .f32⟩ : BufTy).Contents (Elt F) → (⟨S100000x128, .f32⟩ : BufTy).Contents (Elt F)),
    StableHlo.binary main_v110 main_arg20 main_v111 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg21 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S100000x128 ![0, 1] bcast_S1x128_S100000x128_0_1 : (⟨S1x128, .f32⟩ : BufTy).Contents (Elt F) → (⟨S100000x128, .f32⟩ : BufTy).Contents (Elt F)),
    StableHlo.binary main_v111 main_v113 main_v114 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v114) main_call7.v0 main_call7.v1 maximumf,
    StableHlo.binary main_v115 main_arg22 main_v116 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg23 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S100000x128 ![0, 1] bcast_S1x128_S100000x128_0_1 : (⟨S1x128, .f32⟩ : BufTy).Contents (Elt F) → (⟨S100000x128, .f32⟩ : BufTy).Contents (Elt F)),
    StableHlo.binary main_v116 main_v118 main_v119 (addf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x00000000#32),
    StableHlo.binary main_v119 main_cst_17 main_v120 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_18 (constant S_ .f32 0x47C35000#32),
    StableHlo.unary main_cst_18 main_v121 (broadcastInDim S128 ![] bcast_S_S128 : (⟨S_, .f32⟩ : BufTy).Contents (Elt F) → (⟨S128, .f32⟩ : BufTy).Contents (Elt F)),
    StableHlo.binary main_v120 main_v121 main_v122 (Host.divf : (⟨S128, .f32⟩ : BufTy).Contents (Elt F) → (⟨S128, .f32⟩ : BufTy).Contents (Elt F) → (⟨S128, .f32⟩ : BufTy).Contents (Elt F)),
    StableHlo.nullary main_c_19 (constantI S_ 32 0#32),
    StableHlo.TRef.nullary main_call8.cst (constant S_ .f32 0x00000000#32),
    StableHlo.TRef.binary (.of main_v119) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (.of main_v119) main_call8.v4 main_call8.v5 subf,
    StableHlo.TRef.binary main_call8.v5 main_call8.v5 main_call8.v6 mulf,
    StableHlo.TRef.unary (.of main_c_19) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v122 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S100000x128 ![0, 1] bcast_S1x128_S100000x128_0_1 : (⟨S1x128, .f32⟩ : BufTy).Contents (Elt F) → (⟨S100000x128, .f32⟩ : BufTy).Contents (Elt F)),
    StableHlo.binary main_v119 main_v125 main_v126 (subf : (⟨S100000x128, .f32⟩ : BufTy).Contents (Elt F) → (⟨S100000x128, .f32⟩ : BufTy).Contents (Elt F) → (⟨S100000x128, .f32⟩ : BufTy).Contents (Elt F)),
    StableHlo.nullary main_cst_20 (constant S_ .f32 0x3727C5AC#32),
    StableHlo.unary main_cst_20 main_v127 (broadcastInDim S128 ![] bcast_S_S128 : (⟨S_, .f32⟩ : BufTy).Contents (Elt F) → (⟨S128, .f32⟩ : BufTy).Contents (Elt F)),
    StableHlo.binary main_v123 main_v127 main_v128 (addf : (⟨S128, .f32⟩ : BufTy).Contents (Elt F) → (⟨S128, .f32⟩ : BufTy).Contents (Elt F) → (⟨S128, .f32⟩ : BufTy).Contents (Elt F)),
    StableHlo.unary main_v128 main_v129 (Host.rsqrt : (⟨S128, .f32⟩ : BufTy).Contents (Elt F) → (⟨S128, .f32⟩ : BufTy).Contents (Elt F)),
    StableHlo.unary main_v129 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S100000x128 ![0, 1] bcast_S1x128_S100000x128_0_1 : (⟨S1x128, .f32⟩ : BufTy).Contents (Elt F) → (⟨S100000x128, .f32⟩ : BufTy).Contents (Elt F)),
    StableHlo.binary main_v126 main_v131 main_v132 (mulf : (⟨S100000x128, .f32⟩ : BufTy).Contents (Elt F) → (⟨S100000x128, .f32⟩ : BufTy).Contents (Elt F) → (⟨S100000x128, .f32⟩ : BufTy).Contents (Elt F)),
    StableHlo.unary main_arg24 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S100000x128 ![0, 1] bcast_S1x128_S100000x128_0_1 : (⟨S1x128, .f32⟩ : BufTy).Contents (Elt F) → (⟨S100000x128, .f32⟩ : BufTy).Contents (Elt F)),
    StableHlo.binary main_v132 main_v134 main_v135 (mulf : (⟨S100000x128, .f32⟩ : BufTy).Contents (Elt F) → (⟨S100000x128, .f32⟩ : BufTy).Contents (Elt F) → (⟨S100000x128, .f32⟩ : BufTy).Contents (Elt F)),
    StableHlo.unary main_arg25 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S100000x128 ![0, 1] bcast_S1x128_S100000x128_0_1 : (⟨S1x128, .f32⟩ : BufTy).Contents (Elt F) → (⟨S100000x128, .f32⟩ : BufTy).Contents (Elt F)),
    StableHlo.binary main_v135 main_v137 main_v138 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (.of main_v138) main_call9.v0 main_call9.v1 maximumf ]

/-- The per-graph sum and the head: up to the result. -/
abbrev opsS4 : List (HloOp τ sig (Elt F)) :=
  [ StableHlo.nullary main_cst_21 (constant S_ .f32 0x00000000#32),
    StableHlo.unary main_cst_21 main_v140 (broadcastInDim S512x128 ![] bcast_S_S512x128 : (⟨S_, .f32⟩ : BufTy).Contents (Elt F) → (⟨S512x128, .f32⟩ : BufTy).Contents (Elt F)),
    StableHlo.unary main_arg2 main_v141 (broadcastInDim S100000x1 ![0] bcast_S100000_S100000x1_0 : (⟨S100000, .i32⟩ : BufTy).Contents (Elt F) → (⟨S100000x1, .i32⟩ : BufTy).Contents (Elt F)),
    StableHlo.ternary main_v140 main_v141 main_v139 main_v142 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.binary main_v142 main_arg26 main_v143 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.unary main_arg27 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S512x128 ![0, 1] bcast_S1x128_S512x128_0_1 : (⟨S1x128, .f32⟩ : BufTy).Contents (Elt F) → (⟨S512x128, .f32⟩ : BufTy).Contents (Elt F)),
    StableHlo.binary main_v143 main_v145 main_v146 (addf : (⟨S512x128, .f32⟩ : BufTy).Contents (Elt F) → (⟨S512x128, .f32⟩ : BufTy).Contents (Elt F) → (⟨S512x128, .f32⟩ : BufTy).Contents (Elt F)),
    StableHlo.TRef.nullary main_call10.cst (constant S_ .f32 0x00000000#32),
    StableHlo.TRef.unary main_call10.cst main_call10.v0 (broadcastInDim S512x128 ![] bcast_S_S512x128),
    StableHlo.TRef.binary (.of main_v146) main_call10.v0 main_call10.v1 maximumf,
    StableHlo.binary main_v147 main_arg28 main_v148 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    StableHlo.unary main_arg29 main_v149 (broadcastInDim S1x10 ![1] bcast_S10_S1x10_1 : (⟨S10, .f32⟩ : BufTy).Contents (Elt F) → (⟨S1x10, .f32⟩ : BufTy).Contents (Elt F)),
    StableHlo.unary main_v149 main_v150 (broadcastInDim S512x10 ![0, 1] bcast_S1x10_S512x10_0_1 : (⟨S1x10, .f32⟩ : BufTy).Contents (Elt F) → (⟨S512x10, .f32⟩ : BufTy).Contents (Elt F)),
    StableHlo.binary main_v148 main_v150 main_v151 (addf : (⟨S512x10, .f32⟩ : BufTy).Contents (Elt F) → (⟨S512x10, .f32⟩ : BufTy).Contents (Elt F) → (⟨S512x10, .f32⟩ : BufTy).Contents (Elt F)) ]

/-- The operations of the program's printed window 0. -/
abbrev opsW0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S100000 ![] bcast_S_S100000 : (⟨S_, .i32⟩ : BufTy).Contents (Elt F) → (⟨S100000, .i32⟩ : BufTy).Contents (Elt F)),
    StableHlo.binary main_arg0 main_v4 main_v5 (cmpi .slt : (⟨S100000, .i32⟩ : BufTy).Contents (Elt F) → (⟨S100000, .i32⟩ : BufTy).Contents (Elt F) → (⟨S100000, .i1⟩ : BufTy).Contents (Elt F)),
    StableHlo.nullary main_c_0 (constantI S_ 32 500#32),
    StableHlo.unary main_c_0 main_v6 (broadcastInDim S100000 ![] bcast_S_S100000 : (⟨S_, .i32⟩ : BufTy).Contents (Elt F) → (⟨S100000, .i32⟩ : BufTy).Contents (Elt F)),
    StableHlo.binary main_arg0 main_v6 main_v7 (addi : (⟨S100000, .i32⟩ : BufTy).Contents (Elt F) → (⟨S100000, .i32⟩ : BufTy).Contents (Elt F) → (⟨S100000, .i32⟩ : BufTy).Contents (Elt F)),
    StableHlo.ternary main_v5 main_v7 main_arg0 main_v8 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v8 main_v9 (broadcastInDim S100000x1 ![0] bcast_S100000_S100000x1_0 : (⟨S100000, .i32⟩ : BufTy).Contents (Elt F) → (⟨S100000x1, .i32⟩ : BufTy).Contents (Elt F)),
    StableHlo.binary main_arg3 main_v9 main_v10 ((fun x i => Host.gather gather_S500x128_S100000x1_S100000x128_1_0_n_n_0_1_1128 x i) : (⟨S500x128, .f32⟩ : BufTy).Contents (Elt F) → (⟨S100000x1, .i32⟩ : BufTy).Contents (Elt F) → (⟨S100000x128, .f32⟩ : BufTy).Contents (Elt F)),
    StableHlo.binary main_v10 main_arg4 main_v11 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v12 (broadcastInDim S1x128 ![1] bcast_S128_S1x128_1 : (⟨S128, .f32⟩ : BufTy).Contents (Elt F) → (⟨S1x128, .f32⟩ : BufTy).Contents (Elt F)),
    StableHlo.unary main_v12 main_v13 (broadcastInDim S100000x128 ![0, 1] bcast_S1x128_S100000x128_0_1 : (⟨S1x128, .f32⟩ : BufTy).Contents (Elt F) → (⟨S100000x128, .f32⟩ : BufTy).Contents (Elt F)),
    StableHlo.binary main_v11 main_v13 main_v14 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v14) main_call0.v0 main_call0.v1 maximumf,
    StableHlo.binary main_v15 main_arg6 main_v16 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S100000x128 ![0, 1] bcast_S1x128_S100000x128_0_1 : (⟨S1x128, .f32⟩ : BufTy).Contents (Elt F) → (⟨S100000x128, .f32⟩ : BufTy).Contents (Elt F)),
    StableHlo.binary main_v16 main_v18 main_v19 (addf : (⟨S100000x128, .f32⟩ : BufTy).Contents (Elt F) → (⟨S100000x128, .f32⟩ : BufTy).Contents (Elt F) → (⟨S100000x128, .f32⟩ : BufTy).Contents (Elt F)),
    StableHlo.nullary main_c_1 (constantI S_ 32 0#32),
    StableHlo.unary main_c_1 main_v20 (broadcastInDim S1600000 ![] bcast_S_S1600000 : (⟨S_, .i32⟩ : BufTy).Contents (Elt F) → (⟨S1600000, .i32⟩ : BufTy).Contents (Elt F)),
    StableHlo.binary main_v1 main_v20 main_v21 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v22 (broadcastInDim S1600000 ![] bcast_S_S1600000 : (⟨S_, .i32⟩ : BufTy).Contents (Elt F) → (⟨S1600000, .i32⟩ : BufTy).Contents (Elt F)),
    StableHlo.binary main_v1 main_v22 main_v23 (addi : (⟨S1600000, .i32⟩ : BufTy).Contents (Elt F) → (⟨S1600000, .i32⟩ : BufTy).Contents (Elt F) → (⟨S1600000, .i32⟩ : BufTy).Contents (Elt F)),
    StableHlo.ternary main_v21 main_v23 main_v1 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v24 main_v25 (broadcastInDim S1600000x1 ![0] bcast_S1600000_S1600000x1_0 : (⟨S1600000, .i32⟩ : BufTy).Contents (Elt F) → (⟨S1600000x1, .i32⟩ : BufTy).Contents (Elt F)),
    StableHlo.binary main_v19 main_v25 main_v26 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v27 (broadcastInDim S100000x128 ![] bcast_S_S100000x128 : (⟨S_, .f32⟩ : BufTy).Contents (Elt F) → (⟨S100000x128, .f32⟩ : BufTy).Contents (Elt F)),
    StableHlo.unary main_v3 main_v28 (broadcastInDim S1600000x1 ![0] bcast_S1600000_S1600000x1_0 : (⟨S1600000, .i32⟩ : BufTy).Contents (Elt F) → (⟨S1600000x1, .i32⟩ : BufTy).Contents (Elt F)),
    StableHlo.ternary main_v27 main_v28 main_v26 main_v29 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v19 main_v29 main_v30 (addf : (⟨S100000x128, .f32⟩ : BufTy).Contents (Elt F) → (⟨S100000x128, .f32⟩ : BufTy).Contents (Elt F) → (⟨S100000x128, .f32⟩ : BufTy).Contents (Elt F)),
    StableHlo.binary main_v30 main_arg8 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v33 main_v34 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v34) main_call1.v0 main_call1.v1 maximumf,
    StableHlo.binary main_v35 main_arg10 main_v36 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v38 main_v39 (addf : (⟨S100000x128, .f32⟩ : BufTy).Contents (Elt F) → (⟨S100000x128, .f32⟩ : BufTy).Contents (Elt F) → (⟨S100000x128, .f32⟩ : BufTy).Contents (Elt F)),
    StableHlo.nullary main_cst_3 (constant S_ .f32 0x00000000#32),
    StableHlo.binary main_v39 main_cst_3 main_v40 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_4 (constant S_ .f32 0x47C35000#32),
    StableHlo.unary main_cst_4 main_v41 (broadcastInDim S128 ![] bcast_S_S128 : (⟨S_, .f32⟩ : BufTy).Contents (Elt F) → (⟨S128, .f32⟩ : BufTy).Contents (Elt F)),
    StableHlo.binary main_v40 main_v41 main_v42 (Host.divf : (⟨S128, .f32⟩ : BufTy).Contents (Elt F) → (⟨S128, .f32⟩ : BufTy).Contents (Elt F) → (⟨S128, .f32⟩ : BufTy).Contents (Elt F)),
    StableHlo.nullary main_c_5 (constantI S_ 32 0#32),
    StableHlo.TRef.nullary main_call2.cst (constant S_ .f32 0x00000000#32),
    StableHlo.TRef.binary (.of main_v39) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v39) main_call2.v4 main_call2.v5 subf,
    StableHlo.TRef.binary main_call2.v5 main_call2.v5 main_call2.v6 mulf,
    StableHlo.TRef.unary (.of main_c_5) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v42 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v45 main_v46 (subf : (⟨S100000x128, .f32⟩ : BufTy).Contents (Elt F) → (⟨S100000x128, .f32⟩ : BufTy).Contents (Elt F) → (⟨S100000x128, .f32⟩ : BufTy).Contents (Elt F)),
    StableHlo.nullary main_cst_6 (constant S_ .f32 0x3727C5AC#32),
    StableHlo.unary main_cst_6 main_v47 (broadcastInDim S128 ![] bcast_S_S128 : (⟨S_, .f32⟩ : BufTy).Contents (Elt F) → (⟨S128, .f32⟩ : BufTy).Contents (Elt F)),
    StableHlo.binary main_v43 main_v47 main_v48 (addf : (⟨S128, .f32⟩ : BufTy).Contents (Elt F) → (⟨S128, .f32⟩ : BufTy).Contents (Elt F) → (⟨S128, .f32⟩ : BufTy).Contents (Elt F)),
    StableHlo.unary main_v48 main_v49 (Host.rsqrt : (⟨S128, .f32⟩ : BufTy).Contents (Elt F) → (⟨S128, .f32⟩ : BufTy).Contents (Elt F)),
    StableHlo.unary main_v49 main_v50 (broadcastInDim S1x128 ![1] bcast_S128_S1x128_1 : (⟨S128, .f32⟩ : BufTy).Contents (Elt F) → (⟨S1x128, .f32⟩ : BufTy).Contents (Elt F)) ]

/-- The operations of the program's printed window 1. -/
abbrev opsW1 : List (HloOp τ sig (Elt F)) :=
  [ StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v51 main_v52 (mulf : (⟨S100000x128, .f32⟩ : BufTy).Contents (Elt F) → (⟨S100000x128, .f32⟩ : BufTy).Contents (Elt F) → (⟨S100000x128, .f32⟩ : BufTy).Contents (Elt F)),
    StableHlo.unary main_arg12 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v52 main_v54 main_v55 (mulf : (⟨S100000x128, .f32⟩ : BufTy).Contents (Elt F) → (⟨S100000x128, .f32⟩ : BufTy).Contents (Elt F) → (⟨S100000x128, .f32⟩ : BufTy).Contents (Elt F)),
    StableHlo.unary main_arg13 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v57 main_v58 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v58) main_call3.v0 main_call3.v1 maximumf,
    StableHlo.nullary main_c_7 (constantI S_ 32 0#32),
    StableHlo.unary main_c_7 main_v60 (broadcastInDim S1600000 ![] bcast_S_S1600000 : (⟨S_, .i32⟩ : BufTy).Contents (Elt F) → (⟨S1600000, .i32⟩ : BufTy).Contents (Elt F)),
    StableHlo.binary main_v1 main_v60 main_v61 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v62 (broadcastInDim S1600000 ![] bcast_S_S1600000 : (⟨S_, .i32⟩ : BufTy).Contents (Elt F) → (⟨S1600000, .i32⟩ : BufTy).Contents (Elt F)),
    StableHlo.binary main_v1 main_v62 main_v63 (addi : (⟨S1600000, .i32⟩ : BufTy).Contents (Elt F) → (⟨S1600000, .i32⟩ : BufTy).Contents (Elt F) → (⟨S1600000, .i32⟩ : BufTy).Contents (Elt F)),
    StableHlo.ternary main_v61 main_v63 main_v1 main_v64 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v64 main_v65 (broadcastInDim S1600000x1 ![0] bcast_S1600000_S1600000x1_0 : (⟨S1600000, .i32⟩ : BufTy).Contents (Elt F) → (⟨S1600000x1, .i32⟩ : BufTy).Contents (Elt F)),
    StableHlo.binary main_v59 main_v65 main_v66 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_9 (constant S_ .f32 0x00000000#32),
    StableHlo.unary main_cst_9 main_v67 (broadcastInDim S100000x128 ![] bcast_S_S100000x128 : (⟨S_, .f32⟩ : BufTy).Contents (Elt F) → (⟨S100000x128, .f32⟩ : BufTy).Contents (Elt F)),
    StableHlo.unary main_v3 main_v68 (broadcastInDim S1600000x1 ![0] bcast_S1600000_S1600000x1_0 : (⟨S1600000, .i32⟩ : BufTy).Contents (Elt F) → (⟨S1600000x1, .i32⟩ : BufTy).Contents (Elt F)),
    StableHlo.ternary main_v67 main_v68 main_v66 main_v69 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v59 main_v69 main_v70 (addf : (⟨S100000x128, .f32⟩ : BufTy).Contents (Elt F) → (⟨S100000x128, .f32⟩ : BufTy).Contents (Elt F) → (⟨S100000x128, .f32⟩ : BufTy).Contents (Elt F)),
    StableHlo.binary main_v70 main_arg14 main_v71 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg15 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v73 main_v74 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v74) main_call4.v0 main_call4.v1 maximumf,
    StableHlo.binary main_v75 main_arg16 main_v76 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg17 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S100000x128 ![0, 1] bcast_S1x128_S100000x128_0_1 : (⟨S1x128, .f32⟩ : BufTy).Contents (Elt F) → (⟨S100000x128, .f32⟩ : BufTy).Contents (Elt F)),
    StableHlo.binary main_v76 main_v78 main_v79 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x00000000#32),
    StableHlo.binary main_v79 main_cst_10 main_v80 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_11 (constant S_ .f32 0x47C35000#32),
    StableHlo.unary main_cst_11 main_v81 (broadcastInDim S128 ![] bcast_S_S128 : (⟨S_, .f32⟩ : BufTy).Contents (Elt F) → (⟨S128, .f32⟩ : BufTy).Contents (Elt F)),
    StableHlo.binary main_v80 main_v81 main_v82 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call5.cst (constant S_ .f32 0x00000000#32),
    StableHlo.TRef.binary (.of main_v79) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (.of main_v79) main_call5.v4 main_call5.v5 subf,
    StableHlo.TRef.binary main_call5.v5 main_call5.v5 main_call5.v6 mulf,
    StableHlo.TRef.unary (.of main_c_12) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v82 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S100000x128 ![0, 1] bcast_S1x128_S100000x128_0_1 : (⟨S1x128, .f32⟩ : BufTy).Contents (Elt F) → (⟨S100000x128, .f32⟩ : BufTy).Contents (Elt F)),
    StableHlo.binary main_v79 main_v85 main_v86 (subf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v87 (broadcastInDim S128 ![] bcast_S_S128 : (⟨S_, .f32⟩ : BufTy).Contents (Elt F) → (⟨S128, .f32⟩ : BufTy).Contents (Elt F)),
    StableHlo.binary main_v83 main_v87 main_v88 (addf : (⟨S128, .f32⟩ : BufTy).Contents (Elt F) → (⟨S128, .f32⟩ : BufTy).Contents (Elt F) → (⟨S128, .f32⟩ : BufTy).Contents (Elt F)),
    StableHlo.unary main_v88 main_v89 (Host.rsqrt : (⟨S128, .f32⟩ : BufTy).Contents (Elt F) → (⟨S128, .f32⟩ : BufTy).Contents (Elt F)),
    StableHlo.unary main_v89 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S100000x128 ![0, 1] bcast_S1x128_S100000x128_0_1 : (⟨S1x128, .f32⟩ : BufTy).Contents (Elt F) → (⟨S100000x128, .f32⟩ : BufTy).Contents (Elt F)),
    StableHlo.binary main_v86 main_v91 main_v92 (mulf : (⟨S100000x128, .f32⟩ : BufTy).Contents (Elt F) → (⟨S100000x128, .f32⟩ : BufTy).Contents (Elt F) → (⟨S100000x128, .f32⟩ : BufTy).Contents (Elt F)),
    StableHlo.unary main_arg18 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S100000x128 ![0, 1] bcast_S1x128_S100000x128_0_1 : (⟨S1x128, .f32⟩ : BufTy).Contents (Elt F) → (⟨S100000x128, .f32⟩ : BufTy).Contents (Elt F)),
    StableHlo.binary main_v92 main_v94 main_v95 (mulf : (⟨S100000x128, .f32⟩ : BufTy).Contents (Elt F) → (⟨S100000x128, .f32⟩ : BufTy).Contents (Elt F) → (⟨S100000x128, .f32⟩ : BufTy).Contents (Elt F)),
    StableHlo.unary main_arg19 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S100000x128 ![0, 1] bcast_S1x128_S100000x128_0_1 : (⟨S1x128, .f32⟩ : BufTy).Contents (Elt F) → (⟨S100000x128, .f32⟩ : BufTy).Contents (Elt F)),
    StableHlo.binary main_v95 main_v97 main_v98 (addf : (⟨S100000x128, .f32⟩ : BufTy).Contents (Elt F) → (⟨S100000x128, .f32⟩ : BufTy).Contents (Elt F) → (⟨S100000x128, .f32⟩ : BufTy).Contents (Elt F)),
    StableHlo.TRef.nullary main_call6.cst (constant S_ .f32 0x00000000#32),
    StableHlo.TRef.unary main_call6.cst main_call6.v0 (broadcastInDim S100000x128 ![] bcast_S_S100000x128),
    StableHlo.TRef.binary (.of main_v98) main_call6.v0 main_call6.v1 maximumf,
    StableHlo.nullary main_c_14 (constantI S_ 32 0#32),
    StableHlo.unary main_c_14 main_v100 (broadcastInDim S1600000 ![] bcast_S_S1600000 : (⟨S_, .i32⟩ : BufTy).Contents (Elt F) → (⟨S1600000, .i32⟩ : BufTy).Contents (Elt F)),
    StableHlo.binary main_v1 main_v100 main_v101 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32) ]

/-- The operations of the program's printed window 2. -/
abbrev opsW2 : List (HloOp τ sig (Elt F)) :=
  [ StableHlo.unary main_c_15 main_v102 (broadcastInDim S1600000 ![] bcast_S_S1600000 : (⟨S_, .i32⟩ : BufTy).Contents (Elt F) → (⟨S1600000, .i32⟩ : BufTy).Contents (Elt F)),
    StableHlo.binary main_v1 main_v102 main_v103 (addi : (⟨S1600000, .i32⟩ : BufTy).Contents (Elt F) → (⟨S1600000, .i32⟩ : BufTy).Contents (Elt F) → (⟨S1600000, .i32⟩ : BufTy).Contents (Elt F)),
    StableHlo.ternary main_v101 main_v103 main_v1 main_v104 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v104 main_v105 (broadcastInDim S1600000x1 ![0] bcast_S1600000_S1600000x1_0 : (⟨S1600000, .i32⟩ : BufTy).Contents (Elt F) → (⟨S1600000x1, .i32⟩ : BufTy).Contents (Elt F)),
    StableHlo.binary main_v99 main_v105 main_v106 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_16 (constant S_ .f32 0x00000000#32),
    StableHlo.unary main_cst_16 main_v107 (broadcastInDim S100000x128 ![] bcast_S_S100000x128 : (⟨S_, .f32⟩ : BufTy).Contents (Elt F) → (⟨S100000x128, .f32⟩ : BufTy).Contents (Elt F)),
    StableHlo.unary main_v3 main_v108 (broadcastInDim S1600000x1 ![0] bcast_S1600000_S1600000x1_0 : (⟨S1600000, .i32⟩ : BufTy).Contents (Elt F) → (⟨S1600000x1, .i32⟩ : BufTy).Contents (Elt F)),
    StableHlo.ternary main_v107 main_v108 main_v106 main_v109 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v99 main_v109 main_v110 (addf : (⟨S100000x128, .f32⟩ : BufTy).Contents (Elt F) → (⟨S100000x128, .f32⟩ : BufTy).Contents (Elt F) → (⟨S100000x128, .f32⟩ : BufTy).Contents (Elt F)),
    StableHlo.binary main_v110 main_arg20 main_v111 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg21 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S100000x128 ![0, 1] bcast_S1x128_S100000x128_0_1 : (⟨S1x128, .f32⟩ : BufTy).Contents (Elt F) → (⟨S100000x128, .f32⟩ : BufTy).Contents (Elt F)),
    StableHlo.binary main_v111 main_v113 main_v114 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v114) main_call7.v0 main_call7.v1 maximumf,
    StableHlo.binary main_v115 main_arg22 main_v116 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg23 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S100000x128 ![0, 1] bcast_S1x128_S100000x128_0_1 : (⟨S1x128, .f32⟩ : BufTy).Contents (Elt F) → (⟨S100000x128, .f32⟩ : BufTy).Contents (Elt F)),
    StableHlo.binary main_v116 main_v118 main_v119 (addf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x00000000#32),
    StableHlo.binary main_v119 main_cst_17 main_v120 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_18 (constant S_ .f32 0x47C35000#32),
    StableHlo.unary main_cst_18 main_v121 (broadcastInDim S128 ![] bcast_S_S128 : (⟨S_, .f32⟩ : BufTy).Contents (Elt F) → (⟨S128, .f32⟩ : BufTy).Contents (Elt F)),
    StableHlo.binary main_v120 main_v121 main_v122 (Host.divf : (⟨S128, .f32⟩ : BufTy).Contents (Elt F) → (⟨S128, .f32⟩ : BufTy).Contents (Elt F) → (⟨S128, .f32⟩ : BufTy).Contents (Elt F)),
    StableHlo.nullary main_c_19 (constantI S_ 32 0#32),
    StableHlo.TRef.nullary main_call8.cst (constant S_ .f32 0x00000000#32),
    StableHlo.TRef.binary (.of main_v119) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (.of main_v119) main_call8.v4 main_call8.v5 subf,
    StableHlo.TRef.binary main_call8.v5 main_call8.v5 main_call8.v6 mulf,
    StableHlo.TRef.unary (.of main_c_19) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v122 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S100000x128 ![0, 1] bcast_S1x128_S100000x128_0_1 : (⟨S1x128, .f32⟩ : BufTy).Contents (Elt F) → (⟨S100000x128, .f32⟩ : BufTy).Contents (Elt F)),
    StableHlo.binary main_v119 main_v125 main_v126 (subf : (⟨S100000x128, .f32⟩ : BufTy).Contents (Elt F) → (⟨S100000x128, .f32⟩ : BufTy).Contents (Elt F) → (⟨S100000x128, .f32⟩ : BufTy).Contents (Elt F)),
    StableHlo.nullary main_cst_20 (constant S_ .f32 0x3727C5AC#32),
    StableHlo.unary main_cst_20 main_v127 (broadcastInDim S128 ![] bcast_S_S128 : (⟨S_, .f32⟩ : BufTy).Contents (Elt F) → (⟨S128, .f32⟩ : BufTy).Contents (Elt F)),
    StableHlo.binary main_v123 main_v127 main_v128 (addf : (⟨S128, .f32⟩ : BufTy).Contents (Elt F) → (⟨S128, .f32⟩ : BufTy).Contents (Elt F) → (⟨S128, .f32⟩ : BufTy).Contents (Elt F)),
    StableHlo.unary main_v128 main_v129 (Host.rsqrt : (⟨S128, .f32⟩ : BufTy).Contents (Elt F) → (⟨S128, .f32⟩ : BufTy).Contents (Elt F)),
    StableHlo.unary main_v129 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S100000x128 ![0, 1] bcast_S1x128_S100000x128_0_1 : (⟨S1x128, .f32⟩ : BufTy).Contents (Elt F) → (⟨S100000x128, .f32⟩ : BufTy).Contents (Elt F)),
    StableHlo.binary main_v126 main_v131 main_v132 (mulf : (⟨S100000x128, .f32⟩ : BufTy).Contents (Elt F) → (⟨S100000x128, .f32⟩ : BufTy).Contents (Elt F) → (⟨S100000x128, .f32⟩ : BufTy).Contents (Elt F)),
    StableHlo.unary main_arg24 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S100000x128 ![0, 1] bcast_S1x128_S100000x128_0_1 : (⟨S1x128, .f32⟩ : BufTy).Contents (Elt F) → (⟨S100000x128, .f32⟩ : BufTy).Contents (Elt F)),
    StableHlo.binary main_v132 main_v134 main_v135 (mulf : (⟨S100000x128, .f32⟩ : BufTy).Contents (Elt F) → (⟨S100000x128, .f32⟩ : BufTy).Contents (Elt F) → (⟨S100000x128, .f32⟩ : BufTy).Contents (Elt F)),
    StableHlo.unary main_arg25 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S100000x128 ![0, 1] bcast_S1x128_S100000x128_0_1 : (⟨S1x128, .f32⟩ : BufTy).Contents (Elt F) → (⟨S100000x128, .f32⟩ : BufTy).Contents (Elt F)),
    StableHlo.binary main_v135 main_v137 main_v138 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (.of main_v138) main_call9.v0 main_call9.v1 maximumf,
    StableHlo.nullary main_cst_21 (constant S_ .f32 0x00000000#32),
    StableHlo.unary main_cst_21 main_v140 (broadcastInDim S512x128 ![] bcast_S_S512x128 : (⟨S_, .f32⟩ : BufTy).Contents (Elt F) → (⟨S512x128, .f32⟩ : BufTy).Contents (Elt F)),
    StableHlo.unary main_arg2 main_v141 (broadcastInDim S100000x1 ![0] bcast_S100000_S100000x1_0 : (⟨S100000, .i32⟩ : BufTy).Contents (Elt F) → (⟨S100000x1, .i32⟩ : BufTy).Contents (Elt F)),
    StableHlo.ternary main_v140 main_v141 main_v139 main_v142 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.binary main_v142 main_arg26 main_v143 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.unary main_arg27 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S512x128 ![0, 1] bcast_S1x128_S512x128_0_1 : (⟨S1x128, .f32⟩ : BufTy).Contents (Elt F) → (⟨S512x128, .f32⟩ : BufTy).Contents (Elt F)),
    StableHlo.binary main_v143 main_v145 main_v146 (addf : (⟨S512x128, .f32⟩ : BufTy).Contents (Elt F) → (⟨S512x128, .f32⟩ : BufTy).Contents (Elt F) → (⟨S512x128, .f32⟩ : BufTy).Contents (Elt F)),
    StableHlo.TRef.nullary main_call10.cst (constant S_ .f32 0x00000000#32),
    StableHlo.TRef.unary main_call10.cst main_call10.v0 (broadcastInDim S512x128 ![] bcast_S_S512x128),
    StableHlo.TRef.binary (.of main_v146) main_call10.v0 main_call10.v1 maximumf,
    StableHlo.binary main_v147 main_arg28 main_v148 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    StableHlo.unary main_arg29 main_v149 (broadcastInDim S1x10 ![1] bcast_S10_S1x10_1 : (⟨S10, .f32⟩ : BufTy).Contents (Elt F) → (⟨S1x10, .f32⟩ : BufTy).Contents (Elt F)),
    StableHlo.unary main_v149 main_v150 (broadcastInDim S512x10 ![0, 1] bcast_S1x10_S512x10_0_1 : (⟨S1x10, .f32⟩ : BufTy).Contents (Elt F) → (⟨S512x10, .f32⟩ : BufTy).Contents (Elt F)),
    StableHlo.binary main_v148 main_v150 main_v151 (addf : (⟨S512x10, .f32⟩ : BufTy).Contents (Elt F) → (⟨S512x10, .f32⟩ : BufTy).Contents (Elt F) → (⟨S512x10, .f32⟩ : BufTy).Contents (Elt F)) ]

/-- The whole line, by stages. -/
abbrev ops : List (HloOp τ sig (Elt F)) := opsS0 ++ opsS1 ++ opsS2 ++ opsS3 ++ opsS4

end Cert.Gin.Ref

end
-- ==== Proof.RefMainW0.lean ====
/-
  The first printed window of the reference program (the embedding, the first perceptron, the first convolution layer up to
  the normalisation's scale) is the straight line of its eighty-five host operations.
-/
import proofs.«132092_j14199161880830_1_alg».proof.Proof.RefOps

noncomputable section

namespace Cert.Gin.Ref

open Idealize.ShloMosaic Idealize.ShloMosaic.StableHlo Idealize.SL.Sem Cert.ReferenceIdeal Cert.ReferenceIdeal.Gen

variable {F : FTy → Type} [FloatOps F]

set_option maxHeartbeats 4000000 in
/-- The window is that straight line: each outlined function's definition unfolded at its calls and each call record at
    its fields, both sides are one chain of host steps once the sequencing is reassociated. -/
theorem main_part0_eq (c : Dev nD) : main_part0 (F := F) c = StableHlo.seq opsW0 := by
  simp only [main_part0, fn_relu.body, fn_var.body, fn_where.body, StableHlo.seq, bind_assoc, pure_bind]
  rfl

end Cert.Gin.Ref

end
-- ==== Proof.RefMainW1.lean ====
/-
  The second printed window of the reference program (the end of the first convolution layer, the second layer, the start
  of the third) is the straight line of its eighty-seven host operations.
-/
import proofs.«132092_j14199161880830_1_alg».proof.Proof.RefOps

noncomputable section

namespace Cert.Gin.Ref

open Idealize.ShloMosaic Idealize.ShloMosaic.StableHlo Idealize.SL.Sem Cert.ReferenceIdeal Cert.ReferenceIdeal.Gen

variable {F : FTy → Type} [FloatOps F]

set_option maxHeartbeats 4000000 in
/-- The window is that straight line: each outlined function's definition unfolded at its calls and each call record at
    its fields, both sides are one chain of host steps once the sequencing is reassociated. -/
theorem main_part1_eq (c : Dev nD) : main_part1 (F := F) c = StableHlo.seq opsW1 := by
  simp only [main_part1, fn_relu.body, fn_var.body, fn_where.body, StableHlo.seq, bind_assoc, pure_bind]
  rfl

end Cert.Gin.Ref

end
-- ==== Proof.RefMainW2.lean ====
/-
  The third printed window of the reference program (the rest of the third convolution layer, the per-graph sum and the
  head) is the straight line of its eighty-three host operations.
-/
import proofs.«132092_j14199161880830_1_alg».proof.Proof.RefOps

noncomputable section

namespace Cert.Gin.Ref

open Idealize.ShloMosaic Idealize.ShloMosaic.StableHlo Idealize.SL.Sem Cert.ReferenceIdeal Cert.ReferenceIdeal.Gen

variable {F : FTy → Type} [FloatOps F]

set_option maxHeartbeats 4000000 in
/-- The window is that straight line: each outlined function's definition unfolded at its calls and each call record at
    its fields, both sides are one chain of host steps once the sequencing is reassociated. -/
theorem main_part2_eq (c : Dev nD) : main_part2 (F := F) c = StableHlo.seq opsW2 := by
  simp only [main_part2, fn_relu.body, fn_relu_0.body, fn_var.body, fn_where.body, StableHlo.seq, bind_assoc, pure_bind]

end Cert.Gin.Ref

end
-- ==== Proof.RefSub.lean ====
/-
  The two side conditions of a straight line's run, stage by stage: every operation reads and writes buffers of the
  TensorCore's reference table only, and every operation determines the contents of what it writes.
-/
import proofs.«132092_j14199161880830_1_alg».proof.Proof.RefOps

noncomputable section

namespace Cert.Gin.Ref

open Idealize.ShloMosaic Idealize.ShloMosaic.StableHlo Cert.ReferenceIdeal Cert.ReferenceIdeal.Gen

variable {F : FTy → Type} [FloatOps F]

/-- The 24 operations of this stage touch TensorCore references only. -/
theorem opsS0_sub : (opsS0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..⟩

/-- Each of them determines every buffer it writes. -/
theorem opsS0_fresh : (opsS0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl⟩

/-- The 72 operations of this stage touch TensorCore references only. -/
theorem opsS1_sub : (opsS1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..⟩

/-- Each of them determines every buffer it writes. -/
theorem opsS1_fresh : (opsS1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

/-- The 72 operations of this stage touch TensorCore references only. -/
theorem opsS2_sub : (opsS2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..⟩

/-- Each of them determines every buffer it writes. -/
theorem opsS2_fresh : (opsS2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

/-- The 72 operations of this stage touch TensorCore references only. -/
theorem opsS3_sub : (opsS3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..⟩

/-- Each of them determines every buffer it writes. -/
theorem opsS3_fresh : (opsS3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

/-- The 15 operations of this stage touch TensorCore references only. -/
theorem opsS4_sub : (opsS4 : List (HloOp τ sig (Elt F))).Forall fun op => op.bufs ⊆ tcRefs τ sig :=
  ⟨nullary_bufs_sub .., unary_bufs_sub .., unary_bufs_sub .., ternary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub ..⟩

/-- Each of them determines every buffer it writes. -/
theorem opsS4_fresh : (opsS4 : List (HloOp τ sig (Elt F))).Forall fun op => op.fresh = ∅ :=
  ⟨rfl, rfl, rfl, rfl, rfl, rfl, rfl, rfl, rfl, rfl, rfl, rfl, rfl, rfl, rfl⟩

end Cert.Gin.Ref

end
-- ==== Proof.RefRun.lean ====
/-
  The reference program's run. The program is three printed windows run in order; each window is the straight line of its
  operations, so the whole program is the straight line of all 255, and a straight line run from any memory ends — on every
  weakly fair execution — with every buffer at the fold of the operations' results over the contents it was launched with.
-/
import proofs.«132092_j14199161880830_1_alg».proof.Proof.RefMainW0
import proofs.«132092_j14199161880830_1_alg».proof.Proof.RefMainW1
import proofs.«132092_j14199161880830_1_alg».proof.Proof.RefMainW2
import proofs.«132092_j14199161880830_1_alg».proof.Proof.RefSub

noncomputable section

namespace Cert.Gin.Ref

open Idealize.ShloMosaic Idealize.ShloMosaic.TcCoe Idealize.SL.Sem Idealize.ShloMosaic.StableHlo
open Cert.ReferenceIdeal Cert.ReferenceIdeal.Gen

variable {F : FTy → Type} [FloatOps F]

/-- The cut by stages and the cut by printed windows list the same operations in the same order. -/
theorem ops_windows : (ops : List (HloOp τ sig (Elt F))) = opsW0 ++ opsW1 ++ opsW2 := rfl

/-- The program is that straight line: its three windows in order, each the line of its own operations, and two lines run
    one after the other are their concatenation run as one. -/
theorem main_eq (c : Dev nD) : Cert.ReferenceIdeal.main (F := F) c = StableHlo.seq ops := by
  rw [ops_windows, seq_append, seq_append, ← main_part0_eq c, ← main_part1_eq c, ← main_part2_eq c, bind_assoc]
  rfl

/-- The signature scopes no buffer and no semaphore: every value of the program has a buffer of its own for the whole run. -/
theorem scopedRefs_eq : (Finset.univ.filter fun b : Ref sig .tc => b.isScoped) = ∅ := by decide
theorem scopedSems_eq : (Finset.univ.filter fun sm : SemLoc sig => sm.isScoped .tc) = ∅ := by decide

/-- Every operation of the line reads and writes TensorCore references only: stage by stage. -/
theorem ops_sub : (ops : List (HloOp τ sig (Elt F))).Forall fun op => op.bufs ⊆ StableHlo.tcRefs τ sig :=
  List.forall_append.mpr ⟨List.forall_append.mpr ⟨List.forall_append.mpr ⟨List.forall_append.mpr
    ⟨opsS0_sub, opsS1_sub⟩, opsS2_sub⟩, opsS3_sub⟩, opsS4_sub⟩

/-- Every operation of the line determines what it writes: stage by stage. -/
theorem ops_fresh : ∀ op ∈ (ops : List (HloOp τ sig (Elt F))), op.fresh = ∅ :=
  List.forall_iff_forall_mem.mp (List.forall_append.mpr ⟨List.forall_append.mpr ⟨List.forall_append.mpr
    ⟨List.forall_append.mpr ⟨opsS0_fresh, opsS1_fresh⟩, opsS2_fresh⟩, opsS3_fresh⟩, opsS4_fresh⟩)

/-- At the compiled mesh, for any float values, from any memory with zero counters: every weakly fair execution of the
    program on the TensorCores terminates, and every final state has each TensorCore buffer at the fold of the 255
    operations' results over the contents the buffers were launched with. -/
theorem runAll (m : (ℓ : Loc nD τ sig) → Buf (Elt F) ℓ) (ρ : Dev nD → PrngReg) :
    θ_run Cert.ReferenceIdeal.defs (onTc (τ := τ) (Cert.ReferenceIdeal.main (F := F))) ⟨m, fun _ => 0, ρ⟩ fun r =>
      ∀ (c : Dev nD) (b : Ref sig .tc), r.2.mem ((c.tc : Thread nD τ).loc b)
        = StableHlo.after ops (StableHlo.launchContents m c) (b : DevRef τ sig) :=
  run_seq scopedRefs_eq scopedSems_eq defs main (fun _ => ops) main_eq (fun _ => ops_sub) m ρ (fun _ => ops_fresh)

end Cert.Gin.Ref

end
-- ==== Proof.RefArgs.lean ====
/-
  The reference program leaves its thirty arguments as it found them. The arguments are the first thirty buffers of the
  device's table; every operation of the program — the outlined functions' operations included — writes exactly one
  buffer, the buffer of the value it defines, and those come after the thirtieth. So the fold of the operations' results
  at an argument's buffer walks back, operation by operation, to the contents the fold started from.
-/
import proofs.«132092_j14199161880830_1_alg».proof.Proof.RefOps

noncomputable section

namespace Cert.Gin.Ref

open Idealize.ShloMosaic Idealize.ShloMosaic.TcCoe Idealize.ShloMosaic.StableHlo
open Cert.ReferenceIdeal Cert.ReferenceIdeal.Gen

variable {F : FTy → Type} [FloatOps F]

/-- A buffer among the first thirty is not the one buffer at or past the thirtieth. -/
theorem low_not_mem_single {y r : Ref sig .tc} (hy : 30 ≤ (y.idx : ℕ)) (hr : (r.idx : ℕ) < 30) :
    (Proc.devRef .tc r : DevRef τ sig) ∉ ({Proc.devRef .tc y} : Finset (DevRef τ sig)) := by
  intro h
  have e : r = y := Proc.devRef_injective _ (Finset.mem_singleton.mp h)
  subst e
  omega

/-- What a list of operations has to satisfy: none writes a buffer among the first thirty. -/
abbrev WritesHigh (l : List (HloOp τ sig (Elt F))) : Prop :=
  l.Forall fun op => ∀ r : Ref sig .tc, (r.idx : ℕ) < 30 → (Proc.devRef .tc r : DevRef τ sig) ∉ op.writes

/-- Stage by stage: each operation writes the single buffer of its result, whose place in the table is read off. -/
theorem opsS0_high : WritesHigh (opsS0 (F := F)) := by
  repeat' apply And.intro
  all_goals exact fun r hr => low_not_mem_single (by decide) hr
theorem opsS1_high : WritesHigh (opsS1 (F := F)) := by
  repeat' apply And.intro
  all_goals exact fun r hr => low_not_mem_single (by decide) hr
theorem opsS2_high : WritesHigh (opsS2 (F := F)) := by
  repeat' apply And.intro
  all_goals exact fun r hr => low_not_mem_single (by decide) hr
theorem opsS3_high : WritesHigh (opsS3 (F := F)) := by
  repeat' apply And.intro
  all_goals exact fun r hr => low_not_mem_single (by decide) hr
theorem opsS4_high : WritesHigh (opsS4 (F := F)) := by
  repeat' apply And.intro
  all_goals exact fun r hr => low_not_mem_single (by decide) hr

/-- The whole line writes none of the first thirty buffers. -/
theorem ops_high : WritesHigh (ops (F := F)) :=
  List.forall_append.mpr ⟨List.forall_append.mpr ⟨List.forall_append.mpr ⟨List.forall_append.mpr
    ⟨opsS0_high, opsS1_high⟩, opsS2_high⟩, opsS3_high⟩, opsS4_high⟩

/-- After the whole line, from any contents, each of the first thirty buffers holds what it held. -/
theorem after_low (V : Valuation τ sig (Elt F)) (r : Ref sig .tc) (hr : (r.idx : ℕ) < 30) :
    StableHlo.after (ops (F := F)) V (r : DevRef τ sig) = V (r : DevRef τ sig) :=
  StableHlo.after_of_forall_not_mem ops V fun op hop => List.forall_iff_forall_mem.mp ops_high op hop r hr

/-- The thirty arguments, in order. -/
theorem args_kept (V : Valuation τ sig (Elt F)) :
      StableHlo.after (ops (F := F)) V (main_arg0 : DevRef τ sig) = V (main_arg0 : DevRef τ sig)
      ∧ StableHlo.after (ops (F := F)) V (main_arg1 : DevRef τ sig) = V (main_arg1 : DevRef τ sig)
      ∧ StableHlo.after (ops (F := F)) V (main_arg2 : DevRef τ sig) = V (main_arg2 : DevRef τ sig)
      ∧ StableHlo.after (ops (F := F)) V (main_arg3 : DevRef τ sig) = V (main_arg3 : DevRef τ sig)
      ∧ StableHlo.after (ops (F := F)) V (main_arg4 : DevRef τ sig) = V (main_arg4 : DevRef τ sig)
      ∧ StableHlo.after (ops (F := F)) V (main_arg5 : DevRef τ sig) = V (main_arg5 : DevRef τ sig)
      ∧ StableHlo.after (ops (F := F)) V (main_arg6 : DevRef τ sig) = V (main_arg6 : DevRef τ sig)
      ∧ StableHlo.after (ops (F := F)) V (main_arg7 : DevRef τ sig) = V (main_arg7 : DevRef τ sig)
      ∧ StableHlo.after (ops (F := F)) V (main_arg8 : DevRef τ sig) = V (main_arg8 : DevRef τ sig)
      ∧ StableHlo.after (ops (F := F)) V (main_arg9 : DevRef τ sig) = V (main_arg9 : DevRef τ sig)
      ∧ StableHlo.after (ops (F := F)) V (main_arg10 : DevRef τ sig) = V (main_arg10 : DevRef τ sig)
      ∧ StableHlo.after (ops (F := F)) V (main_arg11 : DevRef τ sig) = V (main_arg11 : DevRef τ sig)
      ∧ StableHlo.after (ops (F := F)) V (main_arg12 : DevRef τ sig) = V (main_arg12 : DevRef τ sig)
      ∧ StableHlo.after (ops (F := F)) V (main_arg13 : DevRef τ sig) = V (main_arg13 : DevRef τ sig)
      ∧ StableHlo.after (ops (F := F)) V (main_arg14 : DevRef τ sig) = V (main_arg14 : DevRef τ sig)
      ∧ StableHlo.after (ops (F := F)) V (main_arg15 : DevRef τ sig) = V (main_arg15 : DevRef τ sig)
      ∧ StableHlo.after (ops (F := F)) V (main_arg16 : DevRef τ sig) = V (main_arg16 : DevRef τ sig)
      ∧ StableHlo.after (ops (F := F)) V (main_arg17 : DevRef τ sig) = V (main_arg17 : DevRef τ sig)
      ∧ StableHlo.after (ops (F := F)) V (main_arg18 : DevRef τ sig) = V (main_arg18 : DevRef τ sig)
      ∧ StableHlo.after (ops (F := F)) V (main_arg19 : DevRef τ sig) = V (main_arg19 : DevRef τ sig)
      ∧ StableHlo.after (ops (F := F)) V (main_arg20 : DevRef τ sig) = V (main_arg20 : DevRef τ sig)
      ∧ StableHlo.after (ops (F := F)) V (main_arg21 : DevRef τ sig) = V (main_arg21 : DevRef τ sig)
      ∧ StableHlo.after (ops (F := F)) V (main_arg22 : DevRef τ sig) = V (main_arg22 : DevRef τ sig)
      ∧ StableHlo.after (ops (F := F)) V (main_arg23 : DevRef τ sig) = V (main_arg23 : DevRef τ sig)
      ∧ StableHlo.after (ops (F := F)) V (main_arg24 : DevRef τ sig) = V (main_arg24 : DevRef τ sig)
      ∧ StableHlo.after (ops (F := F)) V (main_arg25 : DevRef τ sig) = V (main_arg25 : DevRef τ sig)
      ∧ StableHlo.after (ops (F := F)) V (main_arg26 : DevRef τ sig) = V (main_arg26 : DevRef τ sig)
      ∧ StableHlo.after (ops (F := F)) V (main_arg27 : DevRef τ sig) = V (main_arg27 : DevRef τ sig)
      ∧ StableHlo.after (ops (F := F)) V (main_arg28 : DevRef τ sig) = V (main_arg28 : DevRef τ sig)
      ∧ StableHlo.after (ops (F := F)) V (main_arg29 : DevRef τ sig) = V (main_arg29 : DevRef τ sig) :=
  ⟨after_low V main_arg0 (by decide), after_low V main_arg1 (by decide), after_low V main_arg2 (by decide),
    after_low V main_arg3 (by decide), after_low V main_arg4 (by decide), after_low V main_arg5 (by decide),
    after_low V main_arg6 (by decide), after_low V main_arg7 (by decide), after_low V main_arg8 (by decide),
    after_low V main_arg9 (by decide), after_low V main_arg10 (by decide), after_low V main_arg11 (by decide),
    after_low V main_arg12 (by decide), after_low V main_arg13 (by decide), after_low V main_arg14 (by decide),
    after_low V main_arg15 (by decide), after_low V main_arg16 (by decide), after_low V main_arg17 (by decide),
    after_low V main_arg18 (by decide), after_low V main_arg19 (by decide), after_low V main_arg20 (by decide),
    after_low V main_arg21 (by decide), after_low V main_arg22 (by decide), after_low V main_arg23 (by decide),
    after_low V main_arg24 (by decide), after_low V main_arg25 (by decide), after_low V main_arg26 (by decide),
    after_low V main_arg27 (by decide), after_low V main_arg28 (by decide), after_low V main_arg29 (by decide)⟩

end Cert.Gin.Ref

end
-- ==== Proof.RefHost.lean ====
/-
  The five irregular stages of the network as the reference program spells them: each the composition of the host
  operations the program applies at that stage, kept as one function of the stage's inputs and never opened.

    embed   the rows of the embedding table at the node labels (a label below zero is first moved up by the table's
            height, as an index from the end);
    agg     along the edge list: the rows of h at the edges' sources, summed into a zero matrix at the edges' destinations;
    mean    the column sums divided by the number of nodes;
    var     the column sums of the squared deviations from the column means, divided by (number of nodes - 0), or
            not-a-number where that divisor is not positive;
    pool    the rows of h summed into a zero matrix at each node's graph.
-/
import proofs.«132092_j14199161880830_1_alg».proof.Proof.Gen.ReferenceIdeal
import proofs.«132092_j14199161880830_1_alg».proof.Proof.Net

noncomputable section

namespace Cert.Gin.Ref

open Idealize.ShloMosaic Cert.ReferenceIdeal Cert.ReferenceIdeal.Gen Cert.Layers Cert.Gin

/-- The table's rows at the node labels. -/
def embed (x : IArr ⟨1, ![100000]⟩) (emb : Mat 500 128) : Mat 100000 128 :=
  Host.gather gather_S500x128_S100000x1_S100000x128_1_0_n_n_0_1_1128 emb
    (broadcastInDim S100000x1 ![0] bcast_S100000_S100000x1_0
      (select (cmpi .slt x (broadcastInDim S100000 ![] bcast_S_S100000 (constantI S_ 32 0#32)))
        (addi x (broadcastInDim S100000 ![] bcast_S_S100000 (constantI S_ 32 500#32)))
        x))

/-- Row r of the edge array as a vector of length E. -/
def edgeRow0 (ei : IArr ⟨2, ![2, 1600000]⟩) : IArr ⟨1, ![1600000]⟩ :=
  shapeCast S1600000 (extractStridedSlice S1x1600000 ![0, 0] ei slices_S2x1600000_S1x1600000_0_0)
    shapeCasts_S1x1600000_S1600000
def edgeRow1 (ei : IArr ⟨2, ![2, 1600000]⟩) : IArr ⟨1, ![1600000]⟩ :=
  shapeCast S1600000 (extractStridedSlice S1x1600000 ![1, 0] ei slices_S2x1600000_S1x1600000_1_0)
    shapeCasts_S1x1600000_S1600000

/-- The neighbour sum from the two rows of the edge array: gather at the sources, sum at the destinations. -/
def aggRows (h : Mat 100000 128) (src dst : IArr ⟨1, ![1600000]⟩) : Mat 100000 128 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

/-- The neighbour sum along the edge list. -/
def agg (h : Mat 100000 128) (ei : IArr ⟨2, ![2, 1600000]⟩) : Mat 100000 128 :=
  aggRows h (edgeRow0 ei) (edgeRow1 ei)

/-- The column means. -/
def mean (z : Mat 100000 128) : Row 128 :=
  Host.divf (F := Ideal)
    (Host.reduceAdd (F := Ideal) z (constant (F := Ideal) S_ .f32 0x00000000#32) reducesTo_S100000x128_S128_d0 h_S_)
    (broadcastInDim S128 ![] bcast_S_S128 (constant (F := Ideal) S_ .f32 0x47C35000#32))

/-- The column variances. -/
def var (z : Mat 100000 128) : Row 128 :=
  select
    (broadcastInDim S128 ![] bcast_S_S128
      (cmpf (F := Ideal) .ogt
        (subf (F := Ideal) (constant (F := Ideal) S_ .f32 0x47C35000#32) (sitofp (F := Ideal) .f32 (constantI S_ 32 0#32)))
        (constant (F := Ideal) S_ .f32 0x00000000#32)))
    (Host.divf (F := Ideal)
      (Host.reduceAdd (F := Ideal)
        (mulf (F := Ideal)
          (subf (F := Ideal) z
            (broadcastInDim S100000x128 ![0, 1] bcast_S1x128_S100000x128_0_1
              (Host.divf (F := Ideal)
                (broadcastInDim S1x128 ![1] bcast_S128_S1x128_1
                  (Host.reduceAdd (F := Ideal) z (constant (F := Ideal) S_ .f32 0x00000000#32) reducesTo_S100000x128_S128_d0 h_S_))
                (broadcastInDim S1x128 ![] bcast_S_S1x128 (constant (F := Ideal) S_ .f32 0x47C35000#32)))))
          (subf (F := Ideal) z
            (broadcastInDim S100000x128 ![0, 1] bcast_S1x128_S100000x128_0_1
              (Host.divf (F := Ideal)
                (broadcastInDim S1x128 ![1] bcast_S128_S1x128_1
                  (Host.reduceAdd (F := Ideal) z (constant (F := Ideal) S_ .f32 0x00000000#32) reducesTo_S100000x128_S128_d0 h_S_))
                (broadcastInDim S1x128 ![] bcast_S_S1x128 (constant (F := Ideal) S_ .f32 0x47C35000#32))))))
        (constant (F := Ideal) S_ .f32 0x00000000#32) reducesTo_S100000x128_S128_d0 h_S_)
      (broadcastInDim S128 ![] bcast_S_S128
        (subf (F := Ideal) (constant (F := Ideal) S_ .f32 0x47C35000#32) (sitofp (F := Ideal) .f32 (constantI S_ 32 0#32)))))
    (broadcastInDim S128 ![] bcast_S_S128 (id (constant (F := Ideal) S_ .f32 0x7FC00000#32)))

/-- The per-graph sums. -/
def pool (h : Mat 100000 128) (batch : IArr ⟨1, ![100000]⟩) : Mat 512 128 :=
  Host.scatterAdd (F := Ideal) scatter_S512x128_S100000x1_S100000x128_1_0_0_1
    (broadcastInDim S512x128 ![] bcast_S_S512x128 (constant (F := Ideal) S_ .f32 0x00000000#32))
    (broadcastInDim S100000x1 ![0] bcast_S100000_S100000x1_0 batch)
    h

/-- The five stages as the reference program spells them. -/
def H : Cert.Gin.HostFns where
  embed := embed
  agg := agg
  mean := mean
  var := var
  pool := pool

end Cert.Gin.Ref

end
-- ==== Proof.RefDense.lean ====
/-
  The dense stages of the network as a host program spells them, each read as ONE whole-array function on the extended
  reals, for any extents.

  A general product followed by the sum with a bias broadcast first to one row and then down the rows is the dense layer
  a · w + b; two of them with the maximum against a broadcast zero in between are the two-layer perceptron. The
  normalisation is spelt entry by entry with every per-column vector (the mean, the reciprocal root of variance + eps,
  the gain, the offset) broadcast down the rows: subtract, multiply, multiply, add, then the maximum against zero. Each
  entry reads its own row of z and its own column of the vectors, which is the definition of the normalised, rectified
  matrix.
-/
import proofs.«132092_j14199161880830_1_alg».proof.Proof.Spec

noncomputable section

namespace Cert.Gin.Ref

open Idealize.ShloMosaic Idealize.ShloMosaic.ValueIdx Cert.LibMatmulPlain Cert.Layers Cert.Net Cert.Gin

variable {m k n l : Nat}

/-- A product and a broadcast bias, summed: the dense layer. -/
theorem hostDense_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    addf (F := Ideal) (Host.dotGeneral d none a w)
        (broadcastInDim ⟨2, ![m, n]⟩ ![0, 1] h2 (broadcastInDim ⟨2, ![1, n]⟩ ![1] h1 b))
      = dense a w b := by
  rw [hostMm_eq d wf hd, hostBias_eq b h1 h2]
  rfl

/-- Two dense layers with the rectifier between them: the two-layer perceptron. -/
theorem hostReadout_eq (d1 : DotDims ⟨2, ![m, k]⟩ ⟨2, ![k, n]⟩ ⟨2, ![m, n]⟩)
    (wf1 : DotDims.WF ⟨2, ![m, k]⟩ ⟨2, ![k, n]⟩ ⟨2, ![m, n]⟩ [1] [0] [0] [1] [] []) (hd1 : d1 = plainDims m k n wf1)
    (d2 : DotDims ⟨2, ![m, n]⟩ ⟨2, ![n, l]⟩ ⟨2, ![m, l]⟩)
    (wf2 : DotDims.WF ⟨2, ![m, n]⟩ ⟨2, ![n, l]⟩ ⟨2, ![m, l]⟩ [1] [0] [0] [1] [] []) (hd2 : d2 = plainDims m n l wf2)
    (a : FVec Ideal ⟨2, ![m, k]⟩ .f32) (w1 : FVec Ideal ⟨2, ![k, n]⟩ .f32) (b1 : FVec Ideal ⟨1, ![n]⟩ .f32)
    (w2 : FVec Ideal ⟨2, ![n, l]⟩ .f32) (b2 : FVec Ideal ⟨1, ![l]⟩ .f32)
    (h1 : (⟨1, ![n]⟩ : Shape).BroadcastsInDim ⟨2, ![1, n]⟩ ![1])
    (h2 : (⟨2, ![1, n]⟩ : Shape).BroadcastsInDim ⟨2, ![m, n]⟩ ![0, 1])
    (h0 : (⟨0, ![]⟩ : Shape).BroadcastsInDim ⟨2, ![m, n]⟩ ![])
    (h3 : (⟨1, ![l]⟩ : Shape).BroadcastsInDim ⟨2, ![1, l]⟩ ![1])
    (h4 : (⟨2, ![1, l]⟩ : Shape).BroadcastsInDim ⟨2, ![m, l]⟩ ![0, 1]) :
    addf (F := Ideal)
        (Host.dotGeneral d2 none
          (maximumf (F := Ideal)
            (addf (F := Ideal) (Host.dotGeneral d1 none a w1)
              (broadcastInDim ⟨2, ![m, n]⟩ ![0, 1] h2 (broadcastInDim ⟨2, ![1, n]⟩ ![1] h1 b1)))
            (broadcastInDim ⟨2, ![m, n]⟩ ![] h0 (constant (F := Ideal) ⟨0, ![]⟩ .f32 0x00000000#32)))
          w2)
        (broadcastInDim ⟨2, ![m, l]⟩ ![0, 1] h4 (broadcastInDim ⟨2, ![1, l]⟩ ![1] h3 b2))
      = readout a w1 b1 w2 b2 := by
  rw [hostDense_eq d1 wf1 hd1, hostRect_eq, hostDense_eq d2 wf2 hd2]
  rfl

/-- A scalar constant broadcast over a shape holds the constant's value everywhere. -/
theorem hostConst_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w := by
  rw [broadcastInDim_apply _ h _ i ix0 fun ax => ax.elim0]
  rfl

/-- The normalisation by per-column statistics and the rectifier, as the host spells them entry by entry. -/
theorem hostBnRelu_eq (z : FVec Ideal ⟨2, ![m, n]⟩ .f32) (mean var g be : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1])
    (h0 : (⟨0, ![]⟩ : Shape).BroadcastsInDim ⟨2, ![m, n]⟩ ![])
    (he : (⟨0, ![]⟩ : Shape).BroadcastsInDim ⟨1, ![n]⟩ ![]) :
    maximumf (F := Ideal)
        (addf (F := Ideal)
          (mulf (F := Ideal)
            (mulf (F := Ideal)
              (subf (F := Ideal) z
                (broadcastInDim ⟨2, ![m, n]⟩ ![0, 1] h2 (broadcastInDim ⟨2, ![1, n]⟩ ![1] h1 mean)))
              (broadcastInDim ⟨2, ![m, n]⟩ ![0, 1] h2 (broadcastInDim ⟨2, ![1, n]⟩ ![1] h1
                (Host.rsqrt (F := Ideal)
                  (addf (F := Ideal) var
                    (broadcastInDim ⟨1, ![n]⟩ ![] he (constant (F := Ideal) ⟨0, ![]⟩ .f32 0x3727C5AC#32)))))))
            (broadcastInDim ⟨2, ![m, n]⟩ ![0, 1] h2 (broadcastInDim ⟨2, ![1, n]⟩ ![1] h1 g)))
          (broadcastInDim ⟨2, ![m, n]⟩ ![0, 1] h2 (broadcastInDim ⟨2, ![1, n]⟩ ![1] h1 be)))
        (broadcastInDim ⟨2, ![m, n]⟩ ![] h0 (constant (F := Ideal) ⟨0, ![]⟩ .f32 0x00000000#32))
      = bnRelu z mean var g be := by
  rw [hostRect_eq, hostBias_eq mean h1 h2, hostBias_eq _ h1 h2, hostBias_eq g h1 h2, hostBias_eq be h1 h2]
  unfold bnRelu
  refine congrArg rect (funext fun i => ?_)
  show ((z i - mean (ix1 (i 1)))
      * Ideal.rsqrt (var (ix1 (i 1)) + broadcastInDim ⟨1, ![n]⟩ ![] he (constant (F := Ideal) ⟨0, ![]⟩ .f32 0x3727C5AC#32) (ix1 (i 1))))
      * g (ix1 (i 1)) + be (ix1 (i 1)) = _
  rw [hostConst_apply]
  rfl

end Cert.Gin.Ref

end
-- ==== Proof.RefStage0.lean ====
/-
  The reference's first stage read back: from any contents U, after the stage's twenty-four operations the node-feature
  buffer holds the two-layer perceptron of the embedded labels, the two row buffers of the edge list hold the edge
  array's two rows, and no other buffer outside the stage's own results has changed.
-/
import proofs.«132092_j14199161880830_1_alg».proof.Proof.RefOps
import proofs.«132092_j14199161880830_1_alg».proof.Proof.RefHost
import proofs.«132092_j14199161880830_1_alg».proof.Proof.RefDense
import proofs.«132092_j14199161880830_1_alg».proof.Proof.LibHostStages

noncomputable section

namespace Cert.Gin.Ref

open Idealize.ShloMosaic Idealize.ShloMosaic.TcCoe Idealize.ShloMosaic.StableHlo Cert.ReferenceIdeal Cert.ReferenceIdeal.Gen
open Cert.Layers Cert.Net Cert.Gin Cert.Lib.HostStages

attribute [local irreducible] Host.gather Host.scatterAdd Host.reduceAdd

/-- The node features h0: the perceptron of the table's rows at the labels. -/
theorem stage0 (U : Valuation τ sig (Elt Ideal)) :
    after (opsS0 (F := Ideal)) U (main_v19 : DevRef τ sig)
      = readout (H.embed (U (main_arg0 : DevRef τ sig)) (U (main_arg3 : DevRef τ sig))) (U (main_arg4 : DevRef τ sig))
          (U (main_arg5 : DevRef τ sig)) (U (main_arg6 : DevRef τ sig)) (U (main_arg7 : DevRef τ sig)) := by
  after_results_simp
  simp only [ofBuf_toBuf]
  refine (hostReadout_eq dot_S100000x128_S128x128_S100000x128_1_0_0_1_n_n _ rfl
    dot_S100000x128_S128x128_S100000x128_1_0_0_1_n_n _ rfl _ _ _ _ _ _ _ _ _ _).trans ?_
  rfl

/-- The sources' row of the edge array. -/
theorem stage0_src (U : Valuation τ sig (Elt Ideal)) :
    after (opsS0 (F := Ideal)) U (main_v1 : DevRef τ sig) = edgeRow0 (U (main_arg1 : DevRef τ sig)) := by
  after_results_simp
  rfl

/-- The destinations' row of the edge array. -/
theorem stage0_dst (U : Valuation τ sig (Elt Ideal)) :
    after (opsS0 (F := Ideal)) U (main_v3 : DevRef τ sig) = edgeRow1 (U (main_arg1 : DevRef τ sig)) := by
  after_results_simp
  rfl

/-- The buffers this stage's operations write, in order. -/
def written0 : List (Ref sig .tc) :=
  [main_v0, main_v1, main_v2, main_v3, main_c, main_v4, main_v5, main_c_0, main_v6, main_v7, main_v8, main_v9, main_v10, main_v11, main_v12, main_v13, main_v14, main_call0.cst.ref, main_call0.v0.ref, main_call0.v1.ref, main_v16, main_v17, main_v18, main_v19]

/-- A buffer outside that list holds after the stage what it held before. -/
theorem kept0 (U : Valuation τ sig (Elt Ideal)) (r : Ref sig .tc) (hr : r ∉ written0) :
    after (opsS0 (F := Ideal)) U (r : DevRef τ sig) = U (r : DevRef τ sig) :=
  after_of_writes_sub (W := written0) _ U (by
    simp only [opsS0, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hr

end Cert.Gin.Ref

end
-- ==== Proof.RefLayer.lean ====
/-
  One convolution layer recognised from its three parts: a matrix that is the perceptron of h + agg h, a vector that is
  that matrix's column mean, and a vector that is its column variance, normalise and rectify to the layer.
-/
import proofs.«132092_j14199161880830_1_alg».proof.Proof.Net

noncomputable section

namespace Cert.Gin

open Idealize.ShloMosaic Cert.Layers Cert.Net

theorem layer_of (H : HostFns) (h : Mat 100000 128) (ei : IArr ⟨2, ![2, 1600000]⟩)
    (w1 : Mat 128 128) (b1 : Row 128) (w2 : Mat 128 128) (b2 : Row 128) (g be : Row 128)
    (Z : Mat 100000 128) (M W : Row 128)
    (hZ : Z = readout (plus h (H.agg h ei)) w1 b1 w2 b2) (hM : M = H.mean Z) (hW : W = H.var Z) :
    bnRelu Z M W g be = layer H h ei w1 b1 w2 b2 g be := by
  subst hZ hM hW
  rfl

end Cert.Gin

end
-- ==== Proof.RefStage1.lean ====
/-
  The reference's convolution layer 1 read back: from any contents U whose two row buffers hold the rows of an edge
  array, after the stage's seventy-two operations the layer's output buffer holds the layer (the perceptron of h + agg h,
  normalised by its own column mean and variance, rectified) of the node features U holds, and no buffer outside the
  stage's own results has changed.
-/
import proofs.«132092_j14199161880830_1_alg».proof.Proof.RefOps
import proofs.«132092_j14199161880830_1_alg».proof.Proof.RefHost
import proofs.«132092_j14199161880830_1_alg».proof.Proof.RefDense
import proofs.«132092_j14199161880830_1_alg».proof.Proof.RefLayer
import proofs.«132092_j14199161880830_1_alg».proof.Proof.LibHostStages

noncomputable section

namespace Cert.Gin.Ref

open Idealize.ShloMosaic Idealize.ShloMosaic.TcCoe Idealize.ShloMosaic.StableHlo Cert.ReferenceIdeal Cert.ReferenceIdeal.Gen
open Cert.Layers Cert.Net Cert.Gin Cert.Lib.HostStages

attribute [local irreducible] Host.gather Host.scatterAdd Host.reduceAdd

theorem stage1 (U : Valuation τ sig (Elt Ideal)) (ei : IArr ⟨2, ![2, 1600000]⟩)
    (h1 : U (main_v1 : DevRef τ sig) = edgeRow0 ei) (h3 : U (main_v3 : DevRef τ sig) = edgeRow1 ei) :
    after (opsS1 (F := Ideal)) U (main_v59 : DevRef τ sig)
      = layer H (U (main_v19 : DevRef τ sig)) ei (U (main_arg8 : DevRef τ sig)) (U (main_arg9 : DevRef τ sig))
          (U (main_arg10 : DevRef τ sig)) (U (main_arg11 : DevRef τ sig)) (U (main_arg12 : DevRef τ sig)) (U (main_arg13 : DevRef τ sig)) := by
  after_results_simp
  simp only [ofBuf_toBuf]
  rw [h1, h3]
  refine (hostBnRelu_eq _ _ _ _ _ _ _ _ _).trans ?_
  refine layer_of H _ _ _ _ _ _ _ _ _ _ _ ?_ rfl rfl
  refine (hostReadout_eq dot_S100000x128_S128x128_S100000x128_1_0_0_1_n_n _ rfl
    dot_S100000x128_S128x128_S100000x128_1_0_0_1_n_n _ rfl _ _ _ _ _ _ _ _ _ _).trans ?_
  rfl

/-- The buffers this stage's operations write, in order. -/
def written1 : List (Ref sig .tc) :=
  [main_c_1, main_v20, main_v21, main_c_2, main_v22, main_v23, main_v24, main_v25, main_v26, main_cst, main_v27, main_v28, main_v29, main_v30, main_v31, main_v32, main_v33, main_v34, main_call1.cst.ref, main_call1.v0.ref, main_call1.v1.ref, main_v36, main_v37, main_v38, main_v39, main_cst_3, main_v40, main_cst_4, main_v41, main_v42, main_c_5, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v44, main_v45, main_v46, main_cst_6, main_v47, main_v48, main_v49, main_v50, main_v51, main_v52, main_v53, main_v54, main_v55, main_v56, main_v57, main_v58, main_call3.cst.ref, main_call3.v0.ref, main_call3.v1.ref]

/-- A buffer outside that list holds after the stage what it held before. -/
theorem kept1 (U : Valuation τ sig (Elt Ideal)) (r : Ref sig .tc) (hr : r ∉ written1) :
    after (opsS1 (F := Ideal)) U (r : DevRef τ sig) = U (r : DevRef τ sig) :=
  after_of_writes_sub (W := written1) _ U (by
    simp only [opsS1, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hr

end Cert.Gin.Ref

end
-- ==== Proof.RefStage2.lean ====
/-
  The reference's convolution layer 2 read back: from any contents U whose two row buffers hold the rows of an edge
  array, after the stage's seventy-two operations the layer's output buffer holds the layer (the perceptron of h + agg h,
  normalised by its own column mean and variance, rectified) of the node features U holds, and no buffer outside the
  stage's own results has changed.
-/
import proofs.«132092_j14199161880830_1_alg».proof.Proof.RefOps
import proofs.«132092_j14199161880830_1_alg».proof.Proof.RefHost
import proofs.«132092_j14199161880830_1_alg».proof.Proof.RefDense
import proofs.«132092_j14199161880830_1_alg».proof.Proof.RefLayer
import proofs.«132092_j14199161880830_1_alg».proof.Proof.LibHostStages

noncomputable section

namespace Cert.Gin.Ref

open Idealize.ShloMosaic Idealize.ShloMosaic.TcCoe Idealize.ShloMosaic.StableHlo Cert.ReferenceIdeal Cert.ReferenceIdeal.Gen
open Cert.Layers Cert.Net Cert.Gin Cert.Lib.HostStages

attribute [local irreducible] Host.gather Host.scatterAdd Host.reduceAdd

theorem stage2 (U : Valuation τ sig (Elt Ideal)) (ei : IArr ⟨2, ![2, 1600000]⟩)
    (h1 : U (main_v1 : DevRef τ sig) = edgeRow0 ei) (h3 : U (main_v3 : DevRef τ sig) = edgeRow1 ei) :
    after (opsS2 (F := Ideal)) U (main_v99 : DevRef τ sig)
      = layer H (U (main_v59 : DevRef τ sig)) ei (U (main_arg14 : DevRef τ sig)) (U (main_arg15 : DevRef τ sig))
          (U (main_arg16 : DevRef τ sig)) (U (main_arg17 : DevRef τ sig)) (U (main_arg18 : DevRef τ sig)) (U (main_arg19 : DevRef τ sig)) := by
  after_results_simp
  simp only [ofBuf_toBuf]
  rw [h1, h3]
  refine (hostBnRelu_eq _ _ _ _ _ _ _ _ _).trans ?_
  refine layer_of H _ _ _ _ _ _ _ _ _ _ _ ?_ rfl rfl
  refine (hostReadout_eq dot_S100000x128_S128x128_S100000x128_1_0_0_1_n_n _ rfl
    dot_S100000x128_S128x128_S100000x128_1_0_0_1_n_n _ rfl _ _ _ _ _ _ _ _ _ _).trans ?_
  rfl

/-- The buffers this stage's operations write, in order. -/
def written2 : List (Ref sig .tc) :=
  [main_c_7, main_v60, main_v61, main_c_8, main_v62, main_v63, main_v64, main_v65, main_v66, main_cst_9, main_v67, main_v68, main_v69, main_v70, main_v71, main_v72, main_v73, main_v74, main_call4.cst.ref, main_call4.v0.ref, main_call4.v1.ref, main_v76, main_v77, main_v78, main_v79, main_cst_10, main_v80, main_cst_11, main_v81, main_v82, main_c_12, main_call5.cst.ref, main_call5.v0.ref, main_call5.v1.ref, main_call5.cst_0.ref, main_call5.v2.ref, main_call5.v3.ref, main_call5.v4.ref, main_call5.v5.ref, main_call5.v6.ref, main_call5.v7.ref, main_call5.cst_1.ref, main_call5.v8.ref, main_call5.cst_2.ref, main_call5.v9.ref, main_call5.v10.ref, main_call5.v11.ref, main_call5.cst_3.ref, main_call5.v12.ref, main_call5.cst_4.ref, main_call5.call0.v0.ref, main_call5.call0.v1.ref, main_call5.call0.v2.ref, main_v84, main_v85, main_v86, main_cst_13, main_v87, main_v88, main_v89, main_v90, main_v91, main_v92, main_v93, main_v94, main_v95, main_v96, main_v97, main_v98, main_call6.cst.ref, main_call6.v0.ref, main_call6.v1.ref]

/-- A buffer outside that list holds after the stage what it held before. -/
theorem kept2 (U : Valuation τ sig (Elt Ideal)) (r : Ref sig .tc) (hr : r ∉ written2) :
    after (opsS2 (F := Ideal)) U (r : DevRef τ sig) = U (r : DevRef τ sig) :=
  after_of_writes_sub (W := written2) _ U (by
    simp only [opsS2, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hr

end Cert.Gin.Ref

end
-- ==== Proof.RefStage3.lean ====
/-
  The reference's convolution layer 3 read back: from any contents U whose two row buffers hold the rows of an edge
  array, after the stage's seventy-two operations the layer's output buffer holds the layer (the perceptron of h + agg h,
  normalised by its own column mean and variance, rectified) of the node features U holds, and no buffer outside the
  stage's own results has changed.
-/
import proofs.«132092_j14199161880830_1_alg».proof.Proof.RefOps
import proofs.«132092_j14199161880830_1_alg».proof.Proof.RefHost
import proofs.«132092_j14199161880830_1_alg».proof.Proof.RefDense
import proofs.«132092_j14199161880830_1_alg».proof.Proof.RefLayer
import proofs.«132092_j14199161880830_1_alg».proof.Proof.LibHostStages

noncomputable section

namespace Cert.Gin.Ref

open Idealize.ShloMosaic Idealize.ShloMosaic.TcCoe Idealize.ShloMosaic.StableHlo Cert.ReferenceIdeal Cert.ReferenceIdeal.Gen
open Cert.Layers Cert.Net Cert.Gin Cert.Lib.HostStages

attribute [local irreducible] Host.gather Host.scatterAdd Host.reduceAdd

theorem stage3 (U : Valuation τ sig (Elt Ideal)) (ei : IArr ⟨2, ![2, 1600000]⟩)
    (h1 : U (main_v1 : DevRef τ sig) = edgeRow0 ei) (h3 : U (main_v3 : DevRef τ sig) = edgeRow1 ei) :
    after (opsS3 (F := Ideal)) U (main_v139 : DevRef τ sig)
      = layer H (U (main_v99 : DevRef τ sig)) ei (U (main_arg20 : DevRef τ sig)) (U (main_arg21 : DevRef τ sig))
          (U (main_arg22 : DevRef τ sig)) (U (main_arg23 : DevRef τ sig)) (U (main_arg24 : DevRef τ sig)) (U (main_arg25 : DevRef τ sig)) := by
  after_results_simp
  simp only [ofBuf_toBuf]
  rw [h1, h3]
  refine (hostBnRelu_eq _ _ _ _ _ _ _ _ _).trans ?_
  refine layer_of H _ _ _ _ _ _ _ _ _ _ _ ?_ rfl rfl
  refine (hostReadout_eq dot_S100000x128_S128x128_S100000x128_1_0_0_1_n_n _ rfl
    dot_S100000x128_S128x128_S100000x128_1_0_0_1_n_n _ rfl _ _ _ _ _ _ _ _ _ _).trans ?_
  rfl

/-- The buffers this stage's operations write, in order. -/
def written3 : List (Ref sig .tc) :=
  [main_c_14, main_v100, main_v101, main_c_15, main_v102, main_v103, main_v104, main_v105, main_v106, main_cst_16, main_v107, main_v108, main_v109, main_v110, main_v111, main_v112, main_v113, main_v114, main_call7.cst.ref, main_call7.v0.ref, main_call7.v1.ref, main_v116, main_v117, main_v118, main_v119, main_cst_17, main_v120, main_cst_18, main_v121, main_v122, main_c_19, main_call8.cst.ref, main_call8.v0.ref, main_call8.v1.ref, main_call8.cst_0.ref, main_call8.v2.ref, main_call8.v3.ref, main_call8.v4.ref, main_call8.v5.ref, main_call8.v6.ref, main_call8.v7.ref, main_call8.cst_1.ref, main_call8.v8.ref, main_call8.cst_2.ref, main_call8.v9.ref, main_call8.v10.ref, main_call8.v11.ref, main_call8.cst_3.ref, main_call8.v12.ref, main_call8.cst_4.ref, main_call8.call0.v0.ref, main_call8.call0.v1.ref, main_call8.call0.v2.ref, main_v124, main_v125, main_v126, main_cst_20, main_v127, main_v128, main_v129, main_v130, main_v131, main_v132, main_v133, main_v134, main_v135, main_v136, main_v137, main_v138, main_call9.cst.ref, main_call9.v0.ref, main_call9.v1.ref]

/-- A buffer outside that list holds after the stage what it held before. -/
theorem kept3 (U : Valuation τ sig (Elt Ideal)) (r : Ref sig .tc) (hr : r ∉ written3) :
    after (opsS3 (F := Ideal)) U (r : DevRef τ sig) = U (r : DevRef τ sig) :=
  after_of_writes_sub (W := written3) _ U (by
    simp only [opsS3, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hr

end Cert.Gin.Ref

end
-- ==== Proof.RefStage4.lean ====
/-
  The reference's last stage read back: from any contents U, after the stage's fifteen operations the result buffer
  holds the two-layer head of the per-graph sums of the node features U holds.
-/
import proofs.«132092_j14199161880830_1_alg».proof.Proof.RefOps
import proofs.«132092_j14199161880830_1_alg».proof.Proof.RefHost
import proofs.«132092_j14199161880830_1_alg».proof.Proof.RefDense
import proofs.«132092_j14199161880830_1_alg».proof.Proof.LibHostStages

noncomputable section

namespace Cert.Gin.Ref

open Idealize.ShloMosaic Idealize.ShloMosaic.TcCoe Idealize.ShloMosaic.StableHlo Cert.ReferenceIdeal Cert.ReferenceIdeal.Gen
open Cert.Layers Cert.Net Cert.Gin Cert.Lib.HostStages

attribute [local irreducible] Host.gather Host.scatterAdd Host.reduceAdd

theorem stage4 (U : Valuation τ sig (Elt Ideal)) :
    after (opsS4 (F := Ideal)) U (main_v151 : DevRef τ sig)
      = readout (H.pool (U (main_v139 : DevRef τ sig)) (U (main_arg2 : DevRef τ sig))) (U (main_arg26 : DevRef τ sig))
          (U (main_arg27 : DevRef τ sig)) (U (main_arg28 : DevRef τ sig)) (U (main_arg29 : DevRef τ sig)) := by
  after_results_simp
  simp only [ofBuf_toBuf]
  refine (hostReadout_eq dot_S512x128_S128x128_S512x128_1_0_0_1_n_n _ rfl
    dot_S512x128_S128x10_S512x10_1_0_0_1_n_n _ rfl _ _ _ _ _ _ _ _ _ _).trans ?_
  rfl

end Cert.Gin.Ref

end
-- ==== Proof.RefValue.lean ====
/-
  The reference program's value: the fold of its two hundred and fifty-five host operations over any contents V, read at
  the result buffer, is the network of the thirty argument buffers of V.

  The line is the five stages one after the other, so the fold is the stages' folds composed. Each stage's output buffer
  is that stage's function of a few buffers of the contents it starts from: the previous stage's output, the two row
  buffers of the edge list (written by the first stage, which reads them off the edge array, and by no later operation),
  and argument buffers, which no operation writes. Walking back from the result through the stages, every buffer read is
  either the previous stage's output or is carried unchanged to where it was set, and what remains is the network's
  definition.
-/
import proofs.«132092_j14199161880830_1_alg».proof.Proof.RefStage0
import proofs.«132092_j14199161880830_1_alg».proof.Proof.RefStage1
import proofs.«132092_j14199161880830_1_alg».proof.Proof.RefStage2
import proofs.«132092_j14199161880830_1_alg».proof.Proof.RefStage3
import proofs.«132092_j14199161880830_1_alg».proof.Proof.RefStage4

noncomputable section

namespace Cert.Gin.Ref

open Idealize.ShloMosaic Idealize.ShloMosaic.TcCoe Idealize.ShloMosaic.StableHlo Cert.ReferenceIdeal Cert.ReferenceIdeal.Gen
open Cert.Layers Cert.Net Cert.Gin Cert.Lib.HostStages

/-- The whole line's fold is the stages' folds composed. -/
theorem after_stages (V : Valuation τ sig (Elt Ideal)) :
    after (ops (F := Ideal)) V
      = after opsS4 (after opsS3 (after opsS2 (after opsS1 (after opsS0 V)))) := by
  show after ((((opsS0 ++ opsS1) ++ opsS2) ++ opsS3) ++ opsS4) V = _
  rw [Cert.Lib.HostStages.after_append, Cert.Lib.HostStages.after_append, Cert.Lib.HostStages.after_append,
    Cert.Lib.HostStages.after_append]

/-- The two row buffers of the edge list after the first stage, and still after the second and the third. -/
theorem src0 (V : Valuation τ sig (Elt Ideal)) :
    after (opsS0 (F := Ideal)) V (main_v1 : DevRef τ sig) = edgeRow0 (V (main_arg1 : DevRef τ sig)) := stage0_src V
theorem dst0 (V : Valuation τ sig (Elt Ideal)) :
    after (opsS0 (F := Ideal)) V (main_v3 : DevRef τ sig) = edgeRow1 (V (main_arg1 : DevRef τ sig)) := stage0_dst V
theorem src1 (V : Valuation τ sig (Elt Ideal)) :
    after (opsS1 (F := Ideal)) (after opsS0 V) (main_v1 : DevRef τ sig) = edgeRow0 (V (main_arg1 : DevRef τ sig)) :=
  (kept1 _ main_v1 (by decide)).trans (src0 V)
theorem dst1 (V : Valuation τ sig (Elt Ideal)) :
    after (opsS1 (F := Ideal)) (after opsS0 V) (main_v3 : DevRef τ sig) = edgeRow1 (V (main_arg1 : DevRef τ sig)) :=
  (kept1 _ main_v3 (by decide)).trans (dst0 V)
theorem src2 (V : Valuation τ sig (Elt Ideal)) :
    after (opsS2 (F := Ideal)) (after opsS1 (after opsS0 V)) (main_v1 : DevRef τ sig) = edgeRow0 (V (main_arg1 : DevRef τ sig)) :=
  (kept2 _ main_v1 (by decide)).trans (src1 V)
theorem dst2 (V : Valuation τ sig (Elt Ideal)) :
    after (opsS2 (F := Ideal)) (after opsS1 (after opsS0 V)) (main_v3 : DevRef τ sig) = edgeRow1 (V (main_arg1 : DevRef τ sig)) :=
  (kept2 _ main_v3 (by decide)).trans (dst1 V)

/-- The result buffer after the whole line holds the network of the arguments. -/
theorem value (V : Valuation τ sig (Elt Ideal)) :
    after (ops (F := Ideal)) V (main_v151 : DevRef τ sig)
      = Cert.Gin.net H (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) (V (main_arg8 : DevRef τ sig)) (V (main_arg9 : DevRef τ sig))
          (V (main_arg10 : DevRef τ sig)) (V (main_arg11 : DevRef τ sig)) (V (main_arg12 : DevRef τ sig)) (V (main_arg13 : DevRef τ sig)) (V (main_arg14 : DevRef τ sig)) (V (main_arg15 : DevRef τ sig))
          (V (main_arg16 : DevRef τ sig)) (V (main_arg17 : DevRef τ sig)) (V (main_arg18 : DevRef τ sig)) (V (main_arg19 : DevRef τ sig)) (V (main_arg20 : DevRef τ sig)) (V (main_arg21 : DevRef τ sig))
          (V (main_arg22 : DevRef τ sig)) (V (main_arg23 : DevRef τ sig)) (V (main_arg24 : DevRef τ sig)) (V (main_arg25 : DevRef τ sig)) (V (main_arg26 : DevRef τ sig)) (V (main_arg27 : DevRef τ sig)) (V (main_arg28 : DevRef τ sig)) (V (main_arg29 : DevRef τ sig)) := by
  rw [after_stages, stage4,
    kept3 _ main_arg2 (by decide), kept3 _ main_arg26 (by decide), kept3 _ main_arg27 (by decide),
    kept3 _ main_arg28 (by decide), kept3 _ main_arg29 (by decide), kept2 _ main_arg2 (by decide),
    kept2 _ main_arg26 (by decide), kept2 _ main_arg27 (by decide), kept2 _ main_arg28 (by decide),
    kept2 _ main_arg29 (by decide), kept1 _ main_arg2 (by decide), kept1 _ main_arg26 (by decide),
    kept1 _ main_arg27 (by decide), kept1 _ main_arg28 (by decide), kept1 _ main_arg29 (by decide),
    kept0 _ main_arg2 (by decide), kept0 _ main_arg26 (by decide), kept0 _ main_arg27 (by decide),
    kept0 _ main_arg28 (by decide), kept0 _ main_arg29 (by decide),
    stage3 _ (V (main_arg1 : DevRef τ sig)) (src2 V) (dst2 V),
    kept2 _ main_arg20 (by decide), kept2 _ main_arg21 (by decide), kept2 _ main_arg22 (by decide),
    kept2 _ main_arg23 (by decide), kept2 _ main_arg24 (by decide), kept2 _ main_arg25 (by decide),
    kept1 _ main_arg20 (by decide), kept1 _ main_arg21 (by decide), kept1 _ main_arg22 (by decide),
    kept1 _ main_arg23 (by decide), kept1 _ main_arg24 (by decide), kept1 _ main_arg25 (by decide),
    kept0 _ main_arg20 (by decide), kept0 _ main_arg21 (by decide), kept0 _ main_arg22 (by decide),
    kept0 _ main_arg23 (by decide), kept0 _ main_arg24 (by decide), kept0 _ main_arg25 (by decide),
    stage2 _ (V (main_arg1 : DevRef τ sig)) (src1 V) (dst1 V),
    kept1 _ main_arg14 (by decide), kept1 _ main_arg15 (by decide), kept1 _ main_arg16 (by decide),
    kept1 _ main_arg17 (by decide), kept1 _ main_arg18 (by decide), kept1 _ main_arg19 (by decide),
    kept0 _ main_arg14 (by decide), kept0 _ main_arg15 (by decide), kept0 _ main_arg16 (by decide),
    kept0 _ main_arg17 (by decide), kept0 _ main_arg18 (by decide), kept0 _ main_arg19 (by decide),
    stage1 _ (V (main_arg1 : DevRef τ sig)) (src0 V) (dst0 V),
    kept0 _ main_arg8 (by decide), kept0 _ main_arg9 (by decide), kept0 _ main_arg10 (by decide),
    kept0 _ main_arg11 (by decide), kept0 _ main_arg12 (by decide), kept0 _ main_arg13 (by decide),
    stage0]
  rfl

end Cert.Gin.Ref

end
-- ==== Proof.Bridge.lean ====
/-
  The two programs apply the same five irregular stages.

  The kernel's program and the reference spell the embedding lookup, the neighbour sum, the column mean, the column
  variance and the per-graph sum with the same host operations on the same operands; their dimension records are the
  same records. So the two records of stage functions are one record, and the network over either is the same
  function. No gather, scatter or reduction is opened: the two sides are compared as written.
-/
import proofs.«132092_j14199161880830_1_alg».proof.Proof.KHost
import proofs.«132092_j14199161880830_1_alg».proof.Proof.RefHost
import proofs.«132092_j14199161880830_1_alg».proof.Proof.Gen.KernelIdeal

noncomputable section

namespace Cert.Gin

open Idealize.ShloMosaic

attribute [local irreducible] Host.gather Host.scatterAdd Host.reduceAdd Host.divf in
theorem embed_eq : Cert.Gin.Ker.embed = Cert.Gin.Ref.embed := rfl

attribute [local irreducible] Host.gather Host.scatterAdd Host.reduceAdd Host.divf in
theorem agg_eq : Cert.Gin.Ker.agg = Cert.Gin.Ref.agg := rfl

attribute [local irreducible] Host.gather Host.scatterAdd Host.reduceAdd Host.divf in
theorem mean_eq : Cert.Gin.Ker.mean = Cert.Gin.Ref.mean := rfl

attribute [local irreducible] Host.gather Host.scatterAdd Host.reduceAdd Host.divf in
theorem var_eq : Cert.Gin.Ker.var = Cert.Gin.Ref.var := rfl

attribute [local irreducible] Host.gather Host.scatterAdd Host.reduceAdd Host.divf in
theorem pool_eq : Cert.Gin.Ker.pool = Cert.Gin.Ref.pool := rfl

/-- The kernel's five stages are the reference's. -/
theorem hostFns_eq : Cert.Gin.Ker.H = Cert.Gin.Ref.H := by
  unfold Cert.Gin.Ker.H Cert.Gin.Ref.H
  rw [embed_eq, agg_eq, mean_eq, var_eq, pool_eq]

open Cert.Layers in
/-- The network of equal arguments is the same matrix. -/
theorem net_congr (H : HostFns) {x0 y0 : IArr ⟨1, ![100000]⟩} {x1 y1 : IArr ⟨2, ![2, 1600000]⟩} {x2 y2 : IArr ⟨1, ![100000]⟩} {x3 y3 : Mat 500 128} {x4 y4 : Mat 128 128} {x5 y5 : Row 128} {x6 y6 : Mat 128 128} {x7 y7 : Row 128} {x8 y8 : Mat 128 128} {x9 y9 : Row 128} {x10 y10 : Mat 128 128} {x11 y11 : Row 128} {x12 y12 : Row 128} {x13 y13 : Row 128} {x14 y14 : Mat 128 128} {x15 y15 : Row 128} {x16 y16 : Mat 128 128} {x17 y17 : Row 128} {x18 y18 : Row 128} {x19 y19 : Row 128} {x20 y20 : Mat 128 128} {x21 y21 : Row 128} {x22 y22 : Mat 128 128} {x23 y23 : Row 128} {x24 y24 : Row 128} {x25 y25 : Row 128} {x26 y26 : Mat 128 128} {x27 y27 : Row 128} {x28 y28 : Mat 128 10} {x29 y29 : Row 10}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) (h24 : x24 = y24) (h25 : x25 = y25) (h26 : x26 = y26) (h27 : x27 = y27) (h28 : x28 = y28) (h29 : x29 = y29) :
    net H x0 x1 x2 x3 x4 x5 x6 x7 x8 x9 x10 x11 x12 x13 x14 x15 x16 x17 x18 x19 x20 x21 x22 x23 x24 x25 x26 x27 x28 x29 = net H y0 y1 y2 y3 y4 y5 y6 y7 y8 y9 y10 y11 y12 y13 y14 y15 y16 y17 y18 y19 y20 y21 y22 y23 y24 y25 y26 y27 y28 y29 := by
  subst h0 h1 h2 h3 h4 h5 h6 h7 h8 h9 h10 h11 h12 h13 h14 h15 h16 h17 h18 h19 h20 h21 h22 h23 h24 h25 h26 h27 h28 h29
  rfl

end Cert.Gin

end
-- ==== Proof.lean ====
/-
  The certificate of a three-layer graph-isomorphism network with a pooled head.

  Both programs compute ONE function of the thirty arguments (Net: Cert.Gin.net): the embedding lookup, a two-layer
  perceptron, three times (the neighbour sum along the edges, the perceptron of h + agg, batch normalisation by the
  column mean and variance, the rectifier), the per-graph sum and a two-layer head. The kernel's program performs the
  perceptrons and the normalisations in eight tiled regions, ten blocks of ten thousand rows each (the head one block):
  every stage is row-local, so the blocks of a region's output are the blocks of the stage applied to the whole matrix
  (Region0 … Region7), and a product on the matrix unit into a zero accumulator, the operands first cast to a narrower
  float format (the identity on the extended reals), is the host's general product. The irregular stages between the
  regions are the same host operations in both programs and are never opened (Bridge). The only law of arithmetic
  used is that addition on the extended reals is commutative and associative; no entry need be finite, so the
  precondition is not used by the value claim.

  The three frames: the kernel's two programs by the generated frame certificates; the reference by its run as a
  straight line of 255 host operations (RefRun), none of which writes an argument (RefArgs); its result is the
  network by reading the line stage by stage (RefValue).
-/
import proofs.«132092_j14199161880830_1_alg».proof.Defs
import proofs.«132092_j14199161880830_1_alg».proof.Proof.Gen.Kernel
import proofs.«132092_j14199161880830_1_alg».proof.Proof.Gen.Kernel.Frame
import proofs.«132092_j14199161880830_1_alg».proof.Proof.Gen.KernelIdeal
import proofs.«132092_j14199161880830_1_alg».proof.Proof.Gen.KernelIdeal.Frame
import proofs.«132092_j14199161880830_1_alg».proof.Proof.Gen.ReferenceIdeal
import proofs.«132092_j14199161880830_1_alg».proof.Proof.Gen.Pre_finite_inputs
import proofs.«132092_j14199161880830_1_alg».proof.Proof.LibRunBoth
import proofs.«132092_j14199161880830_1_alg».proof.Proof.KRun
import proofs.«132092_j14199161880830_1_alg».proof.Proof.KResult
import proofs.«132092_j14199161880830_1_alg».proof.Proof.RefRun
import proofs.«132092_j14199161880830_1_alg».proof.Proof.RefArgs
import proofs.«132092_j14199161880830_1_alg».proof.Proof.RefValue
import proofs.«132092_j14199161880830_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs to the fold of its operations, and no operation writes an argument. -/
theorem frame_ri : Cert.frame_ReferenceIdeal := fun m ρ _ =>
  (θ_run Cert.ReferenceIdeal.defs _ _).mono (fun r h c => by
    have hk := Cert.Gin.Ref.args_kept (F := Ideal) (StableHlo.launchContents m c)
    exact ⟨(h c Cert.ReferenceIdeal.main_arg0).trans hk.1,
      (h c Cert.ReferenceIdeal.main_arg1).trans hk.2.1,
      (h c Cert.ReferenceIdeal.main_arg2).trans hk.2.2.1,
      (h c Cert.ReferenceIdeal.main_arg3).trans hk.2.2.2.1,
      (h c Cert.ReferenceIdeal.main_arg4).trans hk.2.2.2.2.1,
      (h c Cert.ReferenceIdeal.main_arg5).trans hk.2.2.2.2.2.1,
      (h c Cert.ReferenceIdeal.main_arg6).trans hk.2.2.2.2.2.2.1,
      (h c Cert.ReferenceIdeal.main_arg7).trans hk.2.2.2.2.2.2.2.1,
      (h c Cert.ReferenceIdeal.main_arg8).trans hk.2.2.2.2.2.2.2.2.1,
      (h c Cert.ReferenceIdeal.main_arg9).trans hk.2.2.2.2.2.2.2.2.2.1,
      (h c Cert.ReferenceIdeal.main_arg10).trans hk.2.2.2.2.2.2.2.2.2.2.1,
      (h c Cert.ReferenceIdeal.main_arg11).trans hk.2.2.2.2.2.2.2.2.2.2.2.1,
      (h c Cert.ReferenceIdeal.main_arg12).trans hk.2.2.2.2.2.2.2.2.2.2.2.2.1,
      (h c Cert.ReferenceIdeal.main_arg13).trans hk.2.2.2.2.2.2.2.2.2.2.2.2.2.1,
      (h c Cert.ReferenceIdeal.main_arg14).trans hk.2.2.2.2.2.2.2.2.2.2.2.2.2.2.1,
      (h c Cert.ReferenceIdeal.main_arg15).trans hk.2.2.2.2.2.2.2.2.2.2.2.2.2.2.2.1,
      (h c Cert.ReferenceIdeal.main_arg16).trans hk.2.2.2.2.2.2.2.2.2.2.2.2.2.2.2.2.1,
      (h c Cert.ReferenceIdeal.main_arg17).trans hk.2.2.2.2.2.2.2.2.2.2.2.2.2.2.2.2.2.1,
      (h c Cert.ReferenceIdeal.main_arg18).trans hk.2.2.2.2.2.2.2.2.2.2.2.2.2.2.2.2.2.2.1,
      (h c Cert.ReferenceIdeal.main_arg19).trans hk.2.2.2.2.2.2.2.2.2.2.2.2.2.2.2.2.2.2.2.1,
      (h c Cert.ReferenceIdeal.main_arg20).trans hk.2.2.2.2.2.2.2.2.2.2.2.2.2.2.2.2.2.2.2.2.1,
      (h c Cert.ReferenceIdeal.main_arg21).trans hk.2.2.2.2.2.2.2.2.2.2.2.2.2.2.2.2.2.2.2.2.2.1,
      (h c Cert.ReferenceIdeal.main_arg22).trans hk.2.2.2.2.2.2.2.2.2.2.2.2.2.2.2.2.2.2.2.2.2.2.1,
      (h c Cert.ReferenceIdeal.main_arg23).trans hk.2.2.2.2.2.2.2.2.2.2.2.2.2.2.2.2.2.2.2.2.2.2.2.1,
      (h c Cert.ReferenceIdeal.main_arg24).trans hk.2.2.2.2.2.2.2.2.2.2.2.2.2.2.2.2.2.2.2.2.2.2.2.2.1,
      (h c Cert.ReferenceIdeal.main_arg25).trans hk.2.2.2.2.2.2.2.2.2.2.2.2.2.2.2.2.2.2.2.2.2.2.2.2.2.1,
      (h c Cert.ReferenceIdeal.main_arg26).trans hk.2.2.2.2.2.2.2.2.2.2.2.2.2.2.2.2.2.2.2.2.2.2.2.2.2.2.1,
      (h c Cert.ReferenceIdeal.main_arg27).trans hk.2.2.2.2.2.2.2.2.2.2.2.2.2.2.2.2.2.2.2.2.2.2.2.2.2.2.2.1,
      (h c Cert.ReferenceIdeal.main_arg28).trans hk.2.2.2.2.2.2.2.2.2.2.2.2.2.2.2.2.2.2.2.2.2.2.2.2.2.2.2.2.1,
      (h c Cert.ReferenceIdeal.main_arg29).trans hk.2.2.2.2.2.2.2.2.2.2.2.2.2.2.2.2.2.2.2.2.2.2.2.2.2.2.2.2.2⟩)
    (Cert.Gin.Ref.runAll (F := Ideal) m ρ)

theorem preserves : Cert.preserves_Kernel_KernelIdeal := trivial

/-- Both programs end with the network of the arguments in the result buffer. -/
theorem algebraic : Cert.algebraic_KernelIdeal_ReferenceIdeal := by
  intro m ρ m' ρ' _ hagree
  refine ⟨fun c => Cert.Gin.net Cert.Gin.Ker.H
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25))
      (m ((c.tc : Thread Cert.KernelIdeal.nD Cert.KernelIdeal.τ).loc Cert.KernelIdeal.main_arg26))
      (m ((c.tc : Thread Cert.KernelIdeal.nD Cert.KernelIdeal.τ).loc Cert.KernelIdeal.main_arg27))
      (m ((c.tc : Thread Cert.KernelIdeal.nD Cert.KernelIdeal.τ).loc Cert.KernelIdeal.main_arg28))
      (m ((c.tc : Thread Cert.KernelIdeal.nD Cert.KernelIdeal.τ).loc Cert.KernelIdeal.main_arg29)), ?_, ?_⟩
  · exact (θ_run Cert.KernelIdeal.defs _ _).mono
      (fun r h c => ⟨(h.1 c).trans (Cert.Gin.Ker.result m ρ c), h.2 c⟩)
      (Cert.LibRunBoth.run_both _ _ _ (Cert.Gin.Ker.run_result (F := Ideal) m ρ) (Cert.KernelIdeal.Gen.frame (F := Ideal) m ρ))
  · refine (θ_run Cert.ReferenceIdeal.defs _ _).mono (fun r h c => ?_) (Cert.Gin.Ref.runAll (F := Ideal) m' ρ')
    have hk := Cert.Gin.Ref.args_kept (F := Ideal) (StableHlo.launchContents m' c)
    obtain ⟨a0, a1, a2, a3, a4, a5, a6, a7, a8, a9, a10, a11, a12, a13, a14, a15, a16, a17, a18, a19, a20, a21, a22, a23, a24, a25, a26, a27, a28, a29⟩ := hagree c
    refine ⟨?_, (h c Cert.ReferenceIdeal.main_arg0).trans hk.1,
      (h c Cert.ReferenceIdeal.main_arg1).trans hk.2.1,
      (h c Cert.ReferenceIdeal.main_arg2).trans hk.2.2.1,
      (h c Cert.ReferenceIdeal.main_arg3).trans hk.2.2.2.1,
      (h c Cert.ReferenceIdeal.main_arg4).trans hk.2.2.2.2.1,
      (h c Cert.ReferenceIdeal.main_arg5).trans hk.2.2.2.2.2.1,
      (h c Cert.ReferenceIdeal.main_arg6).trans hk.2.2.2.2.2.2.1,
      (h c Cert.ReferenceIdeal.main_arg7).trans hk.2.2.2.2.2.2.2.1,
      (h c Cert.ReferenceIdeal.main_arg8).trans hk.2.2.2.2.2.2.2.2.1,
      (h c Cert.ReferenceIdeal.main_arg9).trans hk.2.2.2.2.2.2.2.2.2.1,
      (h c Cert.ReferenceIdeal.main_arg10).trans hk.2.2.2.2.2.2.2.2.2.2.1,
      (h c Cert.ReferenceIdeal.main_arg11).trans hk.2.2.2.2.2.2.2.2.2.2.2.1,
      (h c Cert.ReferenceIdeal.main_arg12).trans hk.2.2.2.2.2.2.2.2.2.2.2.2.1,
      (h c Cert.ReferenceIdeal.main_arg13).trans hk.2.2.2.2.2.2.2.2.2.2.2.2.2.1,
      (h c Cert.ReferenceIdeal.main_arg14).trans hk.2.2.2.2.2.2.2.2.2.2.2.2.2.2.1,
      (h c Cert.ReferenceIdeal.main_arg15).trans hk.2.2.2.2.2.2.2.2.2.2.2.2.2.2.2.1,
      (h c Cert.ReferenceIdeal.main_arg16).trans hk.2.2.2.2.2.2.2.2.2.2.2.2.2.2.2.2.1,
      (h c Cert.ReferenceIdeal.main_arg17).trans hk.2.2.2.2.2.2.2.2.2.2.2.2.2.2.2.2.2.1,
      (h c Cert.ReferenceIdeal.main_arg18).trans hk.2.2.2.2.2.2.2.2.2.2.2.2.2.2.2.2.2.2.1,
      (h c Cert.ReferenceIdeal.main_arg19).trans hk.2.2.2.2.2.2.2.2.2.2.2.2.2.2.2.2.2.2.2.1,
      (h c Cert.ReferenceIdeal.main_arg20).trans hk.2.2.2.2.2.2.2.2.2.2.2.2.2.2.2.2.2.2.2.2.1,
      (h c Cert.ReferenceIdeal.main_arg21).trans hk.2.2.2.2.2.2.2.2.2.2.2.2.2.2.2.2.2.2.2.2.2.1,
      (h c Cert.ReferenceIdeal.main_arg22).trans hk.2.2.2.2.2.2.2.2.2.2.2.2.2.2.2.2.2.2.2.2.2.2.1,
      (h c Cert.ReferenceIdeal.main_arg23).trans hk.2.2.2.2.2.2.2.2.2.2.2.2.2.2.2.2.2.2.2.2.2.2.2.1,
      (h c Cert.ReferenceIdeal.main_arg24).trans hk.2.2.2.2.2.2.2.2.2.2.2.2.2.2.2.2.2.2.2.2.2.2.2.2.1,
      (h c Cert.ReferenceIdeal.main_arg25).trans hk.2.2.2.2.2.2.2.2.2.2.2.2.2.2.2.2.2.2.2.2.2.2.2.2.2.1,
      (h c Cert.ReferenceIdeal.main_arg26).trans hk.2.2.2.2.2.2.2.2.2.2.2.2.2.2.2.2.2.2.2.2.2.2.2.2.2.2.1,
      (h c Cert.ReferenceIdeal.main_arg27).trans hk.2.2.2.2.2.2.2.2.2.2.2.2.2.2.2.2.2.2.2.2.2.2.2.2.2.2.2.1,
      (h c Cert.ReferenceIdeal.main_arg28).trans hk.2.2.2.2.2.2.2.2.2.2.2.2.2.2.2.2.2.2.2.2.2.2.2.2.2.2.2.2.1,
      (h c Cert.ReferenceIdeal.main_arg29).trans hk.2.2.2.2.2.2.2.2.2.2.2.2.2.2.2.2.2.2.2.2.2.2.2.2.2.2.2.2.2⟩
    rw [h c Cert.ReferenceIdeal.main_v151, Cert.Gin.Ref.value (StableHlo.launchContents m' c), Cert.Gin.hostFns_eq]
    exact Cert.Gin.net_congr Cert.Gin.Ref.H a0 a1 a2 a3 a4 a5 a6 a7 a8 a9 a10 a11 a12 a13 a14 a15 a16 a17 a18 a19 a20 a21 a22 a23 a24 a25 a26 a27 a28 a29

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
